-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S512x256 .f32) (main_arg8 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S8192x8192 .f32) (main_arg5 : FVec F S512x512 .f32) (main_arg6 : FVec F S512 .f32) (main_arg7 : FVec F S512x256 .f32) (main_arg8 : FVec F S256 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x512 .f32) (main_arg2 : FVec F S8192x8192 .f32) (main_arg3 : FVec F S8192x8192 .f32) (main_arg4 : FVec F S8192x8192 .f32) (main_arg5 : FVec F S512x512 .f32) (main_arg6 : FVec F S512 .f32) (main_arg7 : FVec F S512x256 .f32) (main_arg8 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1024x512 : Shape := ⟨2, ![1024, 512]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S512x1024 : Shape := ⟨2, ![512, 1024]⟩
abbrev S1x512 : Shape := ⟨2, ![1, 512]⟩
abbrev S8192x256 : Shape := ⟨2, ![8192, 256]⟩
abbrev S1024x256 : Shape := ⟨2, ![1024, 256]⟩
abbrev S1x256 : Shape := ⟨2, ![1, 256]⟩

abbrev nBuf : Space → Nat
  | .hbm => 35
  | .vmem => 72
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S8192x512, .bf16⟩
  | .hbm, ⟨10, _⟩ => ⟨S8192x512, .bf16⟩
  | .hbm, ⟨11, _⟩ => ⟨S8192x1024, .bf16⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x256, .bf16⟩
  | .hbm, ⟨22, _⟩ => ⟨S8192x256, .bf16⟩
  | .hbm, ⟨23, _⟩ => ⟨S8192x512, .bf16⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x256, .f32⟩
  | .hbm, ⟨28, _⟩ => ⟨S8192x256, .f32⟩
  | .hbm, ⟨29, _⟩ => ⟨S8192x256, .bf16⟩
  | .hbm, ⟨30, _⟩ => ⟨S1x256, .f32⟩
  | .hbm, ⟨31, _⟩ => ⟨S8192x256, .f32⟩
  | .hbm, ⟨32, _⟩ => ⟨S8192x256, .bf16⟩
  | .hbm, ⟨33, _⟩ => ⟨S1x256, .f32⟩
  | .hbm, ⟨34, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S8192x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S8192x512, .bf16⟩
  | .local _ .vmem, ⟨20, _⟩ => ⟨S1x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x1024, .f32⟩
  | .local _ .vmem, ⟨25, _⟩ => ⟨S1024x1024, .f32⟩
  | .local _ .vmem, ⟨26, _⟩ => ⟨S8192x512, .bf16⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S512x256, .f32⟩
  | .local _ .vmem, ⟨34, _⟩ => ⟨S1024x256, .bf16⟩
  | .local _ .vmem, ⟨35, _⟩ => ⟨S1024x256, .bf16⟩
  | .local _ .vmem, ⟨36, _⟩ => ⟨S1024x512, .f32⟩
  | .local _ .vmem, ⟨37, _⟩ => ⟨S1024x512, .f32⟩
  | .local _ .vmem, ⟨38, _⟩ => ⟨S512x256, .f32⟩
  | .local _ .vmem, ⟨39, _⟩ => ⟨S1024x256, .bf16⟩
  | .local _ .vmem, ⟨40, _⟩ => ⟨S1024x256, .bf16⟩
  | .local _ .vmem, ⟨41, _⟩ => ⟨S1024x1024, .f32⟩
  | .local _ .vmem, ⟨42, _⟩ => ⟨S1024x1024, .f32⟩
  | .local _ .vmem, ⟨43, _⟩ => ⟨S8192x512, .bf16⟩
  | .local _ .vmem, ⟨44, _⟩ => ⟨S1x512, .f32⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | .local _ .vmem, ⟨48, _⟩ => ⟨S1024x512, .f32⟩
  | .local _ .vmem, ⟨49, _⟩ => ⟨S1024x512, .f32⟩
  | .local _ .vmem, ⟨50, _⟩ => ⟨S512x256, .f32⟩
  | .local _ .vmem, ⟨51, _⟩ => ⟨S1024x256, .bf16⟩
  | .local _ .vmem, ⟨52, _⟩ => ⟨S1024x256, .bf16⟩
  | .local _ .vmem, ⟨53, _⟩ => ⟨S1024x1024, .f32⟩
  | .local _ .vmem, ⟨54, _⟩ => ⟨S1024x1024, .f32⟩
  | .local _ .vmem, ⟨55, _⟩ => ⟨S8192x256, .bf16⟩
  | .local _ .vmem, ⟨56, _⟩ => ⟨S1x256, .f32⟩
  | .local _ .vmem, ⟨57, _⟩ => ⟨S1024x256, .f32⟩
  | .local _ .vmem, ⟨58, _⟩ => ⟨S1024x256, .f32⟩
  | .local _ .vmem, ⟨59, _⟩ => ⟨S1024x256, .f32⟩
  | .local _ .vmem, ⟨60, _⟩ => ⟨S1024x512, .f32⟩
  | .local _ .vmem, ⟨61, _⟩ => ⟨S1024x512, .f32⟩
  | .local _ .vmem, ⟨62, _⟩ => ⟨S512x256, .f32⟩
  | .local _ .vmem, ⟨63, _⟩ => ⟨S1024x256, .bf16⟩
  | .local _ .vmem, ⟨64, _⟩ => ⟨S1024x256, .bf16⟩
  | .local _ .vmem, ⟨65, _⟩ => ⟨S1024x1024, .f32⟩
  | .local _ .vmem, ⟨66, _⟩ => ⟨S1024x1024, .f32⟩
  | .local _ .vmem, ⟨67, _⟩ => ⟨S8192x256, .bf16⟩
  | .local _ .vmem, ⟨68, _⟩ => ⟨S1x256, .f32⟩
  | .local _ .vmem, ⟨69, _⟩ => ⟨S1024x256, .f32⟩
  | .local _ .vmem, ⟨70, _⟩ => ⟨S1024x256, .f32⟩
  | .local _ .vmem, ⟨71, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg3_1 : Ref sig .tc := ⟨.vmem, 46, rfl⟩
abbrev cc7_scratch0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg3_1 : Ref sig .tc := ⟨.vmem, 58, rfl⟩
abbrev cc9_scratch0 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg2_1 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg2_0 : Ref sig .tc := ⟨.vmem, 68, rfl⟩
abbrev cc11_stg3_0 : Ref sig .tc := ⟨.vmem, 69, rfl⟩
abbrev cc11_stg3_1 : Ref sig .tc := ⟨.vmem, 70, rfl⟩
abbrev cc11_scratch0 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem3_0 : DmaSem sig := 53
abbrev cc9_sem3_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem3_1 : DmaSem sig := 65

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 16], ![false, false]⟩

def k2_mult1 (i : grid2.Coords) : BitVec 32 :=
  let arg1 : BitVec 32 := BitVec.ofNat 32 (i 1).val
  let c512_i32 : BitVec 32 := 512#32
  let v5 : BitVec 32 := Scalar.muli arg1 c512_i32
  v5
def k2_off1 (i : grid2.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 8], ![false, false]⟩

def k3_mult1 (i : grid3.Coords) : BitVec 32 :=
  let arg1 : BitVec 32 := BitVec.ofNat 32 (i 1).val
  let c1024_i32 : BitVec 32 := 1024#32
  let v5 : BitVec 32 := Scalar.muli arg1 c1024_i32
  v5
def k3_off1 (i : grid3.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k3_cond2 (i : grid3.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 8], ![false, false]⟩

def k4_mult1 (i : grid4.Coords) : BitVec 32 :=
  let arg1 : BitVec 32 := BitVec.ofNat 32 (i 1).val
  let c1024_i32 : BitVec 32 := 1024#32
  let v5 : BitVec 32 := Scalar.muli arg1 c1024_i32
  v5
def k4_off1 (i : grid4.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k4_cond2 (i : grid4.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1024x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 8], ![false, false]⟩

def k7_mult1 (i : grid7.Coords) : BitVec 32 :=
  let arg1 : BitVec 32 := BitVec.ofNat 32 (i 1).val
  let c1024_i32 : BitVec 32 := 1024#32
  let v5 : BitVec 32 := Scalar.muli arg1 c1024_i32
  v5
def k7_off1 (i : grid7.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k7_cond2 (i : grid7.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S8192x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![8, 8], ![false, false]⟩

def k9_mult1 (i : grid9.Coords) : BitVec 32 :=
  let arg1 : BitVec 32 := BitVec.ofNat 32 (i 1).val
  let c1024_i32 : BitVec 32 := 1024#32
  let v5 : BitVec 32 := Scalar.muli arg1 c1024_i32
  v5
def k9_off1 (i : grid9.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k9_cond2 (i : grid9.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S8192x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1024x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1024x256 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![8, 8], ![false, false]⟩

def k11_mult1 (i : grid11.Coords) : BitVec 32 :=
  let arg1 : BitVec 32 := BitVec.ofNat 32 (i 1).val
  let c1024_i32 : BitVec 32 := 1024#32
  let v5 : BitVec 32 := Scalar.muli arg1 c1024_i32
  v5
def k11_off1 (i : grid11.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k11_cond2 (i : grid11.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S8192x256 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S1024x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1024x512_S1024x512_0_0 : (Rect.unit (s := S1024x512) ![0, 0] S1024x512.size inb_S1024x512_S1024x512_0_0).PackedRows (EltTy.packing .bf16)
  concatenates_S8192x512_S8192x512_S8192x1024_d1 : Shape.Concatenates [S8192x512, S8192x512] S8192x1024 1
  concatenates_S512_S512_S1024_d0 : Shape.Concatenates [S512, S512] S1024 0
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x1024_S8192x512_0_0 : S8192x1024.Slices ![0, 0] S8192x512
  slices_S8192x1024_S8192x512_0_512 : S8192x1024.Slices ![0, 512] S8192x512
  shapeCasts_S512_S1x512 : S512.ShapeCasts S1x512
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  concatenates_S8192x256_S8192x256_S8192x512_d1 : Shape.Concatenates [S8192x256, S8192x256] S8192x512 1
  concatenates_S256_S256_S512_d0 : Shape.Concatenates [S256, S256] S512 0
  slices_S8192x512_S8192x256_0_0 : S8192x512.Slices ![0, 0] S8192x256
  slices_S8192x512_S8192x256_0_256 : S8192x512.Slices ![0, 256] S8192x256
  shapeCasts_S256_S1x256 : S256.ShapeCasts S1x256
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .bf16 = 32 ∨ (Rect.block (s := S8192x512) S1024x512.size (cc1_transform_2 i) (hinb1_2 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S512x1024.size a ≤ S8192x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .f32 = 32 ∨ (Rect.block (s := S8192x8192) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x1024.size a ≤ S8192x1024.size a
  hwx2_1 : ∀ i : grid2.Coords, EltTy.bits .bf16 = 32 ∨ (Rect.block (s := S8192x1024) S8192x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x512.size a ≤ S8192x512.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x512.size a ≤ S8192x512.size a
  hwx3_1 : ∀ i : grid3.Coords, EltTy.bits .bf16 = 32 ∨ (Rect.block (s := S8192x512) S8192x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .f32 = 32 ∨ (Rect.block (s := S8192x512) S1024x512.size (cc3_transform_3 i) (hinb3_3 i)).WholeWords (EltTy.packing .f32)
  hrank4 : 0 < grid4.rank
  k4_mult1_dvd : ∀ i : grid4.Coords, 1024 ∣ (k4_mult1 i).toNat
  k4_off1_inb : ∀ i : grid4.Coords, ∀ a, (k4_off1 i) a + S1024x512.size a ≤ S8192x512.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .f32 = 32 ∨ (Rect.block (s := S8192x8192) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x512.size a ≤ S8192x512.size a
  hwx4_1 : ∀ i : grid4.Coords, EltTy.bits .bf16 = 32 ∨ (Rect.block (s := S8192x512) S8192x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S8192x512.size a
  hwx4_3 : ∀ i : grid4.Coords, EltTy.bits .f32 = 32 ∨ (Rect.block (s := S8192x512) S1024x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S8192x512.size a
  hwx5_0 : ∀ i : grid5.Coords, EltTy.bits .f32 = 32 ∨ (Rect.block (s := S8192x512) S1024x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .f32 = 32 ∨ (Rect.block (s := S512x256) S512x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S8192x256.size a
  hwx5_2 : ∀ i : grid5.Coords, EltTy.bits .bf16 = 32 ∨ (Rect.block (s := S8192x256) S1024x256.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S8192x512.size a
  hwx6_0 : ∀ i : grid6.Coords, EltTy.bits .f32 = 32 ∨ (Rect.block (s := S8192x512) S1024x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x256.size a ≤ S8192x256.size a
  hwx6_2 : ∀ i : grid6.Coords, EltTy.bits .bf16 = 32 ∨ (Rect.block (s := S8192x256) S1024x256.size (cc6_transform_2 i) (hinb6_2 i)).WholeWords (EltTy.packing .bf16)
  hrank7 : 0 < grid7.rank
  k7_mult1_dvd : ∀ i : grid7.Coords, 1024 ∣ (k7_mult1 i).toNat
  k7_off1_inb : ∀ i : grid7.Coords, ∀ a, (k7_off1 i) a + S1024x512.size a ≤ S8192x512.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S8192x8192.size a
  hwx7_0 : ∀ i : grid7.Coords, EltTy.bits .f32 = 32 ∨ (Rect.block (s := S8192x8192) S1024x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8192x512.size a ≤ S8192x512.size a
  hwx7_1 : ∀ i : grid7.Coords, EltTy.bits .bf16 = 32 ∨ (Rect.block (s := S8192x512) S8192x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S8192x512.size a
  hwx7_3 : ∀ i : grid7.Coords, EltTy.bits .f32 = 32 ∨ (Rect.block (s := S8192x512) S1024x512.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S8192x512.size a
  hwx8_0 : ∀ i : grid8.Coords, EltTy.bits .f32 = 32 ∨ (Rect.block (s := S8192x512) S1024x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x256.size a ≤ S8192x256.size a
  hwx8_2 : ∀ i : grid8.Coords, EltTy.bits .bf16 = 32 ∨ (Rect.block (s := S8192x256) S1024x256.size (cc8_transform_2 i) (hinb8_2 i)).WholeWords (EltTy.packing .bf16)
  hrank9 : 0 < grid9.rank
  k9_mult1_dvd : ∀ i : grid9.Coords, 1024 ∣ (k9_mult1 i).toNat
  k9_off1_inb : ∀ i : grid9.Coords, ∀ a, (k9_off1 i) a + S1024x256.size a ≤ S8192x256.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x1024.size a ≤ S8192x8192.size a
  hwx9_0 : ∀ i : grid9.Coords, EltTy.bits .f32 = 32 ∨ (Rect.block (s := S8192x8192) S1024x1024.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S8192x256.size a ≤ S8192x256.size a
  hwx9_1 : ∀ i : grid9.Coords, EltTy.bits .bf16 = 32 ∨ (Rect.block (s := S8192x256) S8192x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x256.size a ≤ S8192x256.size a
  hwx9_3 : ∀ i : grid9.Coords, EltTy.bits .f32 = 32 ∨ (Rect.block (s := S8192x256) S1024x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S8192x512.size a
  hwx10_0 : ∀ i : grid10.Coords, EltTy.bits .f32 = 32 ∨ (Rect.block (s := S8192x512) S1024x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x256.size a ≤ S512x256.size a
  hwx10_1 : ∀ i : grid10.Coords, EltTy.bits .f32 = 32 ∨ (Rect.block (s := S512x256) S512x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x256.size a ≤ S8192x256.size a
  hwx10_2 : ∀ i : grid10.Coords, EltTy.bits .bf16 = 32 ∨ (Rect.block (s := S8192x256) S1024x256.size (cc10_transform_2 i) (hinb10_2 i)).WholeWords (EltTy.packing .bf16)
  hrank11 : 0 < grid11.rank
  k11_mult1_dvd : ∀ i : grid11.Coords, 1024 ∣ (k11_mult1 i).toNat
  k11_off1_inb : ∀ i : grid11.Coords, ∀ a, (k11_off1 i) a + S1024x256.size a ≤ S8192x256.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1024.size a ≤ S8192x8192.size a
  hwx11_0 : ∀ i : grid11.Coords, EltTy.bits .f32 = 32 ∨ (Rect.block (s := S8192x8192) S1024x1024.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S8192x256.size a ≤ S8192x256.size a
  hwx11_1 : ∀ i : grid11.Coords, EltTy.bits .bf16 = 32 ∨ (Rect.block (s := S8192x256) S8192x256.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x256.size a ≤ S8192x256.size a
  hwx11_3 : ∀ i : grid11.Coords, EltTy.bits .f32 = 32 ∨ (Rect.block (s := S8192x256) S1024x256.size (cc11_transform_3 i) (hinb11_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg3) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S8192x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg4) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S8192x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v6) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v12) S1024x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v7) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v13) S1024x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg2) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S8192x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v16) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v17) S1024x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v9) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S512x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v20) S1024x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_arg3) S1024x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v20) S8192x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v21) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v22) S1024x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v11) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S512x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v23) S1024x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_arg4) S1024x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v23) S8192x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v24) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v25) S1024x256.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S_ : Shape := ⟨0, ![]⟩
abbrev S8192x256 : Shape := ⟨2, ![8192, 256]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x256, .f32⟩
  | .hbm, ⟨44, _⟩ => ⟨S8192x256, .f32⟩
  | .hbm, ⟨45, _⟩ => ⟨S1x256, .f32⟩
  | .hbm, ⟨46, _⟩ => ⟨S8192x256, .f32⟩
  | .hbm, ⟨47, _⟩ => ⟨S8192x256, .f32⟩
  | .hbm, ⟨48, _⟩ => ⟨S8192x512, .f32⟩
  | .hbm, ⟨49, _⟩ => ⟨S8192x512, .f32⟩
  | .hbm, ⟨50, _⟩ => ⟨S1x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x256, .f32⟩
  | .hbm, ⟨57, _⟩ => ⟨S8192x256, .f32⟩
  | .hbm, ⟨58, _⟩ => ⟨S1x256, .f32⟩
  | .hbm, ⟨59, _⟩ => ⟨S8192x256, .f32⟩
  | .hbm, ⟨60, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call2_cst : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call3_cst : Ref sig .tc := ⟨.hbm, 53, rfl⟩
abbrev main_call3_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KDense0.lean ====
/-
  Region 0 of the main function: a dense product x · W on a grid of 8 row blocks.

  At each point the body loads the 1024-row block of x, loads the whole of W, and stores one payload — the rounded
  product of the rounded operands — over the whole 1024-row output block.  So what the body leaves in the output
  window's buffer is a closed function of the two input blocks (`out0_2`), the input buffers are left as found, and
  the body obligation of the pipeline holds at every point, for any number format.
-/
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point (it is fetched at every point), for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole of W, fetched at the first point only) holds its block at every point, fetched there or
    not: where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1024x512 := Rect.unit (s := S1024x512) ![0, 0] S1024x512.size inb_S1024x512_S1024x512_0_0

/-! ## What the body leaves in the output window's buffer -/

/-- Window 2's buffer after the body, from the input windows' blocks: its one store, of the whole block. -/
def out0_2 (x0 : Vec F S1024x512 .f32) (x1 : Vec F S512x512 .f32) : Vec F S1024x512 .bf16 :=
  View.canon [⟨r0_2, k0_pay1 (View.ld x0 r0_0) (View.ld x1 r0_1)⟩]

/-- The store is of the whole block, so it covers it. -/
theorem cover0_2 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-! ## The body's triple -/

set_option maxHeartbeats 1000000 in
/-- The kernel body on whole memrefs, the inputs' at read contents `x0`, `x1` and the output's at anything, runs to the
    continuation holding the inputs' as they were and the output's at `out0_2` of the inputs'. -/
theorem sound_kernel0 (c : Dev nD) (E : Set ℕ) (i : grid0.Coords) (arg1 : Memref sig .tc .vmem S1024x512 .f32) (harg1 : arg1.IsWhole)
    (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KDense1.lean ====
/-
  Region 1 of the main function: a dense product x · W on a grid of 8 row blocks.

  At each point the body loads the 1024-row block of x, loads the whole of W, and stores one payload — the rounded
  product of the rounded operands — over the whole 1024-row output block.  So what the body leaves in the output
  window's buffer is a closed function of the two input blocks (`out1_2`), the input buffers are left as found, and
  the body obligation of the pipeline holds at every point, for any number format.
-/
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point (it is fetched at every point), for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole of W, fetched at the first point only) holds its block at every point, fetched there or
    not: where it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0
abbrev r1_2 : Rect S1024x512 := Rect.unit (s := S1024x512) ![0, 0] S1024x512.size inb_S1024x512_S1024x512_0_0

/-! ## What the body leaves in the output window's buffer -/

/-- Window 2's buffer after the body, from the input windows' blocks: its one store, of the whole block. -/
def out1_2 (x0 : Vec F S1024x512 .f32) (x1 : Vec F S512x512 .f32) : Vec F S1024x512 .bf16 :=
  View.canon [⟨r1_2, k1_pay1 (View.ld x0 r1_0) (View.ld x1 r1_1)⟩]

/-- The store is of the whole block, so it covers it. -/
theorem cover1_2 (p0 : Vec F S1024x512 .bf16) (y : S1024x512.Idx) :
    ∃ pc ∈ ([⟨r1_2, p0⟩] : List (View.Piece (Elt F) S1024x512 .bf16)), y ∈ pc.1.set :=
  View.cover_of_tiled [⟨r1_2, p0⟩] S1024x512.size (by rfl) y

/-! ## The body's triple -/

set_option maxHeartbeats 1000000 in
/-- The kernel body on whole memrefs, the inputs' at read contents `x0`, `x1` and the output's at anything, runs to the
    continuation holding the inputs' as they were and the output's at `out1_2` of the inputs'. -/
theorem sound_kernel1 (c : Dev nD) (E : Set ℕ) (i : grid1.Coords) (arg1 : Memref sig .tc .vmem S1024x512 .f32) (harg1 : arg1.IsWhole)
    (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the body at
    point `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.KGcn3Runs.lean ====
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 3: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the reduction coordinate is 0: the accumulator is zeroed), from
    the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8) — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second conditional (the reduction coordinate is the last: the accumulator is
    finalized into the output block), from the grid coordinates. -/
abbrev cond3_1 (i : grid3.Coords) : Prop := k3_cond2 i = 1#1
/-- It holds at the points ≡ 7 (mod 8) — decided over the grid. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- Windows 0, 1, 2 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the points of case A the output window 3 is idle: the case stores nothing into it. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B the output window 3 is idle: the case stores nothing into it. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C the output window 3 is live: the case stores into it. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of output window 3, through which its contents are stated (the choice does not matter). -/
abbrev VO3_3 : View sig .tc .vmem S1024x512 .f32 := (Memref.whole cc3_stg3_0 : Memref sig .tc .vmem S1024x512 .f32).view
/-- Each window's current staging memref at point `t`, spelled as the pipeline passes it, and its wholeness. -/
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .f32 := win3_3.stage (cfg3.slots t 3)
abbrev hs3_3 (t : Fin cfg3.N) : (ms3_3 t).IsWhole := hstage3_3 ((cfg3.slots t 3).cast nbuf3_3)
/-- The scratch operand: a whole scoped buffer of the kernel's own, the accumulator, passed beside the windows. -/
abbrev scM3_0 : Memref sig .tc .vmem S1024x512 .f32 := Memref.whole cc3_scratch0
/-- The accumulator as a view: what it holds is stated through it. -/
abbrev VS3_0 : View sig .tc .vmem S1024x512 .f32 := scM3_0.view

/-- The region's invariant as the launch hands it over, with the accumulator as a memref owned at some contents and
    the other scoped buffers unopened. -/
theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

end Cert.Kernel.Gen

end
-- ==== Proof.KGcn3RunA.lean ====
import proofs.«166906_j60567628808244_2_alg».proof.Proof.KGcn3Runs

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun3_A (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_matmul_kernel i arg2 harg2 arg3 harg3 arg4 harg4 arg5 harg5 arg6 harg6) K } := by
  refine ⟨[], ?_, fun xi3 E K => ?run⟩
  case run =>
    simp only [cc3__gcn_matmul_kernel_eq_skeleton]; unfold cc3__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn3RunB.lean ====
import proofs.«166906_j60567628808244_2_alg».proof.Proof.KGcn3RunA

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun3_B (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_matmul_kernel i arg2 harg2 arg3 harg3 arg4 harg4 arg5 harg5 arg6 harg6) K } := by
  refine ⟨[], ?_, fun xi3 E K => ?run⟩
  case run =>
    simp only [cc3__gcn_matmul_kernel_eq_skeleton]; unfold cc3__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn3RunC.lean ====
import proofs.«166906_j60567628808244_2_alg».proof.Proof.KGcn3RunB

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun3_C (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_matmul_kernel i arg2 harg2 arg3 harg3 arg4 harg4 arg5 harg5 arg6 harg6) K } := by
  refine ⟨?_, ?_, fun E K => ?run⟩
  case run =>
    simp only [cc3__gcn_matmul_kernel_eq_skeleton]; unfold cc3__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KGcn3Frame.lean ====
import proofs.«166906_j60567628808244_2_alg».proof.Proof.KGcn3RunC

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 3: what the output block and the accumulator hold point by point, the proof data, the body obligation -/

/-- Case A stores nothing into the output block (the window is idle at its points and not written back there): no
    pieces — a placeholder (junk read back) that nothing consults. -/
def out3_A_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) : Vec F S1024x512 .f32 :=
  VO3_3.read (Elt F) (VO3_3.writes (Elt F) VO3_3.junk (kernelRun3_A c i arg2 harg2 arg3 harg3 arg4 harg4 arg5 harg5 arg6 harg6 hc0 hc1 x0 x1 x2).1)

/-- Case A's pieces for the accumulator, which the kernel carries between points, cover it (whole-buffer stores). -/
theorem scover3_A_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) (y : S1024x512.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x512.size (by sl_kernel_rfl) y

/-- What case A leaves in the accumulator: its pieces read back over junk. -/
def sout3_A_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) : Vec F S1024x512 .f32 :=
  VS3_0.read (Elt F) (VS3_0.writes (Elt F) VS3_0.junk (kernelRun3_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out3_B_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) : Vec F S1024x512 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case B's pieces for the accumulator, which the kernel carries between points, cover it (whole-buffer stores). -/
theorem scover3_B_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) (y : S1024x512.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x512.size (by sl_kernel_rfl) y

/-- What case B leaves in the accumulator: its pieces read back over junk. -/
def sout3_B_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) : Vec F S1024x512 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case C's pieces for the output block tile it (one store of the whole block), so they cover it. -/
theorem cover3_C_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x512.size (by sl_kernel_rfl) y

/-- What case C leaves in the output's staging buffer: its pieces read back over junk. -/
def out3_C_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) : Vec F S1024x512 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's pieces for the accumulator, which the kernel carries between points, cover it (whole-buffer stores). -/
theorem scover3_C_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x512.size (by sl_kernel_rfl) y

/-- What case C leaves in the accumulator: its pieces read back over junk. -/
def sout3_C_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) : Vec F S1024x512 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt3 (c : Dev nD) : (n : ℕ) → n < cfg3.N → Vec F S1024x512 .f32 × Vec F S1024x512 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by have hN : n + 1 < 64 := lt_of_lt_of_eq hn (show cfg3.N = 64 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut spec3 c [cc3_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt3`'s first component; the invariant
    `PhiS3`; nothing owed; full shares. -/
def dats3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dats3 V c).A w = V c (Pipeline.arrRef spec3 w) := by
  dsimp only [dats3]

/-- The invariant at a point's start, restated at `t.val`. -/
theorem PhiS3_castSucc (c : Dev nD) (t : Fin cfg3.N) :
    (dats3 V c).Φ t.castSucc = PhiS3 V c t.val (Nat.le_of_lt t.isLt) := by
  dsimp only [dats3]; simp only [Fin.coe_castSucc]

/-- What the body leaves, window by window. -/
theorem after3_0 (c : Dev nD) (t : Fin cfg3.N) : (dats3 V c).after 0 t = iblk3 V c 0 t := by dsimp only [dats3]
theorem after3_1 (c : Dev nD) (t : Fin cfg3.N) : (dats3 V c).after 1 t = iblk3 V c 1 t := by dsimp only [dats3]
theorem after3_2 (c : Dev nD) (t : Fin cfg3.N) : (dats3 V c).after 2 t = iblk3 V c 2 t := by dsimp only [dats3]
theorem after3_3 (c : Dev nD) (t : Fin cfg3.N) : (dats3 V c).after 3 t = (outsAt3 V c t.val t.isLt).1 := by dsimp only [dats3]

/-- Each input's current staging buffer holds its block at every point, fetched there or not. -/
theorem before3_0 (c : Dev nD) (t : Fin cfg3.N) (d) : (dats3 V c).before 0 t d = iblk3 V c 0 t :=
  before3_0_of V (dats3 V c) (A_eq3 V c 0) (after3_0 V c) t d
theorem before3_1 (c : Dev nD) (t : Fin cfg3.N) (d) : (dats3 V c).before 1 t d = iblk3 V c 1 t :=
  before3_1_of V (dats3 V c) (A_eq3 V c 1) (after3_1 V c) t d
theorem before3_2 (c : Dev nD) (t : Fin cfg3.N) (d) : (dats3 V c).before 2 t d = iblk3 V c 2 t :=
  before3_2_of V (dats3 V c) (A_eq3 V c 2) (after3_2 V c) t d

/-! ## The body obligation, at a generic point -/

/-- What the body is called with at point `t` (the windows one by one), -/
def bodyPre3 (c : Dev nD) (t : Fin cfg3.N) : sProp 𝕄 :=
  iprop((dats3 V c).Φ t.castSucc ∗ (dats3 V c).owesAt () t.castSucc
    ∗ (∃ d, owns (c : Thread nD τ) (ms3_0 t) fullShare ((dats3 V c).before 0 t d))
    ∗ (∃ d, owns (c : Thread nD τ) (ms3_1 t) fullShare ((dats3 V c).before 1 t d))
    ∗ (∃ d, owns (c : Thread nD τ) (ms3_2 t) fullShare ((dats3 V c).before 2 t d))
    ∗ (∃ d, owns (c : Thread nD τ) (ms3_3 t) fullShare ((dats3 V c).before 3 t d)))

/-- and what it returns. -/
def bodyPost3 (c : Dev nD) (t : Fin cfg3.N) : sProp 𝕄 :=
  iprop((dats3 V c).Φ t.succ ∗ (dats3 V c).owesAt () t.succ
    ∗ (dats3 V c).leavesExact 0 t
    ∗ (dats3 V c).leavesExact 1 t
    ∗ (dats3 V c).leavesExact 2 t
    ∗ (dats3 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dats3 V c).owesAt () t.succ = (dats3 V c).owesAt () t.castSucc from rfl]
  rw [show (dats3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    ·
      rw [show (dats3 V c).leavesExact 0 t = owns (c : Thread nD τ) (ms3_0 t) fullShare ((dats3 V c).after 0 t) from by
        unfold Dat.leavesExact; rw [liveAt3_0 t], after3_0]
      rw [show (dats3 V c).leavesExact 1 t = owns (c : Thread nD τ) (ms3_1 t) fullShare ((dats3 V c).after 1 t) from by
        unfold Dat.leavesExact; rw [liveAt3_1 t], after3_1]
      rw [show (dats3 V c).leavesExact 2 t = owns (c : Thread nD τ) (ms3_2 t) fullShare ((dats3 V c).after 2 t) from by
        unfold Dat.leavesExact; rw [liveAt3_2 t], after3_2]
      rw [Dat.leavesExact_idle (dats3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats3 V c).leavesExact 0 t = owns (c : Thread nD τ) (ms3_0 t) fullShare ((dats3 V c).after 0 t) from by
        unfold Dat.leavesExact; rw [liveAt3_0 t], after3_0]
      rw [show (dats3 V c).leavesExact 1 t = owns (c : Thread nD τ) (ms3_1 t) fullShare ((dats3 V c).after 1 t) from by
        unfold Dat.leavesExact; rw [liveAt3_1 t], after3_1]
      rw [show (dats3 V c).leavesExact 2 t = owns (c : Thread nD τ) (ms3_2 t) fullShare ((dats3 V c).after 2 t) from by
        unfold Dat.leavesExact; rw [liveAt3_2 t], after3_2]
      rw [show (dats3 V c).leavesExact 3 t = owns (c : Thread nD τ) (ms3_3 t) fullShare ((dats3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; have hN : t.val < 64 := lt_of_lt_of_eq t.isLt (show cfg3.N = 64 from N_3); omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dats3 V c).leavesExact 0 t = owns (c : Thread nD τ) (ms3_0 t) fullShare ((dats3 V c).after 0 t) from by
        unfold Dat.leavesExact; rw [liveAt3_0 t], after3_0]
      rw [show (dats3 V c).leavesExact 1 t = owns (c : Thread nD τ) (ms3_1 t) fullShare ((dats3 V c).after 1 t) from by
        unfold Dat.leavesExact; rw [liveAt3_1 t], after3_1]
      rw [show (dats3 V c).leavesExact 2 t = owns (c : Thread nD τ) (ms3_2 t) fullShare ((dats3 V c).after 2 t) from by
        unfold Dat.leavesExact; rw [liveAt3_2 t], after3_2]
      rw [Dat.leavesExact_idle (dats3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; have hN : t.val < 64 := lt_of_lt_of_eq t.isLt (show cfg3.N = 64 from N_3); omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dats3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dats3 V c).Φ 0 := by
  rw [show (dats3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dats3 V c).Φ t ⊢ Pipeline.ΦA spec3 c := by
  rw [show (dats3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dats3 V c).Φ (Fin.last cfg3.N) ⊢ Pipeline.ΦA spec3 c :=
  Phi_out3 V c _ (by rw [Fin.val_last]; have : cfg3.N = 64 := N_3; omega)

end Cert.Kernel.Gen

end
-- ==== Proof.KGcn4Runs.lean ====
import proofs.«166906_j60567628808244_2_alg».proof.Proof.KGcn3Frame
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 4: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the reduction coordinate is 0: the accumulator is zeroed), from
    the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8) — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second conditional (the reduction coordinate is the last: the accumulator is
    finalized into the output block), from the grid coordinates. -/
abbrev cond4_1 (i : grid4.Coords) : Prop := k4_cond2 i = 1#1
/-- It holds at the points ≡ 7 (mod 8) — decided over the grid. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- Windows 0, 1, 2 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At the points of case A the output window 3 is idle: the case stores nothing into it. -/
theorem idleAt4_3_A : ∀ t : Fin cfg4.N, cond4_0 (grid4.coords t) → ¬cond4_1 (grid4.coords t) → cfg4.idle 3 (grid4.coords t) = true := by decide +kernel
/-- At the points of case A the pipeline does not write output 3's block back. -/
theorem noFlush4_3_A : ∀ t : Fin cfg4.N, cond4_0 (grid4.coords t) → ¬cond4_1 (grid4.coords t) → (cfg4.win 3).flush t = false := by decide +kernel
/-- At the points of case B the output window 3 is idle: the case stores nothing into it. -/
theorem idleAt4_3_B : ∀ t : Fin cfg4.N, ¬cond4_0 (grid4.coords t) → ¬cond4_1 (grid4.coords t) → cfg4.idle 3 (grid4.coords t) = true := by decide +kernel
/-- At the points of case B the pipeline does not write output 3's block back. -/
theorem noFlush4_3_B : ∀ t : Fin cfg4.N, ¬cond4_0 (grid4.coords t) → ¬cond4_1 (grid4.coords t) → (cfg4.win 3).flush t = false := by decide +kernel
/-- At the points of case C the output window 3 is live: the case stores into it. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of output window 3, through which its contents are stated (the choice does not matter). -/
abbrev VO4_3 : View sig .tc .vmem S1024x512 .f32 := (Memref.whole cc4_stg3_0 : Memref sig .tc .vmem S1024x512 .f32).view
/-- Each window's current staging memref at point `t`, spelled as the pipeline passes it, and its wholeness. -/
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x512 .f32 := win4_3.stage (cfg4.slots t 3)
abbrev hs4_3 (t : Fin cfg4.N) : (ms4_3 t).IsWhole := hstage4_3 ((cfg4.slots t 3).cast nbuf4_3)
/-- The scratch operand: a whole scoped buffer of the kernel's own, the accumulator, passed beside the windows. -/
abbrev scM4_0 : Memref sig .tc .vmem S1024x512 .f32 := Memref.whole cc4_scratch0
/-- The accumulator as a view: what it holds is stated through it. -/
abbrev VS4_0 : View sig .tc .vmem S1024x512 .f32 := scM4_0.view

/-- The region's invariant as the launch hands it over, with the accumulator as a memref owned at some contents and
    the other scoped buffers unopened. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

end Cert.Kernel.Gen

end
-- ==== Proof.KGcn4RunA.lean ====
import proofs.«166906_j60567628808244_2_alg».proof.Proof.KGcn4Runs

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun4_A (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gcn_matmul_kernel i arg2 harg2 arg3 harg3 arg4 harg4 arg5 harg5 arg6 harg6) K } := by
  refine ⟨[], ?_, fun xi3 E K => ?run⟩
  case run =>
    simp only [cc4__gcn_matmul_kernel_eq_skeleton]; unfold cc4__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn4RunB.lean ====
import proofs.«166906_j60567628808244_2_alg».proof.Proof.KGcn4RunA

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun4_B (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gcn_matmul_kernel i arg2 harg2 arg3 harg3 arg4 harg4 arg5 harg5 arg6 harg6) K } := by
  refine ⟨[], ?_, fun xi3 E K => ?run⟩
  case run =>
    simp only [cc4__gcn_matmul_kernel_eq_skeleton]; unfold cc4__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn4RunC.lean ====
import proofs.«166906_j60567628808244_2_alg».proof.Proof.KGcn4RunB

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun4_C (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gcn_matmul_kernel i arg2 harg2 arg3 harg3 arg4 harg4 arg5 harg5 arg6 harg6) K } := by
  refine ⟨?_, ?_, fun E K => ?run⟩
  case run =>
    simp only [cc4__gcn_matmul_kernel_eq_skeleton]; unfold cc4__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KGcn4Frame.lean ====
import proofs.«166906_j60567628808244_2_alg».proof.Proof.KGcn4RunC

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 4: what the output block and the accumulator hold point by point, the proof data, the body obligation -/

/-- Case A stores nothing into the output block (the window is idle at its points and not written back there): no
    pieces — a placeholder (junk read back) that nothing consults. -/
def out4_A_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) : Vec F S1024x512 .f32 :=
  VO4_3.read (Elt F) (VO4_3.writes (Elt F) VO4_3.junk (kernelRun4_A c i arg2 harg2 arg3 harg3 arg4 harg4 arg5 harg5 arg6 harg6 hc0 hc1 x0 x1 x2).1)

/-- Case A's pieces for the accumulator, which the kernel carries between points, cover it (whole-buffer stores). -/
theorem scover4_A_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) (y : S1024x512.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1024x512.size (by sl_kernel_rfl) y

/-- What case A leaves in the accumulator: its pieces read back over junk. -/
def sout4_A_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) : Vec F S1024x512 .f32 :=
  VS4_0.read (Elt F) (VS4_0.writes (Elt F) VS4_0.junk (kernelRun4_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out4_B_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) : Vec F S1024x512 .f32 :=
  VO4_3.read (Elt F) (VO4_3.writes (Elt F) VO4_3.junk (kernelRun4_B c i arg2 harg2 arg3 harg3 arg4 harg4 arg5 harg5 arg6 harg6 hc0 hc1 x0 x1 x2 xs0).1)

/-- Case B's pieces for the accumulator, which the kernel carries between points, cover it (whole-buffer stores). -/
theorem scover4_B_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) (y : S1024x512.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S1024x512.size (by sl_kernel_rfl) y

/-- What case B leaves in the accumulator: its pieces read back over junk. -/
def sout4_B_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) : Vec F S1024x512 .f32 :=
  VS4_0.read (Elt F) (VS4_0.writes (Elt F) VS4_0.junk (kernelRun4_B c i arg2 harg2 arg3 harg3 arg4 harg4 arg5 harg5 arg6 harg6 hc0 hc1 x0 x1 x2 xs0).2.1)

/-- Case C's pieces for the output block tile it (one store of the whole block), so they cover it. -/
theorem cover4_C_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) (y : S1024x512.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S1024x512.size (by sl_kernel_rfl) y

/-- What case C leaves in the output's staging buffer: its pieces read back over junk. -/
def out4_C_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) : Vec F S1024x512 .f32 :=
  VO4_3.read (Elt F) (VO4_3.writes (Elt F) VO4_3.junk (kernelRun4_C c i arg2 harg2 arg3 harg3 arg4 harg4 arg5 harg5 arg6 harg6 hc0 hc1 x0 x1 x2 xs0).1)

/-- Case C's pieces for the accumulator, which the kernel carries between points, cover it (whole-buffer stores). -/
theorem scover4_C_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) (y : S1024x512.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S1024x512.size (by sl_kernel_rfl) y

/-- What case C leaves in the accumulator: its pieces read back over junk. -/
def sout4_C_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) : Vec F S1024x512 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt4 (c : Dev nD) : (n : ℕ) → n < cfg4.N → Vec F S1024x512 .f32 × Vec F S1024x512 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 8 = 0 then
      if h1 : (n + 1) % 8 = 7 then
        False.elim (by have hN : n + 1 < 64 := lt_of_lt_of_eq hn (show cfg4.N = 64 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 8 = 7 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 8 = 0) (h1 : ¬t.val % 8 = 7) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 8 = 0) (h1 : ¬t.val % 8 = 7) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 8 = 0) (h1 : t.val % 8 = 7) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut spec4 c [cc4_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt4`'s first component; the invariant
    `PhiS4`; nothing owed; full shares. -/
def dats4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dats4 V c).A w = V c (Pipeline.arrRef spec4 w) := by
  dsimp only [dats4]

/-- The invariant at a point's start, restated at `t.val`. -/
theorem PhiS4_castSucc (c : Dev nD) (t : Fin cfg4.N) :
    (dats4 V c).Φ t.castSucc = PhiS4 V c t.val (Nat.le_of_lt t.isLt) := by
  dsimp only [dats4]; simp only [Fin.coe_castSucc]

/-- What the body leaves, window by window. -/
theorem after4_0 (c : Dev nD) (t : Fin cfg4.N) : (dats4 V c).after 0 t = iblk4 V c 0 t := by dsimp only [dats4]
theorem after4_1 (c : Dev nD) (t : Fin cfg4.N) : (dats4 V c).after 1 t = iblk4 V c 1 t := by dsimp only [dats4]
theorem after4_2 (c : Dev nD) (t : Fin cfg4.N) : (dats4 V c).after 2 t = iblk4 V c 2 t := by dsimp only [dats4]
theorem after4_3 (c : Dev nD) (t : Fin cfg4.N) : (dats4 V c).after 3 t = (outsAt4 V c t.val t.isLt).1 := by dsimp only [dats4]

/-- Each input's current staging buffer holds its block at every point, fetched there or not. -/
theorem before4_0 (c : Dev nD) (t : Fin cfg4.N) (d) : (dats4 V c).before 0 t d = iblk4 V c 0 t :=
  before4_0_of V (dats4 V c) (A_eq4 V c 0) (after4_0 V c) t d
theorem before4_1 (c : Dev nD) (t : Fin cfg4.N) (d) : (dats4 V c).before 1 t d = iblk4 V c 1 t :=
  before4_1_of V (dats4 V c) (A_eq4 V c 1) (after4_1 V c) t d
theorem before4_2 (c : Dev nD) (t : Fin cfg4.N) (d) : (dats4 V c).before 2 t d = iblk4 V c 2 t :=
  before4_2_of V (dats4 V c) (A_eq4 V c 2) (after4_2 V c) t d

/-! ## The body obligation, at a generic point -/

/-- What the body is called with at point `t` (the windows one by one), -/
def bodyPre4 (c : Dev nD) (t : Fin cfg4.N) : sProp 𝕄 :=
  iprop((dats4 V c).Φ t.castSucc ∗ (dats4 V c).owesAt () t.castSucc
    ∗ (∃ d, owns (c : Thread nD τ) (ms4_0 t) fullShare ((dats4 V c).before 0 t d))
    ∗ (∃ d, owns (c : Thread nD τ) (ms4_1 t) fullShare ((dats4 V c).before 1 t d))
    ∗ (∃ d, owns (c : Thread nD τ) (ms4_2 t) fullShare ((dats4 V c).before 2 t d))
    ∗ (∃ d, owns (c : Thread nD τ) (ms4_3 t) fullShare ((dats4 V c).before 3 t d)))

/-- and what it returns. -/
def bodyPost4 (c : Dev nD) (t : Fin cfg4.N) : sProp 𝕄 :=
  iprop((dats4 V c).Φ t.succ ∗ (dats4 V c).owesAt () t.succ
    ∗ (dats4 V c).leavesExact 0 t
    ∗ (dats4 V c).leavesExact 1 t
    ∗ (dats4 V c).leavesExact 2 t
    ∗ (dats4 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dats4 V c).owesAt () t.succ = (dats4 V c).owesAt () t.castSucc from rfl]
  rw [show (dats4 V c).Φ t.succ = PhiS4 V c (t.val + 1) t.isLt from rfl, PhiS4_succ]
  have hN : t.val < 64 := lt_of_lt_of_eq t.isLt (show cfg4.N = 64 from N_4)
  by_cases h0 : t.val % 8 = 0
  · by_cases h1 : t.val % 8 = 7
    · exfalso; omega
    ·
      rw [show (dats4 V c).leavesExact 0 t = owns (c : Thread nD τ) (ms4_0 t) fullShare ((dats4 V c).after 0 t) from by
        unfold Dat.leavesExact; rw [liveAt4_0 t], after4_0]
      rw [show (dats4 V c).leavesExact 1 t = owns (c : Thread nD τ) (ms4_1 t) fullShare ((dats4 V c).after 1 t) from by
        unfold Dat.leavesExact; rw [liveAt4_1 t], after4_1]
      rw [show (dats4 V c).leavesExact 2 t = owns (c : Thread nD τ) (ms4_2 t) fullShare ((dats4 V c).after 2 t) from by
        unfold Dat.leavesExact; rw [liveAt4_2 t], after4_2]
      rw [Dat.leavesExact_idle (dats4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats4 V c).leavesExact 0 t = owns (c : Thread nD τ) (ms4_0 t) fullShare ((dats4 V c).after 0 t) from by
        unfold Dat.leavesExact; rw [liveAt4_0 t], after4_0]
      rw [show (dats4 V c).leavesExact 1 t = owns (c : Thread nD τ) (ms4_1 t) fullShare ((dats4 V c).after 1 t) from by
        unfold Dat.leavesExact; rw [liveAt4_1 t], after4_1]
      rw [show (dats4 V c).leavesExact 2 t = owns (c : Thread nD τ) (ms4_2 t) fullShare ((dats4 V c).after 2 t) from by
        unfold Dat.leavesExact; rw [liveAt4_2 t], after4_2]
      rw [show (dats4 V c).leavesExact 3 t = owns (c : Thread nD τ) (ms4_3 t) fullShare ((dats4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      by_cases hz : t.val = 0
      · exfalso; have hN : t.val < 64 := lt_of_lt_of_eq t.isLt (show cfg4.N = 64 from N_4); omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    ·
      rw [show (dats4 V c).leavesExact 0 t = owns (c : Thread nD τ) (ms4_0 t) fullShare ((dats4 V c).after 0 t) from by
        unfold Dat.leavesExact; rw [liveAt4_0 t], after4_0]
      rw [show (dats4 V c).leavesExact 1 t = owns (c : Thread nD τ) (ms4_1 t) fullShare ((dats4 V c).after 1 t) from by
        unfold Dat.leavesExact; rw [liveAt4_1 t], after4_1]
      rw [show (dats4 V c).leavesExact 2 t = owns (c : Thread nD τ) (ms4_2 t) fullShare ((dats4 V c).after 2 t) from by
        unfold Dat.leavesExact; rw [liveAt4_2 t], after4_2]
      rw [Dat.leavesExact_idle (dats4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      by_cases hz : t.val = 0
      · exfalso; have hN : t.val < 64 := lt_of_lt_of_eq t.isLt (show cfg4.N = 64 from N_4); omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation4 (c : Dev nD) : BodyObligation (dats4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dats4 V c).Φ 0 := by
  rw [show (dats4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dats4 V c).Φ t ⊢ Pipeline.ΦA spec4 c := by
  rw [show (dats4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dats4 V c).Φ (Fin.last cfg4.N) ⊢ Pipeline.ΦA spec4 c :=
  Phi_out4 V c _ (by rw [Fin.val_last]; have : cfg4.N = 64 := N_4; omega)

end Cert.Kernel.Gen

end
-- ==== Proof.KGcn7Runs.lean ====
import proofs.«166906_j60567628808244_2_alg».proof.Proof.KGcn4Frame
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 7: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block
    index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block
    index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): unfetched, the block
    index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the reduction coordinate is 0: the accumulator is zeroed), from
    the grid coordinates. -/
abbrev cond7_0 (i : grid7.Coords) : Prop := (Scalar.cmpi .ne (Scalar.extui (Scalar.cmpi .eq (BitVec.ofNat 32 (i 1).val) 0#32)) 0#32) = 1#1
/-- It holds at the points ≡ 0 (mod 8) — decided over the grid. -/
theorem hcond7_0 : ∀ t : Fin cfg7.N, cond7_0 (grid7.coords t) ↔ t.val % 8 = 0 :=
  (by decide +kernel : ∀ t : Fin grid7.N, cond7_0 (grid7.coords t) ↔ t.val % 8 = 0)

/-- The condition of the body's second conditional (the reduction coordinate is the last: the accumulator is
    finalized into the output block), from the grid coordinates. -/
abbrev cond7_1 (i : grid7.Coords) : Prop := k7_cond2 i = 1#1
/-- It holds at the points ≡ 7 (mod 8) — decided over the grid. -/
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

/-- Windows 0, 1, 2 are never idle (inputs). -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At the points of case A the output window 3 is idle: the case stores nothing into it. -/
theorem idleAt7_3_A : ∀ t : Fin cfg7.N, cond7_0 (grid7.coords t) → ¬cond7_1 (grid7.coords t) → cfg7.idle 3 (grid7.coords t) = true := by decide +kernel
/-- At the points of case A the pipeline does not write output 3's block back. -/
theorem noFlush7_3_A : ∀ t : Fin cfg7.N, cond7_0 (grid7.coords t) → ¬cond7_1 (grid7.coords t) → (cfg7.win 3).flush t = false := by decide +kernel
/-- At the points of case B the output window 3 is idle: the case stores nothing into it. -/
theorem idleAt7_3_B : ∀ t : Fin cfg7.N, ¬cond7_0 (grid7.coords t) → ¬cond7_1 (grid7.coords t) → cfg7.idle 3 (grid7.coords t) = true := by decide +kernel
/-- At the points of case B the pipeline does not write output 3's block back. -/
theorem noFlush7_3_B : ∀ t : Fin cfg7.N, ¬cond7_0 (grid7.coords t) → ¬cond7_1 (grid7.coords t) → (cfg7.win 3).flush t = false := by decide +kernel
/-- At the points of case C the output window 3 is live: the case stores into it. -/
theorem liveAt7_3_C : ∀ t : Fin cfg7.N, ¬cond7_0 (grid7.coords t) → cond7_1 (grid7.coords t) → cfg7.idle 3 (grid7.coords t) = false := by decide +kernel

/-! ## The memrefs the body is called with -/

/-- One staging buffer of output window 3, through which its contents are stated (the choice does not matter). -/
abbrev VO7_3 : View sig .tc .vmem S1024x512 .f32 := (Memref.whole cc7_stg3_0 : Memref sig .tc .vmem S1024x512 .f32).view
/-- Each window's current staging memref at point `t`, spelled as the pipeline passes it, and its wholeness. -/
abbrev ms7_0 (t : Fin cfg7.N) : Memref sig .tc .vmem S1024x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8192x512 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x512 .f32 := win7_3.stage (cfg7.slots t 3)
abbrev hs7_3 (t : Fin cfg7.N) : (ms7_3 t).IsWhole := hstage7_3 ((cfg7.slots t 3).cast nbuf7_3)
/-- The scratch operand: a whole scoped buffer of the kernel's own, the accumulator, passed beside the windows. -/
abbrev scM7_0 : Memref sig .tc .vmem S1024x512 .f32 := Memref.whole cc7_scratch0
/-- The accumulator as a view: what it holds is stated through it. -/
abbrev VS7_0 : View sig .tc .vmem S1024x512 .f32 := scM7_0.view

/-- The region's invariant as the launch hands it over, with the accumulator as a memref owned at some contents and
    the other scoped buffers unopened. -/
theorem PhiA7_eq (c : Dev nD) :
    (Pipeline.ΦA spec7 c : sProp 𝕄)
      = iprop(iprop(iprop((∃ d, owns (c : Thread nD τ) scM7_0 fullShare d)) ∗ Pipeline.scopedRestBut spec7 c [cc7_scratch0]) ∗ (∃ r, prngReg c r)) := by
  unfold Pipeline.ΦA; rw [scopedRest7_split]; simp only [scM7_0, owns_whole]; try rfl

end Cert.Kernel.Gen

end
-- ==== Proof.KGcn7RunA.lean ====
import proofs.«166906_j60567628808244_2_alg».proof.Proof.KGcn7Runs

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun7_A (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gcn_matmul_kernel i arg2 harg2 arg3 harg3 arg4 harg4 arg5 harg5 arg6 harg6) K } := by
  refine ⟨[], ?_, fun xi3 E K => ?run⟩
  case run =>
    simp only [cc7__gcn_matmul_kernel_eq_skeleton]; unfold cc7__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn7RunB.lean ====
import proofs.«166906_j60567628808244_2_alg».proof.Proof.KGcn7RunA

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun7_B (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gcn_matmul_kernel i arg2 harg2 arg3 harg3 arg4 harg4 arg5 harg5 arg6 harg6) K } := by
  refine ⟨[], ?_, fun xi3 E K => ?run⟩
  case run =>
    simp only [cc7__gcn_matmul_kernel_eq_skeleton]; unfold cc7__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn7RunC.lean ====
import proofs.«166906_j60567628808244_2_alg».proof.Proof.KGcn7RunB

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun7_C (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__gcn_matmul_kernel i arg2 harg2 arg3 harg3 arg4 harg4 arg5 harg5 arg6 harg6) K } := by
  refine ⟨?_, ?_, fun E K => ?run⟩
  case run =>
    simp only [cc7__gcn_matmul_kernel_eq_skeleton]; unfold cc7__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KGcn7Frame.lean ====
import proofs.«166906_j60567628808244_2_alg».proof.Proof.KGcn7RunC

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 7: what the output block and the accumulator hold point by point, the proof data, the body obligation -/

/-- Case A stores nothing into the output block (the window is idle at its points and not written back there): no
    pieces — a placeholder (junk read back) that nothing consults. -/
def out7_A_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) : Vec F S1024x512 .f32 :=
  VO7_3.read (Elt F) (VO7_3.writes (Elt F) VO7_3.junk (kernelRun7_A c i arg2 harg2 arg3 harg3 arg4 harg4 arg5 harg5 arg6 harg6 hc0 hc1 x0 x1 x2).1)

/-- Case A's pieces for the accumulator, which the kernel carries between points, cover it (whole-buffer stores). -/
theorem scover7_A_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) (y : S1024x512.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S1024x512.size (by sl_kernel_rfl) y

/-- What case A leaves in the accumulator: its pieces read back over junk. -/
def sout7_A_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) : Vec F S1024x512 .f32 :=
  VS7_0.read (Elt F) (VS7_0.writes (Elt F) VS7_0.junk (kernelRun7_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out7_B_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) : Vec F S1024x512 .f32 :=
  VO7_3.read (Elt F) (VO7_3.writes (Elt F) VO7_3.junk (kernelRun7_B c i arg2 harg2 arg3 harg3 arg4 harg4 arg5 harg5 arg6 harg6 hc0 hc1 x0 x1 x2 xs0).1)

/-- Case B's pieces for the accumulator, which the kernel carries between points, cover it (whole-buffer stores). -/
theorem scover7_B_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) (y : S1024x512.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S1024x512.size (by sl_kernel_rfl) y

/-- What case B leaves in the accumulator: its pieces read back over junk. -/
def sout7_B_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) : Vec F S1024x512 .f32 :=
  VS7_0.read (Elt F) (VS7_0.writes (Elt F) VS7_0.junk (kernelRun7_B c i arg2 harg2 arg3 harg3 arg4 harg4 arg5 harg5 arg6 harg6 hc0 hc1 x0 x1 x2 xs0).2.1)

/-- Case C's pieces for the output block tile it (one store of the whole block), so they cover it. -/
theorem cover7_C_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) (y : S1024x512.Idx) :
    ∃ pc ∈ (kernelRun7_C c i arg2 harg2 arg3 harg3 arg4 harg4 arg5 harg5 arg6 harg6 hc0 hc1 x0 x1 x2 xs0).1, y ∈ pc.1.set :=
  View.cover_of_tiledL (kernelRun7_C c i arg2 harg2 arg3 harg3 arg4 harg4 arg5 harg5 arg6 harg6 hc0 hc1 x0 x1 x2 xs0).1 S1024x512.size (by sl_kernel_rfl) y

/-- What case C leaves in the output's staging buffer: its pieces read back over junk. -/
def out7_C_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) : Vec F S1024x512 .f32 :=
  VO7_3.read (Elt F) (VO7_3.writes (Elt F) VO7_3.junk (kernelRun7_C c i arg2 harg2 arg3 harg3 arg4 harg4 arg5 harg5 arg6 harg6 hc0 hc1 x0 x1 x2 xs0).1)

/-- Case C's pieces for the accumulator, which the kernel carries between points, cover it (whole-buffer stores). -/
theorem scover7_C_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) (y : S1024x512.Idx) :
    ∃ pc ∈ (kernelRun7_C c i arg2 harg2 arg3 harg3 arg4 harg4 arg5 harg5 arg6 harg6 hc0 hc1 x0 x1 x2 xs0).2.1, y ∈ pc.1.set :=
  View.cover_of_tiledL (kernelRun7_C c i arg2 harg2 arg3 harg3 arg4 harg4 arg5 harg5 arg6 harg6 hc0 hc1 x0 x1 x2 xs0).2.1 S1024x512.size (by sl_kernel_rfl) y

/-- What case C leaves in the accumulator: its pieces read back over junk. -/
def sout7_C_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) : Vec F S1024x512 .f32 :=
  VS7_0.read (Elt F) (VS7_0.writes (Elt F) VS7_0.junk (kernelRun7_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt7 (c : Dev nD) : (n : ℕ) → n < cfg7.N → Vec F S1024x512 .f32 × Vec F S1024x512 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by have hN : n + 1 < 64 := lt_of_lt_of_eq hn (show cfg7.N = 64 from N_7); omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- `outsAt7` at a point of case A: that case's contents. -/
theorem outsAt7_A (c : Dev nD) (t : Fin cfg7.N) (h0 : t.val % 8 = 0) (h1 : ¬t.val % 8 = 7) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t), sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- `outsAt7` at a point of case B: that case's contents, over what the point before left. -/
theorem outsAt7_B (c : Dev nD) (t : Fin cfg7.N) (h0 : ¬t.val % 8 = 0) (h1 : ¬t.val % 8 = 7) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: that case's contents, over what the point before left. -/
theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2)) ∗ Pipeline.scopedRestBut spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(iprop(owns (c : Thread nD τ) scM7_0 fullShare ((outsAt7 V c n hn).2)) ∗ Pipeline.scopedRestBut spec7 c [cc7_scratch0]) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2)) ∗ Pipeline.scopedRestBut spec7 c [cc7_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt7`'s first component; the invariant
    `PhiS7`; nothing owed; full shares. -/
def dats7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

/-- The proof data's arrays are the region-entry contents. -/
theorem A_eq7 (c : Dev nD) (w : Fin cfg7.W) : (dats7 V c).A w = V c (Pipeline.arrRef spec7 w) := by
  dsimp only [dats7]

/-- The invariant at a point's start, restated at `t.val`. -/
theorem PhiS7_castSucc (c : Dev nD) (t : Fin cfg7.N) :
    (dats7 V c).Φ t.castSucc = PhiS7 V c t.val (Nat.le_of_lt t.isLt) := by
  dsimp only [dats7]; simp only [Fin.coe_castSucc]

/-- What the body leaves, window by window. -/
theorem after7_0 (c : Dev nD) (t : Fin cfg7.N) : (dats7 V c).after 0 t = iblk7 V c 0 t := by dsimp only [dats7]
theorem after7_1 (c : Dev nD) (t : Fin cfg7.N) : (dats7 V c).after 1 t = iblk7 V c 1 t := by dsimp only [dats7]
theorem after7_2 (c : Dev nD) (t : Fin cfg7.N) : (dats7 V c).after 2 t = iblk7 V c 2 t := by dsimp only [dats7]
theorem after7_3 (c : Dev nD) (t : Fin cfg7.N) : (dats7 V c).after 3 t = (outsAt7 V c t.val t.isLt).1 := by dsimp only [dats7]

/-- Each input's current staging buffer holds its block at every point, fetched there or not. -/
theorem before7_0 (c : Dev nD) (t : Fin cfg7.N) (d) : (dats7 V c).before 0 t d = iblk7 V c 0 t :=
  before7_0_of V (dats7 V c) (A_eq7 V c 0) (after7_0 V c) t d
theorem before7_1 (c : Dev nD) (t : Fin cfg7.N) (d) : (dats7 V c).before 1 t d = iblk7 V c 1 t :=
  before7_1_of V (dats7 V c) (A_eq7 V c 1) (after7_1 V c) t d
theorem before7_2 (c : Dev nD) (t : Fin cfg7.N) (d) : (dats7 V c).before 2 t d = iblk7 V c 2 t :=
  before7_2_of V (dats7 V c) (A_eq7 V c 2) (after7_2 V c) t d

/-! ## The body obligation, at a generic point -/

/-- What the body is called with at point `t` (the windows one by one), -/
def bodyPre7 (c : Dev nD) (t : Fin cfg7.N) : sProp 𝕄 :=
  iprop((dats7 V c).Φ t.castSucc ∗ (dats7 V c).owesAt () t.castSucc
    ∗ (∃ d, owns (c : Thread nD τ) (ms7_0 t) fullShare ((dats7 V c).before 0 t d))
    ∗ (∃ d, owns (c : Thread nD τ) (ms7_1 t) fullShare ((dats7 V c).before 1 t d))
    ∗ (∃ d, owns (c : Thread nD τ) (ms7_2 t) fullShare ((dats7 V c).before 2 t d))
    ∗ (∃ d, owns (c : Thread nD τ) (ms7_3 t) fullShare ((dats7 V c).before 3 t d)))

/-- and what it returns. -/
def bodyPost7 (c : Dev nD) (t : Fin cfg7.N) : sProp 𝕄 :=
  iprop((dats7 V c).Φ t.succ ∗ (dats7 V c).owesAt () t.succ
    ∗ (dats7 V c).leavesExact 0 t
    ∗ (dats7 V c).leavesExact 1 t
    ∗ (dats7 V c).leavesExact 2 t
    ∗ (dats7 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dats7 V c).owesAt () t.succ = (dats7 V c).owesAt () t.castSucc from rfl]
  rw [show (dats7 V c).Φ t.succ = PhiS7 V c (t.val + 1) t.isLt from rfl, PhiS7_succ]
  have hN : t.val < 64 := lt_of_lt_of_eq t.isLt (show cfg7.N = 64 from N_7)
  by_cases h0 : t.val % 8 = 0
  · by_cases h1 : t.val % 8 = 7
    · exfalso; omega
    ·
      rw [show (dats7 V c).leavesExact 0 t = owns (c : Thread nD τ) (ms7_0 t) fullShare ((dats7 V c).after 0 t) from by
        unfold Dat.leavesExact; rw [liveAt7_0 t], after7_0]
      rw [show (dats7 V c).leavesExact 1 t = owns (c : Thread nD τ) (ms7_1 t) fullShare ((dats7 V c).after 1 t) from by
        unfold Dat.leavesExact; rw [liveAt7_1 t], after7_1]
      rw [show (dats7 V c).leavesExact 2 t = owns (c : Thread nD τ) (ms7_2 t) fullShare ((dats7 V c).after 2 t) from by
        unfold Dat.leavesExact; rw [liveAt7_2 t], after7_2]
      rw [Dat.leavesExact_idle (dats7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats7 V c).leavesExact 0 t = owns (c : Thread nD τ) (ms7_0 t) fullShare ((dats7 V c).after 0 t) from by
        unfold Dat.leavesExact; rw [liveAt7_0 t], after7_0]
      rw [show (dats7 V c).leavesExact 1 t = owns (c : Thread nD τ) (ms7_1 t) fullShare ((dats7 V c).after 1 t) from by
        unfold Dat.leavesExact; rw [liveAt7_1 t], after7_1]
      rw [show (dats7 V c).leavesExact 2 t = owns (c : Thread nD τ) (ms7_2 t) fullShare ((dats7 V c).after 2 t) from by
        unfold Dat.leavesExact; rw [liveAt7_2 t], after7_2]
      rw [show (dats7 V c).leavesExact 3 t = owns (c : Thread nD τ) (ms7_3 t) fullShare ((dats7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      by_cases hz : t.val = 0
      · exfalso; have hN : t.val < 64 := lt_of_lt_of_eq t.isLt (show cfg7.N = 64 from N_7); omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover7_C_3 c _ _ _ _ _ _ _ _ _ _ _ _ _ _ _ _ _)
    ·
      rw [show (dats7 V c).leavesExact 0 t = owns (c : Thread nD τ) (ms7_0 t) fullShare ((dats7 V c).after 0 t) from by
        unfold Dat.leavesExact; rw [liveAt7_0 t], after7_0]
      rw [show (dats7 V c).leavesExact 1 t = owns (c : Thread nD τ) (ms7_1 t) fullShare ((dats7 V c).after 1 t) from by
        unfold Dat.leavesExact; rw [liveAt7_1 t], after7_1]
      rw [show (dats7 V c).leavesExact 2 t = owns (c : Thread nD τ) (ms7_2 t) fullShare ((dats7 V c).after 2 t) from by
        unfold Dat.leavesExact; rw [liveAt7_2 t], after7_2]
      rw [Dat.leavesExact_idle (dats7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      by_cases hz : t.val = 0
      · exfalso; have hN : t.val < 64 := lt_of_lt_of_eq t.isLt (show cfg7.N = 64 from N_7); omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation7 (c : Dev nD) : BodyObligation (dats7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dats7 V c).Φ 0 := by
  rw [show (dats7 V c).Φ 0 = PhiS7 V c 0 (Nat.zero_le _) from rfl, PhiS7_zero V c 0 _ rfl]
  try exact Idealize.SL.BI.Entails.refl _

/-- After any point but the first the invariant gives the launch's back: the accumulator's named contents are forgotten. -/
theorem Phi_out7 (c : Dev nD) (t : Fin (cfg7.N + 1)) (ht : t.val ≠ 0) : (dats7 V c).Φ t ⊢ Pipeline.ΦA spec7 c := by
  rw [show (dats7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point. -/
theorem hout7 (c : Dev nD) : (dats7 V c).Φ (Fin.last cfg7.N) ⊢ Pipeline.ΦA spec7 c :=
  Phi_out7 V c _ (by rw [Fin.val_last]; have : cfg7.N = 64 := N_7; omega)

end Cert.Kernel.Gen

end
-- ==== Proof.KGcn9Runs.lean ====
import proofs.«166906_j60567628808244_2_alg».proof.Proof.KGcn7Frame
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 9: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): unfetched, the block
    index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): unfetched, the block
    index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions -/

/-- The condition of the body's first conditional (the reduction coordinate is 0: the accumulator is zeroed), from
    the grid coordinates. -/
abbrev cond9_0 (i : grid9.Coords) : Prop := (Scalar.cmpi .ne (Scalar.extui (Scalar.cmpi .eq (BitVec.ofNat 32 (i 1).val) 0#32)) 0#32) = 1#1
/-- It holds at the points ≡ 0 (mod 8) — decided over the grid. -/
theorem hcond9_0 : ∀ t : Fin cfg9.N, cond9_0 (grid9.coords t) ↔ t.val % 8 = 0 :=
  (by decide +kernel : ∀ t : Fin grid9.N, cond9_0 (grid9.coords t) ↔ t.val % 8 = 0)

/-- The condition of the body's second conditional (the reduction coordinate is the last: the accumulator is
    finalized into the output block), from the grid coordinates. -/
abbrev cond9_1 (i : grid9.Coords) : Prop := k9_cond2 i = 1#1
/-- It holds at the points ≡ 7 (mod 8) — decided over the grid. -/
theorem hcond9_1 : ∀ t : Fin cfg9.N, cond9_1 (grid9.coords t) ↔ t.val % 8 = 7 :=
  (by decide +kernel : ∀ t : Fin grid9.N, cond9_1 (grid9.coords t) ↔ t.val % 8 = 7)

/-! ## Where the windows are idle -/

/-- Windows 0, 1, 2 are never idle (inputs). -/
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
/-- At the points of case A the output window 3 is idle: the case stores nothing into it. -/
theorem idleAt9_3_A : ∀ t : Fin cfg9.N, cond9_0 (grid9.coords t) → ¬cond9_1 (grid9.coords t) → cfg9.idle 3 (grid9.coords t) = true := by decide +kernel
/-- At the points of case A the pipeline does not write output 3's block back. -/
theorem noFlush9_3_A : ∀ t : Fin cfg9.N, cond9_0 (grid9.coords t) → ¬cond9_1 (grid9.coords t) → (cfg9.win 3).flush t = false := by decide +kernel
/-- At the points of case B the output window 3 is idle: the case stores nothing into it. -/
theorem idleAt9_3_B : ∀ t : Fin cfg9.N, ¬cond9_0 (grid9.coords t) → ¬cond9_1 (grid9.coords t) → cfg9.idle 3 (grid9.coords t) = true := by decide +kernel
/-- At the points of case B the pipeline does not write output 3's block back. -/
theorem noFlush9_3_B : ∀ t : Fin cfg9.N, ¬cond9_0 (grid9.coords t) → ¬cond9_1 (grid9.coords t) → (cfg9.win 3).flush t = false := by decide +kernel
/-- At the points of case C the output window 3 is live: the case stores into it. -/
theorem liveAt9_3_C : ∀ t : Fin cfg9.N, ¬cond9_0 (grid9.coords t) → cond9_1 (grid9.coords t) → cfg9.idle 3 (grid9.coords t) = false := by decide +kernel

/-! ## The memrefs the body is called with -/

/-- One staging buffer of output window 3, through which its contents are stated (the choice does not matter). -/
abbrev VO9_3 : View sig .tc .vmem S1024x256 .f32 := (Memref.whole cc9_stg3_0 : Memref sig .tc .vmem S1024x256 .f32).view
/-- Each window's current staging memref at point `t`, spelled as the pipeline passes it, and its wholeness. -/
abbrev ms9_0 (t : Fin cfg9.N) : Memref sig .tc .vmem S1024x1024 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S8192x256 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x256 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x256 .f32 := win9_3.stage (cfg9.slots t 3)
abbrev hs9_3 (t : Fin cfg9.N) : (ms9_3 t).IsWhole := hstage9_3 ((cfg9.slots t 3).cast nbuf9_3)
/-- The scratch operand: a whole scoped buffer of the kernel's own, the accumulator, passed beside the windows. -/
abbrev scM9_0 : Memref sig .tc .vmem S1024x256 .f32 := Memref.whole cc9_scratch0
/-- The accumulator as a view: what it holds is stated through it. -/
abbrev VS9_0 : View sig .tc .vmem S1024x256 .f32 := scM9_0.view

/-- The region's invariant as the launch hands it over, with the accumulator as a memref owned at some contents and
    the other scoped buffers unopened. -/
theorem PhiA9_eq (c : Dev nD) :
    (Pipeline.ΦA spec9 c : sProp 𝕄)
      = iprop(iprop(iprop((∃ d, owns (c : Thread nD τ) scM9_0 fullShare d)) ∗ Pipeline.scopedRestBut spec9 c [cc9_scratch0]) ∗ (∃ r, prngReg c r)) := by
  unfold Pipeline.ΦA; rw [scopedRest9_split]; simp only [scM9_0, owns_whole]; try rfl

end Cert.Kernel.Gen

end
-- ==== Proof.KGcn9RunA.lean ====
import proofs.«166906_j60567628808244_2_alg».proof.Proof.KGcn9Runs

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun9_A (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gcn_matmul_kernel i arg2 harg2 arg3 harg3 arg4 harg4 arg5 harg5 arg6 harg6) K } := by
  refine ⟨[], ?_, fun xi3 E K => ?run⟩
  case run =>
    simp only [cc9__gcn_matmul_kernel_eq_skeleton]; unfold cc9__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn9RunB.lean ====
import proofs.«166906_j60567628808244_2_alg».proof.Proof.KGcn9RunA

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun9_B (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gcn_matmul_kernel i arg2 harg2 arg3 harg3 arg4 harg4 arg5 harg5 arg6 harg6) K } := by
  refine ⟨[], ?_, fun xi3 E K => ?run⟩
  case run =>
    simp only [cc9__gcn_matmul_kernel_eq_skeleton]; unfold cc9__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn9RunC.lean ====
import proofs.«166906_j60567628808244_2_alg».proof.Proof.KGcn9RunB

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun9_C (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc9__gcn_matmul_kernel i arg2 harg2 arg3 harg3 arg4 harg4 arg5 harg5 arg6 harg6) K } := by
  refine ⟨?_, ?_, fun E K => ?run⟩
  case run =>
    simp only [cc9__gcn_matmul_kernel_eq_skeleton]; unfold cc9__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KGcn9Frame.lean ====
import proofs.«166906_j60567628808244_2_alg».proof.Proof.KGcn9RunC

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 9: what the output block and the accumulator hold point by point, the proof data, the body obligation -/

/-- Case A stores nothing into the output block (the window is idle at its points and not written back there): no
    pieces — a placeholder (junk read back) that nothing consults. -/
def out9_A_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) : Vec F S1024x256 .f32 :=
  VO9_3.read (Elt F) (VO9_3.writes (Elt F) VO9_3.junk (kernelRun9_A c i arg2 harg2 arg3 harg3 arg4 harg4 arg5 harg5 arg6 harg6 hc0 hc1 x0 x1 x2).1)

/-- Case A's pieces for the accumulator, which the kernel carries between points, cover it (whole-buffer stores). -/
theorem scover9_A_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) (y : S1024x256.Idx) :
    ∃ pc ∈ (kernelRun9_A c i arg2 harg2 arg3 harg3 arg4 harg4 arg5 harg5 arg6 harg6 hc0 hc1 x0 x1 x2).2.1, y ∈ pc.1.set :=
  View.cover_of_tiledL (kernelRun9_A c i arg2 harg2 arg3 harg3 arg4 harg4 arg5 harg5 arg6 harg6 hc0 hc1 x0 x1 x2).2.1 S1024x256.size (by sl_kernel_rfl) y

/-- What case A leaves in the accumulator: its pieces read back over junk. -/
def sout9_A_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) : Vec F S1024x256 .f32 :=
  VS9_0.read (Elt F) (VS9_0.writes (Elt F) VS9_0.junk (kernelRun9_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out9_B_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) : Vec F S1024x256 .f32 :=
  VO9_3.read (Elt F) (VO9_3.writes (Elt F) VO9_3.junk (kernelRun9_B c i arg2 harg2 arg3 harg3 arg4 harg4 arg5 harg5 arg6 harg6 hc0 hc1 x0 x1 x2 xs0).1)

/-- Case B's pieces for the accumulator, which the kernel carries between points, cover it (whole-buffer stores). -/
theorem scover9_B_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) (y : S1024x256.Idx) :
    ∃ pc ∈ (kernelRun9_B c i arg2 harg2 arg3 harg3 arg4 harg4 arg5 harg5 arg6 harg6 hc0 hc1 x0 x1 x2 xs0).2.1, y ∈ pc.1.set :=
  View.cover_of_tiledL (kernelRun9_B c i arg2 harg2 arg3 harg3 arg4 harg4 arg5 harg5 arg6 harg6 hc0 hc1 x0 x1 x2 xs0).2.1 S1024x256.size (by sl_kernel_rfl) y

/-- What case B leaves in the accumulator: its pieces read back over junk. -/
def sout9_B_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) : Vec F S1024x256 .f32 :=
  VS9_0.read (Elt F) (VS9_0.writes (Elt F) VS9_0.junk (kernelRun9_B c i arg2 harg2 arg3 harg3 arg4 harg4 arg5 harg5 arg6 harg6 hc0 hc1 x0 x1 x2 xs0).2.1)

/-- Case C's pieces for the output block tile it (one store of the whole block), so they cover it. -/
theorem cover9_C_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) (y : S1024x256.Idx) :
    ∃ pc ∈ (kernelRun9_C c i arg2 harg2 arg3 harg3 arg4 harg4 arg5 harg5 arg6 harg6 hc0 hc1 x0 x1 x2 xs0).1, y ∈ pc.1.set :=
  View.cover_of_tiledL (kernelRun9_C c i arg2 harg2 arg3 harg3 arg4 harg4 arg5 harg5 arg6 harg6 hc0 hc1 x0 x1 x2 xs0).1 S1024x256.size (by sl_kernel_rfl) y

/-- What case C leaves in the output's staging buffer: its pieces read back over junk. -/
def out9_C_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) : Vec F S1024x256 .f32 :=
  VO9_3.read (Elt F) (VO9_3.writes (Elt F) VO9_3.junk (kernelRun9_C c i arg2 harg2 arg3 harg3 arg4 harg4 arg5 harg5 arg6 harg6 hc0 hc1 x0 x1 x2 xs0).1)

/-- Case C's pieces for the accumulator, which the kernel carries between points, cover it (whole-buffer stores). -/
theorem scover9_C_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) (y : S1024x256.Idx) :
    ∃ pc ∈ (kernelRun9_C c i arg2 harg2 arg3 harg3 arg4 harg4 arg5 harg5 arg6 harg6 hc0 hc1 x0 x1 x2 xs0).2.1, y ∈ pc.1.set :=
  View.cover_of_tiledL (kernelRun9_C c i arg2 harg2 arg3 harg3 arg4 harg4 arg5 harg5 arg6 harg6 hc0 hc1 x0 x1 x2 xs0).2.1 S1024x256.size (by sl_kernel_rfl) y

/-- What case C leaves in the accumulator: its pieces read back over junk. -/
def sout9_C_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) : Vec F S1024x256 .f32 :=
  VS9_0.read (Elt F) (VS9_0.writes (Elt F) VS9_0.junk (kernelRun9_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt9 (c : Dev nD) : (n : ℕ) → n < cfg9.N → Vec F S1024x256 .f32 × Vec F S1024x256 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 8 = 0 then
      if h1 : (n + 1) % 8 = 7 then
        False.elim (by have hN : n + 1 < 64 := lt_of_lt_of_eq hn (show cfg9.N = 64 from N_9); omega)
      else
        (out9_A_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 8 = 7 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

/-- `outsAt9` at a point of case A: that case's contents. -/
theorem outsAt9_A (c : Dev nD) (t : Fin cfg9.N) (h0 : t.val % 8 = 0) (h1 : ¬t.val % 8 = 7) :
    outsAt9 V c t.val t.isLt = (out9_A_3 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t), sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

/-- `outsAt9` at a point of case B: that case's contents, over what the point before left. -/
theorem outsAt9_B (c : Dev nD) (t : Fin cfg9.N) (h0 : ¬t.val % 8 = 0) (h1 : ¬t.val % 8 = 7) :
    outsAt9 V c t.val t.isLt = (out9_B_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt9` at a point of case C: that case's contents, over what the point before left. -/
theorem outsAt9_C (c : Dev nD) (t : Fin cfg9.N) (h0 : ¬t.val % 8 = 0) (h1 : t.val % 8 = 7) :
    outsAt9 V c t.val t.isLt = (out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2)) ∗ Pipeline.scopedRestBut spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

/-- After point `n` (before point `n + 1`): the accumulator at that point's contents. -/
theorem PhiS9_succ (c : Dev nD) (n : ℕ) (hn : n < cfg9.N) :
    PhiS9 V c (n + 1) hn = iprop(iprop(iprop(owns (c : Thread nD τ) scM9_0 fullShare ((outsAt9 V c n hn).2)) ∗ Pipeline.scopedRestBut spec9 c [cc9_scratch0]) ∗ (∃ r, prngReg c r)) := rfl

/-- Before a point that is not the first: the accumulator at what the point before left. -/
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2)) ∗ Pipeline.scopedRestBut spec9 c [cc9_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt9`'s first component; the invariant
    `PhiS9`; nothing owed; full shares. -/
def dats9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

/-- The proof data's arrays are the region-entry contents. -/
theorem A_eq9 (c : Dev nD) (w : Fin cfg9.W) : (dats9 V c).A w = V c (Pipeline.arrRef spec9 w) := by
  dsimp only [dats9]

/-- The invariant at a point's start, restated at `t.val`. -/
theorem PhiS9_castSucc (c : Dev nD) (t : Fin cfg9.N) :
    (dats9 V c).Φ t.castSucc = PhiS9 V c t.val (Nat.le_of_lt t.isLt) := by
  dsimp only [dats9]; simp only [Fin.coe_castSucc]

/-- What the body leaves, window by window. -/
theorem after9_0 (c : Dev nD) (t : Fin cfg9.N) : (dats9 V c).after 0 t = iblk9 V c 0 t := by dsimp only [dats9]
theorem after9_1 (c : Dev nD) (t : Fin cfg9.N) : (dats9 V c).after 1 t = iblk9 V c 1 t := by dsimp only [dats9]
theorem after9_2 (c : Dev nD) (t : Fin cfg9.N) : (dats9 V c).after 2 t = iblk9 V c 2 t := by dsimp only [dats9]
theorem after9_3 (c : Dev nD) (t : Fin cfg9.N) : (dats9 V c).after 3 t = (outsAt9 V c t.val t.isLt).1 := by dsimp only [dats9]

/-- Each input's current staging buffer holds its block at every point, fetched there or not. -/
theorem before9_0 (c : Dev nD) (t : Fin cfg9.N) (d) : (dats9 V c).before 0 t d = iblk9 V c 0 t :=
  before9_0_of V (dats9 V c) (A_eq9 V c 0) (after9_0 V c) t d
theorem before9_1 (c : Dev nD) (t : Fin cfg9.N) (d) : (dats9 V c).before 1 t d = iblk9 V c 1 t :=
  before9_1_of V (dats9 V c) (A_eq9 V c 1) (after9_1 V c) t d
theorem before9_2 (c : Dev nD) (t : Fin cfg9.N) (d) : (dats9 V c).before 2 t d = iblk9 V c 2 t :=
  before9_2_of V (dats9 V c) (A_eq9 V c 2) (after9_2 V c) t d

/-! ## The body obligation, at a generic point -/

/-- What the body is called with at point `t` (the windows one by one), -/
def bodyPre9 (c : Dev nD) (t : Fin cfg9.N) : sProp 𝕄 :=
  iprop((dats9 V c).Φ t.castSucc ∗ (dats9 V c).owesAt () t.castSucc
    ∗ (∃ d, owns (c : Thread nD τ) (ms9_0 t) fullShare ((dats9 V c).before 0 t d))
    ∗ (∃ d, owns (c : Thread nD τ) (ms9_1 t) fullShare ((dats9 V c).before 1 t d))
    ∗ (∃ d, owns (c : Thread nD τ) (ms9_2 t) fullShare ((dats9 V c).before 2 t d))
    ∗ (∃ d, owns (c : Thread nD τ) (ms9_3 t) fullShare ((dats9 V c).before 3 t d)))

/-- and what it returns. -/
def bodyPost9 (c : Dev nD) (t : Fin cfg9.N) : sProp 𝕄 :=
  iprop((dats9 V c).Φ t.succ ∗ (dats9 V c).owesAt () t.succ
    ∗ (dats9 V c).leavesExact 0 t
    ∗ (dats9 V c).leavesExact 1 t
    ∗ (dats9 V c).leavesExact 2 t
    ∗ (dats9 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dats9 V c).owesAt () t.succ = (dats9 V c).owesAt () t.castSucc from rfl]
  rw [show (dats9 V c).Φ t.succ = PhiS9 V c (t.val + 1) t.isLt from rfl, PhiS9_succ]
  have hN : t.val < 64 := lt_of_lt_of_eq t.isLt (show cfg9.N = 64 from N_9)
  by_cases h0 : t.val % 8 = 0
  · by_cases h1 : t.val % 8 = 7
    · exfalso; omega
    ·
      rw [show (dats9 V c).leavesExact 0 t = owns (c : Thread nD τ) (ms9_0 t) fullShare ((dats9 V c).after 0 t) from by
        unfold Dat.leavesExact; rw [liveAt9_0 t], after9_0]
      rw [show (dats9 V c).leavesExact 1 t = owns (c : Thread nD τ) (ms9_1 t) fullShare ((dats9 V c).after 1 t) from by
        unfold Dat.leavesExact; rw [liveAt9_1 t], after9_1]
      rw [show (dats9 V c).leavesExact 2 t = owns (c : Thread nD τ) (ms9_2 t) fullShare ((dats9 V c).after 2 t) from by
        unfold Dat.leavesExact; rw [liveAt9_2 t], after9_2]
      rw [Dat.leavesExact_idle (dats9 V c) 3 t (idleAt9_3_A t ((hcond9_0 t).mpr h0) (fun h => h1 ((hcond9_1 t).mp h))) (noFlush9_3_A t ((hcond9_0 t).mpr h0) (fun h => h1 ((hcond9_1 t).mp h)))]
      rw [outsAt9_A V c t h0 h1]
      unfold sout9_A_0; (try dsimp only)
      by_cases hz : t.val = 0
      · rw [PhiS9_castSucc V c t, PhiS9_zero V c _ _ hz, PhiA9_eq]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats9 V c).leavesExact 0 t = owns (c : Thread nD τ) (ms9_0 t) fullShare ((dats9 V c).after 0 t) from by
        unfold Dat.leavesExact; rw [liveAt9_0 t], after9_0]
      rw [show (dats9 V c).leavesExact 1 t = owns (c : Thread nD τ) (ms9_1 t) fullShare ((dats9 V c).after 1 t) from by
        unfold Dat.leavesExact; rw [liveAt9_1 t], after9_1]
      rw [show (dats9 V c).leavesExact 2 t = owns (c : Thread nD τ) (ms9_2 t) fullShare ((dats9 V c).after 2 t) from by
        unfold Dat.leavesExact; rw [liveAt9_2 t], after9_2]
      rw [show (dats9 V c).leavesExact 3 t = owns (c : Thread nD τ) (ms9_3 t) fullShare ((dats9 V c).after 3 t) from by
        unfold Dat.leavesExact; rw [liveAt9_3_C t (fun h => h0 ((hcond9_0 t).mp h)) ((hcond9_1 t).mpr h1)], after9_3]
      rw [outsAt9_C V c t h0 h1]
      unfold out9_C_3 sout9_C_0; (try dsimp only)
      by_cases hz : t.val = 0
      · exfalso; have hN : t.val < 64 := lt_of_lt_of_eq t.isLt (show cfg9.N = 64 from N_9); omega
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover9_C_3 c _ _ _ _ _ _ _ _ _ _ _ _ _ _ _ _ _)
    ·
      rw [show (dats9 V c).leavesExact 0 t = owns (c : Thread nD τ) (ms9_0 t) fullShare ((dats9 V c).after 0 t) from by
        unfold Dat.leavesExact; rw [liveAt9_0 t], after9_0]
      rw [show (dats9 V c).leavesExact 1 t = owns (c : Thread nD τ) (ms9_1 t) fullShare ((dats9 V c).after 1 t) from by
        unfold Dat.leavesExact; rw [liveAt9_1 t], after9_1]
      rw [show (dats9 V c).leavesExact 2 t = owns (c : Thread nD τ) (ms9_2 t) fullShare ((dats9 V c).after 2 t) from by
        unfold Dat.leavesExact; rw [liveAt9_2 t], after9_2]
      rw [Dat.leavesExact_idle (dats9 V c) 3 t (idleAt9_3_B t (fun h => h0 ((hcond9_0 t).mp h)) (fun h => h1 ((hcond9_1 t).mp h))) (noFlush9_3_B t (fun h => h0 ((hcond9_0 t).mp h)) (fun h => h1 ((hcond9_1 t).mp h)))]
      rw [outsAt9_B V c t h0 h1]
      unfold sout9_B_0; (try dsimp only)
      by_cases hz : t.val = 0
      · exfalso; have hN : t.val < 64 := lt_of_lt_of_eq t.isLt (show cfg9.N = 64 from N_9); omega
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation9 (c : Dev nD) : BodyObligation (dats9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dats9 V c).Φ 0 := by
  rw [show (dats9 V c).Φ 0 = PhiS9 V c 0 (Nat.zero_le _) from rfl, PhiS9_zero V c 0 _ rfl]
  try exact Idealize.SL.BI.Entails.refl _

/-- After any point but the first the invariant gives the launch's back: the accumulator's named contents are forgotten. -/
theorem Phi_out9 (c : Dev nD) (t : Fin (cfg9.N + 1)) (ht : t.val ≠ 0) : (dats9 V c).Φ t ⊢ Pipeline.ΦA spec9 c := by
  rw [show (dats9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

/-- The same after the last point. -/
theorem hout9 (c : Dev nD) : (dats9 V c).Φ (Fin.last cfg9.N) ⊢ Pipeline.ΦA spec9 c :=
  Phi_out9 V c _ (by rw [Fin.val_last]; have : cfg9.N = 64 := N_9; omega)

end Cert.Kernel.Gen

end
-- ==== Proof.KGcn11Runs.lean ====
import proofs.«166906_j60567628808244_2_alg».proof.Proof.KGcn9Frame
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 11: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): unfetched, the block
    index has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): unfetched, the block
    index has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch conditions -/

/-- The condition of the body's first conditional (the reduction coordinate is 0: the accumulator is zeroed), from
    the grid coordinates. -/
abbrev cond11_0 (i : grid11.Coords) : Prop := (Scalar.cmpi .ne (Scalar.extui (Scalar.cmpi .eq (BitVec.ofNat 32 (i 1).val) 0#32)) 0#32) = 1#1
/-- It holds at the points ≡ 0 (mod 8) — decided over the grid. -/
theorem hcond11_0 : ∀ t : Fin cfg11.N, cond11_0 (grid11.coords t) ↔ t.val % 8 = 0 :=
  (by decide +kernel : ∀ t : Fin grid11.N, cond11_0 (grid11.coords t) ↔ t.val % 8 = 0)

/-- The condition of the body's second conditional (the reduction coordinate is the last: the accumulator is
    finalized into the output block), from the grid coordinates. -/
abbrev cond11_1 (i : grid11.Coords) : Prop := k11_cond2 i = 1#1
/-- It holds at the points ≡ 7 (mod 8) — decided over the grid. -/
theorem hcond11_1 : ∀ t : Fin cfg11.N, cond11_1 (grid11.coords t) ↔ t.val % 8 = 7 :=
  (by decide +kernel : ∀ t : Fin grid11.N, cond11_1 (grid11.coords t) ↔ t.val % 8 = 7)

/-! ## Where the windows are idle -/

/-- Windows 0, 1, 2 are never idle (inputs). -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
/-- At the points of case A the output window 3 is idle: the case stores nothing into it. -/
theorem idleAt11_3_A : ∀ t : Fin cfg11.N, cond11_0 (grid11.coords t) → ¬cond11_1 (grid11.coords t) → cfg11.idle 3 (grid11.coords t) = true := by decide +kernel
/-- At the points of case A the pipeline does not write output 3's block back. -/
theorem noFlush11_3_A : ∀ t : Fin cfg11.N, cond11_0 (grid11.coords t) → ¬cond11_1 (grid11.coords t) → (cfg11.win 3).flush t = false := by decide +kernel
/-- At the points of case B the output window 3 is idle: the case stores nothing into it. -/
theorem idleAt11_3_B : ∀ t : Fin cfg11.N, ¬cond11_0 (grid11.coords t) → ¬cond11_1 (grid11.coords t) → cfg11.idle 3 (grid11.coords t) = true := by decide +kernel
/-- At the points of case B the pipeline does not write output 3's block back. -/
theorem noFlush11_3_B : ∀ t : Fin cfg11.N, ¬cond11_0 (grid11.coords t) → ¬cond11_1 (grid11.coords t) → (cfg11.win 3).flush t = false := by decide +kernel
/-- At the points of case C the output window 3 is live: the case stores into it. -/
theorem liveAt11_3_C : ∀ t : Fin cfg11.N, ¬cond11_0 (grid11.coords t) → cond11_1 (grid11.coords t) → cfg11.idle 3 (grid11.coords t) = false := by decide +kernel

/-! ## The memrefs the body is called with -/

/-- One staging buffer of output window 3, through which its contents are stated (the choice does not matter). -/
abbrev VO11_3 : View sig .tc .vmem S1024x256 .f32 := (Memref.whole cc11_stg3_0 : Memref sig .tc .vmem S1024x256 .f32).view
/-- Each window's current staging memref at point `t`, spelled as the pipeline passes it, and its wholeness. -/
abbrev ms11_0 (t : Fin cfg11.N) : Memref sig .tc .vmem S1024x1024 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S8192x256 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x256 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1024x256 .f32 := win11_3.stage (cfg11.slots t 3)
abbrev hs11_3 (t : Fin cfg11.N) : (ms11_3 t).IsWhole := hstage11_3 ((cfg11.slots t 3).cast nbuf11_3)
/-- The scratch operand: a whole scoped buffer of the kernel's own, the accumulator, passed beside the windows. -/
abbrev scM11_0 : Memref sig .tc .vmem S1024x256 .f32 := Memref.whole cc11_scratch0
/-- The accumulator as a view: what it holds is stated through it. -/
abbrev VS11_0 : View sig .tc .vmem S1024x256 .f32 := scM11_0.view

/-- The region's invariant as the launch hands it over, with the accumulator as a memref owned at some contents and
    the other scoped buffers unopened. -/
theorem PhiA11_eq (c : Dev nD) :
    (Pipeline.ΦA spec11 c : sProp 𝕄)
      = iprop(iprop(iprop((∃ d, owns (c : Thread nD τ) scM11_0 fullShare d)) ∗ Pipeline.scopedRestBut spec11 c [cc11_scratch0]) ∗ (∃ r, prngReg c r)) := by
  unfold Pipeline.ΦA; rw [scopedRest11_split]; simp only [scM11_0, owns_whole]; try rfl

end Cert.Kernel.Gen

end
-- ==== Proof.KGcn11RunA.lean ====
import proofs.«166906_j60567628808244_2_alg».proof.Proof.KGcn11Runs

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun11_A (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gcn_matmul_kernel i arg2 harg2 arg3 harg3 arg4 harg4 arg5 harg5 arg6 harg6) K } := by
  refine ⟨[], ?_, fun xi3 E K => ?run⟩
  case run =>
    simp only [cc11__gcn_matmul_kernel_eq_skeleton]; unfold cc11__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn11RunB.lean ====
import proofs.«166906_j60567628808244_2_alg».proof.Proof.KGcn11RunA

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun11_B (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gcn_matmul_kernel i arg2 harg2 arg3 harg3 arg4 harg4 arg5 harg5 arg6 harg6) K } := by
  refine ⟨[], ?_, fun xi3 E K => ?run⟩
  case run =>
    simp only [cc11__gcn_matmul_kernel_eq_skeleton]; unfold cc11__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn11RunC.lean ====
import proofs.«166906_j60567628808244_2_alg».proof.Proof.KGcn11RunB

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun11_C (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc11__gcn_matmul_kernel i arg2 harg2 arg3 harg3 arg4 harg4 arg5 harg5 arg6 harg6) K } := by
  refine ⟨?_, ?_, fun E K => ?run⟩
  case run =>
    simp only [cc11__gcn_matmul_kernel_eq_skeleton]; unfold cc11__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KGcn11Frame.lean ====
import proofs.«166906_j60567628808244_2_alg».proof.Proof.KGcn11RunC

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 11: what the output block and the accumulator hold point by point, the proof data, the body obligation -/

/-- Case A stores nothing into the output block (the window is idle at its points and not written back there): no
    pieces — a placeholder (junk read back) that nothing consults. -/
def out11_A_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) : Vec F S1024x256 .f32 :=
  VO11_3.read (Elt F) (VO11_3.writes (Elt F) VO11_3.junk (kernelRun11_A c i arg2 harg2 arg3 harg3 arg4 harg4 arg5 harg5 arg6 harg6 hc0 hc1 x0 x1 x2).1)

/-- Case A's pieces for the accumulator, which the kernel carries between points, cover it (whole-buffer stores). -/
theorem scover11_A_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) (y : S1024x256.Idx) :
    ∃ pc ∈ (kernelRun11_A c i arg2 harg2 arg3 harg3 arg4 harg4 arg5 harg5 arg6 harg6 hc0 hc1 x0 x1 x2).2.1, y ∈ pc.1.set :=
  View.cover_of_tiledL (kernelRun11_A c i arg2 harg2 arg3 harg3 arg4 harg4 arg5 harg5 arg6 harg6 hc0 hc1 x0 x1 x2).2.1 S1024x256.size (by sl_kernel_rfl) y

/-- What case A leaves in the accumulator: its pieces read back over junk. -/
def sout11_A_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) : Vec F S1024x256 .f32 :=
  VS11_0.read (Elt F) (VS11_0.writes (Elt F) VS11_0.junk (kernelRun11_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out11_B_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) : Vec F S1024x256 .f32 :=
  VO11_3.read (Elt F) (VO11_3.writes (Elt F) VO11_3.junk (kernelRun11_B c i arg2 harg2 arg3 harg3 arg4 harg4 arg5 harg5 arg6 harg6 hc0 hc1 x0 x1 x2 xs0).1)

/-- Case B's pieces for the accumulator, which the kernel carries between points, cover it (whole-buffer stores). -/
theorem scover11_B_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) (y : S1024x256.Idx) :
    ∃ pc ∈ (kernelRun11_B c i arg2 harg2 arg3 harg3 arg4 harg4 arg5 harg5 arg6 harg6 hc0 hc1 x0 x1 x2 xs0).2.1, y ∈ pc.1.set :=
  View.cover_of_tiledL (kernelRun11_B c i arg2 harg2 arg3 harg3 arg4 harg4 arg5 harg5 arg6 harg6 hc0 hc1 x0 x1 x2 xs0).2.1 S1024x256.size (by sl_kernel_rfl) y

/-- What case B leaves in the accumulator: its pieces read back over junk. -/
def sout11_B_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) : Vec F S1024x256 .f32 :=
  VS11_0.read (Elt F) (VS11_0.writes (Elt F) VS11_0.junk (kernelRun11_B c i arg2 harg2 arg3 harg3 arg4 harg4 arg5 harg5 arg6 harg6 hc0 hc1 x0 x1 x2 xs0).2.1)

/-- Case C's pieces for the output block tile it (one store of the whole block), so they cover it. -/
theorem cover11_C_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) (y : S1024x256.Idx) :
    ∃ pc ∈ (kernelRun11_C c i arg2 harg2 arg3 harg3 arg4 harg4 arg5 harg5 arg6 harg6 hc0 hc1 x0 x1 x2 xs0).1, y ∈ pc.1.set :=
  View.cover_of_tiledL (kernelRun11_C c i arg2 harg2 arg3 harg3 arg4 harg4 arg5 harg5 arg6 harg6 hc0 hc1 x0 x1 x2 xs0).1 S1024x256.size (by sl_kernel_rfl) y

/-- What case C leaves in the output's staging buffer: its pieces read back over junk. -/
def out11_C_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) : Vec F S1024x256 .f32 :=
  VO11_3.read (Elt F) (VO11_3.writes (Elt F) VO11_3.junk (kernelRun11_C c i arg2 harg2 arg3 harg3 arg4 harg4 arg5 harg5 arg6 harg6 hc0 hc1 x0 x1 x2 xs0).1)

/-- Case C's pieces for the accumulator, which the kernel carries between points, cover it (whole-buffer stores). -/
theorem scover11_C_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) (y : S1024x256.Idx) :
    ∃ pc ∈ (kernelRun11_C c i arg2 harg2 arg3 harg3 arg4 harg4 arg5 harg5 arg6 harg6 hc0 hc1 x0 x1 x2 xs0).2.1, y ∈ pc.1.set :=
  View.cover_of_tiledL (kernelRun11_C c i arg2 harg2 arg3 harg3 arg4 harg4 arg5 harg5 arg6 harg6 hc0 hc1 x0 x1 x2 xs0).2.1 S1024x256.size (by sl_kernel_rfl) y

/-- What case C leaves in the accumulator: its pieces read back over junk. -/
def sout11_C_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) : Vec F S1024x256 .f32 :=
  VS11_0.read (Elt F) (VS11_0.writes (Elt F) VS11_0.junk (kernelRun11_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt11 (c : Dev nD) : (n : ℕ) → n < cfg11.N → Vec F S1024x256 .f32 × Vec F S1024x256 .f32
  | 0, hn => (out11_A_3 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩), sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if h0 : (n + 1) % 8 = 0 then
      if h1 : (n + 1) % 8 = 7 then
        False.elim (by have hN : n + 1 < 64 := lt_of_lt_of_eq hn (show cfg11.N = 64 from N_11); omega)
      else
        (out11_A_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩), sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩))
    else
      if h1 : (n + 1) % 8 = 7 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2, sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2)
      else
        (out11_B_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2, sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

/-- `outsAt11` at a point of case A: that case's contents. -/
theorem outsAt11_A (c : Dev nD) (t : Fin cfg11.N) (h0 : t.val % 8 = 0) (h1 : ¬t.val % 8 = 7) :
    outsAt11 V c t.val t.isLt = (out11_A_3 c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t), sout11_A_0 c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t)) := by
  obtain ⟨n, hn⟩ := t
  cases n with
  | zero => exact rfl
  | succ n => exact (dif_pos h0).trans ((dif_neg h1).trans rfl)

/-- `outsAt11` at a point of case B: that case's contents, over what the point before left. -/
theorem outsAt11_B (c : Dev nD) (t : Fin cfg11.N) (h0 : ¬t.val % 8 = 0) (h1 : ¬t.val % 8 = 7) :
    outsAt11 V c t.val t.isLt = (out11_B_3 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2, sout11_B_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt11` at a point of case C: that case's contents, over what the point before left. -/
theorem outsAt11_C (c : Dev nD) (t : Fin cfg11.N) (h0 : ¬t.val % 8 = 0) (h1 : t.val % 8 = 7) :
    outsAt11 V c t.val t.isLt = (out11_C_3 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2, sout11_C_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2)) ∗ Pipeline.scopedRestBut spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

/-- After point `n` (before point `n + 1`): the accumulator at that point's contents. -/
theorem PhiS11_succ (c : Dev nD) (n : ℕ) (hn : n < cfg11.N) :
    PhiS11 V c (n + 1) hn = iprop(iprop(iprop(owns (c : Thread nD τ) scM11_0 fullShare ((outsAt11 V c n hn).2)) ∗ Pipeline.scopedRestBut spec11 c [cc11_scratch0]) ∗ (∃ r, prngReg c r)) := rfl

/-- Before a point that is not the first: the accumulator at what the point before left. -/
theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2)) ∗ Pipeline.scopedRestBut spec11 c [cc11_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt11`'s first component; the invariant
    `PhiS11`; nothing owed; full shares. -/
def dats11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

/-- The proof data's arrays are the region-entry contents. -/
theorem A_eq11 (c : Dev nD) (w : Fin cfg11.W) : (dats11 V c).A w = V c (Pipeline.arrRef spec11 w) := by
  dsimp only [dats11]

/-- The invariant at a point's start, restated at `t.val`. -/
theorem PhiS11_castSucc (c : Dev nD) (t : Fin cfg11.N) :
    (dats11 V c).Φ t.castSucc = PhiS11 V c t.val (Nat.le_of_lt t.isLt) := by
  dsimp only [dats11]; simp only [Fin.coe_castSucc]

/-- What the body leaves, window by window. -/
theorem after11_0 (c : Dev nD) (t : Fin cfg11.N) : (dats11 V c).after 0 t = iblk11 V c 0 t := by dsimp only [dats11]
theorem after11_1 (c : Dev nD) (t : Fin cfg11.N) : (dats11 V c).after 1 t = iblk11 V c 1 t := by dsimp only [dats11]
theorem after11_2 (c : Dev nD) (t : Fin cfg11.N) : (dats11 V c).after 2 t = iblk11 V c 2 t := by dsimp only [dats11]
theorem after11_3 (c : Dev nD) (t : Fin cfg11.N) : (dats11 V c).after 3 t = (outsAt11 V c t.val t.isLt).1 := by dsimp only [dats11]

/-- Each input's current staging buffer holds its block at every point, fetched there or not. -/
theorem before11_0 (c : Dev nD) (t : Fin cfg11.N) (d) : (dats11 V c).before 0 t d = iblk11 V c 0 t :=
  before11_0_of V (dats11 V c) (A_eq11 V c 0) (after11_0 V c) t d
theorem before11_1 (c : Dev nD) (t : Fin cfg11.N) (d) : (dats11 V c).before 1 t d = iblk11 V c 1 t :=
  before11_1_of V (dats11 V c) (A_eq11 V c 1) (after11_1 V c) t d
theorem before11_2 (c : Dev nD) (t : Fin cfg11.N) (d) : (dats11 V c).before 2 t d = iblk11 V c 2 t :=
  before11_2_of V (dats11 V c) (A_eq11 V c 2) (after11_2 V c) t d

/-! ## The body obligation, at a generic point -/

/-- What the body is called with at point `t` (the windows one by one), -/
def bodyPre11 (c : Dev nD) (t : Fin cfg11.N) : sProp 𝕄 :=
  iprop((dats11 V c).Φ t.castSucc ∗ (dats11 V c).owesAt () t.castSucc
    ∗ (∃ d, owns (c : Thread nD τ) (ms11_0 t) fullShare ((dats11 V c).before 0 t d))
    ∗ (∃ d, owns (c : Thread nD τ) (ms11_1 t) fullShare ((dats11 V c).before 1 t d))
    ∗ (∃ d, owns (c : Thread nD τ) (ms11_2 t) fullShare ((dats11 V c).before 2 t d))
    ∗ (∃ d, owns (c : Thread nD τ) (ms11_3 t) fullShare ((dats11 V c).before 3 t d)))

/-- and what it returns. -/
def bodyPost11 (c : Dev nD) (t : Fin cfg11.N) : sProp 𝕄 :=
  iprop((dats11 V c).Φ t.succ ∗ (dats11 V c).owesAt () t.succ
    ∗ (dats11 V c).leavesExact 0 t
    ∗ (dats11 V c).leavesExact 1 t
    ∗ (dats11 V c).leavesExact 2 t
    ∗ (dats11 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dats11 V c).owesAt () t.succ = (dats11 V c).owesAt () t.castSucc from rfl]
  rw [show (dats11 V c).Φ t.succ = PhiS11 V c (t.val + 1) t.isLt from rfl, PhiS11_succ]
  have hN : t.val < 64 := lt_of_lt_of_eq t.isLt (show cfg11.N = 64 from N_11)
  by_cases h0 : t.val % 8 = 0
  · by_cases h1 : t.val % 8 = 7
    · exfalso; omega
    ·
      rw [show (dats11 V c).leavesExact 0 t = owns (c : Thread nD τ) (ms11_0 t) fullShare ((dats11 V c).after 0 t) from by
        unfold Dat.leavesExact; rw [liveAt11_0 t], after11_0]
      rw [show (dats11 V c).leavesExact 1 t = owns (c : Thread nD τ) (ms11_1 t) fullShare ((dats11 V c).after 1 t) from by
        unfold Dat.leavesExact; rw [liveAt11_1 t], after11_1]
      rw [show (dats11 V c).leavesExact 2 t = owns (c : Thread nD τ) (ms11_2 t) fullShare ((dats11 V c).after 2 t) from by
        unfold Dat.leavesExact; rw [liveAt11_2 t], after11_2]
      rw [Dat.leavesExact_idle (dats11 V c) 3 t (idleAt11_3_A t ((hcond11_0 t).mpr h0) (fun h => h1 ((hcond11_1 t).mp h))) (noFlush11_3_A t ((hcond11_0 t).mpr h0) (fun h => h1 ((hcond11_1 t).mp h)))]
      rw [outsAt11_A V c t h0 h1]
      unfold sout11_A_0; (try dsimp only)
      by_cases hz : t.val = 0
      · rw [PhiS11_castSucc V c t, PhiS11_zero V c _ _ hz, PhiA11_eq]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats11 V c).leavesExact 0 t = owns (c : Thread nD τ) (ms11_0 t) fullShare ((dats11 V c).after 0 t) from by
        unfold Dat.leavesExact; rw [liveAt11_0 t], after11_0]
      rw [show (dats11 V c).leavesExact 1 t = owns (c : Thread nD τ) (ms11_1 t) fullShare ((dats11 V c).after 1 t) from by
        unfold Dat.leavesExact; rw [liveAt11_1 t], after11_1]
      rw [show (dats11 V c).leavesExact 2 t = owns (c : Thread nD τ) (ms11_2 t) fullShare ((dats11 V c).after 2 t) from by
        unfold Dat.leavesExact; rw [liveAt11_2 t], after11_2]
      rw [show (dats11 V c).leavesExact 3 t = owns (c : Thread nD τ) (ms11_3 t) fullShare ((dats11 V c).after 3 t) from by
        unfold Dat.leavesExact; rw [liveAt11_3_C t (fun h => h0 ((hcond11_0 t).mp h)) ((hcond11_1 t).mpr h1)], after11_3]
      rw [outsAt11_C V c t h0 h1]
      unfold out11_C_3 sout11_C_0; (try dsimp only)
      by_cases hz : t.val = 0
      · exfalso; have hN : t.val < 64 := lt_of_lt_of_eq t.isLt (show cfg11.N = 64 from N_11); omega
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover11_C_3 c _ _ _ _ _ _ _ _ _ _ _ _ _ _ _ _ _)
    ·
      rw [show (dats11 V c).leavesExact 0 t = owns (c : Thread nD τ) (ms11_0 t) fullShare ((dats11 V c).after 0 t) from by
        unfold Dat.leavesExact; rw [liveAt11_0 t], after11_0]
      rw [show (dats11 V c).leavesExact 1 t = owns (c : Thread nD τ) (ms11_1 t) fullShare ((dats11 V c).after 1 t) from by
        unfold Dat.leavesExact; rw [liveAt11_1 t], after11_1]
      rw [show (dats11 V c).leavesExact 2 t = owns (c : Thread nD τ) (ms11_2 t) fullShare ((dats11 V c).after 2 t) from by
        unfold Dat.leavesExact; rw [liveAt11_2 t], after11_2]
      rw [Dat.leavesExact_idle (dats11 V c) 3 t (idleAt11_3_B t (fun h => h0 ((hcond11_0 t).mp h)) (fun h => h1 ((hcond11_1 t).mp h))) (noFlush11_3_B t (fun h => h0 ((hcond11_0 t).mp h)) (fun h => h1 ((hcond11_1 t).mp h)))]
      rw [outsAt11_B V c t h0 h1]
      unfold sout11_B_0; (try dsimp only)
      by_cases hz : t.val = 0
      · exfalso; have hN : t.val < 64 := lt_of_lt_of_eq t.isLt (show cfg11.N = 64 from N_11); omega
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_B c (grid11.coords t) _ _ _ _ _ _ _ _ _ _ (fun h => h0 ((hcond11_0 t).mp h)) (fun h => h1 ((hcond11_1 t).mp h)) (iblk11 V c 0 t) (iblk11 V c 1 t) (iblk11 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation11 (c : Dev nD) : BodyObligation (dats11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dats11 V c).Φ 0 := by
  rw [show (dats11 V c).Φ 0 = PhiS11 V c 0 (Nat.zero_le _) from rfl, PhiS11_zero V c 0 _ rfl]
  try exact Idealize.SL.BI.Entails.refl _

/-- After any point but the first the invariant gives the launch's back: the accumulator's named contents are forgotten. -/
theorem Phi_out11 (c : Dev nD) (t : Fin (cfg11.N + 1)) (ht : t.val ≠ 0) : (dats11 V c).Φ t ⊢ Pipeline.ΦA spec11 c := by
  rw [show (dats11 V c).Φ t = PhiS11 V c t.val (Nat.le_of_lt_succ t.isLt) from rfl, PhiS11_pos V c _ _ ht, PhiA11_eq]
  iintro ⟨⟨HS0, HR⟩, Hg⟩
  isplitl [HS0 HR]
  · isplitl [HS0]
    · iexists _; iexact HS0
    iexact HR
  iexact Hg

/-- The same after the last point. -/
theorem hout11 (c : Dev nD) : (dats11 V c).Φ (Fin.last cfg11.N) ⊢ Pipeline.ΦA spec11 c :=
  Phi_out11 V c _ (by rw [Fin.val_last]; have : cfg11.N = 64 := N_11; omega)

end Cert.Kernel.Gen

end
-- ==== Proof.KGcn2Runs.lean ====
import proofs.«166906_j60567628808244_2_alg».proof.Proof.KGcn11Frame
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 2: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reduction coordinate is 0: the accumulator is zeroed), from
    the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the reduction coordinate is the last: the accumulator is
    finalized into the output block), from the grid coordinates. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Windows 0, 1, 2 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A the output window 3 is idle: the case stores nothing into it. -/
theorem idleAt2_3_A : ∀ t : Fin cfg2.N, cond2_0 (grid2.coords t) → ¬cond2_1 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → (cfg2.win 3).flush t = false := by decide +kernel
/-- At the points of case B the output window 3 is idle: the case stores nothing into it. -/
theorem idleAt2_3_B : ∀ t : Fin cfg2.N, ¬cond2_0 (grid2.coords t) → ¬cond2_1 (grid2.coords t) → cfg2.idle 3 (grid2.coords t) = true := by decide +kernel
/-- At the points of case B the pipeline does not write output 3's block back. -/
theorem noFlush2_3_B : ∀ t : Fin cfg2.N, ¬cond2_0 (grid2.coords t) → ¬cond2_1 (grid2.coords t) → (cfg2.win 3).flush t = false := by decide +kernel
/-- At the points of case C the output window 3 is live: the case stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of output window 3, through which its contents are stated (the choice does not matter). -/
abbrev VO2_3 : View sig .tc .vmem S1024x1024 .f32 := (Memref.whole cc2_stg3_0 : Memref sig .tc .vmem S1024x1024 .f32).view
/-- Each window's current staging memref at point `t`, spelled as the pipeline passes it, and its wholeness. -/
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The scratch operand: a whole scoped buffer of the kernel's own, the accumulator, passed beside the windows. -/
abbrev scM2_0 : Memref sig .tc .vmem S1024x1024 .f32 := Memref.whole cc2_scratch0
/-- The accumulator as a view: what it holds is stated through it. -/
abbrev VS2_0 : View sig .tc .vmem S1024x1024 .f32 := scM2_0.view

/-- The region's invariant as the launch hands it over, with the accumulator as a memref owned at some contents and
    the other scoped buffers unopened. -/
theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

end Cert.Kernel.Gen

end
-- ==== Proof.KGcn2RunA.lean ====
import proofs.«166906_j60567628808244_2_alg».proof.Proof.KGcn2Runs

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun2_A (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_matmul_kernel i arg2 harg2 arg3 harg3 arg4 harg4 arg5 harg5 arg6 harg6) K } := by
  refine ⟨[], ?_, fun xi3 E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn2RunB.lean ====
import proofs.«166906_j60567628808244_2_alg».proof.Proof.KGcn2RunA

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun2_B (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_matmul_kernel i arg2 harg2 arg3 harg3 arg4 harg4 arg5 harg5 arg6 harg6) K } := by
  refine ⟨[], ?_, fun xi3 E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KGcn2RunC.lean ====
import proofs.«166906_j60567628808244_2_alg».proof.Proof.KGcn2RunB

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun2_C (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_matmul_kernel i arg2 harg2 arg3 harg3 arg4 harg4 arg5 harg5 arg6 harg6) K } := by
  refine ⟨?_, ?_, fun E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KGcn2Frame.lean ====
import proofs.«166906_j60567628808244_2_alg».proof.Proof.KGcn2RunC

-- membership in a rectangle of production extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 2: what the output block and the accumulator hold point by point, the proof data, the body obligation -/

/-- Case A stores nothing into the output block (the window is idle at its points and not written back there): no
    pieces — a placeholder (junk read back) that nothing consults. -/
def out2_A_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) : Vec F S1024x1024 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the accumulator, which the kernel carries between points, cover it (whole-buffer stores). -/
theorem scover2_A_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) (y : S1024x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1024x1024.size (by sl_kernel_rfl) y

/-- What case A leaves in the accumulator: its pieces read back over junk. -/
def sout2_A_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) : Vec F S1024x1024 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out2_B_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) : Vec F S1024x1024 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the accumulator, which the kernel carries between points, cover it (whole-buffer stores). -/
theorem scover2_B_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) (y : S1024x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S1024x1024.size (by sl_kernel_rfl) y

/-- What case B leaves in the accumulator: its pieces read back over junk. -/
def sout2_B_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) : Vec F S1024x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for the output block tile it (one store of the whole block), so they cover it. -/
theorem cover2_C_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) (y : S1024x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1024x1024.size (by sl_kernel_rfl) y

/-- What case C leaves in the output's staging buffer: its pieces read back over junk. -/
def out2_C_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) : Vec F S1024x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the accumulator, which the kernel carries between points, cover it (whole-buffer stores). -/
theorem scover2_C_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) (y : S1024x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1024x1024.size (by sl_kernel_rfl) y

/-- What case C leaves in the accumulator: its pieces read back over junk. -/
def sout2_C_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) : Vec F S1024x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by have hN : n + 1 < 128 := lt_of_lt_of_eq hn (show cfg2.N = 128 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut spec2 c [cc2_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant
    `PhiS2`; nothing owed; full shares. -/
def dats2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dats2 V c).A w = V c (Pipeline.arrRef spec2 w) := by
  dsimp only [dats2]

/-- The invariant at a point's start, restated at `t.val`. -/
theorem PhiS2_castSucc (c : Dev nD) (t : Fin cfg2.N) :
    (dats2 V c).Φ t.castSucc = PhiS2 V c t.val (Nat.le_of_lt t.isLt) := by
  dsimp only [dats2]; simp only [Fin.coe_castSucc]

/-- What the body leaves, window by window. -/
theorem after2_0 (c : Dev nD) (t : Fin cfg2.N) : (dats2 V c).after 0 t = iblk2 V c 0 t := by dsimp only [dats2]
theorem after2_1 (c : Dev nD) (t : Fin cfg2.N) : (dats2 V c).after 1 t = iblk2 V c 1 t := by dsimp only [dats2]
theorem after2_2 (c : Dev nD) (t : Fin cfg2.N) : (dats2 V c).after 2 t = iblk2 V c 2 t := by dsimp only [dats2]
theorem after2_3 (c : Dev nD) (t : Fin cfg2.N) : (dats2 V c).after 3 t = (outsAt2 V c t.val t.isLt).1 := by dsimp only [dats2]

/-- Each input's current staging buffer holds its block at every point, fetched there or not. -/
theorem before2_0 (c : Dev nD) (t : Fin cfg2.N) (d) : (dats2 V c).before 0 t d = iblk2 V c 0 t :=
  before2_0_of V (dats2 V c) (A_eq2 V c 0) (after2_0 V c) t d
theorem before2_1 (c : Dev nD) (t : Fin cfg2.N) (d) : (dats2 V c).before 1 t d = iblk2 V c 1 t :=
  before2_1_of V (dats2 V c) (A_eq2 V c 1) (after2_1 V c) t d
theorem before2_2 (c : Dev nD) (t : Fin cfg2.N) (d) : (dats2 V c).before 2 t d = iblk2 V c 2 t :=
  before2_2_of V (dats2 V c) (A_eq2 V c 2) (after2_2 V c) t d

/-! ## The body obligation, at a generic point -/

/-- What the body is called with at point `t` (the windows one by one), -/
def bodyPre2 (c : Dev nD) (t : Fin cfg2.N) : sProp 𝕄 :=
  iprop((dats2 V c).Φ t.castSucc ∗ (dats2 V c).owesAt () t.castSucc
    ∗ (∃ d, owns (c : Thread nD τ) (ms2_0 t) fullShare ((dats2 V c).before 0 t d))
    ∗ (∃ d, owns (c : Thread nD τ) (ms2_1 t) fullShare ((dats2 V c).before 1 t d))
    ∗ (∃ d, owns (c : Thread nD τ) (ms2_2 t) fullShare ((dats2 V c).before 2 t d))
    ∗ (∃ d, owns (c : Thread nD τ) (ms2_3 t) fullShare ((dats2 V c).before 3 t d)))

/-- and what it returns. -/
def bodyPost2 (c : Dev nD) (t : Fin cfg2.N) : sProp 𝕄 :=
  iprop((dats2 V c).Φ t.succ ∗ (dats2 V c).owesAt () t.succ
    ∗ (dats2 V c).leavesExact 0 t
    ∗ (dats2 V c).leavesExact 1 t
    ∗ (dats2 V c).leavesExact 2 t
    ∗ (dats2 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dats2 V c).owesAt () t.succ = (dats2 V c).owesAt () t.castSucc from rfl]
  rw [show (dats2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : t.val % 16 = 15
    · exfalso; omega
    ·
      rw [show (dats2 V c).leavesExact 0 t = owns (c : Thread nD τ) (ms2_0 t) fullShare ((dats2 V c).after 0 t) from by
        unfold Dat.leavesExact; rw [liveAt2_0 t], after2_0]
      rw [show (dats2 V c).leavesExact 1 t = owns (c : Thread nD τ) (ms2_1 t) fullShare ((dats2 V c).after 1 t) from by
        unfold Dat.leavesExact; rw [liveAt2_1 t], after2_1]
      rw [show (dats2 V c).leavesExact 2 t = owns (c : Thread nD τ) (ms2_2 t) fullShare ((dats2 V c).after 2 t) from by
        unfold Dat.leavesExact; rw [liveAt2_2 t], after2_2]
      rw [Dat.leavesExact_idle (dats2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    ·
      rw [show (dats2 V c).leavesExact 0 t = owns (c : Thread nD τ) (ms2_0 t) fullShare ((dats2 V c).after 0 t) from by
        unfold Dat.leavesExact; rw [liveAt2_0 t], after2_0]
      rw [show (dats2 V c).leavesExact 1 t = owns (c : Thread nD τ) (ms2_1 t) fullShare ((dats2 V c).after 1 t) from by
        unfold Dat.leavesExact; rw [liveAt2_1 t], after2_1]
      rw [show (dats2 V c).leavesExact 2 t = owns (c : Thread nD τ) (ms2_2 t) fullShare ((dats2 V c).after 2 t) from by
        unfold Dat.leavesExact; rw [liveAt2_2 t], after2_2]
      rw [show (dats2 V c).leavesExact 3 t = owns (c : Thread nD τ) (ms2_3 t) fullShare ((dats2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; have hN : t.val < 128 := lt_of_lt_of_eq t.isLt (show cfg2.N = 128 from N_2); omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dats2 V c).leavesExact 0 t = owns (c : Thread nD τ) (ms2_0 t) fullShare ((dats2 V c).after 0 t) from by
        unfold Dat.leavesExact; rw [liveAt2_0 t], after2_0]
      rw [show (dats2 V c).leavesExact 1 t = owns (c : Thread nD τ) (ms2_1 t) fullShare ((dats2 V c).after 1 t) from by
        unfold Dat.leavesExact; rw [liveAt2_1 t], after2_1]
      rw [show (dats2 V c).leavesExact 2 t = owns (c : Thread nD τ) (ms2_2 t) fullShare ((dats2 V c).after 2 t) from by
        unfold Dat.leavesExact; rw [liveAt2_2 t], after2_2]
      rw [Dat.leavesExact_idle (dats2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; have hN : t.val < 128 := lt_of_lt_of_eq t.isLt (show cfg2.N = 128 from N_2); omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dats2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dats2 V c).Φ 0 := by
  rw [show (dats2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dats2 V c).Φ t ⊢ Pipeline.ΦA spec2 c := by
  rw [show (dats2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dats2 V c).Φ (Fin.last cfg2.N) ⊢ Pipeline.ΦA spec2 c :=
  Phi_out2 V c _ (by rw [Fin.val_last]; have : cfg2.N = 128 := N_2; omega)

end Cert.Kernel.Gen

end
-- ==== Proof.KDense5.lean ====
/-
  Region 5 of the main function: a dense product x · W on a grid of 8 row blocks.

  At each point the body loads the 1024-row block of x, loads the whole of W, and stores one payload — the rounded
  product of the rounded operands — over the whole 1024-row output block.  So what the body leaves in the output
  window's buffer is a closed function of the two input blocks (`out5_2`), the input buffers are left as found, and
  the body obligation of the pipeline holds at every point, for any number format.
-/
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point (it is fetched at every point), for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the whole of W, fetched at the first point only) holds its block at every point, fetched there or
    not: where it is not fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1024x512 := Rect.unit (s := S1024x512) ![0, 0] S1024x512.size inb_S1024x512_S1024x512_0_0
abbrev r5_1 : Rect S512x256 := Rect.unit (s := S512x256) ![0, 0] S512x256.size inb_S512x256_S512x256_0_0
abbrev r5_2 : Rect S1024x256 := Rect.unit (s := S1024x256) ![0, 0] S1024x256.size inb_S1024x256_S1024x256_0_0

/-! ## What the body leaves in the output window's buffer -/

/-- Window 2's buffer after the body, from the input windows' blocks: its one store, of the whole block. -/
def out5_2 (x0 : Vec F S1024x512 .f32) (x1 : Vec F S512x256 .f32) : Vec F S1024x256 .bf16 :=
  View.canon [⟨r5_2, k5_pay1 (View.ld x0 r5_0) (View.ld x1 r5_1)⟩]

/-- The store is of the whole block, so it covers it. -/
theorem cover5_2 (p0 : Vec F S1024x256 .bf16) (y : S1024x256.Idx) :
    ∃ pc ∈ ([⟨r5_2, p0⟩] : List (View.Piece (Elt F) S1024x256 .bf16)), y ∈ pc.1.set :=
  View.cover_of_tiled [⟨r5_2, p0⟩] S1024x256.size (by rfl) y

/-! ## The body's triple -/

set_option maxHeartbeats 1000000 in
/-- The kernel body on whole memrefs, the inputs' at read contents `x0`, `x1` and the output's at anything, runs to the
    continuation holding the inputs' as they were and the output's at `out5_2` of the inputs'. -/
theorem sound_kernel5 (c : Dev nD) (E : Set ℕ) (i : grid5.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__dense_matmul_kernel i arg1 harg1 arg2 harg2 arg3 harg3) K := by
  simp only [cc5__dense_matmul_kernel_eq_skeleton]; unfold cc5__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region's pipeline on core `c`: the arrays as the region finds them (`V`); after the body at
    point `t` each input's buffer at its block and the output's at `out5_2` of the input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Gen

end
-- ==== Proof.KDense6.lean ====
/-
  Region 6 of the main function: a dense product x · W on a grid of 8 row blocks.

  At each point the body loads the 1024-row block of x, loads the whole of W, and stores one payload — the rounded
  product of the rounded operands — over the whole 1024-row output block.  So what the body leaves in the output
  window's buffer is a closed function of the two input blocks (`out6_2`), the input buffers are left as found, and
  the body obligation of the pipeline holds at every point, for any number format.
-/
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current buffer holds its block at every point (it is fetched at every point), for any proof data
    whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the whole of W, fetched at the first point only) holds its block at every point, fetched there or
    not: where it is not fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1024x512 := Rect.unit (s := S1024x512) ![0, 0] S1024x512.size inb_S1024x512_S1024x512_0_0
abbrev r6_1 : Rect S512x256 := Rect.unit (s := S512x256) ![0, 0] S512x256.size inb_S512x256_S512x256_0_0
abbrev r6_2 : Rect S1024x256 := Rect.unit (s := S1024x256) ![0, 0] S1024x256.size inb_S1024x256_S1024x256_0_0

/-! ## What the body leaves in the output window's buffer -/

/-- Window 2's buffer after the body, from the input windows' blocks: its one store, of the whole block. -/
def out6_2 (x0 : Vec F S1024x512 .f32) (x1 : Vec F S512x256 .f32) : Vec F S1024x256 .bf16 :=
  View.canon [⟨r6_2, k6_pay1 (View.ld x0 r6_0) (View.ld x1 r6_1)⟩]

/-- The store is of the whole block, so it covers it. -/
theorem cover6_2 (p0 : Vec F S1024x256 .bf16) (y : S1024x256.Idx) :
    ∃ pc ∈ ([⟨r6_2, p0⟩] : List (View.Piece (Elt F) S1024x256 .bf16)), y ∈ pc.1.set :=
  View.cover_of_tiled [⟨r6_2, p0⟩] S1024x256.size (by rfl) y

/-! ## The body's triple -/

set_option maxHeartbeats 1000000 in
/-- The kernel body on whole memrefs, the inputs' at read contents `x0`, `x1` and the output's at anything, runs to the
    continuation holding the inputs' as they were and the output's at `out6_2` of the inputs'. -/
theorem sound_kernel6 (c : Dev nD) (E : Set ℕ) (i : grid6.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region's pipeline on core `c`: the arrays as the region finds them (`V`); after the body at
    point `t` each input's buffer at its block and the output's at `out6_2` of the input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Gen

end
-- ==== Proof.KDense8.lean ====
/-
  Region 8 of the main function: a dense product x · W on a grid of 8 row blocks.

  At each point the body loads the 1024-row block of x, loads the whole of W, and stores one payload — the rounded
  product of the rounded operands — over the whole 1024-row output block.  So what the body leaves in the output
  window's buffer is a closed function of the two input blocks (`out8_2`), the input buffers are left as found, and
  the body obligation of the pipeline holds at every point, for any number format.
-/
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point (it is fetched at every point), for any proof data
    whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the whole of W, fetched at the first point only) holds its block at every point, fetched there or
    not: where it is not fetched its block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S1024x512 := Rect.unit (s := S1024x512) ![0, 0] S1024x512.size inb_S1024x512_S1024x512_0_0
abbrev r8_1 : Rect S512x256 := Rect.unit (s := S512x256) ![0, 0] S512x256.size inb_S512x256_S512x256_0_0
abbrev r8_2 : Rect S1024x256 := Rect.unit (s := S1024x256) ![0, 0] S1024x256.size inb_S1024x256_S1024x256_0_0

/-! ## What the body leaves in the output window's buffer -/

/-- Window 2's buffer after the body, from the input windows' blocks: its one store, of the whole block. -/
def out8_2 (x0 : Vec F S1024x512 .f32) (x1 : Vec F S512x256 .f32) : Vec F S1024x256 .bf16 :=
  View.canon [⟨r8_2, k8_pay1 (View.ld x0 r8_0) (View.ld x1 r8_1)⟩]

/-- The store is of the whole block, so it covers it. -/
theorem cover8_2 (p0 : Vec F S1024x256 .bf16) (y : S1024x256.Idx) :
    ∃ pc ∈ ([⟨r8_2, p0⟩] : List (View.Piece (Elt F) S1024x256 .bf16)), y ∈ pc.1.set :=
  View.cover_of_tiled [⟨r8_2, p0⟩] S1024x256.size (by rfl) y

/-! ## The body's triple -/

set_option maxHeartbeats 1000000 in
/-- The kernel body on whole memrefs, the inputs' at read contents `x0`, `x1` and the output's at anything, runs to the
    continuation holding the inputs' as they were and the output's at `out8_2` of the inputs'. -/
theorem sound_kernel8 (c : Dev nD) (E : Set ℕ) (i : grid8.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__dense_matmul_kernel i arg1 harg1 arg2 harg2 arg3 harg3) K := by
  simp only [cc8__dense_matmul_kernel_eq_skeleton]; unfold cc8__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region's pipeline on core `c`: the arrays as the region finds them (`V`); after the body at
    point `t` each input's buffer at its block and the output's at `out8_2` of the input blocks; the invariant the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Region8

end Cert.Kernel.Gen

end
-- ==== Proof.KDense10.lean ====
/-
  Region 10 of the main function: a dense product x · W on a grid of 8 row blocks.

  At each point the body loads the 1024-row block of x, loads the whole of W, and stores one payload — the rounded
  product of the rounded operands — over the whole 1024-row output block.  So what the body leaves in the output
  window's buffer is a closed function of the two input blocks (`out10_2`), the input buffers are left as found, and
  the body obligation of the pipeline holds at every point, for any number format.
-/
import proofs.«166906_j60567628808244_2_alg».proof.Proof.Gen.Kernel.Launch
import proofs.«166906_j60567628808244_2_alg».proof.Proof.Gen.Kernel.Skeleton
import proofs.«166906_j60567628808244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current buffer holds its block at every point (it is fetched at every point), for any proof data
    whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the whole of W, fetched at the first point only) holds its block at every point, fetched there or
    not: where it is not fetched its block index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S1024x512 := Rect.unit (s := S1024x512) ![0, 0] S1024x512.size inb_S1024x512_S1024x512_0_0
abbrev r10_1 : Rect S512x256 := Rect.unit (s := S512x256) ![0, 0] S512x256.size inb_S512x256_S512x256_0_0
abbrev r10_2 : Rect S1024x256 := Rect.unit (s := S1024x256) ![0, 0] S1024x256.size inb_S1024x256_S1024x256_0_0

/-! ## What the body leaves in the output window's buffer -/

/-- Window 2's buffer after the body, from the input windows' blocks: its one store, of the whole block. -/
def out10_2 (x0 : Vec F S1024x512 .f32) (x1 : Vec F S512x256 .f32) : Vec F S1024x256 .bf16 :=
  View.canon [⟨r10_2, k10_pay1 (View.ld x0 r10_0) (View.ld x1 r10_1)⟩]

/-- The store is of the whole block, so it covers it. -/
theorem cover10_2 (p0 : Vec F S1024x256 .bf16) (y : S1024x256.Idx) :
    ∃ pc ∈ ([⟨r10_2, p0⟩] : List (View.Piece (Elt F) S1024x256 .bf16)), y ∈ pc.1.set :=
  View.cover_of_tiled [⟨r10_2, p0⟩] S1024x256.size (by rfl) y

/-! ## The body's triple -/

set_option maxHeartbeats 1000000 in
/-- The kernel body on whole memrefs, the inputs' at read contents `x0`, `x1` and the output's at anything, runs to the
    continuation holding the inputs' as they were and the output's at `out10_2` of the inputs'. -/
theorem sound_kernel10 (c : Dev nD) (E : Set ℕ) (i : grid10.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10_2 x0 x1)) -∗ K ⟨⟩))
      ⊢ wp frame (wpE (defs₀ (F := F)) Variants.none c none) E (cc10__dense_matmul_kernel i arg1 harg1 arg2 harg2 arg3 harg3) K := by
  simp only [cc10__dense_matmul_kernel_eq_skeleton]; unfold cc10__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of the region's pipeline on core `c`: the arrays as the region finds them (`V`); after the body at
    point `t` each input's buffer at its block and the output's at `out10_2` of the input blocks; the invariant the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Region10

end Cert.Kernel.Gen

end
-- ==== Proof.KRun.lean ====
/-
  The run of the whole program: its twelve kernel regions among its stretches of host operations, composed in order.

  Between two items every unscoped buffer of the TensorCore is held at a valuation `W J`, a fold from the launch
  memory: a host stretch applies its operations; a region leaves each of its arrays at what its write-backs leave
  (an input array as it was entered, the output array at the pipeline's accumulated blocks) and every other buffer as
  it was.  Each region is entered with its arrays split out of the held buffers and left with them put back; the
  generator register and the (empty) debt of the core ride along.  The conclusion reads every unscoped buffer off the
  last valuation `W19`; the argument arrays walk back through the fold to the launch memory, since no item writes one.
-/
import proofs.«166906_j60567628808244_2_alg».proof.Proof.Gen.Kernel.Regions
import proofs.«166906_j60567628808244_2_alg».proof.Proof.KDense0
import proofs.«166906_j60567628808244_2_alg».proof.Proof.KDense1
import proofs.«166906_j60567628808244_2_alg».proof.Proof.KGcn2Frame
import proofs.«166906_j60567628808244_2_alg».proof.Proof.KGcn3Frame
import proofs.«166906_j60567628808244_2_alg».proof.Proof.KGcn4Frame
import proofs.«166906_j60567628808244_2_alg».proof.Proof.KDense5
import proofs.«166906_j60567628808244_2_alg».proof.Proof.KDense6
import proofs.«166906_j60567628808244_2_alg».proof.Proof.KGcn7Frame
import proofs.«166906_j60567628808244_2_alg».proof.Proof.KDense8
import proofs.«166906_j60567628808244_2_alg».proof.Proof.KGcn9Frame
import proofs.«166906_j60567628808244_2_alg».proof.Proof.KDense10
import proofs.«166906_j60567628808244_2_alg».proof.Proof.KGcn11Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-- Core `c`'s buffers at launch. -/
abbrev W0 : Dev nD → Valuation τ sig (Elt F) := fun c b => (s₀ m ρ).mem ((c : Dev nD), b)
/-- After region 0 (item 0): its arrays at what the pipeline leaves, every other buffer as entered. -/
def W1 (c : Dev nD) : Valuation τ sig (Elt F) :=
  Pipeline.withArrays spec0 c (W0 m ρ c) fun w => (dat0 (rd (W0 m ρ)) c).arrAt w cfg0.N
theorem W1_arr (c : Dev nD) (w : Fin cfg0.W) :
    W1 m ρ c (Proc.devRef .tc (Pipeline.arrRef spec0 w)) = (dat0 (rd (W0 m ρ)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (dat0 (rd (W0 m ρ)) c).arrAt w cfg0.N = rd (W1 m ρ) c (Pipeline.arrRef spec0 w) :=
  (W1_arr m ρ c w).symm
theorem hrest0 (c : Dev nD) : ∀ b, b ∉ Finset.univ.image (Pipeline.arrRef spec0) → rd (W1 m ρ) c b = rd (W0 m ρ) c b :=
  fun b hb => W1_of_ne m ρ c b fun w e => hb (Finset.mem_image.mpr ⟨w, Finset.mem_univ _, e⟩)
/-- Region 0 changes only its output array `main_v0`: an input array is left as entered, any other buffer bypasses it. -/
theorem W1_keep (c : Dev nD) (b : Ref sig .tc) (hb : b ≠ main_v0) : W1 m ρ c b = W0 m ρ c b := by
  by_cases h0 : b = main_arg0
  · subst h0; exact (W1_arr m ρ c 0).trans (((dat0 (rd (W0 m ρ)) c).arrAt_in 0 rfl _).trans (A_eq0 (rd (W0 m ρ)) c 0))
  by_cases h1 : b = main_arg5
  · subst h1; exact (W1_arr m ρ c 1).trans (((dat0 (rd (W0 m ρ)) c).arrAt_in 1 rfl _).trans (A_eq0 (rd (W0 m ρ)) c 1))
  exact W1_of_ne m ρ c b fun w => by
    match w with
    | ⟨0, _⟩ => exact fun e => h0 e.symm
    | ⟨1, _⟩ => exact fun e => h1 e.symm
    | ⟨2, _⟩ => exact fun e => hb e.symm
/-- After region 1 (item 1): its arrays at what the pipeline leaves, every other buffer as entered. -/
def W2 (c : Dev nD) : Valuation τ sig (Elt F) :=
  Pipeline.withArrays spec1 c (W1 m ρ c) fun w => (dat1 (rd (W1 m ρ)) c).arrAt w cfg1.N
theorem W2_arr (c : Dev nD) (w : Fin cfg1.W) :
    W2 m ρ c (Proc.devRef .tc (Pipeline.arrRef spec1 w)) = (dat1 (rd (W1 m ρ)) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (dat1 (rd (W1 m ρ)) c).arrAt w cfg1.N = rd (W2 m ρ) c (Pipeline.arrRef spec1 w) :=
  (W2_arr m ρ c w).symm
theorem hrest1 (c : Dev nD) : ∀ b, b ∉ Finset.univ.image (Pipeline.arrRef spec1) → rd (W2 m ρ) c b = rd (W1 m ρ) c b :=
  fun b hb => W2_of_ne m ρ c b fun w e => hb (Finset.mem_image.mpr ⟨w, Finset.mem_univ _, e⟩)
/-- Region 1 changes only its output array `main_v1`: an input array is left as entered, any other buffer bypasses it. -/
theorem W2_keep (c : Dev nD) (b : Ref sig .tc) (hb : b ≠ main_v1) : W2 m ρ c b = W1 m ρ c b := by
  by_cases h0 : b = main_arg1
  · subst h0; exact (W2_arr m ρ c 0).trans (((dat1 (rd (W1 m ρ)) c).arrAt_in 0 rfl _).trans (A_eq1 (rd (W1 m ρ)) c 0))
  by_cases h1 : b = main_arg5
  · subst h1; exact (W2_arr m ρ c 1).trans (((dat1 (rd (W1 m ρ)) c).arrAt_in 1 rfl _).trans (A_eq1 (rd (W1 m ρ)) c 1))
  exact W2_of_ne m ρ c b fun w => by
    match w with
    | ⟨0, _⟩ => exact fun e => h0 e.symm
    | ⟨1, _⟩ => exact fun e => h1 e.symm
    | ⟨2, _⟩ => exact fun e => hb e.symm
/-- After the host stretch `hostOps2` (item 2). -/
abbrev W3 : Dev nD → Valuation τ sig (Elt F) := fun c => StableHlo.after hostOps2 (W2 m ρ c)
theorem W3_keep (c : Dev nD) (b : Ref sig .tc) (hb : b ∉ hostOps2_W) : W3 m ρ c b = W2 m ρ c b :=
  StableHlo.after_of_writes_sub hostOps2 _ hostOps2_writes hb
/-- After region 2 (item 3): its arrays at what the pipeline leaves, every other buffer as entered. -/
def W4 (c : Dev nD) : Valuation τ sig (Elt F) :=
  Pipeline.withArrays spec2 c (W3 m ρ c) fun w => (dats2 (rd (W3 m ρ)) c).arrAt w cfg2.N
theorem W4_arr (c : Dev nD) (w : Fin cfg2.W) :
    W4 m ρ c (Proc.devRef .tc (Pipeline.arrRef spec2 w)) = (dats2 (rd (W3 m ρ)) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (dats2 (rd (W3 m ρ)) c).arrAt w cfg2.N = rd (W4 m ρ) c (Pipeline.arrRef spec2 w) :=
  (W4_arr m ρ c w).symm
theorem hrest2 (c : Dev nD) : ∀ b, b ∉ Finset.univ.image (Pipeline.arrRef spec2) → rd (W4 m ρ) c b = rd (W3 m ρ) c b :=
  fun b hb => W4_of_ne m ρ c b fun w e => hb (Finset.mem_image.mpr ⟨w, Finset.mem_univ _, e⟩)
/-- Region 2 changes only its output array `main_v5`: an input array is left as entered, any other buffer bypasses it. -/
theorem W4_keep (c : Dev nD) (b : Ref sig .tc) (hb : b ≠ main_v5) : W4 m ρ c b = W3 m ρ c b := by
  by_cases h0 : b = main_arg2
  · subst h0; exact (W4_arr m ρ c 0).trans (((dats2 (rd (W3 m ρ)) c).arrAt_in 0 rfl _).trans (A_eq2 (rd (W3 m ρ)) c 0))
  by_cases h1 : b = main_v2
  · subst h1; exact (W4_arr m ρ c 1).trans (((dats2 (rd (W3 m ρ)) c).arrAt_in 1 rfl _).trans (A_eq2 (rd (W3 m ρ)) c 1))
  by_cases h2 : b = main_v4
  · subst h2; exact (W4_arr m ρ c 2).trans (((dats2 (rd (W3 m ρ)) c).arrAt_in 2 rfl _).trans (A_eq2 (rd (W3 m ρ)) c 2))
  exact W4_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After the host stretch `hostOps3` (item 4). -/
abbrev W5 : Dev nD → Valuation τ sig (Elt F) := fun c => StableHlo.after hostOps3 (W4 m ρ c)
theorem W5_keep (c : Dev nD) (b : Ref sig .tc) (hb : b ∉ hostOps3_W) : W5 m ρ c b = W4 m ρ c b :=
  StableHlo.after_of_writes_sub hostOps3 _ hostOps3_writes hb
/-- After region 3 (item 5): its arrays at what the pipeline leaves, every other buffer as entered. -/
def W6 (c : Dev nD) : Valuation τ sig (Elt F) :=
  Pipeline.withArrays spec3 c (W5 m ρ c) fun w => (dats3 (rd (W5 m ρ)) c).arrAt w cfg3.N
theorem W6_arr (c : Dev nD) (w : Fin cfg3.W) :
    W6 m ρ c (Proc.devRef .tc (Pipeline.arrRef spec3 w)) = (dats3 (rd (W5 m ρ)) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem hF3 (c : Dev nD) (w : Fin cfg3.W) : (dats3 (rd (W5 m ρ)) c).arrAt w cfg3.N = rd (W6 m ρ) c (Pipeline.arrRef spec3 w) :=
  (W6_arr m ρ c w).symm
theorem hrest3 (c : Dev nD) : ∀ b, b ∉ Finset.univ.image (Pipeline.arrRef spec3) → rd (W6 m ρ) c b = rd (W5 m ρ) c b :=
  fun b hb => W6_of_ne m ρ c b fun w e => hb (Finset.mem_image.mpr ⟨w, Finset.mem_univ _, e⟩)
/-- Region 3 changes only its output array `main_v9`: an input array is left as entered, any other buffer bypasses it. -/
theorem W6_keep (c : Dev nD) (b : Ref sig .tc) (hb : b ≠ main_v9) : W6 m ρ c b = W5 m ρ c b := by
  by_cases h0 : b = main_arg3
  · subst h0; exact (W6_arr m ρ c 0).trans (((dats3 (rd (W5 m ρ)) c).arrAt_in 0 rfl _).trans (A_eq3 (rd (W5 m ρ)) c 0))
  by_cases h1 : b = main_v0
  · subst h1; exact (W6_arr m ρ c 1).trans (((dats3 (rd (W5 m ρ)) c).arrAt_in 1 rfl _).trans (A_eq3 (rd (W5 m ρ)) c 1))
  by_cases h2 : b = main_v8
  · subst h2; exact (W6_arr m ρ c 2).trans (((dats3 (rd (W5 m ρ)) c).arrAt_in 2 rfl _).trans (A_eq3 (rd (W5 m ρ)) c 2))
  exact W6_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After the host stretch `hostOps4` (item 6). -/
abbrev W7 : Dev nD → Valuation τ sig (Elt F) := fun c => StableHlo.after hostOps4 (W6 m ρ c)
theorem W7_keep (c : Dev nD) (b : Ref sig .tc) (hb : b ∉ hostOps4_W) : W7 m ρ c b = W6 m ρ c b :=
  StableHlo.after_of_writes_sub hostOps4 _ hostOps4_writes hb
/-- After region 4 (item 7): its arrays at what the pipeline leaves, every other buffer as entered. -/
def W8 (c : Dev nD) : Valuation τ sig (Elt F) :=
  Pipeline.withArrays spec4 c (W7 m ρ c) fun w => (dats4 (rd (W7 m ρ)) c).arrAt w cfg4.N
theorem W8_arr (c : Dev nD) (w : Fin cfg4.W) :
    W8 m ρ c (Proc.devRef .tc (Pipeline.arrRef spec4 w)) = (dats4 (rd (W7 m ρ)) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem hF4 (c : Dev nD) (w : Fin cfg4.W) : (dats4 (rd (W7 m ρ)) c).arrAt w cfg4.N = rd (W8 m ρ) c (Pipeline.arrRef spec4 w) :=
  (W8_arr m ρ c w).symm
theorem hrest4 (c : Dev nD) : ∀ b, b ∉ Finset.univ.image (Pipeline.arrRef spec4) → rd (W8 m ρ) c b = rd (W7 m ρ) c b :=
  fun b hb => W8_of_ne m ρ c b fun w e => hb (Finset.mem_image.mpr ⟨w, Finset.mem_univ _, e⟩)
/-- Region 4 changes only its output array `main_v11`: an input array is left as entered, any other buffer bypasses it. -/
theorem W8_keep (c : Dev nD) (b : Ref sig .tc) (hb : b ≠ main_v11) : W8 m ρ c b = W7 m ρ c b := by
  by_cases h0 : b = main_arg4
  · subst h0; exact (W8_arr m ρ c 0).trans (((dats4 (rd (W7 m ρ)) c).arrAt_in 0 rfl _).trans (A_eq4 (rd (W7 m ρ)) c 0))
  by_cases h1 : b = main_v0
  · subst h1; exact (W8_arr m ρ c 1).trans (((dats4 (rd (W7 m ρ)) c).arrAt_in 1 rfl _).trans (A_eq4 (rd (W7 m ρ)) c 1))
  by_cases h2 : b = main_v10
  · subst h2; exact (W8_arr m ρ c 2).trans (((dats4 (rd (W7 m ρ)) c).arrAt_in 2 rfl _).trans (A_eq4 (rd (W7 m ρ)) c 2))
  exact W8_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After region 5 (item 8): its arrays at what the pipeline leaves, every other buffer as entered. -/
def W9 (c : Dev nD) : Valuation τ sig (Elt F) :=
  Pipeline.withArrays spec5 c (W8 m ρ c) fun w => (dat5 (rd (W8 m ρ)) c).arrAt w cfg5.N
theorem W9_arr (c : Dev nD) (w : Fin cfg5.W) :
    W9 m ρ c (Proc.devRef .tc (Pipeline.arrRef spec5 w)) = (dat5 (rd (W8 m ρ)) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
theorem hF5 (c : Dev nD) (w : Fin cfg5.W) : (dat5 (rd (W8 m ρ)) c).arrAt w cfg5.N = rd (W9 m ρ) c (Pipeline.arrRef spec5 w) :=
  (W9_arr m ρ c w).symm
theorem hrest5 (c : Dev nD) : ∀ b, b ∉ Finset.univ.image (Pipeline.arrRef spec5) → rd (W9 m ρ) c b = rd (W8 m ρ) c b :=
  fun b hb => W9_of_ne m ρ c b fun w e => hb (Finset.mem_image.mpr ⟨w, Finset.mem_univ _, e⟩)
/-- Region 5 changes only its output array `main_v12`: an input array is left as entered, any other buffer bypasses it. -/
theorem W9_keep (c : Dev nD) (b : Ref sig .tc) (hb : b ≠ main_v12) : W9 m ρ c b = W8 m ρ c b := by
  by_cases h0 : b = main_v6
  · subst h0; exact (W9_arr m ρ c 0).trans (((dat5 (rd (W8 m ρ)) c).arrAt_in 0 rfl _).trans (A_eq5 (rd (W8 m ρ)) c 0))
  by_cases h1 : b = main_arg7
  · subst h1; exact (W9_arr m ρ c 1).trans (((dat5 (rd (W8 m ρ)) c).arrAt_in 1 rfl _).trans (A_eq5 (rd (W8 m ρ)) c 1))
  exact W9_of_ne m ρ c b fun w => by
    match w with
    | ⟨0, _⟩ => exact fun e => h0 e.symm
    | ⟨1, _⟩ => exact fun e => h1 e.symm
    | ⟨2, _⟩ => exact fun e => hb e.symm
/-- After region 6 (item 9): its arrays at what the pipeline leaves, every other buffer as entered. -/
def W10 (c : Dev nD) : Valuation τ sig (Elt F) :=
  Pipeline.withArrays spec6 c (W9 m ρ c) fun w => (dat6 (rd (W9 m ρ)) c).arrAt w cfg6.N
theorem W10_arr (c : Dev nD) (w : Fin cfg6.W) :
    W10 m ρ c (Proc.devRef .tc (Pipeline.arrRef spec6 w)) = (dat6 (rd (W9 m ρ)) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m ρ c (Proc.devRef .tc b) = W9 m ρ c (Proc.devRef .tc b) := by
  unfold W10; exact Pipeline.withArrays_of_ne spec6 c _ _ b hb
theorem hF6 (c : Dev nD) (w : Fin cfg6.W) : (dat6 (rd (W9 m ρ)) c).arrAt w cfg6.N = rd (W10 m ρ) c (Pipeline.arrRef spec6 w) :=
  (W10_arr m ρ c w).symm
theorem hrest6 (c : Dev nD) : ∀ b, b ∉ Finset.univ.image (Pipeline.arrRef spec6) → rd (W10 m ρ) c b = rd (W9 m ρ) c b :=
  fun b hb => W10_of_ne m ρ c b fun w e => hb (Finset.mem_image.mpr ⟨w, Finset.mem_univ _, e⟩)
/-- Region 6 changes only its output array `main_v13`: an input array is left as entered, any other buffer bypasses it. -/
theorem W10_keep (c : Dev nD) (b : Ref sig .tc) (hb : b ≠ main_v13) : W10 m ρ c b = W9 m ρ c b := by
  by_cases h0 : b = main_v7
  · subst h0; exact (W10_arr m ρ c 0).trans (((dat6 (rd (W9 m ρ)) c).arrAt_in 0 rfl _).trans (A_eq6 (rd (W9 m ρ)) c 0))
  by_cases h1 : b = main_arg7
  · subst h1; exact (W10_arr m ρ c 1).trans (((dat6 (rd (W9 m ρ)) c).arrAt_in 1 rfl _).trans (A_eq6 (rd (W9 m ρ)) c 1))
  exact W10_of_ne m ρ c b fun w => by
    match w with
    | ⟨0, _⟩ => exact fun e => h0 e.symm
    | ⟨1, _⟩ => exact fun e => h1 e.symm
    | ⟨2, _⟩ => exact fun e => hb e.symm
/-- After the host stretch `hostOps7` (item 10). -/
abbrev W11 : Dev nD → Valuation τ sig (Elt F) := fun c => StableHlo.after hostOps7 (W10 m ρ c)
theorem W11_keep (c : Dev nD) (b : Ref sig .tc) (hb : b ∉ hostOps7_W) : W11 m ρ c b = W10 m ρ c b :=
  StableHlo.after_of_writes_sub hostOps7 _ hostOps7_writes hb
/-- After region 7 (item 11): its arrays at what the pipeline leaves, every other buffer as entered. -/
def W12 (c : Dev nD) : Valuation τ sig (Elt F) :=
  Pipeline.withArrays spec7 c (W11 m ρ c) fun w => (dats7 (rd (W11 m ρ)) c).arrAt w cfg7.N
theorem W12_arr (c : Dev nD) (w : Fin cfg7.W) :
    W12 m ρ c (Proc.devRef .tc (Pipeline.arrRef spec7 w)) = (dats7 (rd (W11 m ρ)) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
theorem hF7 (c : Dev nD) (w : Fin cfg7.W) : (dats7 (rd (W11 m ρ)) c).arrAt w cfg7.N = rd (W12 m ρ) c (Pipeline.arrRef spec7 w) :=
  (W12_arr m ρ c w).symm
theorem hrest7 (c : Dev nD) : ∀ b, b ∉ Finset.univ.image (Pipeline.arrRef spec7) → rd (W12 m ρ) c b = rd (W11 m ρ) c b :=
  fun b hb => W12_of_ne m ρ c b fun w e => hb (Finset.mem_image.mpr ⟨w, Finset.mem_univ _, e⟩)
/-- Region 7 changes only its output array `main_v17`: an input array is left as entered, any other buffer bypasses it. -/
theorem W12_keep (c : Dev nD) (b : Ref sig .tc) (hb : b ≠ main_v17) : W12 m ρ c b = W11 m ρ c b := by
  by_cases h0 : b = main_arg2
  · subst h0; exact (W12_arr m ρ c 0).trans (((dats7 (rd (W11 m ρ)) c).arrAt_in 0 rfl _).trans (A_eq7 (rd (W11 m ρ)) c 0))
  by_cases h1 : b = main_v14
  · subst h1; exact (W12_arr m ρ c 1).trans (((dats7 (rd (W11 m ρ)) c).arrAt_in 1 rfl _).trans (A_eq7 (rd (W11 m ρ)) c 1))
  by_cases h2 : b = main_v16
  · subst h2; exact (W12_arr m ρ c 2).trans (((dats7 (rd (W11 m ρ)) c).arrAt_in 2 rfl _).trans (A_eq7 (rd (W11 m ρ)) c 2))
  exact W12_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After the host stretch `hostOps8` (item 12). -/
abbrev W13 : Dev nD → Valuation τ sig (Elt F) := fun c => StableHlo.after hostOps8 (W12 m ρ c)
theorem W13_keep (c : Dev nD) (b : Ref sig .tc) (hb : b ∉ hostOps8_W) : W13 m ρ c b = W12 m ρ c b :=
  StableHlo.after_of_writes_sub hostOps8 _ hostOps8_writes hb
/-- After region 8 (item 13): its arrays at what the pipeline leaves, every other buffer as entered. -/
def W14 (c : Dev nD) : Valuation τ sig (Elt F) :=
  Pipeline.withArrays spec8 c (W13 m ρ c) fun w => (dat8 (rd (W13 m ρ)) c).arrAt w cfg8.N
theorem W14_arr (c : Dev nD) (w : Fin cfg8.W) :
    W14 m ρ c (Proc.devRef .tc (Pipeline.arrRef spec8 w)) = (dat8 (rd (W13 m ρ)) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
theorem hF8 (c : Dev nD) (w : Fin cfg8.W) : (dat8 (rd (W13 m ρ)) c).arrAt w cfg8.N = rd (W14 m ρ) c (Pipeline.arrRef spec8 w) :=
  (W14_arr m ρ c w).symm
theorem hrest8 (c : Dev nD) : ∀ b, b ∉ Finset.univ.image (Pipeline.arrRef spec8) → rd (W14 m ρ) c b = rd (W13 m ρ) c b :=
  fun b hb => W14_of_ne m ρ c b fun w e => hb (Finset.mem_image.mpr ⟨w, Finset.mem_univ _, e⟩)
/-- Region 8 changes only its output array `main_v20`: an input array is left as entered, any other buffer bypasses it. -/
theorem W14_keep (c : Dev nD) (b : Ref sig .tc) (hb : b ≠ main_v20) : W14 m ρ c b = W13 m ρ c b := by
  by_cases h0 : b = main_v9
  · subst h0; exact (W14_arr m ρ c 0).trans (((dat8 (rd (W13 m ρ)) c).arrAt_in 0 rfl _).trans (A_eq8 (rd (W13 m ρ)) c 0))
  by_cases h1 : b = main_arg7
  · subst h1; exact (W14_arr m ρ c 1).trans (((dat8 (rd (W13 m ρ)) c).arrAt_in 1 rfl _).trans (A_eq8 (rd (W13 m ρ)) c 1))
  exact W14_of_ne m ρ c b fun w => by
    match w with
    | ⟨0, _⟩ => exact fun e => h0 e.symm
    | ⟨1, _⟩ => exact fun e => h1 e.symm
    | ⟨2, _⟩ => exact fun e => hb e.symm
/-- After the host stretch `hostOps9` (item 14). -/
abbrev W15 : Dev nD → Valuation τ sig (Elt F) := fun c => StableHlo.after hostOps9 (W14 m ρ c)
theorem W15_keep (c : Dev nD) (b : Ref sig .tc) (hb : b ∉ hostOps9_W) : W15 m ρ c b = W14 m ρ c b :=
  StableHlo.after_of_writes_sub hostOps9 _ hostOps9_writes hb
/-- After region 9 (item 15): its arrays at what the pipeline leaves, every other buffer as entered. -/
def W16 (c : Dev nD) : Valuation τ sig (Elt F) :=
  Pipeline.withArrays spec9 c (W15 m ρ c) fun w => (dats9 (rd (W15 m ρ)) c).arrAt w cfg9.N
theorem W16_arr (c : Dev nD) (w : Fin cfg9.W) :
    W16 m ρ c (Proc.devRef .tc (Pipeline.arrRef spec9 w)) = (dats9 (rd (W15 m ρ)) c).arrAt w cfg9.N := by
  unfold W16; exact Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) := by
  unfold W16; exact Pipeline.withArrays_of_ne spec9 c _ _ b hb
theorem hF9 (c : Dev nD) (w : Fin cfg9.W) : (dats9 (rd (W15 m ρ)) c).arrAt w cfg9.N = rd (W16 m ρ) c (Pipeline.arrRef spec9 w) :=
  (W16_arr m ρ c w).symm
theorem hrest9 (c : Dev nD) : ∀ b, b ∉ Finset.univ.image (Pipeline.arrRef spec9) → rd (W16 m ρ) c b = rd (W15 m ρ) c b :=
  fun b hb => W16_of_ne m ρ c b fun w e => hb (Finset.mem_image.mpr ⟨w, Finset.mem_univ _, e⟩)
/-- Region 9 changes only its output array `main_v22`: an input array is left as entered, any other buffer bypasses it. -/
theorem W16_keep (c : Dev nD) (b : Ref sig .tc) (hb : b ≠ main_v22) : W16 m ρ c b = W15 m ρ c b := by
  by_cases h0 : b = main_arg3
  · subst h0; exact (W16_arr m ρ c 0).trans (((dats9 (rd (W15 m ρ)) c).arrAt_in 0 rfl _).trans (A_eq9 (rd (W15 m ρ)) c 0))
  by_cases h1 : b = main_v20
  · subst h1; exact (W16_arr m ρ c 1).trans (((dats9 (rd (W15 m ρ)) c).arrAt_in 1 rfl _).trans (A_eq9 (rd (W15 m ρ)) c 1))
  by_cases h2 : b = main_v21
  · subst h2; exact (W16_arr m ρ c 2).trans (((dats9 (rd (W15 m ρ)) c).arrAt_in 2 rfl _).trans (A_eq9 (rd (W15 m ρ)) c 2))
  exact W16_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After region 10 (item 16): its arrays at what the pipeline leaves, every other buffer as entered. -/
def W17 (c : Dev nD) : Valuation τ sig (Elt F) :=
  Pipeline.withArrays spec10 c (W16 m ρ c) fun w => (dat10 (rd (W16 m ρ)) c).arrAt w cfg10.N
theorem W17_arr (c : Dev nD) (w : Fin cfg10.W) :
    W17 m ρ c (Proc.devRef .tc (Pipeline.arrRef spec10 w)) = (dat10 (rd (W16 m ρ)) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
theorem hF10 (c : Dev nD) (w : Fin cfg10.W) : (dat10 (rd (W16 m ρ)) c).arrAt w cfg10.N = rd (W17 m ρ) c (Pipeline.arrRef spec10 w) :=
  (W17_arr m ρ c w).symm
theorem hrest10 (c : Dev nD) : ∀ b, b ∉ Finset.univ.image (Pipeline.arrRef spec10) → rd (W17 m ρ) c b = rd (W16 m ρ) c b :=
  fun b hb => W17_of_ne m ρ c b fun w e => hb (Finset.mem_image.mpr ⟨w, Finset.mem_univ _, e⟩)
/-- Region 10 changes only its output array `main_v23`: an input array is left as entered, any other buffer bypasses it. -/
theorem W17_keep (c : Dev nD) (b : Ref sig .tc) (hb : b ≠ main_v23) : W17 m ρ c b = W16 m ρ c b := by
  by_cases h0 : b = main_v11
  · subst h0; exact (W17_arr m ρ c 0).trans (((dat10 (rd (W16 m ρ)) c).arrAt_in 0 rfl _).trans (A_eq10 (rd (W16 m ρ)) c 0))
  by_cases h1 : b = main_arg7
  · subst h1; exact (W17_arr m ρ c 1).trans (((dat10 (rd (W16 m ρ)) c).arrAt_in 1 rfl _).trans (A_eq10 (rd (W16 m ρ)) c 1))
  exact W17_of_ne m ρ c b fun w => by
    match w with
    | ⟨0, _⟩ => exact fun e => h0 e.symm
    | ⟨1, _⟩ => exact fun e => h1 e.symm
    | ⟨2, _⟩ => exact fun e => hb e.symm
/-- After the host stretch `hostOps11` (item 17). -/
abbrev W18 : Dev nD → Valuation τ sig (Elt F) := fun c => StableHlo.after hostOps11 (W17 m ρ c)
theorem W18_keep (c : Dev nD) (b : Ref sig .tc) (hb : b ∉ hostOps11_W) : W18 m ρ c b = W17 m ρ c b :=
  StableHlo.after_of_writes_sub hostOps11 _ hostOps11_writes hb
/-- After region 11 (item 18): its arrays at what the pipeline leaves, every other buffer as entered. -/
def W19 (c : Dev nD) : Valuation τ sig (Elt F) :=
  Pipeline.withArrays spec11 c (W18 m ρ c) fun w => (dats11 (rd (W18 m ρ)) c).arrAt w cfg11.N
theorem W19_arr (c : Dev nD) (w : Fin cfg11.W) :
    W19 m ρ c (Proc.devRef .tc (Pipeline.arrRef spec11 w)) = (dats11 (rd (W18 m ρ)) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
theorem hF11 (c : Dev nD) (w : Fin cfg11.W) : (dats11 (rd (W18 m ρ)) c).arrAt w cfg11.N = rd (W19 m ρ) c (Pipeline.arrRef spec11 w) :=
  (W19_arr m ρ c w).symm
theorem hrest11 (c : Dev nD) : ∀ b, b ∉ Finset.univ.image (Pipeline.arrRef spec11) → rd (W19 m ρ) c b = rd (W18 m ρ) c b :=
  fun b hb => W19_of_ne m ρ c b fun w e => hb (Finset.mem_image.mpr ⟨w, Finset.mem_univ _, e⟩)
/-- Region 11 changes only its output array `main_v25`: an input array is left as entered, any other buffer bypasses it. -/
theorem W19_keep (c : Dev nD) (b : Ref sig .tc) (hb : b ≠ main_v25) : W19 m ρ c b = W18 m ρ c b := by
  by_cases h0 : b = main_arg4
  · subst h0; exact (W19_arr m ρ c 0).trans (((dats11 (rd (W18 m ρ)) c).arrAt_in 0 rfl _).trans (A_eq11 (rd (W18 m ρ)) c 0))
  by_cases h1 : b = main_v23
  · subst h1; exact (W19_arr m ρ c 1).trans (((dats11 (rd (W18 m ρ)) c).arrAt_in 1 rfl _).trans (A_eq11 (rd (W18 m ρ)) c 1))
  by_cases h2 : b = main_v24
  · subst h2; exact (W19_arr m ρ c 2).trans (((dats11 (rd (W18 m ρ)) c).arrAt_in 2 rfl _).trans (A_eq11 (rd (W18 m ρ)) c 2))
  exact W19_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-! ## The proof data family and the thread state -/

/-- The prefetched tables' admissible contents: no pipeline has a table (`Gen.adm`). Every pipeline's proof data, each at
    its region's entry contents — a literal match, so that the configuration at a numeral reduces to the printed one. -/
def pdats : (p : Fin 12) → (c : Dev nD) → Dat τ (Elt F) Unit ℕ (UR sig nD τ) ℕ (Pipeline.pin (pcfgs (F := F)) adm p) c
  | ⟨0, _⟩ => fun c => dat0 (rd (W0 m ρ)) c
  | ⟨1, _⟩ => fun c => dat1 (rd (W1 m ρ)) c
  | ⟨2, _⟩ => fun c => dats2 (rd (W3 m ρ)) c
  | ⟨3, _⟩ => fun c => dats3 (rd (W5 m ρ)) c
  | ⟨4, _⟩ => fun c => dats4 (rd (W7 m ρ)) c
  | ⟨5, _⟩ => fun c => dat5 (rd (W8 m ρ)) c
  | ⟨6, _⟩ => fun c => dat6 (rd (W9 m ρ)) c
  | ⟨7, _⟩ => fun c => dats7 (rd (W11 m ρ)) c
  | ⟨8, _⟩ => fun c => dat8 (rd (W13 m ρ)) c
  | ⟨9, _⟩ => fun c => dats9 (rd (W15 m ρ)) c
  | ⟨10, _⟩ => fun c => dat10 (rd (W16 m ρ)) c
  | ⟨11, _⟩ => fun c => dats11 (rd (W18 m ρ)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debt, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents `W19`, the generator register at some state. -/
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W0 m ρ)) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (rd (W0 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (rd (W0 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (rd (W0 m ρ) c) (rd (W1 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W1 m ρ)) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (rd (W1 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (rd (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (rd (W1 m ρ) c) (rd (W2 m ρ) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at the exit contents; the generator register goes into the region's invariant and
    comes back (the carried accumulator's contents are forgotten at the exit); nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W3 m ρ)) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (rd (W3 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (rd (W3 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dats2 (rd (W3 m ρ)) c).Φ 0 from rfl]
    have h := hin2 (rd (W3 m ρ)) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dats2 (rd (W3 m ρ)) c).Φ (Fin.last cfg2.N) from rfl]
    have h := hout2 (rd (W3 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (rd (W3 m ρ) c) (rd (W4 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays are split
    out of the unscoped buffers and put back at the exit contents; the generator register goes into the region's invariant and
    comes back (the carried accumulator's contents are forgotten at the exit); nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W5 m ρ)) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (rd (W5 m ρ) c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (rd (W5 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dats3 (rd (W5 m ρ)) c).Φ 0 from rfl]
    have h := hin3 (rd (W5 m ρ)) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dats3 (rd (W5 m ρ)) c).Φ (Fin.last cfg3.N) from rfl]
    have h := hout3 (rd (W5 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (rd (W5 m ρ) c) (rd (W6 m ρ) c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. Its arrays are split
    out of the unscoped buffers and put back at the exit contents; the generator register goes into the region's invariant and
    comes back (the carried accumulator's contents are forgotten at the exit); nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W7 m ρ)) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (rd (W7 m ρ) c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (rd (W7 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dats4 (rd (W7 m ρ)) c).Φ 0 from rfl]
    have h := hin4 (rd (W7 m ρ)) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dats4 (rd (W7 m ρ)) c).Φ (Fin.last cfg4.N) from rfl]
    have h := hout4 (rd (W7 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (rd (W7 m ρ) c) (rd (W8 m ρ) c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W8`, left at `W9`. Its arrays are split
    out of the unscoped buffers and put back at the exit contents; the generator register goes into the region's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W8 m ρ)) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (rd (W8 m ρ) c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (rd (W8 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (rd (W8 m ρ) c) (rd (W9 m ρ) c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W9`, left at `W10`. Its arrays are split
    out of the unscoped buffers and put back at the exit contents; the generator register goes into the region's invariant and
    comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (rd (W9 m ρ)) c).loose
  hwaits := Pipeline.hwaits_of_owed_zero _ _ _ _ L lv 6 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec6 c (rd (W9 m ρ) c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (rd (W9 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (rd (W9 m ρ) c) (rd (W10 m ρ) c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W11`, left at `W12`. Its arrays are split
    out of the unscoped buffers and put back at the exit contents; the generator register goes into the region's invariant and
    comes back (the carried accumulator's contents are forgotten at the exit); nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (rd (W11 m ρ)) c).loose
  hwaits := Pipeline.hwaits_of_owed_zero _ _ _ _ L lv 7 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec7 c (rd (W11 m ρ) c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (rd (W11 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dats7 (rd (W11 m ρ)) c).Φ 0 from rfl]
    have h := hin7 (rd (W11 m ρ)) c
    unfold Pipeline.ΦA at h
    iintro ⟨Hp, -, Hr⟩
    iapply h
    isplitl [Hr]; · iexact Hr
    iexact Hp
  hout c := by
    rw [Pipeline.ownSems0_none, show (pdats m ρ 7 c).Φ (Fin.last _) = (dats7 (rd (W11 m ρ)) c).Φ (Fin.last cfg7.N) from rfl]
    have h := hout7 (rd (W11 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (rd (W11 m ρ) c) (rd (W12 m ρ) c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W13`, left at `W14`. Its arrays are split
    out of the unscoped buffers and put back at the exit contents; the generator register goes into the region's invariant and
    comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (rd (W13 m ρ)) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (rd (W13 m ρ) c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (rd (W13 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (rd (W13 m ρ) c) (rd (W14 m ρ) c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W15`, left at `W16`. Its arrays are split
    out of the unscoped buffers and put back at the exit contents; the generator register goes into the region's invariant and
    comes back (the carried accumulator's contents are forgotten at the exit); nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (rd (W15 m ρ)) c).loose
  hwaits := Pipeline.hwaits_of_owed_zero _ _ _ _ L lv 9 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec9 c (rd (W15 m ρ) c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (rd (W15 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dats9 (rd (W15 m ρ)) c).Φ 0 from rfl]
    have h := hin9 (rd (W15 m ρ)) c
    unfold Pipeline.ΦA at h
    iintro ⟨Hp, -, Hr⟩
    iapply h
    isplitl [Hr]; · iexact Hr
    iexact Hp
  hout c := by
    rw [Pipeline.ownSems0_none, show (pdats m ρ 9 c).Φ (Fin.last _) = (dats9 (rd (W15 m ρ)) c).Φ (Fin.last cfg9.N) from rfl]
    have h := hout9 (rd (W15 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (rd (W15 m ρ) c) (rd (W16 m ρ) c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W16`, left at `W17`. Its arrays are split
    out of the unscoped buffers and put back at the exit contents; the generator register goes into the region's invariant and
    comes back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (rd (W16 m ρ)) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec10 c (rd (W16 m ρ) c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (rd (W16 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (rd (W16 m ρ) c) (rd (W17 m ρ) c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W18`, left at `W19`. Its arrays are split
    out of the unscoped buffers and put back at the exit contents; the generator register goes into the region's invariant and
    comes back (the carried accumulator's contents are forgotten at the exit); nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (rd (W18 m ρ)) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (rd (W18 m ρ) c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (rd (W18 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dats11 (rd (W18 m ρ)) c).Φ 0 from rfl]
    have h := hin11 (rd (W18 m ρ)) c
    unfold Pipeline.ΦA at h
    iintro ⟨Hp, -, Hr⟩
    iapply h
    isplitl [Hr]; · iexact Hr
    iexact Hp
  hout c := by
    rw [Pipeline.ownSems0_none, show (pdats m ρ 11 c).Φ (Fin.last _) = (dats11 (rd (W18 m ρ)) c).Φ (Fin.last cfg11.N) from rfl]
    have h := hout11 (rd (W18 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (rd (W18 m ρ) c) (rd (W19 m ρ) c) ((pdats m ρ 11 c).arrAt · cfg11.N) (hF11 m ρ c) (hrest11 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 19 items in order: a region per pallas_call, a host segment per stretch from its boundary's contents. -/
abbrev progSegs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .region (reg5 m ρ),
    .region (reg6 m ρ),
    .host (hseg hostOps7 hostOps7_sub hostOps7_fresh (W10 m ρ)),
    .region (reg7 m ρ),
    .host (hseg hostOps8 hostOps8_sub hostOps8_fresh (W12 m ρ)),
    .region (reg8 m ρ),
    .host (hseg hostOps9 hostOps9_sub hostOps9_fresh (W14 m ρ)),
    .region (reg9 m ρ),
    .region (reg10 m ρ),
    .host (hseg hostOps11 hostOps11_sub hostOps11_fresh (W17 m ρ)),
    .region (reg11 m ρ) ]
/-- The program is the run of its segments: the chain of its items, compared by the kernel's definitional check. -/
theorem main_run (c : Dev nD) : main (F := F) c = Pipeline.Seg.run (progSegs m ρ) := (main_chain c).trans (by chain_rfl)

set_option backward.isDefEq.respectTransparency.types false in
/-- THE RUN. From any memory with zero counters every weakly fair execution of the program on the TensorCores terminates,
    nothing faulting, and every final memory holds every unscoped buffer at the last valuation `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (progSegs m ρ)
    (fun c Q => by rw [main_run m ρ c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

/-! ## The arguments end as launched -/
theorem W19_main_arg0 (c : Dev nD) : W19 m ρ c main_arg0 = m ((c : Thread nD τ).loc main_arg0) :=
  (W19_keep m ρ c main_arg0 (by decide)).trans <|
  (W18_keep m ρ c main_arg0 (by decide)).trans <|
  (W17_keep m ρ c main_arg0 (by decide)).trans <|
  (W16_keep m ρ c main_arg0 (by decide)).trans <|
  (W15_keep m ρ c main_arg0 (by decide)).trans <|
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans rfl
theorem W19_main_arg1 (c : Dev nD) : W19 m ρ c main_arg1 = m ((c : Thread nD τ).loc main_arg1) :=
  (W19_keep m ρ c main_arg1 (by decide)).trans <|
  (W18_keep m ρ c main_arg1 (by decide)).trans <|
  (W17_keep m ρ c main_arg1 (by decide)).trans <|
  (W16_keep m ρ c main_arg1 (by decide)).trans <|
  (W15_keep m ρ c main_arg1 (by decide)).trans <|
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans rfl
theorem W19_main_arg2 (c : Dev nD) : W19 m ρ c main_arg2 = m ((c : Thread nD τ).loc main_arg2) :=
  (W19_keep m ρ c main_arg2 (by decide)).trans <|
  (W18_keep m ρ c main_arg2 (by decide)).trans <|
  (W17_keep m ρ c main_arg2 (by decide)).trans <|
  (W16_keep m ρ c main_arg2 (by decide)).trans <|
  (W15_keep m ρ c main_arg2 (by decide)).trans <|
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans rfl
theorem W19_main_arg3 (c : Dev nD) : W19 m ρ c main_arg3 = m ((c : Thread nD τ).loc main_arg3) :=
  (W19_keep m ρ c main_arg3 (by decide)).trans <|
  (W18_keep m ρ c main_arg3 (by decide)).trans <|
  (W17_keep m ρ c main_arg3 (by decide)).trans <|
  (W16_keep m ρ c main_arg3 (by decide)).trans <|
  (W15_keep m ρ c main_arg3 (by decide)).trans <|
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans rfl
theorem W19_main_arg4 (c : Dev nD) : W19 m ρ c main_arg4 = m ((c : Thread nD τ).loc main_arg4) :=
  (W19_keep m ρ c main_arg4 (by decide)).trans <|
  (W18_keep m ρ c main_arg4 (by decide)).trans <|
  (W17_keep m ρ c main_arg4 (by decide)).trans <|
  (W16_keep m ρ c main_arg4 (by decide)).trans <|
  (W15_keep m ρ c main_arg4 (by decide)).trans <|
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_keep m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans rfl
theorem W19_main_arg5 (c : Dev nD) : W19 m ρ c main_arg5 = m ((c : Thread nD τ).loc main_arg5) :=
  (W19_keep m ρ c main_arg5 (by decide)).trans <|
  (W18_keep m ρ c main_arg5 (by decide)).trans <|
  (W17_keep m ρ c main_arg5 (by decide)).trans <|
  (W16_keep m ρ c main_arg5 (by decide)).trans <|
  (W15_keep m ρ c main_arg5 (by decide)).trans <|
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans rfl
theorem W19_main_arg6 (c : Dev nD) : W19 m ρ c main_arg6 = m ((c : Thread nD τ).loc main_arg6) :=
  (W19_keep m ρ c main_arg6 (by decide)).trans <|
  (W18_keep m ρ c main_arg6 (by decide)).trans <|
  (W17_keep m ρ c main_arg6 (by decide)).trans <|
  (W16_keep m ρ c main_arg6 (by decide)).trans <|
  (W15_keep m ρ c main_arg6 (by decide)).trans <|
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans rfl
theorem W19_main_arg7 (c : Dev nD) : W19 m ρ c main_arg7 = m ((c : Thread nD τ).loc main_arg7) :=
  (W19_keep m ρ c main_arg7 (by decide)).trans <|
  (W18_keep m ρ c main_arg7 (by decide)).trans <|
  (W17_keep m ρ c main_arg7 (by decide)).trans <|
  (W16_keep m ρ c main_arg7 (by decide)).trans <|
  (W15_keep m ρ c main_arg7 (by decide)).trans <|
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans rfl
theorem W19_main_arg8 (c : Dev nD) : W19 m ρ c main_arg8 = m ((c : Thread nD τ).loc main_arg8) :=
  (W19_keep m ρ c main_arg8 (by decide)).trans <|
  (W18_keep m ρ c main_arg8 (by decide)).trans <|
  (W17_keep m ρ c main_arg8 (by decide)).trans <|
  (W16_keep m ρ c main_arg8 (by decide)).trans <|
  (W15_keep m ρ c main_arg8 (by decide)).trans <|
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans rfl

/-- THE FRAME: from any memory with zero counters the program runs to the end, nothing faulting, and its nine argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c),
    (h c _ (mem_uc main_arg6 (by decide))).trans (W19_main_arg6 m ρ c),
    (h c _ (mem_uc main_arg7 (by decide))).trans (W19_main_arg7 m ρ c),
    (h c _ (mem_uc main_arg8 (by decide))).trans (W19_main_arg8 m ρ c)⟩) (run_all m ρ)

end Cert.Kernel.Gen

end
-- ==== Proof.Dense0.lean ====
/-
  Region 0 of the main function: a dense product x · W on a grid of 8 row blocks.

  At each point the body loads the 1024-row block of x, loads the whole of W, and stores one payload — the rounded
  product of the rounded operands — over the whole 1024-row output block.  So what the body leaves in the output
  window's buffer is a closed function of the two input blocks (`out0_2`), the input buffers are left as found, and
  the body obligation of the pipeline holds at every point, for any number format.
-/
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point (it is fetched at every point), for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole of W, fetched at the first point only) holds its block at every point, fetched there or
    not: where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1024x512 := Rect.unit (s := S1024x512) ![0, 0] S1024x512.size inb_S1024x512_S1024x512_0_0

/-! ## What the body leaves in the output window's buffer -/

/-- Window 2's buffer after the body, from the input windows' blocks: its one store, of the whole block. -/
def out0_2 (x0 : Vec F S1024x512 .f32) (x1 : Vec F S512x512 .f32) : Vec F S1024x512 .bf16 :=
  View.canon [⟨r0_2, k0_pay1 (View.ld x0 r0_0) (View.ld x1 r0_1)⟩]

/-- The store is of the whole block, so it covers it. -/
theorem cover0_2 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-! ## The body's triple -/

set_option maxHeartbeats 1000000 in
/-- The kernel body on whole memrefs, the inputs' at read contents `x0`, `x1` and the output's at anything, runs to the
    continuation holding the inputs' as they were and the output's at `out0_2` of the inputs'. -/
theorem sound_kernel0 (c : Dev nD) (E : Set ℕ) (i : grid0.Coords) (arg1 : Memref sig .tc .vmem S1024x512 .f32) (harg1 : arg1.IsWhole)
    (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.Dense1.lean ====
/-
  Region 1 of the main function: a dense product x · W on a grid of 8 row blocks.

  At each point the body loads the 1024-row block of x, loads the whole of W, and stores one payload — the rounded
  product of the rounded operands — over the whole 1024-row output block.  So what the body leaves in the output
  window's buffer is a closed function of the two input blocks (`out1_2`), the input buffers are left as found, and
  the body obligation of the pipeline holds at every point, for any number format.
-/
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point (it is fetched at every point), for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole of W, fetched at the first point only) holds its block at every point, fetched there or
    not: where it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0
abbrev r1_2 : Rect S1024x512 := Rect.unit (s := S1024x512) ![0, 0] S1024x512.size inb_S1024x512_S1024x512_0_0

/-! ## What the body leaves in the output window's buffer -/

/-- Window 2's buffer after the body, from the input windows' blocks: its one store, of the whole block. -/
def out1_2 (x0 : Vec F S1024x512 .f32) (x1 : Vec F S512x512 .f32) : Vec F S1024x512 .bf16 :=
  View.canon [⟨r1_2, k1_pay1 (View.ld x0 r1_0) (View.ld x1 r1_1)⟩]

/-- The store is of the whole block, so it covers it. -/
theorem cover1_2 (p0 : Vec F S1024x512 .bf16) (y : S1024x512.Idx) :
    ∃ pc ∈ ([⟨r1_2, p0⟩] : List (View.Piece (Elt F) S1024x512 .bf16)), y ∈ pc.1.set :=
  View.cover_of_tiled [⟨r1_2, p0⟩] S1024x512.size (by rfl) y

/-! ## The body's triple -/

set_option maxHeartbeats 1000000 in
/-- The kernel body on whole memrefs, the inputs' at read contents `x0`, `x1` and the output's at anything, runs to the
    continuation holding the inputs' as they were and the output's at `out1_2` of the inputs'. -/
theorem sound_kernel1 (c : Dev nD) (E : Set ℕ) (i : grid1.Coords) (arg1 : Memref sig .tc .vmem S1024x512 .f32) (harg1 : arg1.IsWhole)
    (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the body at
    point `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.Gcn3Runs.lean ====
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 3: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the reduction coordinate is 0: the accumulator is zeroed), from
    the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8) — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second conditional (the reduction coordinate is the last: the accumulator is
    finalized into the output block), from the grid coordinates. -/
abbrev cond3_1 (i : grid3.Coords) : Prop := k3_cond2 i = 1#1
/-- It holds at the points ≡ 7 (mod 8) — decided over the grid. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- Windows 0, 1, 2 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the points of case A the output window 3 is idle: the case stores nothing into it. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B the output window 3 is idle: the case stores nothing into it. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C the output window 3 is live: the case stores into it. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of output window 3, through which its contents are stated (the choice does not matter). -/
abbrev VO3_3 : View sig .tc .vmem S1024x512 .f32 := (Memref.whole cc3_stg3_0 : Memref sig .tc .vmem S1024x512 .f32).view
/-- Each window's current staging memref at point `t`, spelled as the pipeline passes it, and its wholeness. -/
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .f32 := win3_3.stage (cfg3.slots t 3)
abbrev hs3_3 (t : Fin cfg3.N) : (ms3_3 t).IsWhole := hstage3_3 ((cfg3.slots t 3).cast nbuf3_3)
/-- The scratch operand: a whole scoped buffer of the kernel's own, the accumulator, passed beside the windows. -/
abbrev scM3_0 : Memref sig .tc .vmem S1024x512 .f32 := Memref.whole cc3_scratch0
/-- The accumulator as a view: what it holds is stated through it. -/
abbrev VS3_0 : View sig .tc .vmem S1024x512 .f32 := scM3_0.view

/-- The region's invariant as the launch hands it over, with the accumulator as a memref owned at some contents and
    the other scoped buffers unopened. -/
theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

end Cert.KernelIdeal.Gen

end
-- ==== Proof.Gcn3RunA.lean ====
import proofs.«166906_j60567628808244_2_alg».proof.Proof.Gcn3Runs

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun3_A (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_matmul_kernel i arg2 harg2 arg3 harg3 arg4 harg4 arg5 harg5 arg6 harg6) K } := by
  refine ⟨[], ?_, fun xi3 E K => ?run⟩
  case run =>
    simp only [cc3__gcn_matmul_kernel_eq_skeleton]; unfold cc3__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn3RunB.lean ====
import proofs.«166906_j60567628808244_2_alg».proof.Proof.Gcn3RunA

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun3_B (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_matmul_kernel i arg2 harg2 arg3 harg3 arg4 harg4 arg5 harg5 arg6 harg6) K } := by
  refine ⟨[], ?_, fun xi3 E K => ?run⟩
  case run =>
    simp only [cc3__gcn_matmul_kernel_eq_skeleton]; unfold cc3__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn3RunC.lean ====
import proofs.«166906_j60567628808244_2_alg».proof.Proof.Gcn3RunB

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun3_C (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_matmul_kernel i arg2 harg2 arg3 harg3 arg4 harg4 arg5 harg5 arg6 harg6) K } := by
  refine ⟨?_, ?_, fun E K => ?run⟩
  case run =>
    simp only [cc3__gcn_matmul_kernel_eq_skeleton]; unfold cc3__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Gcn3Frame.lean ====
import proofs.«166906_j60567628808244_2_alg».proof.Proof.Gcn3RunC

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 3: what the output block and the accumulator hold point by point, the proof data, the body obligation -/

/-- Case A stores nothing into the output block (the window is idle at its points and not written back there): no
    pieces — a placeholder (junk read back) that nothing consults. -/
def out3_A_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) : Vec F S1024x512 .f32 :=
  VO3_3.read (Elt F) (VO3_3.writes (Elt F) VO3_3.junk (kernelRun3_A c i arg2 harg2 arg3 harg3 arg4 harg4 arg5 harg5 arg6 harg6 hc0 hc1 x0 x1 x2).1)

/-- Case A's pieces for the accumulator, which the kernel carries between points, cover it (whole-buffer stores). -/
theorem scover3_A_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) (y : S1024x512.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x512.size (by sl_kernel_rfl) y

/-- What case A leaves in the accumulator: its pieces read back over junk. -/
def sout3_A_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) : Vec F S1024x512 .f32 :=
  VS3_0.read (Elt F) (VS3_0.writes (Elt F) VS3_0.junk (kernelRun3_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out3_B_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) : Vec F S1024x512 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case B's pieces for the accumulator, which the kernel carries between points, cover it (whole-buffer stores). -/
theorem scover3_B_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) (y : S1024x512.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x512.size (by sl_kernel_rfl) y

/-- What case B leaves in the accumulator: its pieces read back over junk. -/
def sout3_B_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) : Vec F S1024x512 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case C's pieces for the output block tile it (one store of the whole block), so they cover it. -/
theorem cover3_C_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x512.size (by sl_kernel_rfl) y

/-- What case C leaves in the output's staging buffer: its pieces read back over junk. -/
def out3_C_3 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) : Vec F S1024x512 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's pieces for the accumulator, which the kernel carries between points, cover it (whole-buffer stores). -/
theorem scover3_C_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x512.size (by sl_kernel_rfl) y

/-- What case C leaves in the accumulator: its pieces read back over junk. -/
def sout3_C_0 (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) : Vec F S1024x512 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt3 (c : Dev nD) : (n : ℕ) → n < cfg3.N → Vec F S1024x512 .f32 × Vec F S1024x512 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by have hN : n + 1 < 64 := lt_of_lt_of_eq hn (show cfg3.N = 64 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut spec3 c [cc3_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt3`'s first component; the invariant
    `PhiS3`; nothing owed; full shares. -/
def dats3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dats3 V c).A w = V c (Pipeline.arrRef spec3 w) := by
  dsimp only [dats3]

/-- The invariant at a point's start, restated at `t.val`. -/
theorem PhiS3_castSucc (c : Dev nD) (t : Fin cfg3.N) :
    (dats3 V c).Φ t.castSucc = PhiS3 V c t.val (Nat.le_of_lt t.isLt) := by
  dsimp only [dats3]; simp only [Fin.coe_castSucc]

/-- What the body leaves, window by window. -/
theorem after3_0 (c : Dev nD) (t : Fin cfg3.N) : (dats3 V c).after 0 t = iblk3 V c 0 t := by dsimp only [dats3]
theorem after3_1 (c : Dev nD) (t : Fin cfg3.N) : (dats3 V c).after 1 t = iblk3 V c 1 t := by dsimp only [dats3]
theorem after3_2 (c : Dev nD) (t : Fin cfg3.N) : (dats3 V c).after 2 t = iblk3 V c 2 t := by dsimp only [dats3]
theorem after3_3 (c : Dev nD) (t : Fin cfg3.N) : (dats3 V c).after 3 t = (outsAt3 V c t.val t.isLt).1 := by dsimp only [dats3]

/-- Each input's current staging buffer holds its block at every point, fetched there or not. -/
theorem before3_0 (c : Dev nD) (t : Fin cfg3.N) (d) : (dats3 V c).before 0 t d = iblk3 V c 0 t :=
  before3_0_of V (dats3 V c) (A_eq3 V c 0) (after3_0 V c) t d
theorem before3_1 (c : Dev nD) (t : Fin cfg3.N) (d) : (dats3 V c).before 1 t d = iblk3 V c 1 t :=
  before3_1_of V (dats3 V c) (A_eq3 V c 1) (after3_1 V c) t d
theorem before3_2 (c : Dev nD) (t : Fin cfg3.N) (d) : (dats3 V c).before 2 t d = iblk3 V c 2 t :=
  before3_2_of V (dats3 V c) (A_eq3 V c 2) (after3_2 V c) t d

/-! ## The body obligation, at a generic point -/

/-- What the body is called with at point `t` (the windows one by one), -/
def bodyPre3 (c : Dev nD) (t : Fin cfg3.N) : sProp 𝕄 :=
  iprop((dats3 V c).Φ t.castSucc ∗ (dats3 V c).owesAt () t.castSucc
    ∗ (∃ d, owns (c : Thread nD τ) (ms3_0 t) fullShare ((dats3 V c).before 0 t d))
    ∗ (∃ d, owns (c : Thread nD τ) (ms3_1 t) fullShare ((dats3 V c).before 1 t d))
    ∗ (∃ d, owns (c : Thread nD τ) (ms3_2 t) fullShare ((dats3 V c).before 2 t d))
    ∗ (∃ d, owns (c : Thread nD τ) (ms3_3 t) fullShare ((dats3 V c).before 3 t d)))

/-- and what it returns. -/
def bodyPost3 (c : Dev nD) (t : Fin cfg3.N) : sProp 𝕄 :=
  iprop((dats3 V c).Φ t.succ ∗ (dats3 V c).owesAt () t.succ
    ∗ (dats3 V c).leavesExact 0 t
    ∗ (dats3 V c).leavesExact 1 t
    ∗ (dats3 V c).leavesExact 2 t
    ∗ (dats3 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dats3 V c).owesAt () t.succ = (dats3 V c).owesAt () t.castSucc from rfl]
  rw [show (dats3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    ·
      rw [show (dats3 V c).leavesExact 0 t = owns (c : Thread nD τ) (ms3_0 t) fullShare ((dats3 V c).after 0 t) from by
        unfold Dat.leavesExact; rw [liveAt3_0 t], after3_0]
      rw [show (dats3 V c).leavesExact 1 t = owns (c : Thread nD τ) (ms3_1 t) fullShare ((dats3 V c).after 1 t) from by
        unfold Dat.leavesExact; rw [liveAt3_1 t], after3_1]
      rw [show (dats3 V c).leavesExact 2 t = owns (c : Thread nD τ) (ms3_2 t) fullShare ((dats3 V c).after 2 t) from by
        unfold Dat.leavesExact; rw [liveAt3_2 t], after3_2]
      rw [Dat.leavesExact_idle (dats3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats3 V c).leavesExact 0 t = owns (c : Thread nD τ) (ms3_0 t) fullShare ((dats3 V c).after 0 t) from by
        unfold Dat.leavesExact; rw [liveAt3_0 t], after3_0]
      rw [show (dats3 V c).leavesExact 1 t = owns (c : Thread nD τ) (ms3_1 t) fullShare ((dats3 V c).after 1 t) from by
        unfold Dat.leavesExact; rw [liveAt3_1 t], after3_1]
      rw [show (dats3 V c).leavesExact 2 t = owns (c : Thread nD τ) (ms3_2 t) fullShare ((dats3 V c).after 2 t) from by
        unfold Dat.leavesExact; rw [liveAt3_2 t], after3_2]
      rw [show (dats3 V c).leavesExact 3 t = owns (c : Thread nD τ) (ms3_3 t) fullShare ((dats3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; have hN : t.val < 64 := lt_of_lt_of_eq t.isLt (show cfg3.N = 64 from N_3); omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dats3 V c).leavesExact 0 t = owns (c : Thread nD τ) (ms3_0 t) fullShare ((dats3 V c).after 0 t) from by
        unfold Dat.leavesExact; rw [liveAt3_0 t], after3_0]
      rw [show (dats3 V c).leavesExact 1 t = owns (c : Thread nD τ) (ms3_1 t) fullShare ((dats3 V c).after 1 t) from by
        unfold Dat.leavesExact; rw [liveAt3_1 t], after3_1]
      rw [show (dats3 V c).leavesExact 2 t = owns (c : Thread nD τ) (ms3_2 t) fullShare ((dats3 V c).after 2 t) from by
        unfold Dat.leavesExact; rw [liveAt3_2 t], after3_2]
      rw [Dat.leavesExact_idle (dats3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; have hN : t.val < 64 := lt_of_lt_of_eq t.isLt (show cfg3.N = 64 from N_3); omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dats3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dats3 V c).Φ 0 := by
  rw [show (dats3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dats3 V c).Φ t ⊢ Pipeline.ΦA spec3 c := by
  rw [show (dats3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dats3 V c).Φ (Fin.last cfg3.N) ⊢ Pipeline.ΦA spec3 c :=
  Phi_out3 V c _ (by rw [Fin.val_last]; have : cfg3.N = 64 := N_3; omega)

end Cert.KernelIdeal.Gen

end
-- ==== Proof.Gcn4Runs.lean ====
import proofs.«166906_j60567628808244_2_alg».proof.Proof.Gcn3Frame
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 4: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the reduction coordinate is 0: the accumulator is zeroed), from
    the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8) — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second conditional (the reduction coordinate is the last: the accumulator is
    finalized into the output block), from the grid coordinates. -/
abbrev cond4_1 (i : grid4.Coords) : Prop := k4_cond2 i = 1#1
/-- It holds at the points ≡ 7 (mod 8) — decided over the grid. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- Windows 0, 1, 2 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At the points of case A the output window 3 is idle: the case stores nothing into it. -/
theorem idleAt4_3_A : ∀ t : Fin cfg4.N, cond4_0 (grid4.coords t) → ¬cond4_1 (grid4.coords t) → cfg4.idle 3 (grid4.coords t) = true := by decide +kernel
/-- At the points of case A the pipeline does not write output 3's block back. -/
theorem noFlush4_3_A : ∀ t : Fin cfg4.N, cond4_0 (grid4.coords t) → ¬cond4_1 (grid4.coords t) → (cfg4.win 3).flush t = false := by decide +kernel
/-- At the points of case B the output window 3 is idle: the case stores nothing into it. -/
theorem idleAt4_3_B : ∀ t : Fin cfg4.N, ¬cond4_0 (grid4.coords t) → ¬cond4_1 (grid4.coords t) → cfg4.idle 3 (grid4.coords t) = true := by decide +kernel
/-- At the points of case B the pipeline does not write output 3's block back. -/
theorem noFlush4_3_B : ∀ t : Fin cfg4.N, ¬cond4_0 (grid4.coords t) → ¬cond4_1 (grid4.coords t) → (cfg4.win 3).flush t = false := by decide +kernel
/-- At the points of case C the output window 3 is live: the case stores into it. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of output window 3, through which its contents are stated (the choice does not matter). -/
abbrev VO4_3 : View sig .tc .vmem S1024x512 .f32 := (Memref.whole cc4_stg3_0 : Memref sig .tc .vmem S1024x512 .f32).view
/-- Each window's current staging memref at point `t`, spelled as the pipeline passes it, and its wholeness. -/
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x512 .f32 := win4_3.stage (cfg4.slots t 3)
abbrev hs4_3 (t : Fin cfg4.N) : (ms4_3 t).IsWhole := hstage4_3 ((cfg4.slots t 3).cast nbuf4_3)
/-- The scratch operand: a whole scoped buffer of the kernel's own, the accumulator, passed beside the windows. -/
abbrev scM4_0 : Memref sig .tc .vmem S1024x512 .f32 := Memref.whole cc4_scratch0
/-- The accumulator as a view: what it holds is stated through it. -/
abbrev VS4_0 : View sig .tc .vmem S1024x512 .f32 := scM4_0.view

/-- The region's invariant as the launch hands it over, with the accumulator as a memref owned at some contents and
    the other scoped buffers unopened. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

end Cert.KernelIdeal.Gen

end
-- ==== Proof.Gcn4RunA.lean ====
import proofs.«166906_j60567628808244_2_alg».proof.Proof.Gcn4Runs

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun4_A (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gcn_matmul_kernel i arg2 harg2 arg3 harg3 arg4 harg4 arg5 harg5 arg6 harg6) K } := by
  refine ⟨[], ?_, fun xi3 E K => ?run⟩
  case run =>
    simp only [cc4__gcn_matmul_kernel_eq_skeleton]; unfold cc4__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn4RunB.lean ====
import proofs.«166906_j60567628808244_2_alg».proof.Proof.Gcn4RunA

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun4_B (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gcn_matmul_kernel i arg2 harg2 arg3 harg3 arg4 harg4 arg5 harg5 arg6 harg6) K } := by
  refine ⟨[], ?_, fun xi3 E K => ?run⟩
  case run =>
    simp only [cc4__gcn_matmul_kernel_eq_skeleton]; unfold cc4__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn4RunC.lean ====
import proofs.«166906_j60567628808244_2_alg».proof.Proof.Gcn4RunB

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun4_C (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gcn_matmul_kernel i arg2 harg2 arg3 harg3 arg4 harg4 arg5 harg5 arg6 harg6) K } := by
  refine ⟨?_, ?_, fun E K => ?run⟩
  case run =>
    simp only [cc4__gcn_matmul_kernel_eq_skeleton]; unfold cc4__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Gcn4Frame.lean ====
import proofs.«166906_j60567628808244_2_alg».proof.Proof.Gcn4RunC

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 4: what the output block and the accumulator hold point by point, the proof data, the body obligation -/

/-- Case A stores nothing into the output block (the window is idle at its points and not written back there): no
    pieces — a placeholder (junk read back) that nothing consults. -/
def out4_A_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) : Vec F S1024x512 .f32 :=
  VO4_3.read (Elt F) (VO4_3.writes (Elt F) VO4_3.junk (kernelRun4_A c i arg2 harg2 arg3 harg3 arg4 harg4 arg5 harg5 arg6 harg6 hc0 hc1 x0 x1 x2).1)

/-- Case A's pieces for the accumulator, which the kernel carries between points, cover it (whole-buffer stores). -/
theorem scover4_A_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) (y : S1024x512.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1024x512.size (by sl_kernel_rfl) y

/-- What case A leaves in the accumulator: its pieces read back over junk. -/
def sout4_A_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) : Vec F S1024x512 .f32 :=
  VS4_0.read (Elt F) (VS4_0.writes (Elt F) VS4_0.junk (kernelRun4_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out4_B_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) : Vec F S1024x512 .f32 :=
  VO4_3.read (Elt F) (VO4_3.writes (Elt F) VO4_3.junk (kernelRun4_B c i arg2 harg2 arg3 harg3 arg4 harg4 arg5 harg5 arg6 harg6 hc0 hc1 x0 x1 x2 xs0).1)

/-- Case B's pieces for the accumulator, which the kernel carries between points, cover it (whole-buffer stores). -/
theorem scover4_B_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) (y : S1024x512.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S1024x512.size (by sl_kernel_rfl) y

/-- What case B leaves in the accumulator: its pieces read back over junk. -/
def sout4_B_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) : Vec F S1024x512 .f32 :=
  VS4_0.read (Elt F) (VS4_0.writes (Elt F) VS4_0.junk (kernelRun4_B c i arg2 harg2 arg3 harg3 arg4 harg4 arg5 harg5 arg6 harg6 hc0 hc1 x0 x1 x2 xs0).2.1)

/-- Case C's pieces for the output block tile it (one store of the whole block), so they cover it. -/
theorem cover4_C_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) (y : S1024x512.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S1024x512.size (by sl_kernel_rfl) y

/-- What case C leaves in the output's staging buffer: its pieces read back over junk. -/
def out4_C_3 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) : Vec F S1024x512 .f32 :=
  VO4_3.read (Elt F) (VO4_3.writes (Elt F) VO4_3.junk (kernelRun4_C c i arg2 harg2 arg3 harg3 arg4 harg4 arg5 harg5 arg6 harg6 hc0 hc1 x0 x1 x2 xs0).1)

/-- Case C's pieces for the accumulator, which the kernel carries between points, cover it (whole-buffer stores). -/
theorem scover4_C_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) (y : S1024x512.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S1024x512.size (by sl_kernel_rfl) y

/-- What case C leaves in the accumulator: its pieces read back over junk. -/
def sout4_C_0 (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) : Vec F S1024x512 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt4 (c : Dev nD) : (n : ℕ) → n < cfg4.N → Vec F S1024x512 .f32 × Vec F S1024x512 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 8 = 0 then
      if h1 : (n + 1) % 8 = 7 then
        False.elim (by have hN : n + 1 < 64 := lt_of_lt_of_eq hn (show cfg4.N = 64 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 8 = 7 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 8 = 0) (h1 : ¬t.val % 8 = 7) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 8 = 0) (h1 : ¬t.val % 8 = 7) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 8 = 0) (h1 : t.val % 8 = 7) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut spec4 c [cc4_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt4`'s first component; the invariant
    `PhiS4`; nothing owed; full shares. -/
def dats4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dats4 V c).A w = V c (Pipeline.arrRef spec4 w) := by
  dsimp only [dats4]

/-- The invariant at a point's start, restated at `t.val`. -/
theorem PhiS4_castSucc (c : Dev nD) (t : Fin cfg4.N) :
    (dats4 V c).Φ t.castSucc = PhiS4 V c t.val (Nat.le_of_lt t.isLt) := by
  dsimp only [dats4]; simp only [Fin.coe_castSucc]

/-- What the body leaves, window by window. -/
theorem after4_0 (c : Dev nD) (t : Fin cfg4.N) : (dats4 V c).after 0 t = iblk4 V c 0 t := by dsimp only [dats4]
theorem after4_1 (c : Dev nD) (t : Fin cfg4.N) : (dats4 V c).after 1 t = iblk4 V c 1 t := by dsimp only [dats4]
theorem after4_2 (c : Dev nD) (t : Fin cfg4.N) : (dats4 V c).after 2 t = iblk4 V c 2 t := by dsimp only [dats4]
theorem after4_3 (c : Dev nD) (t : Fin cfg4.N) : (dats4 V c).after 3 t = (outsAt4 V c t.val t.isLt).1 := by dsimp only [dats4]

/-- Each input's current staging buffer holds its block at every point, fetched there or not. -/
theorem before4_0 (c : Dev nD) (t : Fin cfg4.N) (d) : (dats4 V c).before 0 t d = iblk4 V c 0 t :=
  before4_0_of V (dats4 V c) (A_eq4 V c 0) (after4_0 V c) t d
theorem before4_1 (c : Dev nD) (t : Fin cfg4.N) (d) : (dats4 V c).before 1 t d = iblk4 V c 1 t :=
  before4_1_of V (dats4 V c) (A_eq4 V c 1) (after4_1 V c) t d
theorem before4_2 (c : Dev nD) (t : Fin cfg4.N) (d) : (dats4 V c).before 2 t d = iblk4 V c 2 t :=
  before4_2_of V (dats4 V c) (A_eq4 V c 2) (after4_2 V c) t d

/-! ## The body obligation, at a generic point -/

/-- What the body is called with at point `t` (the windows one by one), -/
def bodyPre4 (c : Dev nD) (t : Fin cfg4.N) : sProp 𝕄 :=
  iprop((dats4 V c).Φ t.castSucc ∗ (dats4 V c).owesAt () t.castSucc
    ∗ (∃ d, owns (c : Thread nD τ) (ms4_0 t) fullShare ((dats4 V c).before 0 t d))
    ∗ (∃ d, owns (c : Thread nD τ) (ms4_1 t) fullShare ((dats4 V c).before 1 t d))
    ∗ (∃ d, owns (c : Thread nD τ) (ms4_2 t) fullShare ((dats4 V c).before 2 t d))
    ∗ (∃ d, owns (c : Thread nD τ) (ms4_3 t) fullShare ((dats4 V c).before 3 t d)))

/-- and what it returns. -/
def bodyPost4 (c : Dev nD) (t : Fin cfg4.N) : sProp 𝕄 :=
  iprop((dats4 V c).Φ t.succ ∗ (dats4 V c).owesAt () t.succ
    ∗ (dats4 V c).leavesExact 0 t
    ∗ (dats4 V c).leavesExact 1 t
    ∗ (dats4 V c).leavesExact 2 t
    ∗ (dats4 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dats4 V c).owesAt () t.succ = (dats4 V c).owesAt () t.castSucc from rfl]
  rw [show (dats4 V c).Φ t.succ = PhiS4 V c (t.val + 1) t.isLt from rfl, PhiS4_succ]
  have hN : t.val < 64 := lt_of_lt_of_eq t.isLt (show cfg4.N = 64 from N_4)
  by_cases h0 : t.val % 8 = 0
  · by_cases h1 : t.val % 8 = 7
    · exfalso; omega
    ·
      rw [show (dats4 V c).leavesExact 0 t = owns (c : Thread nD τ) (ms4_0 t) fullShare ((dats4 V c).after 0 t) from by
        unfold Dat.leavesExact; rw [liveAt4_0 t], after4_0]
      rw [show (dats4 V c).leavesExact 1 t = owns (c : Thread nD τ) (ms4_1 t) fullShare ((dats4 V c).after 1 t) from by
        unfold Dat.leavesExact; rw [liveAt4_1 t], after4_1]
      rw [show (dats4 V c).leavesExact 2 t = owns (c : Thread nD τ) (ms4_2 t) fullShare ((dats4 V c).after 2 t) from by
        unfold Dat.leavesExact; rw [liveAt4_2 t], after4_2]
      rw [Dat.leavesExact_idle (dats4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats4 V c).leavesExact 0 t = owns (c : Thread nD τ) (ms4_0 t) fullShare ((dats4 V c).after 0 t) from by
        unfold Dat.leavesExact; rw [liveAt4_0 t], after4_0]
      rw [show (dats4 V c).leavesExact 1 t = owns (c : Thread nD τ) (ms4_1 t) fullShare ((dats4 V c).after 1 t) from by
        unfold Dat.leavesExact; rw [liveAt4_1 t], after4_1]
      rw [show (dats4 V c).leavesExact 2 t = owns (c : Thread nD τ) (ms4_2 t) fullShare ((dats4 V c).after 2 t) from by
        unfold Dat.leavesExact; rw [liveAt4_2 t], after4_2]
      rw [show (dats4 V c).leavesExact 3 t = owns (c : Thread nD τ) (ms4_3 t) fullShare ((dats4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      by_cases hz : t.val = 0
      · exfalso; have hN : t.val < 64 := lt_of_lt_of_eq t.isLt (show cfg4.N = 64 from N_4); omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    ·
      rw [show (dats4 V c).leavesExact 0 t = owns (c : Thread nD τ) (ms4_0 t) fullShare ((dats4 V c).after 0 t) from by
        unfold Dat.leavesExact; rw [liveAt4_0 t], after4_0]
      rw [show (dats4 V c).leavesExact 1 t = owns (c : Thread nD τ) (ms4_1 t) fullShare ((dats4 V c).after 1 t) from by
        unfold Dat.leavesExact; rw [liveAt4_1 t], after4_1]
      rw [show (dats4 V c).leavesExact 2 t = owns (c : Thread nD τ) (ms4_2 t) fullShare ((dats4 V c).after 2 t) from by
        unfold Dat.leavesExact; rw [liveAt4_2 t], after4_2]
      rw [Dat.leavesExact_idle (dats4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      by_cases hz : t.val = 0
      · exfalso; have hN : t.val < 64 := lt_of_lt_of_eq t.isLt (show cfg4.N = 64 from N_4); omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation4 (c : Dev nD) : BodyObligation (dats4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dats4 V c).Φ 0 := by
  rw [show (dats4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dats4 V c).Φ t ⊢ Pipeline.ΦA spec4 c := by
  rw [show (dats4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dats4 V c).Φ (Fin.last cfg4.N) ⊢ Pipeline.ΦA spec4 c :=
  Phi_out4 V c _ (by rw [Fin.val_last]; have : cfg4.N = 64 := N_4; omega)

end Cert.KernelIdeal.Gen

end
-- ==== Proof.Gcn7Runs.lean ====
import proofs.«166906_j60567628808244_2_alg».proof.Proof.Gcn4Frame
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 7: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block
    index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block
    index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): unfetched, the block
    index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the reduction coordinate is 0: the accumulator is zeroed), from
    the grid coordinates. -/
abbrev cond7_0 (i : grid7.Coords) : Prop := (Scalar.cmpi .ne (Scalar.extui (Scalar.cmpi .eq (BitVec.ofNat 32 (i 1).val) 0#32)) 0#32) = 1#1
/-- It holds at the points ≡ 0 (mod 8) — decided over the grid. -/
theorem hcond7_0 : ∀ t : Fin cfg7.N, cond7_0 (grid7.coords t) ↔ t.val % 8 = 0 :=
  (by decide +kernel : ∀ t : Fin grid7.N, cond7_0 (grid7.coords t) ↔ t.val % 8 = 0)

/-- The condition of the body's second conditional (the reduction coordinate is the last: the accumulator is
    finalized into the output block), from the grid coordinates. -/
abbrev cond7_1 (i : grid7.Coords) : Prop := k7_cond2 i = 1#1
/-- It holds at the points ≡ 7 (mod 8) — decided over the grid. -/
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

/-- Windows 0, 1, 2 are never idle (inputs). -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At the points of case A the output window 3 is idle: the case stores nothing into it. -/
theorem idleAt7_3_A : ∀ t : Fin cfg7.N, cond7_0 (grid7.coords t) → ¬cond7_1 (grid7.coords t) → cfg7.idle 3 (grid7.coords t) = true := by decide +kernel
/-- At the points of case A the pipeline does not write output 3's block back. -/
theorem noFlush7_3_A : ∀ t : Fin cfg7.N, cond7_0 (grid7.coords t) → ¬cond7_1 (grid7.coords t) → (cfg7.win 3).flush t = false := by decide +kernel
/-- At the points of case B the output window 3 is idle: the case stores nothing into it. -/
theorem idleAt7_3_B : ∀ t : Fin cfg7.N, ¬cond7_0 (grid7.coords t) → ¬cond7_1 (grid7.coords t) → cfg7.idle 3 (grid7.coords t) = true := by decide +kernel
/-- At the points of case B the pipeline does not write output 3's block back. -/
theorem noFlush7_3_B : ∀ t : Fin cfg7.N, ¬cond7_0 (grid7.coords t) → ¬cond7_1 (grid7.coords t) → (cfg7.win 3).flush t = false := by decide +kernel
/-- At the points of case C the output window 3 is live: the case stores into it. -/
theorem liveAt7_3_C : ∀ t : Fin cfg7.N, ¬cond7_0 (grid7.coords t) → cond7_1 (grid7.coords t) → cfg7.idle 3 (grid7.coords t) = false := by decide +kernel

/-! ## The memrefs the body is called with -/

/-- One staging buffer of output window 3, through which its contents are stated (the choice does not matter). -/
abbrev VO7_3 : View sig .tc .vmem S1024x512 .f32 := (Memref.whole cc7_stg3_0 : Memref sig .tc .vmem S1024x512 .f32).view
/-- Each window's current staging memref at point `t`, spelled as the pipeline passes it, and its wholeness. -/
abbrev ms7_0 (t : Fin cfg7.N) : Memref sig .tc .vmem S1024x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8192x512 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x512 .f32 := win7_3.stage (cfg7.slots t 3)
abbrev hs7_3 (t : Fin cfg7.N) : (ms7_3 t).IsWhole := hstage7_3 ((cfg7.slots t 3).cast nbuf7_3)
/-- The scratch operand: a whole scoped buffer of the kernel's own, the accumulator, passed beside the windows. -/
abbrev scM7_0 : Memref sig .tc .vmem S1024x512 .f32 := Memref.whole cc7_scratch0
/-- The accumulator as a view: what it holds is stated through it. -/
abbrev VS7_0 : View sig .tc .vmem S1024x512 .f32 := scM7_0.view

/-- The region's invariant as the launch hands it over, with the accumulator as a memref owned at some contents and
    the other scoped buffers unopened. -/
theorem PhiA7_eq (c : Dev nD) :
    (Pipeline.ΦA spec7 c : sProp 𝕄)
      = iprop(iprop(iprop((∃ d, owns (c : Thread nD τ) scM7_0 fullShare d)) ∗ Pipeline.scopedRestBut spec7 c [cc7_scratch0]) ∗ (∃ r, prngReg c r)) := by
  unfold Pipeline.ΦA; rw [scopedRest7_split]; simp only [scM7_0, owns_whole]; try rfl

end Cert.KernelIdeal.Gen

end
-- ==== Proof.Gcn7RunA.lean ====
import proofs.«166906_j60567628808244_2_alg».proof.Proof.Gcn7Runs

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun7_A (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gcn_matmul_kernel i arg2 harg2 arg3 harg3 arg4 harg4 arg5 harg5 arg6 harg6) K } := by
  refine ⟨[], ?_, fun xi3 E K => ?run⟩
  case run =>
    simp only [cc7__gcn_matmul_kernel_eq_skeleton]; unfold cc7__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn7RunB.lean ====
import proofs.«166906_j60567628808244_2_alg».proof.Proof.Gcn7RunA

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun7_B (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gcn_matmul_kernel i arg2 harg2 arg3 harg3 arg4 harg4 arg5 harg5 arg6 harg6) K } := by
  refine ⟨[], ?_, fun xi3 E K => ?run⟩
  case run =>
    simp only [cc7__gcn_matmul_kernel_eq_skeleton]; unfold cc7__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn7RunC.lean ====
import proofs.«166906_j60567628808244_2_alg».proof.Proof.Gcn7RunB

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun7_C (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__gcn_matmul_kernel i arg2 harg2 arg3 harg3 arg4 harg4 arg5 harg5 arg6 harg6) K } := by
  refine ⟨?_, ?_, fun E K => ?run⟩
  case run =>
    simp only [cc7__gcn_matmul_kernel_eq_skeleton]; unfold cc7__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Gcn7Frame.lean ====
import proofs.«166906_j60567628808244_2_alg».proof.Proof.Gcn7RunC

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 7: what the output block and the accumulator hold point by point, the proof data, the body obligation -/

/-- Case A stores nothing into the output block (the window is idle at its points and not written back there): no
    pieces — a placeholder (junk read back) that nothing consults. -/
def out7_A_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) : Vec F S1024x512 .f32 :=
  VO7_3.read (Elt F) (VO7_3.writes (Elt F) VO7_3.junk (kernelRun7_A c i arg2 harg2 arg3 harg3 arg4 harg4 arg5 harg5 arg6 harg6 hc0 hc1 x0 x1 x2).1)

/-- Case A's pieces for the accumulator, which the kernel carries between points, cover it (whole-buffer stores). -/
theorem scover7_A_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) (y : S1024x512.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S1024x512.size (by sl_kernel_rfl) y

/-- What case A leaves in the accumulator: its pieces read back over junk. -/
def sout7_A_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) : Vec F S1024x512 .f32 :=
  VS7_0.read (Elt F) (VS7_0.writes (Elt F) VS7_0.junk (kernelRun7_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out7_B_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) : Vec F S1024x512 .f32 :=
  VO7_3.read (Elt F) (VO7_3.writes (Elt F) VO7_3.junk (kernelRun7_B c i arg2 harg2 arg3 harg3 arg4 harg4 arg5 harg5 arg6 harg6 hc0 hc1 x0 x1 x2 xs0).1)

/-- Case B's pieces for the accumulator, which the kernel carries between points, cover it (whole-buffer stores). -/
theorem scover7_B_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) (y : S1024x512.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S1024x512.size (by sl_kernel_rfl) y

/-- What case B leaves in the accumulator: its pieces read back over junk. -/
def sout7_B_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) : Vec F S1024x512 .f32 :=
  VS7_0.read (Elt F) (VS7_0.writes (Elt F) VS7_0.junk (kernelRun7_B c i arg2 harg2 arg3 harg3 arg4 harg4 arg5 harg5 arg6 harg6 hc0 hc1 x0 x1 x2 xs0).2.1)

/-- Case C's pieces for the output block tile it (one store of the whole block), so they cover it. -/
theorem cover7_C_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) (y : S1024x512.Idx) :
    ∃ pc ∈ (kernelRun7_C c i arg2 harg2 arg3 harg3 arg4 harg4 arg5 harg5 arg6 harg6 hc0 hc1 x0 x1 x2 xs0).1, y ∈ pc.1.set :=
  View.cover_of_tiledL (kernelRun7_C c i arg2 harg2 arg3 harg3 arg4 harg4 arg5 harg5 arg6 harg6 hc0 hc1 x0 x1 x2 xs0).1 S1024x512.size (by sl_kernel_rfl) y

/-- What case C leaves in the output's staging buffer: its pieces read back over junk. -/
def out7_C_3 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) : Vec F S1024x512 .f32 :=
  VO7_3.read (Elt F) (VO7_3.writes (Elt F) VO7_3.junk (kernelRun7_C c i arg2 harg2 arg3 harg3 arg4 harg4 arg5 harg5 arg6 harg6 hc0 hc1 x0 x1 x2 xs0).1)

/-- Case C's pieces for the accumulator, which the kernel carries between points, cover it (whole-buffer stores). -/
theorem scover7_C_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) (y : S1024x512.Idx) :
    ∃ pc ∈ (kernelRun7_C c i arg2 harg2 arg3 harg3 arg4 harg4 arg5 harg5 arg6 harg6 hc0 hc1 x0 x1 x2 xs0).2.1, y ∈ pc.1.set :=
  View.cover_of_tiledL (kernelRun7_C c i arg2 harg2 arg3 harg3 arg4 harg4 arg5 harg5 arg6 harg6 hc0 hc1 x0 x1 x2 xs0).2.1 S1024x512.size (by sl_kernel_rfl) y

/-- What case C leaves in the accumulator: its pieces read back over junk. -/
def sout7_C_0 (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) : Vec F S1024x512 .f32 :=
  VS7_0.read (Elt F) (VS7_0.writes (Elt F) VS7_0.junk (kernelRun7_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt7 (c : Dev nD) : (n : ℕ) → n < cfg7.N → Vec F S1024x512 .f32 × Vec F S1024x512 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by have hN : n + 1 < 64 := lt_of_lt_of_eq hn (show cfg7.N = 64 from N_7); omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- `outsAt7` at a point of case A: that case's contents. -/
theorem outsAt7_A (c : Dev nD) (t : Fin cfg7.N) (h0 : t.val % 8 = 0) (h1 : ¬t.val % 8 = 7) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t), sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- `outsAt7` at a point of case B: that case's contents, over what the point before left. -/
theorem outsAt7_B (c : Dev nD) (t : Fin cfg7.N) (h0 : ¬t.val % 8 = 0) (h1 : ¬t.val % 8 = 7) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: that case's contents, over what the point before left. -/
theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2)) ∗ Pipeline.scopedRestBut spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(iprop(owns (c : Thread nD τ) scM7_0 fullShare ((outsAt7 V c n hn).2)) ∗ Pipeline.scopedRestBut spec7 c [cc7_scratch0]) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2)) ∗ Pipeline.scopedRestBut spec7 c [cc7_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt7`'s first component; the invariant
    `PhiS7`; nothing owed; full shares. -/
def dats7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

/-- The proof data's arrays are the region-entry contents. -/
theorem A_eq7 (c : Dev nD) (w : Fin cfg7.W) : (dats7 V c).A w = V c (Pipeline.arrRef spec7 w) := by
  dsimp only [dats7]

/-- The invariant at a point's start, restated at `t.val`. -/
theorem PhiS7_castSucc (c : Dev nD) (t : Fin cfg7.N) :
    (dats7 V c).Φ t.castSucc = PhiS7 V c t.val (Nat.le_of_lt t.isLt) := by
  dsimp only [dats7]; simp only [Fin.coe_castSucc]

/-- What the body leaves, window by window. -/
theorem after7_0 (c : Dev nD) (t : Fin cfg7.N) : (dats7 V c).after 0 t = iblk7 V c 0 t := by dsimp only [dats7]
theorem after7_1 (c : Dev nD) (t : Fin cfg7.N) : (dats7 V c).after 1 t = iblk7 V c 1 t := by dsimp only [dats7]
theorem after7_2 (c : Dev nD) (t : Fin cfg7.N) : (dats7 V c).after 2 t = iblk7 V c 2 t := by dsimp only [dats7]
theorem after7_3 (c : Dev nD) (t : Fin cfg7.N) : (dats7 V c).after 3 t = (outsAt7 V c t.val t.isLt).1 := by dsimp only [dats7]

/-- Each input's current staging buffer holds its block at every point, fetched there or not. -/
theorem before7_0 (c : Dev nD) (t : Fin cfg7.N) (d) : (dats7 V c).before 0 t d = iblk7 V c 0 t :=
  before7_0_of V (dats7 V c) (A_eq7 V c 0) (after7_0 V c) t d
theorem before7_1 (c : Dev nD) (t : Fin cfg7.N) (d) : (dats7 V c).before 1 t d = iblk7 V c 1 t :=
  before7_1_of V (dats7 V c) (A_eq7 V c 1) (after7_1 V c) t d
theorem before7_2 (c : Dev nD) (t : Fin cfg7.N) (d) : (dats7 V c).before 2 t d = iblk7 V c 2 t :=
  before7_2_of V (dats7 V c) (A_eq7 V c 2) (after7_2 V c) t d

/-! ## The body obligation, at a generic point -/

/-- What the body is called with at point `t` (the windows one by one), -/
def bodyPre7 (c : Dev nD) (t : Fin cfg7.N) : sProp 𝕄 :=
  iprop((dats7 V c).Φ t.castSucc ∗ (dats7 V c).owesAt () t.castSucc
    ∗ (∃ d, owns (c : Thread nD τ) (ms7_0 t) fullShare ((dats7 V c).before 0 t d))
    ∗ (∃ d, owns (c : Thread nD τ) (ms7_1 t) fullShare ((dats7 V c).before 1 t d))
    ∗ (∃ d, owns (c : Thread nD τ) (ms7_2 t) fullShare ((dats7 V c).before 2 t d))
    ∗ (∃ d, owns (c : Thread nD τ) (ms7_3 t) fullShare ((dats7 V c).before 3 t d)))

/-- and what it returns. -/
def bodyPost7 (c : Dev nD) (t : Fin cfg7.N) : sProp 𝕄 :=
  iprop((dats7 V c).Φ t.succ ∗ (dats7 V c).owesAt () t.succ
    ∗ (dats7 V c).leavesExact 0 t
    ∗ (dats7 V c).leavesExact 1 t
    ∗ (dats7 V c).leavesExact 2 t
    ∗ (dats7 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dats7 V c).owesAt () t.succ = (dats7 V c).owesAt () t.castSucc from rfl]
  rw [show (dats7 V c).Φ t.succ = PhiS7 V c (t.val + 1) t.isLt from rfl, PhiS7_succ]
  have hN : t.val < 64 := lt_of_lt_of_eq t.isLt (show cfg7.N = 64 from N_7)
  by_cases h0 : t.val % 8 = 0
  · by_cases h1 : t.val % 8 = 7
    · exfalso; omega
    ·
      rw [show (dats7 V c).leavesExact 0 t = owns (c : Thread nD τ) (ms7_0 t) fullShare ((dats7 V c).after 0 t) from by
        unfold Dat.leavesExact; rw [liveAt7_0 t], after7_0]
      rw [show (dats7 V c).leavesExact 1 t = owns (c : Thread nD τ) (ms7_1 t) fullShare ((dats7 V c).after 1 t) from by
        unfold Dat.leavesExact; rw [liveAt7_1 t], after7_1]
      rw [show (dats7 V c).leavesExact 2 t = owns (c : Thread nD τ) (ms7_2 t) fullShare ((dats7 V c).after 2 t) from by
        unfold Dat.leavesExact; rw [liveAt7_2 t], after7_2]
      rw [Dat.leavesExact_idle (dats7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats7 V c).leavesExact 0 t = owns (c : Thread nD τ) (ms7_0 t) fullShare ((dats7 V c).after 0 t) from by
        unfold Dat.leavesExact; rw [liveAt7_0 t], after7_0]
      rw [show (dats7 V c).leavesExact 1 t = owns (c : Thread nD τ) (ms7_1 t) fullShare ((dats7 V c).after 1 t) from by
        unfold Dat.leavesExact; rw [liveAt7_1 t], after7_1]
      rw [show (dats7 V c).leavesExact 2 t = owns (c : Thread nD τ) (ms7_2 t) fullShare ((dats7 V c).after 2 t) from by
        unfold Dat.leavesExact; rw [liveAt7_2 t], after7_2]
      rw [show (dats7 V c).leavesExact 3 t = owns (c : Thread nD τ) (ms7_3 t) fullShare ((dats7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      by_cases hz : t.val = 0
      · exfalso; have hN : t.val < 64 := lt_of_lt_of_eq t.isLt (show cfg7.N = 64 from N_7); omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover7_C_3 c _ _ _ _ _ _ _ _ _ _ _ _ _ _ _ _ _)
    ·
      rw [show (dats7 V c).leavesExact 0 t = owns (c : Thread nD τ) (ms7_0 t) fullShare ((dats7 V c).after 0 t) from by
        unfold Dat.leavesExact; rw [liveAt7_0 t], after7_0]
      rw [show (dats7 V c).leavesExact 1 t = owns (c : Thread nD τ) (ms7_1 t) fullShare ((dats7 V c).after 1 t) from by
        unfold Dat.leavesExact; rw [liveAt7_1 t], after7_1]
      rw [show (dats7 V c).leavesExact 2 t = owns (c : Thread nD τ) (ms7_2 t) fullShare ((dats7 V c).after 2 t) from by
        unfold Dat.leavesExact; rw [liveAt7_2 t], after7_2]
      rw [Dat.leavesExact_idle (dats7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      by_cases hz : t.val = 0
      · exfalso; have hN : t.val < 64 := lt_of_lt_of_eq t.isLt (show cfg7.N = 64 from N_7); omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation7 (c : Dev nD) : BodyObligation (dats7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dats7 V c).Φ 0 := by
  rw [show (dats7 V c).Φ 0 = PhiS7 V c 0 (Nat.zero_le _) from rfl, PhiS7_zero V c 0 _ rfl]
  try exact Idealize.SL.BI.Entails.refl _

/-- After any point but the first the invariant gives the launch's back: the accumulator's named contents are forgotten. -/
theorem Phi_out7 (c : Dev nD) (t : Fin (cfg7.N + 1)) (ht : t.val ≠ 0) : (dats7 V c).Φ t ⊢ Pipeline.ΦA spec7 c := by
  rw [show (dats7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point. -/
theorem hout7 (c : Dev nD) : (dats7 V c).Φ (Fin.last cfg7.N) ⊢ Pipeline.ΦA spec7 c :=
  Phi_out7 V c _ (by rw [Fin.val_last]; have : cfg7.N = 64 := N_7; omega)

end Cert.KernelIdeal.Gen

end
-- ==== Proof.Gcn9Runs.lean ====
import proofs.«166906_j60567628808244_2_alg».proof.Proof.Gcn7Frame
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 9: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): unfetched, the block
    index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): unfetched, the block
    index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions -/

/-- The condition of the body's first conditional (the reduction coordinate is 0: the accumulator is zeroed), from
    the grid coordinates. -/
abbrev cond9_0 (i : grid9.Coords) : Prop := (Scalar.cmpi .ne (Scalar.extui (Scalar.cmpi .eq (BitVec.ofNat 32 (i 1).val) 0#32)) 0#32) = 1#1
/-- It holds at the points ≡ 0 (mod 8) — decided over the grid. -/
theorem hcond9_0 : ∀ t : Fin cfg9.N, cond9_0 (grid9.coords t) ↔ t.val % 8 = 0 :=
  (by decide +kernel : ∀ t : Fin grid9.N, cond9_0 (grid9.coords t) ↔ t.val % 8 = 0)

/-- The condition of the body's second conditional (the reduction coordinate is the last: the accumulator is
    finalized into the output block), from the grid coordinates. -/
abbrev cond9_1 (i : grid9.Coords) : Prop := k9_cond2 i = 1#1
/-- It holds at the points ≡ 7 (mod 8) — decided over the grid. -/
theorem hcond9_1 : ∀ t : Fin cfg9.N, cond9_1 (grid9.coords t) ↔ t.val % 8 = 7 :=
  (by decide +kernel : ∀ t : Fin grid9.N, cond9_1 (grid9.coords t) ↔ t.val % 8 = 7)

/-! ## Where the windows are idle -/

/-- Windows 0, 1, 2 are never idle (inputs). -/
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
/-- At the points of case A the output window 3 is idle: the case stores nothing into it. -/
theorem idleAt9_3_A : ∀ t : Fin cfg9.N, cond9_0 (grid9.coords t) → ¬cond9_1 (grid9.coords t) → cfg9.idle 3 (grid9.coords t) = true := by decide +kernel
/-- At the points of case A the pipeline does not write output 3's block back. -/
theorem noFlush9_3_A : ∀ t : Fin cfg9.N, cond9_0 (grid9.coords t) → ¬cond9_1 (grid9.coords t) → (cfg9.win 3).flush t = false := by decide +kernel
/-- At the points of case B the output window 3 is idle: the case stores nothing into it. -/
theorem idleAt9_3_B : ∀ t : Fin cfg9.N, ¬cond9_0 (grid9.coords t) → ¬cond9_1 (grid9.coords t) → cfg9.idle 3 (grid9.coords t) = true := by decide +kernel
/-- At the points of case B the pipeline does not write output 3's block back. -/
theorem noFlush9_3_B : ∀ t : Fin cfg9.N, ¬cond9_0 (grid9.coords t) → ¬cond9_1 (grid9.coords t) → (cfg9.win 3).flush t = false := by decide +kernel
/-- At the points of case C the output window 3 is live: the case stores into it. -/
theorem liveAt9_3_C : ∀ t : Fin cfg9.N, ¬cond9_0 (grid9.coords t) → cond9_1 (grid9.coords t) → cfg9.idle 3 (grid9.coords t) = false := by decide +kernel

/-! ## The memrefs the body is called with -/

/-- One staging buffer of output window 3, through which its contents are stated (the choice does not matter). -/
abbrev VO9_3 : View sig .tc .vmem S1024x256 .f32 := (Memref.whole cc9_stg3_0 : Memref sig .tc .vmem S1024x256 .f32).view
/-- Each window's current staging memref at point `t`, spelled as the pipeline passes it, and its wholeness. -/
abbrev ms9_0 (t : Fin cfg9.N) : Memref sig .tc .vmem S1024x1024 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S8192x256 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x256 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x256 .f32 := win9_3.stage (cfg9.slots t 3)
abbrev hs9_3 (t : Fin cfg9.N) : (ms9_3 t).IsWhole := hstage9_3 ((cfg9.slots t 3).cast nbuf9_3)
/-- The scratch operand: a whole scoped buffer of the kernel's own, the accumulator, passed beside the windows. -/
abbrev scM9_0 : Memref sig .tc .vmem S1024x256 .f32 := Memref.whole cc9_scratch0
/-- The accumulator as a view: what it holds is stated through it. -/
abbrev VS9_0 : View sig .tc .vmem S1024x256 .f32 := scM9_0.view

/-- The region's invariant as the launch hands it over, with the accumulator as a memref owned at some contents and
    the other scoped buffers unopened. -/
theorem PhiA9_eq (c : Dev nD) :
    (Pipeline.ΦA spec9 c : sProp 𝕄)
      = iprop(iprop(iprop((∃ d, owns (c : Thread nD τ) scM9_0 fullShare d)) ∗ Pipeline.scopedRestBut spec9 c [cc9_scratch0]) ∗ (∃ r, prngReg c r)) := by
  unfold Pipeline.ΦA; rw [scopedRest9_split]; simp only [scM9_0, owns_whole]; try rfl

end Cert.KernelIdeal.Gen

end
-- ==== Proof.Gcn9RunA.lean ====
import proofs.«166906_j60567628808244_2_alg».proof.Proof.Gcn9Runs

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun9_A (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gcn_matmul_kernel i arg2 harg2 arg3 harg3 arg4 harg4 arg5 harg5 arg6 harg6) K } := by
  refine ⟨[], ?_, fun xi3 E K => ?run⟩
  case run =>
    simp only [cc9__gcn_matmul_kernel_eq_skeleton]; unfold cc9__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn9RunB.lean ====
import proofs.«166906_j60567628808244_2_alg».proof.Proof.Gcn9RunA

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun9_B (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gcn_matmul_kernel i arg2 harg2 arg3 harg3 arg4 harg4 arg5 harg5 arg6 harg6) K } := by
  refine ⟨[], ?_, fun xi3 E K => ?run⟩
  case run =>
    simp only [cc9__gcn_matmul_kernel_eq_skeleton]; unfold cc9__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn9RunC.lean ====
import proofs.«166906_j60567628808244_2_alg».proof.Proof.Gcn9RunB

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun9_C (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc9__gcn_matmul_kernel i arg2 harg2 arg3 harg3 arg4 harg4 arg5 harg5 arg6 harg6) K } := by
  refine ⟨?_, ?_, fun E K => ?run⟩
  case run =>
    simp only [cc9__gcn_matmul_kernel_eq_skeleton]; unfold cc9__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Gcn9Frame.lean ====
import proofs.«166906_j60567628808244_2_alg».proof.Proof.Gcn9RunC

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 9: what the output block and the accumulator hold point by point, the proof data, the body obligation -/

/-- Case A stores nothing into the output block (the window is idle at its points and not written back there): no
    pieces — a placeholder (junk read back) that nothing consults. -/
def out9_A_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) : Vec F S1024x256 .f32 :=
  VO9_3.read (Elt F) (VO9_3.writes (Elt F) VO9_3.junk (kernelRun9_A c i arg2 harg2 arg3 harg3 arg4 harg4 arg5 harg5 arg6 harg6 hc0 hc1 x0 x1 x2).1)

/-- Case A's pieces for the accumulator, which the kernel carries between points, cover it (whole-buffer stores). -/
theorem scover9_A_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) (y : S1024x256.Idx) :
    ∃ pc ∈ (kernelRun9_A c i arg2 harg2 arg3 harg3 arg4 harg4 arg5 harg5 arg6 harg6 hc0 hc1 x0 x1 x2).2.1, y ∈ pc.1.set :=
  View.cover_of_tiledL (kernelRun9_A c i arg2 harg2 arg3 harg3 arg4 harg4 arg5 harg5 arg6 harg6 hc0 hc1 x0 x1 x2).2.1 S1024x256.size (by sl_kernel_rfl) y

/-- What case A leaves in the accumulator: its pieces read back over junk. -/
def sout9_A_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) : Vec F S1024x256 .f32 :=
  VS9_0.read (Elt F) (VS9_0.writes (Elt F) VS9_0.junk (kernelRun9_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out9_B_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) : Vec F S1024x256 .f32 :=
  VO9_3.read (Elt F) (VO9_3.writes (Elt F) VO9_3.junk (kernelRun9_B c i arg2 harg2 arg3 harg3 arg4 harg4 arg5 harg5 arg6 harg6 hc0 hc1 x0 x1 x2 xs0).1)

/-- Case B's pieces for the accumulator, which the kernel carries between points, cover it (whole-buffer stores). -/
theorem scover9_B_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) (y : S1024x256.Idx) :
    ∃ pc ∈ (kernelRun9_B c i arg2 harg2 arg3 harg3 arg4 harg4 arg5 harg5 arg6 harg6 hc0 hc1 x0 x1 x2 xs0).2.1, y ∈ pc.1.set :=
  View.cover_of_tiledL (kernelRun9_B c i arg2 harg2 arg3 harg3 arg4 harg4 arg5 harg5 arg6 harg6 hc0 hc1 x0 x1 x2 xs0).2.1 S1024x256.size (by sl_kernel_rfl) y

/-- What case B leaves in the accumulator: its pieces read back over junk. -/
def sout9_B_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) : Vec F S1024x256 .f32 :=
  VS9_0.read (Elt F) (VS9_0.writes (Elt F) VS9_0.junk (kernelRun9_B c i arg2 harg2 arg3 harg3 arg4 harg4 arg5 harg5 arg6 harg6 hc0 hc1 x0 x1 x2 xs0).2.1)

/-- Case C's pieces for the output block tile it (one store of the whole block), so they cover it. -/
theorem cover9_C_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) (y : S1024x256.Idx) :
    ∃ pc ∈ (kernelRun9_C c i arg2 harg2 arg3 harg3 arg4 harg4 arg5 harg5 arg6 harg6 hc0 hc1 x0 x1 x2 xs0).1, y ∈ pc.1.set :=
  View.cover_of_tiledL (kernelRun9_C c i arg2 harg2 arg3 harg3 arg4 harg4 arg5 harg5 arg6 harg6 hc0 hc1 x0 x1 x2 xs0).1 S1024x256.size (by sl_kernel_rfl) y

/-- What case C leaves in the output's staging buffer: its pieces read back over junk. -/
def out9_C_3 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) : Vec F S1024x256 .f32 :=
  VO9_3.read (Elt F) (VO9_3.writes (Elt F) VO9_3.junk (kernelRun9_C c i arg2 harg2 arg3 harg3 arg4 harg4 arg5 harg5 arg6 harg6 hc0 hc1 x0 x1 x2 xs0).1)

/-- Case C's pieces for the accumulator, which the kernel carries between points, cover it (whole-buffer stores). -/
theorem scover9_C_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) (y : S1024x256.Idx) :
    ∃ pc ∈ (kernelRun9_C c i arg2 harg2 arg3 harg3 arg4 harg4 arg5 harg5 arg6 harg6 hc0 hc1 x0 x1 x2 xs0).2.1, y ∈ pc.1.set :=
  View.cover_of_tiledL (kernelRun9_C c i arg2 harg2 arg3 harg3 arg4 harg4 arg5 harg5 arg6 harg6 hc0 hc1 x0 x1 x2 xs0).2.1 S1024x256.size (by sl_kernel_rfl) y

/-- What case C leaves in the accumulator: its pieces read back over junk. -/
def sout9_C_0 (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) : Vec F S1024x256 .f32 :=
  VS9_0.read (Elt F) (VS9_0.writes (Elt F) VS9_0.junk (kernelRun9_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt9 (c : Dev nD) : (n : ℕ) → n < cfg9.N → Vec F S1024x256 .f32 × Vec F S1024x256 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 8 = 0 then
      if h1 : (n + 1) % 8 = 7 then
        False.elim (by have hN : n + 1 < 64 := lt_of_lt_of_eq hn (show cfg9.N = 64 from N_9); omega)
      else
        (out9_A_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 8 = 7 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

/-- `outsAt9` at a point of case A: that case's contents. -/
theorem outsAt9_A (c : Dev nD) (t : Fin cfg9.N) (h0 : t.val % 8 = 0) (h1 : ¬t.val % 8 = 7) :
    outsAt9 V c t.val t.isLt = (out9_A_3 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t), sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

/-- `outsAt9` at a point of case B: that case's contents, over what the point before left. -/
theorem outsAt9_B (c : Dev nD) (t : Fin cfg9.N) (h0 : ¬t.val % 8 = 0) (h1 : ¬t.val % 8 = 7) :
    outsAt9 V c t.val t.isLt = (out9_B_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt9` at a point of case C: that case's contents, over what the point before left. -/
theorem outsAt9_C (c : Dev nD) (t : Fin cfg9.N) (h0 : ¬t.val % 8 = 0) (h1 : t.val % 8 = 7) :
    outsAt9 V c t.val t.isLt = (out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2)) ∗ Pipeline.scopedRestBut spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

/-- After point `n` (before point `n + 1`): the accumulator at that point's contents. -/
theorem PhiS9_succ (c : Dev nD) (n : ℕ) (hn : n < cfg9.N) :
    PhiS9 V c (n + 1) hn = iprop(iprop(iprop(owns (c : Thread nD τ) scM9_0 fullShare ((outsAt9 V c n hn).2)) ∗ Pipeline.scopedRestBut spec9 c [cc9_scratch0]) ∗ (∃ r, prngReg c r)) := rfl

/-- Before a point that is not the first: the accumulator at what the point before left. -/
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2)) ∗ Pipeline.scopedRestBut spec9 c [cc9_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt9`'s first component; the invariant
    `PhiS9`; nothing owed; full shares. -/
def dats9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

/-- The proof data's arrays are the region-entry contents. -/
theorem A_eq9 (c : Dev nD) (w : Fin cfg9.W) : (dats9 V c).A w = V c (Pipeline.arrRef spec9 w) := by
  dsimp only [dats9]

/-- The invariant at a point's start, restated at `t.val`. -/
theorem PhiS9_castSucc (c : Dev nD) (t : Fin cfg9.N) :
    (dats9 V c).Φ t.castSucc = PhiS9 V c t.val (Nat.le_of_lt t.isLt) := by
  dsimp only [dats9]; simp only [Fin.coe_castSucc]

/-- What the body leaves, window by window. -/
theorem after9_0 (c : Dev nD) (t : Fin cfg9.N) : (dats9 V c).after 0 t = iblk9 V c 0 t := by dsimp only [dats9]
theorem after9_1 (c : Dev nD) (t : Fin cfg9.N) : (dats9 V c).after 1 t = iblk9 V c 1 t := by dsimp only [dats9]
theorem after9_2 (c : Dev nD) (t : Fin cfg9.N) : (dats9 V c).after 2 t = iblk9 V c 2 t := by dsimp only [dats9]
theorem after9_3 (c : Dev nD) (t : Fin cfg9.N) : (dats9 V c).after 3 t = (outsAt9 V c t.val t.isLt).1 := by dsimp only [dats9]

/-- Each input's current staging buffer holds its block at every point, fetched there or not. -/
theorem before9_0 (c : Dev nD) (t : Fin cfg9.N) (d) : (dats9 V c).before 0 t d = iblk9 V c 0 t :=
  before9_0_of V (dats9 V c) (A_eq9 V c 0) (after9_0 V c) t d
theorem before9_1 (c : Dev nD) (t : Fin cfg9.N) (d) : (dats9 V c).before 1 t d = iblk9 V c 1 t :=
  before9_1_of V (dats9 V c) (A_eq9 V c 1) (after9_1 V c) t d
theorem before9_2 (c : Dev nD) (t : Fin cfg9.N) (d) : (dats9 V c).before 2 t d = iblk9 V c 2 t :=
  before9_2_of V (dats9 V c) (A_eq9 V c 2) (after9_2 V c) t d

/-! ## The body obligation, at a generic point -/

/-- What the body is called with at point `t` (the windows one by one), -/
def bodyPre9 (c : Dev nD) (t : Fin cfg9.N) : sProp 𝕄 :=
  iprop((dats9 V c).Φ t.castSucc ∗ (dats9 V c).owesAt () t.castSucc
    ∗ (∃ d, owns (c : Thread nD τ) (ms9_0 t) fullShare ((dats9 V c).before 0 t d))
    ∗ (∃ d, owns (c : Thread nD τ) (ms9_1 t) fullShare ((dats9 V c).before 1 t d))
    ∗ (∃ d, owns (c : Thread nD τ) (ms9_2 t) fullShare ((dats9 V c).before 2 t d))
    ∗ (∃ d, owns (c : Thread nD τ) (ms9_3 t) fullShare ((dats9 V c).before 3 t d)))

/-- and what it returns. -/
def bodyPost9 (c : Dev nD) (t : Fin cfg9.N) : sProp 𝕄 :=
  iprop((dats9 V c).Φ t.succ ∗ (dats9 V c).owesAt () t.succ
    ∗ (dats9 V c).leavesExact 0 t
    ∗ (dats9 V c).leavesExact 1 t
    ∗ (dats9 V c).leavesExact 2 t
    ∗ (dats9 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dats9 V c).owesAt () t.succ = (dats9 V c).owesAt () t.castSucc from rfl]
  rw [show (dats9 V c).Φ t.succ = PhiS9 V c (t.val + 1) t.isLt from rfl, PhiS9_succ]
  have hN : t.val < 64 := lt_of_lt_of_eq t.isLt (show cfg9.N = 64 from N_9)
  by_cases h0 : t.val % 8 = 0
  · by_cases h1 : t.val % 8 = 7
    · exfalso; omega
    ·
      rw [show (dats9 V c).leavesExact 0 t = owns (c : Thread nD τ) (ms9_0 t) fullShare ((dats9 V c).after 0 t) from by
        unfold Dat.leavesExact; rw [liveAt9_0 t], after9_0]
      rw [show (dats9 V c).leavesExact 1 t = owns (c : Thread nD τ) (ms9_1 t) fullShare ((dats9 V c).after 1 t) from by
        unfold Dat.leavesExact; rw [liveAt9_1 t], after9_1]
      rw [show (dats9 V c).leavesExact 2 t = owns (c : Thread nD τ) (ms9_2 t) fullShare ((dats9 V c).after 2 t) from by
        unfold Dat.leavesExact; rw [liveAt9_2 t], after9_2]
      rw [Dat.leavesExact_idle (dats9 V c) 3 t (idleAt9_3_A t ((hcond9_0 t).mpr h0) (fun h => h1 ((hcond9_1 t).mp h))) (noFlush9_3_A t ((hcond9_0 t).mpr h0) (fun h => h1 ((hcond9_1 t).mp h)))]
      rw [outsAt9_A V c t h0 h1]
      unfold sout9_A_0; (try dsimp only)
      by_cases hz : t.val = 0
      · rw [PhiS9_castSucc V c t, PhiS9_zero V c _ _ hz, PhiA9_eq]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats9 V c).leavesExact 0 t = owns (c : Thread nD τ) (ms9_0 t) fullShare ((dats9 V c).after 0 t) from by
        unfold Dat.leavesExact; rw [liveAt9_0 t], after9_0]
      rw [show (dats9 V c).leavesExact 1 t = owns (c : Thread nD τ) (ms9_1 t) fullShare ((dats9 V c).after 1 t) from by
        unfold Dat.leavesExact; rw [liveAt9_1 t], after9_1]
      rw [show (dats9 V c).leavesExact 2 t = owns (c : Thread nD τ) (ms9_2 t) fullShare ((dats9 V c).after 2 t) from by
        unfold Dat.leavesExact; rw [liveAt9_2 t], after9_2]
      rw [show (dats9 V c).leavesExact 3 t = owns (c : Thread nD τ) (ms9_3 t) fullShare ((dats9 V c).after 3 t) from by
        unfold Dat.leavesExact; rw [liveAt9_3_C t (fun h => h0 ((hcond9_0 t).mp h)) ((hcond9_1 t).mpr h1)], after9_3]
      rw [outsAt9_C V c t h0 h1]
      unfold out9_C_3 sout9_C_0; (try dsimp only)
      by_cases hz : t.val = 0
      · exfalso; have hN : t.val < 64 := lt_of_lt_of_eq t.isLt (show cfg9.N = 64 from N_9); omega
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover9_C_3 c _ _ _ _ _ _ _ _ _ _ _ _ _ _ _ _ _)
    ·
      rw [show (dats9 V c).leavesExact 0 t = owns (c : Thread nD τ) (ms9_0 t) fullShare ((dats9 V c).after 0 t) from by
        unfold Dat.leavesExact; rw [liveAt9_0 t], after9_0]
      rw [show (dats9 V c).leavesExact 1 t = owns (c : Thread nD τ) (ms9_1 t) fullShare ((dats9 V c).after 1 t) from by
        unfold Dat.leavesExact; rw [liveAt9_1 t], after9_1]
      rw [show (dats9 V c).leavesExact 2 t = owns (c : Thread nD τ) (ms9_2 t) fullShare ((dats9 V c).after 2 t) from by
        unfold Dat.leavesExact; rw [liveAt9_2 t], after9_2]
      rw [Dat.leavesExact_idle (dats9 V c) 3 t (idleAt9_3_B t (fun h => h0 ((hcond9_0 t).mp h)) (fun h => h1 ((hcond9_1 t).mp h))) (noFlush9_3_B t (fun h => h0 ((hcond9_0 t).mp h)) (fun h => h1 ((hcond9_1 t).mp h)))]
      rw [outsAt9_B V c t h0 h1]
      unfold sout9_B_0; (try dsimp only)
      by_cases hz : t.val = 0
      · exfalso; have hN : t.val < 64 := lt_of_lt_of_eq t.isLt (show cfg9.N = 64 from N_9); omega
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation9 (c : Dev nD) : BodyObligation (dats9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dats9 V c).Φ 0 := by
  rw [show (dats9 V c).Φ 0 = PhiS9 V c 0 (Nat.zero_le _) from rfl, PhiS9_zero V c 0 _ rfl]
  try exact Idealize.SL.BI.Entails.refl _

/-- After any point but the first the invariant gives the launch's back: the accumulator's named contents are forgotten. -/
theorem Phi_out9 (c : Dev nD) (t : Fin (cfg9.N + 1)) (ht : t.val ≠ 0) : (dats9 V c).Φ t ⊢ Pipeline.ΦA spec9 c := by
  rw [show (dats9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

/-- The same after the last point. -/
theorem hout9 (c : Dev nD) : (dats9 V c).Φ (Fin.last cfg9.N) ⊢ Pipeline.ΦA spec9 c :=
  Phi_out9 V c _ (by rw [Fin.val_last]; have : cfg9.N = 64 := N_9; omega)

end Cert.KernelIdeal.Gen

end
-- ==== Proof.Gcn11Runs.lean ====
import proofs.«166906_j60567628808244_2_alg».proof.Proof.Gcn9Frame
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 11: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): unfetched, the block
    index has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): unfetched, the block
    index has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch conditions -/

/-- The condition of the body's first conditional (the reduction coordinate is 0: the accumulator is zeroed), from
    the grid coordinates. -/
abbrev cond11_0 (i : grid11.Coords) : Prop := (Scalar.cmpi .ne (Scalar.extui (Scalar.cmpi .eq (BitVec.ofNat 32 (i 1).val) 0#32)) 0#32) = 1#1
/-- It holds at the points ≡ 0 (mod 8) — decided over the grid. -/
theorem hcond11_0 : ∀ t : Fin cfg11.N, cond11_0 (grid11.coords t) ↔ t.val % 8 = 0 :=
  (by decide +kernel : ∀ t : Fin grid11.N, cond11_0 (grid11.coords t) ↔ t.val % 8 = 0)

/-- The condition of the body's second conditional (the reduction coordinate is the last: the accumulator is
    finalized into the output block), from the grid coordinates. -/
abbrev cond11_1 (i : grid11.Coords) : Prop := k11_cond2 i = 1#1
/-- It holds at the points ≡ 7 (mod 8) — decided over the grid. -/
theorem hcond11_1 : ∀ t : Fin cfg11.N, cond11_1 (grid11.coords t) ↔ t.val % 8 = 7 :=
  (by decide +kernel : ∀ t : Fin grid11.N, cond11_1 (grid11.coords t) ↔ t.val % 8 = 7)

/-! ## Where the windows are idle -/

/-- Windows 0, 1, 2 are never idle (inputs). -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
/-- At the points of case A the output window 3 is idle: the case stores nothing into it. -/
theorem idleAt11_3_A : ∀ t : Fin cfg11.N, cond11_0 (grid11.coords t) → ¬cond11_1 (grid11.coords t) → cfg11.idle 3 (grid11.coords t) = true := by decide +kernel
/-- At the points of case A the pipeline does not write output 3's block back. -/
theorem noFlush11_3_A : ∀ t : Fin cfg11.N, cond11_0 (grid11.coords t) → ¬cond11_1 (grid11.coords t) → (cfg11.win 3).flush t = false := by decide +kernel
/-- At the points of case B the output window 3 is idle: the case stores nothing into it. -/
theorem idleAt11_3_B : ∀ t : Fin cfg11.N, ¬cond11_0 (grid11.coords t) → ¬cond11_1 (grid11.coords t) → cfg11.idle 3 (grid11.coords t) = true := by decide +kernel
/-- At the points of case B the pipeline does not write output 3's block back. -/
theorem noFlush11_3_B : ∀ t : Fin cfg11.N, ¬cond11_0 (grid11.coords t) → ¬cond11_1 (grid11.coords t) → (cfg11.win 3).flush t = false := by decide +kernel
/-- At the points of case C the output window 3 is live: the case stores into it. -/
theorem liveAt11_3_C : ∀ t : Fin cfg11.N, ¬cond11_0 (grid11.coords t) → cond11_1 (grid11.coords t) → cfg11.idle 3 (grid11.coords t) = false := by decide +kernel

/-! ## The memrefs the body is called with -/

/-- One staging buffer of output window 3, through which its contents are stated (the choice does not matter). -/
abbrev VO11_3 : View sig .tc .vmem S1024x256 .f32 := (Memref.whole cc11_stg3_0 : Memref sig .tc .vmem S1024x256 .f32).view
/-- Each window's current staging memref at point `t`, spelled as the pipeline passes it, and its wholeness. -/
abbrev ms11_0 (t : Fin cfg11.N) : Memref sig .tc .vmem S1024x1024 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S8192x256 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x256 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1024x256 .f32 := win11_3.stage (cfg11.slots t 3)
abbrev hs11_3 (t : Fin cfg11.N) : (ms11_3 t).IsWhole := hstage11_3 ((cfg11.slots t 3).cast nbuf11_3)
/-- The scratch operand: a whole scoped buffer of the kernel's own, the accumulator, passed beside the windows. -/
abbrev scM11_0 : Memref sig .tc .vmem S1024x256 .f32 := Memref.whole cc11_scratch0
/-- The accumulator as a view: what it holds is stated through it. -/
abbrev VS11_0 : View sig .tc .vmem S1024x256 .f32 := scM11_0.view

/-- The region's invariant as the launch hands it over, with the accumulator as a memref owned at some contents and
    the other scoped buffers unopened. -/
theorem PhiA11_eq (c : Dev nD) :
    (Pipeline.ΦA spec11 c : sProp 𝕄)
      = iprop(iprop(iprop((∃ d, owns (c : Thread nD τ) scM11_0 fullShare d)) ∗ Pipeline.scopedRestBut spec11 c [cc11_scratch0]) ∗ (∃ r, prngReg c r)) := by
  unfold Pipeline.ΦA; rw [scopedRest11_split]; simp only [scM11_0, owns_whole]; try rfl

end Cert.KernelIdeal.Gen

end
-- ==== Proof.Gcn11RunA.lean ====
import proofs.«166906_j60567628808244_2_alg».proof.Proof.Gcn11Runs

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun11_A (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gcn_matmul_kernel i arg2 harg2 arg3 harg3 arg4 harg4 arg5 harg5 arg6 harg6) K } := by
  refine ⟨[], ?_, fun xi3 E K => ?run⟩
  case run =>
    simp only [cc11__gcn_matmul_kernel_eq_skeleton]; unfold cc11__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn11RunB.lean ====
import proofs.«166906_j60567628808244_2_alg».proof.Proof.Gcn11RunA

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun11_B (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gcn_matmul_kernel i arg2 harg2 arg3 harg3 arg4 harg4 arg5 harg5 arg6 harg6) K } := by
  refine ⟨[], ?_, fun xi3 E K => ?run⟩
  case run =>
    simp only [cc11__gcn_matmul_kernel_eq_skeleton]; unfold cc11__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn11RunC.lean ====
import proofs.«166906_j60567628808244_2_alg».proof.Proof.Gcn11RunB

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun11_C (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc11__gcn_matmul_kernel i arg2 harg2 arg3 harg3 arg4 harg4 arg5 harg5 arg6 harg6) K } := by
  refine ⟨?_, ?_, fun E K => ?run⟩
  case run =>
    simp only [cc11__gcn_matmul_kernel_eq_skeleton]; unfold cc11__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Gcn11Frame.lean ====
import proofs.«166906_j60567628808244_2_alg».proof.Proof.Gcn11RunC

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 11: what the output block and the accumulator hold point by point, the proof data, the body obligation -/

/-- Case A stores nothing into the output block (the window is idle at its points and not written back there): no
    pieces — a placeholder (junk read back) that nothing consults. -/
def out11_A_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) : Vec F S1024x256 .f32 :=
  VO11_3.read (Elt F) (VO11_3.writes (Elt F) VO11_3.junk (kernelRun11_A c i arg2 harg2 arg3 harg3 arg4 harg4 arg5 harg5 arg6 harg6 hc0 hc1 x0 x1 x2).1)

/-- Case A's pieces for the accumulator, which the kernel carries between points, cover it (whole-buffer stores). -/
theorem scover11_A_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) (y : S1024x256.Idx) :
    ∃ pc ∈ (kernelRun11_A c i arg2 harg2 arg3 harg3 arg4 harg4 arg5 harg5 arg6 harg6 hc0 hc1 x0 x1 x2).2.1, y ∈ pc.1.set :=
  View.cover_of_tiledL (kernelRun11_A c i arg2 harg2 arg3 harg3 arg4 harg4 arg5 harg5 arg6 harg6 hc0 hc1 x0 x1 x2).2.1 S1024x256.size (by sl_kernel_rfl) y

/-- What case A leaves in the accumulator: its pieces read back over junk. -/
def sout11_A_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) : Vec F S1024x256 .f32 :=
  VS11_0.read (Elt F) (VS11_0.writes (Elt F) VS11_0.junk (kernelRun11_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out11_B_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) : Vec F S1024x256 .f32 :=
  VO11_3.read (Elt F) (VO11_3.writes (Elt F) VO11_3.junk (kernelRun11_B c i arg2 harg2 arg3 harg3 arg4 harg4 arg5 harg5 arg6 harg6 hc0 hc1 x0 x1 x2 xs0).1)

/-- Case B's pieces for the accumulator, which the kernel carries between points, cover it (whole-buffer stores). -/
theorem scover11_B_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) (y : S1024x256.Idx) :
    ∃ pc ∈ (kernelRun11_B c i arg2 harg2 arg3 harg3 arg4 harg4 arg5 harg5 arg6 harg6 hc0 hc1 x0 x1 x2 xs0).2.1, y ∈ pc.1.set :=
  View.cover_of_tiledL (kernelRun11_B c i arg2 harg2 arg3 harg3 arg4 harg4 arg5 harg5 arg6 harg6 hc0 hc1 x0 x1 x2 xs0).2.1 S1024x256.size (by sl_kernel_rfl) y

/-- What case B leaves in the accumulator: its pieces read back over junk. -/
def sout11_B_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) : Vec F S1024x256 .f32 :=
  VS11_0.read (Elt F) (VS11_0.writes (Elt F) VS11_0.junk (kernelRun11_B c i arg2 harg2 arg3 harg3 arg4 harg4 arg5 harg5 arg6 harg6 hc0 hc1 x0 x1 x2 xs0).2.1)

/-- Case C's pieces for the output block tile it (one store of the whole block), so they cover it. -/
theorem cover11_C_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) (y : S1024x256.Idx) :
    ∃ pc ∈ (kernelRun11_C c i arg2 harg2 arg3 harg3 arg4 harg4 arg5 harg5 arg6 harg6 hc0 hc1 x0 x1 x2 xs0).1, y ∈ pc.1.set :=
  View.cover_of_tiledL (kernelRun11_C c i arg2 harg2 arg3 harg3 arg4 harg4 arg5 harg5 arg6 harg6 hc0 hc1 x0 x1 x2 xs0).1 S1024x256.size (by sl_kernel_rfl) y

/-- What case C leaves in the output's staging buffer: its pieces read back over junk. -/
def out11_C_3 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) : Vec F S1024x256 .f32 :=
  VO11_3.read (Elt F) (VO11_3.writes (Elt F) VO11_3.junk (kernelRun11_C c i arg2 harg2 arg3 harg3 arg4 harg4 arg5 harg5 arg6 harg6 hc0 hc1 x0 x1 x2 xs0).1)

/-- Case C's pieces for the accumulator, which the kernel carries between points, cover it (whole-buffer stores). -/
theorem scover11_C_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) (y : S1024x256.Idx) :
    ∃ pc ∈ (kernelRun11_C c i arg2 harg2 arg3 harg3 arg4 harg4 arg5 harg5 arg6 harg6 hc0 hc1 x0 x1 x2 xs0).2.1, y ∈ pc.1.set :=
  View.cover_of_tiledL (kernelRun11_C c i arg2 harg2 arg3 harg3 arg4 harg4 arg5 harg5 arg6 harg6 hc0 hc1 x0 x1 x2 xs0).2.1 S1024x256.size (by sl_kernel_rfl) y

/-- What case C leaves in the accumulator: its pieces read back over junk. -/
def sout11_C_0 (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) : Vec F S1024x256 .f32 :=
  VS11_0.read (Elt F) (VS11_0.writes (Elt F) VS11_0.junk (kernelRun11_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt11 (c : Dev nD) : (n : ℕ) → n < cfg11.N → Vec F S1024x256 .f32 × Vec F S1024x256 .f32
  | 0, hn => (out11_A_3 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩), sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if h0 : (n + 1) % 8 = 0 then
      if h1 : (n + 1) % 8 = 7 then
        False.elim (by have hN : n + 1 < 64 := lt_of_lt_of_eq hn (show cfg11.N = 64 from N_11); omega)
      else
        (out11_A_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩), sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩))
    else
      if h1 : (n + 1) % 8 = 7 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2, sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2)
      else
        (out11_B_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2, sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

/-- `outsAt11` at a point of case A: that case's contents. -/
theorem outsAt11_A (c : Dev nD) (t : Fin cfg11.N) (h0 : t.val % 8 = 0) (h1 : ¬t.val % 8 = 7) :
    outsAt11 V c t.val t.isLt = (out11_A_3 c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t), sout11_A_0 c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t)) := by
  obtain ⟨n, hn⟩ := t
  cases n with
  | zero => exact rfl
  | succ n => exact (dif_pos h0).trans ((dif_neg h1).trans rfl)

/-- `outsAt11` at a point of case B: that case's contents, over what the point before left. -/
theorem outsAt11_B (c : Dev nD) (t : Fin cfg11.N) (h0 : ¬t.val % 8 = 0) (h1 : ¬t.val % 8 = 7) :
    outsAt11 V c t.val t.isLt = (out11_B_3 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2, sout11_B_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt11` at a point of case C: that case's contents, over what the point before left. -/
theorem outsAt11_C (c : Dev nD) (t : Fin cfg11.N) (h0 : ¬t.val % 8 = 0) (h1 : t.val % 8 = 7) :
    outsAt11 V c t.val t.isLt = (out11_C_3 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2, sout11_C_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2)) ∗ Pipeline.scopedRestBut spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

/-- After point `n` (before point `n + 1`): the accumulator at that point's contents. -/
theorem PhiS11_succ (c : Dev nD) (n : ℕ) (hn : n < cfg11.N) :
    PhiS11 V c (n + 1) hn = iprop(iprop(iprop(owns (c : Thread nD τ) scM11_0 fullShare ((outsAt11 V c n hn).2)) ∗ Pipeline.scopedRestBut spec11 c [cc11_scratch0]) ∗ (∃ r, prngReg c r)) := rfl

/-- Before a point that is not the first: the accumulator at what the point before left. -/
theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2)) ∗ Pipeline.scopedRestBut spec11 c [cc11_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt11`'s first component; the invariant
    `PhiS11`; nothing owed; full shares. -/
def dats11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

/-- The proof data's arrays are the region-entry contents. -/
theorem A_eq11 (c : Dev nD) (w : Fin cfg11.W) : (dats11 V c).A w = V c (Pipeline.arrRef spec11 w) := by
  dsimp only [dats11]

/-- The invariant at a point's start, restated at `t.val`. -/
theorem PhiS11_castSucc (c : Dev nD) (t : Fin cfg11.N) :
    (dats11 V c).Φ t.castSucc = PhiS11 V c t.val (Nat.le_of_lt t.isLt) := by
  dsimp only [dats11]; simp only [Fin.coe_castSucc]

/-- What the body leaves, window by window. -/
theorem after11_0 (c : Dev nD) (t : Fin cfg11.N) : (dats11 V c).after 0 t = iblk11 V c 0 t := by dsimp only [dats11]
theorem after11_1 (c : Dev nD) (t : Fin cfg11.N) : (dats11 V c).after 1 t = iblk11 V c 1 t := by dsimp only [dats11]
theorem after11_2 (c : Dev nD) (t : Fin cfg11.N) : (dats11 V c).after 2 t = iblk11 V c 2 t := by dsimp only [dats11]
theorem after11_3 (c : Dev nD) (t : Fin cfg11.N) : (dats11 V c).after 3 t = (outsAt11 V c t.val t.isLt).1 := by dsimp only [dats11]

/-- Each input's current staging buffer holds its block at every point, fetched there or not. -/
theorem before11_0 (c : Dev nD) (t : Fin cfg11.N) (d) : (dats11 V c).before 0 t d = iblk11 V c 0 t :=
  before11_0_of V (dats11 V c) (A_eq11 V c 0) (after11_0 V c) t d
theorem before11_1 (c : Dev nD) (t : Fin cfg11.N) (d) : (dats11 V c).before 1 t d = iblk11 V c 1 t :=
  before11_1_of V (dats11 V c) (A_eq11 V c 1) (after11_1 V c) t d
theorem before11_2 (c : Dev nD) (t : Fin cfg11.N) (d) : (dats11 V c).before 2 t d = iblk11 V c 2 t :=
  before11_2_of V (dats11 V c) (A_eq11 V c 2) (after11_2 V c) t d

/-! ## The body obligation, at a generic point -/

/-- What the body is called with at point `t` (the windows one by one), -/
def bodyPre11 (c : Dev nD) (t : Fin cfg11.N) : sProp 𝕄 :=
  iprop((dats11 V c).Φ t.castSucc ∗ (dats11 V c).owesAt () t.castSucc
    ∗ (∃ d, owns (c : Thread nD τ) (ms11_0 t) fullShare ((dats11 V c).before 0 t d))
    ∗ (∃ d, owns (c : Thread nD τ) (ms11_1 t) fullShare ((dats11 V c).before 1 t d))
    ∗ (∃ d, owns (c : Thread nD τ) (ms11_2 t) fullShare ((dats11 V c).before 2 t d))
    ∗ (∃ d, owns (c : Thread nD τ) (ms11_3 t) fullShare ((dats11 V c).before 3 t d)))

/-- and what it returns. -/
def bodyPost11 (c : Dev nD) (t : Fin cfg11.N) : sProp 𝕄 :=
  iprop((dats11 V c).Φ t.succ ∗ (dats11 V c).owesAt () t.succ
    ∗ (dats11 V c).leavesExact 0 t
    ∗ (dats11 V c).leavesExact 1 t
    ∗ (dats11 V c).leavesExact 2 t
    ∗ (dats11 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dats11 V c).owesAt () t.succ = (dats11 V c).owesAt () t.castSucc from rfl]
  rw [show (dats11 V c).Φ t.succ = PhiS11 V c (t.val + 1) t.isLt from rfl, PhiS11_succ]
  have hN : t.val < 64 := lt_of_lt_of_eq t.isLt (show cfg11.N = 64 from N_11)
  by_cases h0 : t.val % 8 = 0
  · by_cases h1 : t.val % 8 = 7
    · exfalso; omega
    ·
      rw [show (dats11 V c).leavesExact 0 t = owns (c : Thread nD τ) (ms11_0 t) fullShare ((dats11 V c).after 0 t) from by
        unfold Dat.leavesExact; rw [liveAt11_0 t], after11_0]
      rw [show (dats11 V c).leavesExact 1 t = owns (c : Thread nD τ) (ms11_1 t) fullShare ((dats11 V c).after 1 t) from by
        unfold Dat.leavesExact; rw [liveAt11_1 t], after11_1]
      rw [show (dats11 V c).leavesExact 2 t = owns (c : Thread nD τ) (ms11_2 t) fullShare ((dats11 V c).after 2 t) from by
        unfold Dat.leavesExact; rw [liveAt11_2 t], after11_2]
      rw [Dat.leavesExact_idle (dats11 V c) 3 t (idleAt11_3_A t ((hcond11_0 t).mpr h0) (fun h => h1 ((hcond11_1 t).mp h))) (noFlush11_3_A t ((hcond11_0 t).mpr h0) (fun h => h1 ((hcond11_1 t).mp h)))]
      rw [outsAt11_A V c t h0 h1]
      unfold sout11_A_0; (try dsimp only)
      by_cases hz : t.val = 0
      · rw [PhiS11_castSucc V c t, PhiS11_zero V c _ _ hz, PhiA11_eq]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dats11 V c).leavesExact 0 t = owns (c : Thread nD τ) (ms11_0 t) fullShare ((dats11 V c).after 0 t) from by
        unfold Dat.leavesExact; rw [liveAt11_0 t], after11_0]
      rw [show (dats11 V c).leavesExact 1 t = owns (c : Thread nD τ) (ms11_1 t) fullShare ((dats11 V c).after 1 t) from by
        unfold Dat.leavesExact; rw [liveAt11_1 t], after11_1]
      rw [show (dats11 V c).leavesExact 2 t = owns (c : Thread nD τ) (ms11_2 t) fullShare ((dats11 V c).after 2 t) from by
        unfold Dat.leavesExact; rw [liveAt11_2 t], after11_2]
      rw [show (dats11 V c).leavesExact 3 t = owns (c : Thread nD τ) (ms11_3 t) fullShare ((dats11 V c).after 3 t) from by
        unfold Dat.leavesExact; rw [liveAt11_3_C t (fun h => h0 ((hcond11_0 t).mp h)) ((hcond11_1 t).mpr h1)], after11_3]
      rw [outsAt11_C V c t h0 h1]
      unfold out11_C_3 sout11_C_0; (try dsimp only)
      by_cases hz : t.val = 0
      · exfalso; have hN : t.val < 64 := lt_of_lt_of_eq t.isLt (show cfg11.N = 64 from N_11); omega
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover11_C_3 c _ _ _ _ _ _ _ _ _ _ _ _ _ _ _ _ _)
    ·
      rw [show (dats11 V c).leavesExact 0 t = owns (c : Thread nD τ) (ms11_0 t) fullShare ((dats11 V c).after 0 t) from by
        unfold Dat.leavesExact; rw [liveAt11_0 t], after11_0]
      rw [show (dats11 V c).leavesExact 1 t = owns (c : Thread nD τ) (ms11_1 t) fullShare ((dats11 V c).after 1 t) from by
        unfold Dat.leavesExact; rw [liveAt11_1 t], after11_1]
      rw [show (dats11 V c).leavesExact 2 t = owns (c : Thread nD τ) (ms11_2 t) fullShare ((dats11 V c).after 2 t) from by
        unfold Dat.leavesExact; rw [liveAt11_2 t], after11_2]
      rw [Dat.leavesExact_idle (dats11 V c) 3 t (idleAt11_3_B t (fun h => h0 ((hcond11_0 t).mp h)) (fun h => h1 ((hcond11_1 t).mp h))) (noFlush11_3_B t (fun h => h0 ((hcond11_0 t).mp h)) (fun h => h1 ((hcond11_1 t).mp h)))]
      rw [outsAt11_B V c t h0 h1]
      unfold sout11_B_0; (try dsimp only)
      by_cases hz : t.val = 0
      · exfalso; have hN : t.val < 64 := lt_of_lt_of_eq t.isLt (show cfg11.N = 64 from N_11); omega
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_B c (grid11.coords t) _ _ _ _ _ _ _ _ _ _ (fun h => h0 ((hcond11_0 t).mp h)) (fun h => h1 ((hcond11_1 t).mp h)) (iblk11 V c 0 t) (iblk11 V c 1 t) (iblk11 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation11 (c : Dev nD) : BodyObligation (dats11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dats11 V c).Φ 0 := by
  rw [show (dats11 V c).Φ 0 = PhiS11 V c 0 (Nat.zero_le _) from rfl, PhiS11_zero V c 0 _ rfl]
  try exact Idealize.SL.BI.Entails.refl _

/-- After any point but the first the invariant gives the launch's back: the accumulator's named contents are forgotten. -/
theorem Phi_out11 (c : Dev nD) (t : Fin (cfg11.N + 1)) (ht : t.val ≠ 0) : (dats11 V c).Φ t ⊢ Pipeline.ΦA spec11 c := by
  rw [show (dats11 V c).Φ t = PhiS11 V c t.val (Nat.le_of_lt_succ t.isLt) from rfl, PhiS11_pos V c _ _ ht, PhiA11_eq]
  iintro ⟨⟨HS0, HR⟩, Hg⟩
  isplitl [HS0 HR]
  · isplitl [HS0]
    · iexists _; iexact HS0
    iexact HR
  iexact Hg

/-- The same after the last point. -/
theorem hout11 (c : Dev nD) : (dats11 V c).Φ (Fin.last cfg11.N) ⊢ Pipeline.ΦA spec11 c :=
  Phi_out11 V c _ (by rw [Fin.val_last]; have : cfg11.N = 64 := N_11; omega)

end Cert.KernelIdeal.Gen

end
-- ==== Proof.Gcn2Runs.lean ====
import proofs.«166906_j60567628808244_2_alg».proof.Proof.Gcn11Frame
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 2: the accumulating matmul `adj · support + bias`, at the entry contents `V`

What the three cases of the body share: the windows' blocks, the two conditions on the reduction coordinate
in closed form, where the output window is idle, the memrefs the body is called with. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reduction coordinate is 0: the accumulator is zeroed), from
    the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the reduction coordinate is the last: the accumulator is
    finalized into the output block), from the grid coordinates. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Windows 0, 1, 2 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A the output window 3 is idle: the case stores nothing into it. -/
theorem idleAt2_3_A : ∀ t : Fin cfg2.N, cond2_0 (grid2.coords t) → ¬cond2_1 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → (cfg2.win 3).flush t = false := by decide +kernel
/-- At the points of case B the output window 3 is idle: the case stores nothing into it. -/
theorem idleAt2_3_B : ∀ t : Fin cfg2.N, ¬cond2_0 (grid2.coords t) → ¬cond2_1 (grid2.coords t) → cfg2.idle 3 (grid2.coords t) = true := by decide +kernel
/-- At the points of case B the pipeline does not write output 3's block back. -/
theorem noFlush2_3_B : ∀ t : Fin cfg2.N, ¬cond2_0 (grid2.coords t) → ¬cond2_1 (grid2.coords t) → (cfg2.win 3).flush t = false := by decide +kernel
/-- At the points of case C the output window 3 is live: the case stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of output window 3, through which its contents are stated (the choice does not matter). -/
abbrev VO2_3 : View sig .tc .vmem S1024x1024 .f32 := (Memref.whole cc2_stg3_0 : Memref sig .tc .vmem S1024x1024 .f32).view
/-- Each window's current staging memref at point `t`, spelled as the pipeline passes it, and its wholeness. -/
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The scratch operand: a whole scoped buffer of the kernel's own, the accumulator, passed beside the windows. -/
abbrev scM2_0 : Memref sig .tc .vmem S1024x1024 .f32 := Memref.whole cc2_scratch0
/-- The accumulator as a view: what it holds is stated through it. -/
abbrev VS2_0 : View sig .tc .vmem S1024x1024 .f32 := scM2_0.view

/-- The region's invariant as the launch hands it over, with the accumulator as a memref owned at some contents and
    the other scoped buffers unopened. -/
theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

end Cert.KernelIdeal.Gen

end
-- ==== Proof.Gcn2RunA.lean ====
import proofs.«166906_j60567628808244_2_alg».proof.Proof.Gcn2Runs

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE A (the reduction coordinate is 0 and not the last: the accumulator is zeroed, then added to; nothing is
    stored into the output block), WITH the proof that on whole
    memrefs — the inputs' at their contents `x·`, the output's, which the case leaves untouched, at contents `xi3` handed back as found,
    the accumulator at anything — the body runs to the continuation holding the inputs' as they
    were, the accumulator with its pieces written. The printed body is its skeleton of memory operations over
    payloads, which is run symbolically, each conditional decided by the case's hypotheses; the pieces are the
    witness that run finds. -/
noncomputable def kernelRun2_A (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_matmul_kernel i arg2 harg2 arg3 harg3 arg4 harg4 arg5 harg5 arg6 harg6) K } := by
  refine ⟨[], ?_, fun xi3 E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn2RunB.lean ====
import proofs.«166906_j60567628808244_2_alg».proof.Proof.Gcn2RunA

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE B (the reduction coordinate is neither 0 nor the last: the accumulator is added to; nothing is stored
    into the output block), WITH the proof that on whole
    memrefs — the inputs' at their contents `x·`, the output's, which the case leaves untouched, at contents `xi3` handed back as found,
    the accumulator at the contents `xs0` the point before left — the body runs to the continuation holding the inputs' as they
    were, the accumulator with its pieces written. The printed body is its skeleton of memory operations over
    payloads, which is run symbolically, each conditional decided by the case's hypotheses; the pieces are the
    witness that run finds. -/
noncomputable def kernelRun2_B (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_matmul_kernel i arg2 harg2 arg3 harg3 arg4 harg4 arg5 harg5 arg6 harg6) K } := by
  refine ⟨[], ?_, fun xi3 E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Gcn2RunC.lean ====
import proofs.«166906_j60567628808244_2_alg».proof.Proof.Gcn2RunB

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first),
    IN CASE C (the reduction coordinate is the last and not 0: the accumulator is added to, then finalized into the
    output block), WITH the proof that on whole
    memrefs — the inputs' at their contents `x·`, the output's at anything,
    the accumulator at the contents `xs0` the point before left — the body runs to the continuation holding the inputs' as they
    were, the output's with its pieces written, the accumulator with its pieces written. The printed body is its skeleton of memory operations over
    payloads, which is run symbolically, each conditional decided by the case's hypotheses; the pieces are the
    witness that run finds. -/
noncomputable def kernelRun2_C (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_matmul_kernel i arg2 harg2 arg3 harg3 arg4 harg4 arg5 harg5 arg6 harg6) K } := by
  refine ⟨?_, ?_, fun E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Gcn2Frame.lean ====
import proofs.«166906_j60567628808244_2_alg».proof.Proof.Gcn2RunC

-- membership in a rectangle of production extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole frame half is stated at
variable (V : (c : Dev nD) → (b : Ref sig .tc) → Buf (Elt F) ((c : Thread nD τ).loc b))

/-! # Region 2: what the output block and the accumulator hold point by point, the proof data, the body obligation -/

/-- Case A stores nothing into the output block (the window is idle at its points and not written back there): no
    pieces — a placeholder (junk read back) that nothing consults. -/
def out2_A_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) : Vec F S1024x1024 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the accumulator, which the kernel carries between points, cover it (whole-buffer stores). -/
theorem scover2_A_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) (y : S1024x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1024x1024.size (by sl_kernel_rfl) y

/-- What case A leaves in the accumulator: its pieces read back over junk. -/
def sout2_A_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) : Vec F S1024x1024 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output block (the window is idle at its points and not written back there): no
    pieces — a placeholder (junk read back) that nothing consults. -/
def out2_B_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) : Vec F S1024x1024 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the accumulator, which the kernel carries between points, cover it (whole-buffer stores). -/
theorem scover2_B_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) (y : S1024x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S1024x1024.size (by sl_kernel_rfl) y

/-- What case B leaves in the accumulator: its pieces read back over junk. -/
def sout2_B_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) : Vec F S1024x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for the output block tile it (one store of the whole block), so they cover it. -/
theorem cover2_C_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) (y : S1024x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1024x1024.size (by sl_kernel_rfl) y

/-- What case C leaves in the output's staging buffer: its pieces read back over junk. -/
def out2_C_3 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) : Vec F S1024x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the accumulator, which the kernel carries between points, cover it (whole-buffer stores). -/
theorem scover2_C_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) (y : S1024x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1024x1024.size (by sl_kernel_rfl) y

/-- What case C leaves in the accumulator: its pieces read back over junk. -/
def sout2_C_0 (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) : Vec F S1024x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a
    pair: the output, then the accumulator): the case the closed forms select at `n`, run at the point's memrefs and
    input blocks, the accumulator at what this leaves at `n - 1`. An assignment of the conditions no point meets is no
    case. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by have hN : n + 1 < 128 := lt_of_lt_of_eq hn (show cfg2.N = 128 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    that is no staging buffer at anything, the generator register at some state); afterwards the accumulator at what
    the point before left in it, the other scoped buffers unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut spec2 c [cc2_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant
    `PhiS2`; nothing owed; full shares. -/
def dats2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dats2 V c).A w = V c (Pipeline.arrRef spec2 w) := by
  dsimp only [dats2]

/-- The invariant at a point's start, restated at `t.val`. -/
theorem PhiS2_castSucc (c : Dev nD) (t : Fin cfg2.N) :
    (dats2 V c).Φ t.castSucc = PhiS2 V c t.val (Nat.le_of_lt t.isLt) := by
  dsimp only [dats2]; simp only [Fin.coe_castSucc]

/-- What the body leaves, window by window. -/
theorem after2_0 (c : Dev nD) (t : Fin cfg2.N) : (dats2 V c).after 0 t = iblk2 V c 0 t := by dsimp only [dats2]
theorem after2_1 (c : Dev nD) (t : Fin cfg2.N) : (dats2 V c).after 1 t = iblk2 V c 1 t := by dsimp only [dats2]
theorem after2_2 (c : Dev nD) (t : Fin cfg2.N) : (dats2 V c).after 2 t = iblk2 V c 2 t := by dsimp only [dats2]
theorem after2_3 (c : Dev nD) (t : Fin cfg2.N) : (dats2 V c).after 3 t = (outsAt2 V c t.val t.isLt).1 := by dsimp only [dats2]

/-- Each input's current staging buffer holds its block at every point, fetched there or not. -/
theorem before2_0 (c : Dev nD) (t : Fin cfg2.N) (d) : (dats2 V c).before 0 t d = iblk2 V c 0 t :=
  before2_0_of V (dats2 V c) (A_eq2 V c 0) (after2_0 V c) t d
theorem before2_1 (c : Dev nD) (t : Fin cfg2.N) (d) : (dats2 V c).before 1 t d = iblk2 V c 1 t :=
  before2_1_of V (dats2 V c) (A_eq2 V c 1) (after2_1 V c) t d
theorem before2_2 (c : Dev nD) (t : Fin cfg2.N) (d) : (dats2 V c).before 2 t d = iblk2 V c 2 t :=
  before2_2_of V (dats2 V c) (A_eq2 V c 2) (after2_2 V c) t d

/-! ## The body obligation, at a generic point -/

/-- What the body is called with at point `t` (the windows one by one), -/
def bodyPre2 (c : Dev nD) (t : Fin cfg2.N) : sProp 𝕄 :=
  iprop((dats2 V c).Φ t.castSucc ∗ (dats2 V c).owesAt () t.castSucc
    ∗ (∃ d, owns (c : Thread nD τ) (ms2_0 t) fullShare ((dats2 V c).before 0 t d))
    ∗ (∃ d, owns (c : Thread nD τ) (ms2_1 t) fullShare ((dats2 V c).before 1 t d))
    ∗ (∃ d, owns (c : Thread nD τ) (ms2_2 t) fullShare ((dats2 V c).before 2 t d))
    ∗ (∃ d, owns (c : Thread nD τ) (ms2_3 t) fullShare ((dats2 V c).before 3 t d)))

/-- and what it returns. -/
def bodyPost2 (c : Dev nD) (t : Fin cfg2.N) : sProp 𝕄 :=
  iprop((dats2 V c).Φ t.succ ∗ (dats2 V c).owesAt () t.succ
    ∗ (dats2 V c).leavesExact 0 t
    ∗ (dats2 V c).leavesExact 1 t
    ∗ (dats2 V c).leavesExact 2 t
    ∗ (dats2 V c).leavesExact 3 t)

set_option maxHeartbeats 4800000 in
/-- The body at any point: the inputs' memrefs hold their blocks; the closed forms say which case the point is in; so
    the case's run applies; the invariant hands the body the accumulator at what the point before left (at anything
    at the first point), the other scoped buffers and the generator register ride along, and it takes the accumulator
    back at this point's contents (its pieces cover it); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dats2 V c).owesAt () t.succ = (dats2 V c).owesAt () t.castSucc from rfl]
  rw [show (dats2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : t.val % 16 = 15
    · exfalso; omega
    ·
      rw [show (dats2 V c).leavesExact 0 t = owns (c : Thread nD τ) (ms2_0 t) fullShare ((dats2 V c).after 0 t) from by
        unfold Dat.leavesExact; rw [liveAt2_0 t], after2_0]
      rw [show (dats2 V c).leavesExact 1 t = owns (c : Thread nD τ) (ms2_1 t) fullShare ((dats2 V c).after 1 t) from by
        unfold Dat.leavesExact; rw [liveAt2_1 t], after2_1]
      rw [show (dats2 V c).leavesExact 2 t = owns (c : Thread nD τ) (ms2_2 t) fullShare ((dats2 V c).after 2 t) from by
        unfold Dat.leavesExact; rw [liveAt2_2 t], after2_2]
      rw [Dat.leavesExact_idle (dats2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    ·
      rw [show (dats2 V c).leavesExact 0 t = owns (c : Thread nD τ) (ms2_0 t) fullShare ((dats2 V c).after 0 t) from by
        unfold Dat.leavesExact; rw [liveAt2_0 t], after2_0]
      rw [show (dats2 V c).leavesExact 1 t = owns (c : Thread nD τ) (ms2_1 t) fullShare ((dats2 V c).after 1 t) from by
        unfold Dat.leavesExact; rw [liveAt2_1 t], after2_1]
      rw [show (dats2 V c).leavesExact 2 t = owns (c : Thread nD τ) (ms2_2 t) fullShare ((dats2 V c).after 2 t) from by
        unfold Dat.leavesExact; rw [liveAt2_2 t], after2_2]
      rw [show (dats2 V c).leavesExact 3 t = owns (c : Thread nD τ) (ms2_3 t) fullShare ((dats2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; have hN : t.val < 128 := lt_of_lt_of_eq t.isLt (show cfg2.N = 128 from N_2); omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dats2 V c).leavesExact 0 t = owns (c : Thread nD τ) (ms2_0 t) fullShare ((dats2 V c).after 0 t) from by
        unfold Dat.leavesExact; rw [liveAt2_0 t], after2_0]
      rw [show (dats2 V c).leavesExact 1 t = owns (c : Thread nD τ) (ms2_1 t) fullShare ((dats2 V c).after 1 t) from by
        unfold Dat.leavesExact; rw [liveAt2_1 t], after2_1]
      rw [show (dats2 V c).leavesExact 2 t = owns (c : Thread nD τ) (ms2_2 t) fullShare ((dats2 V c).after 2 t) from by
        unfold Dat.leavesExact; rw [liveAt2_2 t], after2_2]
      rw [Dat.leavesExact_idle (dats2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; have hN : t.val < 128 := lt_of_lt_of_eq t.isLt (show cfg2.N = 128 from N_2); omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dats2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dats2 V c).Φ 0 := by
  rw [show (dats2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dats2 V c).Φ t ⊢ Pipeline.ΦA spec2 c := by
  rw [show (dats2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dats2 V c).Φ (Fin.last cfg2.N) ⊢ Pipeline.ΦA spec2 c :=
  Phi_out2 V c _ (by rw [Fin.val_last]; have : cfg2.N = 128 := N_2; omega)

end Cert.KernelIdeal.Gen

end
-- ==== Proof.Dense5.lean ====
/-
  Region 5 of the main function: a dense product x · W on a grid of 8 row blocks.

  At each point the body loads the 1024-row block of x, loads the whole of W, and stores one payload — the rounded
  product of the rounded operands — over the whole 1024-row output block.  So what the body leaves in the output
  window's buffer is a closed function of the two input blocks (`out5_2`), the input buffers are left as found, and
  the body obligation of the pipeline holds at every point, for any number format.
-/
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point (it is fetched at every point), for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the whole of W, fetched at the first point only) holds its block at every point, fetched there or
    not: where it is not fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1024x512 := Rect.unit (s := S1024x512) ![0, 0] S1024x512.size inb_S1024x512_S1024x512_0_0
abbrev r5_1 : Rect S512x256 := Rect.unit (s := S512x256) ![0, 0] S512x256.size inb_S512x256_S512x256_0_0
abbrev r5_2 : Rect S1024x256 := Rect.unit (s := S1024x256) ![0, 0] S1024x256.size inb_S1024x256_S1024x256_0_0

/-! ## What the body leaves in the output window's buffer -/

/-- Window 2's buffer after the body, from the input windows' blocks: its one store, of the whole block. -/
def out5_2 (x0 : Vec F S1024x512 .f32) (x1 : Vec F S512x256 .f32) : Vec F S1024x256 .bf16 :=
  View.canon [⟨r5_2, k5_pay1 (View.ld x0 r5_0) (View.ld x1 r5_1)⟩]

/-- The store is of the whole block, so it covers it. -/
theorem cover5_2 (p0 : Vec F S1024x256 .bf16) (y : S1024x256.Idx) :
    ∃ pc ∈ ([⟨r5_2, p0⟩] : List (View.Piece (Elt F) S1024x256 .bf16)), y ∈ pc.1.set :=
  View.cover_of_tiled [⟨r5_2, p0⟩] S1024x256.size (by rfl) y

/-! ## The body's triple -/

set_option maxHeartbeats 1000000 in
/-- The kernel body on whole memrefs, the inputs' at read contents `x0`, `x1` and the output's at anything, runs to the
    continuation holding the inputs' as they were and the output's at `out5_2` of the inputs'. -/
theorem sound_kernel5 (c : Dev nD) (E : Set ℕ) (i : grid5.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__dense_matmul_kernel i arg1 harg1 arg2 harg2 arg3 harg3) K := by
  simp only [cc5__dense_matmul_kernel_eq_skeleton]; unfold cc5__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region's pipeline on core `c`: the arrays as the region finds them (`V`); after the body at
    point `t` each input's buffer at its block and the output's at `out5_2` of the input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Gen

end
-- ==== Proof.Dense6.lean ====
/-
  Region 6 of the main function: a dense product x · W on a grid of 8 row blocks.

  At each point the body loads the 1024-row block of x, loads the whole of W, and stores one payload — the rounded
  product of the rounded operands — over the whole 1024-row output block.  So what the body leaves in the output
  window's buffer is a closed function of the two input blocks (`out6_2`), the input buffers are left as found, and
  the body obligation of the pipeline holds at every point, for any number format.
-/
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current buffer holds its block at every point (it is fetched at every point), for any proof data
    whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the whole of W, fetched at the first point only) holds its block at every point, fetched there or
    not: where it is not fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1024x512 := Rect.unit (s := S1024x512) ![0, 0] S1024x512.size inb_S1024x512_S1024x512_0_0
abbrev r6_1 : Rect S512x256 := Rect.unit (s := S512x256) ![0, 0] S512x256.size inb_S512x256_S512x256_0_0
abbrev r6_2 : Rect S1024x256 := Rect.unit (s := S1024x256) ![0, 0] S1024x256.size inb_S1024x256_S1024x256_0_0

/-! ## What the body leaves in the output window's buffer -/

/-- Window 2's buffer after the body, from the input windows' blocks: its one store, of the whole block. -/
def out6_2 (x0 : Vec F S1024x512 .f32) (x1 : Vec F S512x256 .f32) : Vec F S1024x256 .bf16 :=
  View.canon [⟨r6_2, k6_pay1 (View.ld x0 r6_0) (View.ld x1 r6_1)⟩]

/-- The store is of the whole block, so it covers it. -/
theorem cover6_2 (p0 : Vec F S1024x256 .bf16) (y : S1024x256.Idx) :
    ∃ pc ∈ ([⟨r6_2, p0⟩] : List (View.Piece (Elt F) S1024x256 .bf16)), y ∈ pc.1.set :=
  View.cover_of_tiled [⟨r6_2, p0⟩] S1024x256.size (by rfl) y

/-! ## The body's triple -/

set_option maxHeartbeats 1000000 in
/-- The kernel body on whole memrefs, the inputs' at read contents `x0`, `x1` and the output's at anything, runs to the
    continuation holding the inputs' as they were and the output's at `out6_2` of the inputs'. -/
theorem sound_kernel6 (c : Dev nD) (E : Set ℕ) (i : grid6.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region's pipeline on core `c`: the arrays as the region finds them (`V`); after the body at
    point `t` each input's buffer at its block and the output's at `out6_2` of the input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Gen

end
-- ==== Proof.Dense8.lean ====
/-
  Region 8 of the main function: a dense product x · W on a grid of 8 row blocks.

  At each point the body loads the 1024-row block of x, loads the whole of W, and stores one payload — the rounded
  product of the rounded operands — over the whole 1024-row output block.  So what the body leaves in the output
  window's buffer is a closed function of the two input blocks (`out8_2`), the input buffers are left as found, and
  the body obligation of the pipeline holds at every point, for any number format.
-/
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point (it is fetched at every point), for any proof data
    whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the whole of W, fetched at the first point only) holds its block at every point, fetched there or
    not: where it is not fetched its block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S1024x512 := Rect.unit (s := S1024x512) ![0, 0] S1024x512.size inb_S1024x512_S1024x512_0_0
abbrev r8_1 : Rect S512x256 := Rect.unit (s := S512x256) ![0, 0] S512x256.size inb_S512x256_S512x256_0_0
abbrev r8_2 : Rect S1024x256 := Rect.unit (s := S1024x256) ![0, 0] S1024x256.size inb_S1024x256_S1024x256_0_0

/-! ## What the body leaves in the output window's buffer -/

/-- Window 2's buffer after the body, from the input windows' blocks: its one store, of the whole block. -/
def out8_2 (x0 : Vec F S1024x512 .f32) (x1 : Vec F S512x256 .f32) : Vec F S1024x256 .bf16 :=
  View.canon [⟨r8_2, k8_pay1 (View.ld x0 r8_0) (View.ld x1 r8_1)⟩]

/-- The store is of the whole block, so it covers it. -/
theorem cover8_2 (p0 : Vec F S1024x256 .bf16) (y : S1024x256.Idx) :
    ∃ pc ∈ ([⟨r8_2, p0⟩] : List (View.Piece (Elt F) S1024x256 .bf16)), y ∈ pc.1.set :=
  View.cover_of_tiled [⟨r8_2, p0⟩] S1024x256.size (by rfl) y

/-! ## The body's triple -/

set_option maxHeartbeats 1000000 in
/-- The kernel body on whole memrefs, the inputs' at read contents `x0`, `x1` and the output's at anything, runs to the
    continuation holding the inputs' as they were and the output's at `out8_2` of the inputs'. -/
theorem sound_kernel8 (c : Dev nD) (E : Set ℕ) (i : grid8.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__dense_matmul_kernel i arg1 harg1 arg2 harg2 arg3 harg3) K := by
  simp only [cc8__dense_matmul_kernel_eq_skeleton]; unfold cc8__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region's pipeline on core `c`: the arrays as the region finds them (`V`); after the body at
    point `t` each input's buffer at its block and the output's at `out8_2` of the input blocks; the invariant the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Region8

end Cert.KernelIdeal.Gen

end
-- ==== Proof.Dense10.lean ====
/-
  Region 10 of the main function: a dense product x · W on a grid of 8 row blocks.

  At each point the body loads the 1024-row block of x, loads the whole of W, and stores one payload — the rounded
  product of the rounded operands — over the whole 1024-row output block.  So what the body leaves in the output
  window's buffer is a closed function of the two input blocks (`out10_2`), the input buffers are left as found, and
  the body obligation of the pipeline holds at every point, for any number format.
-/
import proofs.«166906_j60567628808244_2_alg».proof.Proof.Gen.KernelIdeal.Launch
import proofs.«166906_j60567628808244_2_alg».proof.Proof.Gen.KernelIdeal.Skeleton
import proofs.«166906_j60567628808244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current buffer holds its block at every point (it is fetched at every point), for any proof data
    whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the whole of W, fetched at the first point only) holds its block at every point, fetched there or
    not: where it is not fetched its block index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S1024x512 := Rect.unit (s := S1024x512) ![0, 0] S1024x512.size inb_S1024x512_S1024x512_0_0
abbrev r10_1 : Rect S512x256 := Rect.unit (s := S512x256) ![0, 0] S512x256.size inb_S512x256_S512x256_0_0
abbrev r10_2 : Rect S1024x256 := Rect.unit (s := S1024x256) ![0, 0] S1024x256.size inb_S1024x256_S1024x256_0_0

/-! ## What the body leaves in the output window's buffer -/

/-- Window 2's buffer after the body, from the input windows' blocks: its one store, of the whole block. -/
def out10_2 (x0 : Vec F S1024x512 .f32) (x1 : Vec F S512x256 .f32) : Vec F S1024x256 .bf16 :=
  View.canon [⟨r10_2, k10_pay1 (View.ld x0 r10_0) (View.ld x1 r10_1)⟩]

/-- The store is of the whole block, so it covers it. -/
theorem cover10_2 (p0 : Vec F S1024x256 .bf16) (y : S1024x256.Idx) :
    ∃ pc ∈ ([⟨r10_2, p0⟩] : List (View.Piece (Elt F) S1024x256 .bf16)), y ∈ pc.1.set :=
  View.cover_of_tiled [⟨r10_2, p0⟩] S1024x256.size (by rfl) y

/-! ## The body's triple -/

set_option maxHeartbeats 1000000 in
/-- The kernel body on whole memrefs, the inputs' at read contents `x0`, `x1` and the output's at anything, runs to the
    continuation holding the inputs' as they were and the output's at `out10_2` of the inputs'. -/
theorem sound_kernel10 (c : Dev nD) (E : Set ℕ) (i : grid10.Coords) (arg1 : Memref sig .tc .vmem S1024x512 .f32) (harg1 : arg1.IsWhole)
    (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10_2 x0 x1)) -∗ K ⟨⟩))
      ⊢ wp frame (wpE (defs₀ (F := F)) Variants.none c none) E (cc10__dense_matmul_kernel i arg1 harg1 arg2 harg2 arg3 harg3) K := by
  simp only [cc10__dense_matmul_kernel_eq_skeleton]; unfold cc10__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of the region's pipeline on core `c`: the arrays as the region finds them (`V`); after the body at
    point `t` each input's buffer at its block and the output's at `out10_2` of the input blocks; the invariant the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Region10

end Cert.KernelIdeal.Gen

end
-- ==== Proof.Run.lean ====
/-
  The run of the whole program: its twelve kernel regions among its stretches of host operations, composed in order.

  Between two items every unscoped buffer of the TensorCore is held at a valuation `W J`, a fold from the launch
  memory: a host stretch applies its operations; a region leaves each of its arrays at what its write-backs leave
  (an input array as it was entered, the output array at the pipeline's accumulated blocks) and every other buffer as
  it was.  Each region is entered with its arrays split out of the held buffers and left with them put back; the
  generator register and the (empty) debt of the core ride along.  The conclusion reads every unscoped buffer off the
  last valuation `W19`; the argument arrays walk back through the fold to the launch memory, since no item writes one.
-/
import proofs.«166906_j60567628808244_2_alg».proof.Proof.Gen.KernelIdeal.Regions
import proofs.«166906_j60567628808244_2_alg».proof.Proof.Dense0
import proofs.«166906_j60567628808244_2_alg».proof.Proof.Dense1
import proofs.«166906_j60567628808244_2_alg».proof.Proof.Gcn2Frame
import proofs.«166906_j60567628808244_2_alg».proof.Proof.Gcn3Frame
import proofs.«166906_j60567628808244_2_alg».proof.Proof.Gcn4Frame
import proofs.«166906_j60567628808244_2_alg».proof.Proof.Dense5
import proofs.«166906_j60567628808244_2_alg».proof.Proof.Dense6
import proofs.«166906_j60567628808244_2_alg».proof.Proof.Gcn7Frame
import proofs.«166906_j60567628808244_2_alg».proof.Proof.Dense8
import proofs.«166906_j60567628808244_2_alg».proof.Proof.Gcn9Frame
import proofs.«166906_j60567628808244_2_alg».proof.Proof.Dense10
import proofs.«166906_j60567628808244_2_alg».proof.Proof.Gcn11Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-- Core `c`'s buffers at launch. -/
abbrev W0 : Dev nD → Valuation τ sig (Elt F) := fun c b => (s₀ m ρ).mem ((c : Dev nD), b)
/-- After region 0 (item 0): its arrays at what the pipeline leaves, every other buffer as entered. -/
def W1 (c : Dev nD) : Valuation τ sig (Elt F) :=
  Pipeline.withArrays spec0 c (W0 m ρ c) fun w => (dat0 (rd (W0 m ρ)) c).arrAt w cfg0.N
theorem W1_arr (c : Dev nD) (w : Fin cfg0.W) :
    W1 m ρ c (Proc.devRef .tc (Pipeline.arrRef spec0 w)) = (dat0 (rd (W0 m ρ)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (dat0 (rd (W0 m ρ)) c).arrAt w cfg0.N = rd (W1 m ρ) c (Pipeline.arrRef spec0 w) :=
  (W1_arr m ρ c w).symm
theorem hrest0 (c : Dev nD) : ∀ b, b ∉ Finset.univ.image (Pipeline.arrRef spec0) → rd (W1 m ρ) c b = rd (W0 m ρ) c b :=
  fun b hb => W1_of_ne m ρ c b fun w e => hb (Finset.mem_image.mpr ⟨w, Finset.mem_univ _, e⟩)
/-- Region 0 changes only its output array `main_v0`: an input array is left as entered, any other buffer bypasses it. -/
theorem W1_keep (c : Dev nD) (b : Ref sig .tc) (hb : b ≠ main_v0) : W1 m ρ c b = W0 m ρ c b := by
  by_cases h0 : b = main_arg0
  · subst h0; exact (W1_arr m ρ c 0).trans (((dat0 (rd (W0 m ρ)) c).arrAt_in 0 rfl _).trans (A_eq0 (rd (W0 m ρ)) c 0))
  by_cases h1 : b = main_arg5
  · subst h1; exact (W1_arr m ρ c 1).trans (((dat0 (rd (W0 m ρ)) c).arrAt_in 1 rfl _).trans (A_eq0 (rd (W0 m ρ)) c 1))
  exact W1_of_ne m ρ c b fun w => by
    match w with
    | ⟨0, _⟩ => exact fun e => h0 e.symm
    | ⟨1, _⟩ => exact fun e => h1 e.symm
    | ⟨2, _⟩ => exact fun e => hb e.symm
/-- After region 1 (item 1): its arrays at what the pipeline leaves, every other buffer as entered. -/
def W2 (c : Dev nD) : Valuation τ sig (Elt F) :=
  Pipeline.withArrays spec1 c (W1 m ρ c) fun w => (dat1 (rd (W1 m ρ)) c).arrAt w cfg1.N
theorem W2_arr (c : Dev nD) (w : Fin cfg1.W) :
    W2 m ρ c (Proc.devRef .tc (Pipeline.arrRef spec1 w)) = (dat1 (rd (W1 m ρ)) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (dat1 (rd (W1 m ρ)) c).arrAt w cfg1.N = rd (W2 m ρ) c (Pipeline.arrRef spec1 w) :=
  (W2_arr m ρ c w).symm
theorem hrest1 (c : Dev nD) : ∀ b, b ∉ Finset.univ.image (Pipeline.arrRef spec1) → rd (W2 m ρ) c b = rd (W1 m ρ) c b :=
  fun b hb => W2_of_ne m ρ c b fun w e => hb (Finset.mem_image.mpr ⟨w, Finset.mem_univ _, e⟩)
/-- Region 1 changes only its output array `main_v1`: an input array is left as entered, any other buffer bypasses it. -/
theorem W2_keep (c : Dev nD) (b : Ref sig .tc) (hb : b ≠ main_v1) : W2 m ρ c b = W1 m ρ c b := by
  by_cases h0 : b = main_arg1
  · subst h0; exact (W2_arr m ρ c 0).trans (((dat1 (rd (W1 m ρ)) c).arrAt_in 0 rfl _).trans (A_eq1 (rd (W1 m ρ)) c 0))
  by_cases h1 : b = main_arg5
  · subst h1; exact (W2_arr m ρ c 1).trans (((dat1 (rd (W1 m ρ)) c).arrAt_in 1 rfl _).trans (A_eq1 (rd (W1 m ρ)) c 1))
  exact W2_of_ne m ρ c b fun w => by
    match w with
    | ⟨0, _⟩ => exact fun e => h0 e.symm
    | ⟨1, _⟩ => exact fun e => h1 e.symm
    | ⟨2, _⟩ => exact fun e => hb e.symm
/-- After the host stretch `hostOps2` (item 2). -/
abbrev W3 : Dev nD → Valuation τ sig (Elt F) := fun c => StableHlo.after hostOps2 (W2 m ρ c)
theorem W3_keep (c : Dev nD) (b : Ref sig .tc) (hb : b ∉ hostOps2_W) : W3 m ρ c b = W2 m ρ c b :=
  StableHlo.after_of_writes_sub hostOps2 _ hostOps2_writes hb
/-- After region 2 (item 3): its arrays at what the pipeline leaves, every other buffer as entered. -/
def W4 (c : Dev nD) : Valuation τ sig (Elt F) :=
  Pipeline.withArrays spec2 c (W3 m ρ c) fun w => (dats2 (rd (W3 m ρ)) c).arrAt w cfg2.N
theorem W4_arr (c : Dev nD) (w : Fin cfg2.W) :
    W4 m ρ c (Proc.devRef .tc (Pipeline.arrRef spec2 w)) = (dats2 (rd (W3 m ρ)) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (dats2 (rd (W3 m ρ)) c).arrAt w cfg2.N = rd (W4 m ρ) c (Pipeline.arrRef spec2 w) :=
  (W4_arr m ρ c w).symm
theorem hrest2 (c : Dev nD) : ∀ b, b ∉ Finset.univ.image (Pipeline.arrRef spec2) → rd (W4 m ρ) c b = rd (W3 m ρ) c b :=
  fun b hb => W4_of_ne m ρ c b fun w e => hb (Finset.mem_image.mpr ⟨w, Finset.mem_univ _, e⟩)
/-- Region 2 changes only its output array `main_v5`: an input array is left as entered, any other buffer bypasses it. -/
theorem W4_keep (c : Dev nD) (b : Ref sig .tc) (hb : b ≠ main_v5) : W4 m ρ c b = W3 m ρ c b := by
  by_cases h0 : b = main_arg2
  · subst h0; exact (W4_arr m ρ c 0).trans (((dats2 (rd (W3 m ρ)) c).arrAt_in 0 rfl _).trans (A_eq2 (rd (W3 m ρ)) c 0))
  by_cases h1 : b = main_v2
  · subst h1; exact (W4_arr m ρ c 1).trans (((dats2 (rd (W3 m ρ)) c).arrAt_in 1 rfl _).trans (A_eq2 (rd (W3 m ρ)) c 1))
  by_cases h2 : b = main_v4
  · subst h2; exact (W4_arr m ρ c 2).trans (((dats2 (rd (W3 m ρ)) c).arrAt_in 2 rfl _).trans (A_eq2 (rd (W3 m ρ)) c 2))
  exact W4_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After the host stretch `hostOps3` (item 4). -/
abbrev W5 : Dev nD → Valuation τ sig (Elt F) := fun c => StableHlo.after hostOps3 (W4 m ρ c)
theorem W5_keep (c : Dev nD) (b : Ref sig .tc) (hb : b ∉ hostOps3_W) : W5 m ρ c b = W4 m ρ c b :=
  StableHlo.after_of_writes_sub hostOps3 _ hostOps3_writes hb
/-- After region 3 (item 5): its arrays at what the pipeline leaves, every other buffer as entered. -/
def W6 (c : Dev nD) : Valuation τ sig (Elt F) :=
  Pipeline.withArrays spec3 c (W5 m ρ c) fun w => (dats3 (rd (W5 m ρ)) c).arrAt w cfg3.N
theorem W6_arr (c : Dev nD) (w : Fin cfg3.W) :
    W6 m ρ c (Proc.devRef .tc (Pipeline.arrRef spec3 w)) = (dats3 (rd (W5 m ρ)) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem hF3 (c : Dev nD) (w : Fin cfg3.W) : (dats3 (rd (W5 m ρ)) c).arrAt w cfg3.N = rd (W6 m ρ) c (Pipeline.arrRef spec3 w) :=
  (W6_arr m ρ c w).symm
theorem hrest3 (c : Dev nD) : ∀ b, b ∉ Finset.univ.image (Pipeline.arrRef spec3) → rd (W6 m ρ) c b = rd (W5 m ρ) c b :=
  fun b hb => W6_of_ne m ρ c b fun w e => hb (Finset.mem_image.mpr ⟨w, Finset.mem_univ _, e⟩)
/-- Region 3 changes only its output array `main_v9`: an input array is left as entered, any other buffer bypasses it. -/
theorem W6_keep (c : Dev nD) (b : Ref sig .tc) (hb : b ≠ main_v9) : W6 m ρ c b = W5 m ρ c b := by
  by_cases h0 : b = main_arg3
  · subst h0; exact (W6_arr m ρ c 0).trans (((dats3 (rd (W5 m ρ)) c).arrAt_in 0 rfl _).trans (A_eq3 (rd (W5 m ρ)) c 0))
  by_cases h1 : b = main_v0
  · subst h1; exact (W6_arr m ρ c 1).trans (((dats3 (rd (W5 m ρ)) c).arrAt_in 1 rfl _).trans (A_eq3 (rd (W5 m ρ)) c 1))
  by_cases h2 : b = main_v8
  · subst h2; exact (W6_arr m ρ c 2).trans (((dats3 (rd (W5 m ρ)) c).arrAt_in 2 rfl _).trans (A_eq3 (rd (W5 m ρ)) c 2))
  exact W6_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After the host stretch `hostOps4` (item 6). -/
abbrev W7 : Dev nD → Valuation τ sig (Elt F) := fun c => StableHlo.after hostOps4 (W6 m ρ c)
theorem W7_keep (c : Dev nD) (b : Ref sig .tc) (hb : b ∉ hostOps4_W) : W7 m ρ c b = W6 m ρ c b :=
  StableHlo.after_of_writes_sub hostOps4 _ hostOps4_writes hb
/-- After region 4 (item 7): its arrays at what the pipeline leaves, every other buffer as entered. -/
def W8 (c : Dev nD) : Valuation τ sig (Elt F) :=
  Pipeline.withArrays spec4 c (W7 m ρ c) fun w => (dats4 (rd (W7 m ρ)) c).arrAt w cfg4.N
theorem W8_arr (c : Dev nD) (w : Fin cfg4.W) :
    W8 m ρ c (Proc.devRef .tc (Pipeline.arrRef spec4 w)) = (dats4 (rd (W7 m ρ)) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem hF4 (c : Dev nD) (w : Fin cfg4.W) : (dats4 (rd (W7 m ρ)) c).arrAt w cfg4.N = rd (W8 m ρ) c (Pipeline.arrRef spec4 w) :=
  (W8_arr m ρ c w).symm
theorem hrest4 (c : Dev nD) : ∀ b, b ∉ Finset.univ.image (Pipeline.arrRef spec4) → rd (W8 m ρ) c b = rd (W7 m ρ) c b :=
  fun b hb => W8_of_ne m ρ c b fun w e => hb (Finset.mem_image.mpr ⟨w, Finset.mem_univ _, e⟩)
/-- Region 4 changes only its output array `main_v11`: an input array is left as entered, any other buffer bypasses it. -/
theorem W8_keep (c : Dev nD) (b : Ref sig .tc) (hb : b ≠ main_v11) : W8 m ρ c b = W7 m ρ c b := by
  by_cases h0 : b = main_arg4
  · subst h0; exact (W8_arr m ρ c 0).trans (((dats4 (rd (W7 m ρ)) c).arrAt_in 0 rfl _).trans (A_eq4 (rd (W7 m ρ)) c 0))
  by_cases h1 : b = main_v0
  · subst h1; exact (W8_arr m ρ c 1).trans (((dats4 (rd (W7 m ρ)) c).arrAt_in 1 rfl _).trans (A_eq4 (rd (W7 m ρ)) c 1))
  by_cases h2 : b = main_v10
  · subst h2; exact (W8_arr m ρ c 2).trans (((dats4 (rd (W7 m ρ)) c).arrAt_in 2 rfl _).trans (A_eq4 (rd (W7 m ρ)) c 2))
  exact W8_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After region 5 (item 8): its arrays at what the pipeline leaves, every other buffer as entered. -/
def W9 (c : Dev nD) : Valuation τ sig (Elt F) :=
  Pipeline.withArrays spec5 c (W8 m ρ c) fun w => (dat5 (rd (W8 m ρ)) c).arrAt w cfg5.N
theorem W9_arr (c : Dev nD) (w : Fin cfg5.W) :
    W9 m ρ c (Proc.devRef .tc (Pipeline.arrRef spec5 w)) = (dat5 (rd (W8 m ρ)) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
theorem hF5 (c : Dev nD) (w : Fin cfg5.W) : (dat5 (rd (W8 m ρ)) c).arrAt w cfg5.N = rd (W9 m ρ) c (Pipeline.arrRef spec5 w) :=
  (W9_arr m ρ c w).symm
theorem hrest5 (c : Dev nD) : ∀ b, b ∉ Finset.univ.image (Pipeline.arrRef spec5) → rd (W9 m ρ) c b = rd (W8 m ρ) c b :=
  fun b hb => W9_of_ne m ρ c b fun w e => hb (Finset.mem_image.mpr ⟨w, Finset.mem_univ _, e⟩)
/-- Region 5 changes only its output array `main_v12`: an input array is left as entered, any other buffer bypasses it. -/
theorem W9_keep (c : Dev nD) (b : Ref sig .tc) (hb : b ≠ main_v12) : W9 m ρ c b = W8 m ρ c b := by
  by_cases h0 : b = main_v6
  · subst h0; exact (W9_arr m ρ c 0).trans (((dat5 (rd (W8 m ρ)) c).arrAt_in 0 rfl _).trans (A_eq5 (rd (W8 m ρ)) c 0))
  by_cases h1 : b = main_arg7
  · subst h1; exact (W9_arr m ρ c 1).trans (((dat5 (rd (W8 m ρ)) c).arrAt_in 1 rfl _).trans (A_eq5 (rd (W8 m ρ)) c 1))
  exact W9_of_ne m ρ c b fun w => by
    match w with
    | ⟨0, _⟩ => exact fun e => h0 e.symm
    | ⟨1, _⟩ => exact fun e => h1 e.symm
    | ⟨2, _⟩ => exact fun e => hb e.symm
/-- After region 6 (item 9): its arrays at what the pipeline leaves, every other buffer as entered. -/
def W10 (c : Dev nD) : Valuation τ sig (Elt F) :=
  Pipeline.withArrays spec6 c (W9 m ρ c) fun w => (dat6 (rd (W9 m ρ)) c).arrAt w cfg6.N
theorem W10_arr (c : Dev nD) (w : Fin cfg6.W) :
    W10 m ρ c (Proc.devRef .tc (Pipeline.arrRef spec6 w)) = (dat6 (rd (W9 m ρ)) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m ρ c (Proc.devRef .tc b) = W9 m ρ c (Proc.devRef .tc b) := by
  unfold W10; exact Pipeline.withArrays_of_ne spec6 c _ _ b hb
theorem hF6 (c : Dev nD) (w : Fin cfg6.W) : (dat6 (rd (W9 m ρ)) c).arrAt w cfg6.N = rd (W10 m ρ) c (Pipeline.arrRef spec6 w) :=
  (W10_arr m ρ c w).symm
theorem hrest6 (c : Dev nD) : ∀ b, b ∉ Finset.univ.image (Pipeline.arrRef spec6) → rd (W10 m ρ) c b = rd (W9 m ρ) c b :=
  fun b hb => W10_of_ne m ρ c b fun w e => hb (Finset.mem_image.mpr ⟨w, Finset.mem_univ _, e⟩)
/-- Region 6 changes only its output array `main_v13`: an input array is left as entered, any other buffer bypasses it. -/
theorem W10_keep (c : Dev nD) (b : Ref sig .tc) (hb : b ≠ main_v13) : W10 m ρ c b = W9 m ρ c b := by
  by_cases h0 : b = main_v7
  · subst h0; exact (W10_arr m ρ c 0).trans (((dat6 (rd (W9 m ρ)) c).arrAt_in 0 rfl _).trans (A_eq6 (rd (W9 m ρ)) c 0))
  by_cases h1 : b = main_arg7
  · subst h1; exact (W10_arr m ρ c 1).trans (((dat6 (rd (W9 m ρ)) c).arrAt_in 1 rfl _).trans (A_eq6 (rd (W9 m ρ)) c 1))
  exact W10_of_ne m ρ c b fun w => by
    match w with
    | ⟨0, _⟩ => exact fun e => h0 e.symm
    | ⟨1, _⟩ => exact fun e => h1 e.symm
    | ⟨2, _⟩ => exact fun e => hb e.symm
/-- After the host stretch `hostOps7` (item 10). -/
abbrev W11 : Dev nD → Valuation τ sig (Elt F) := fun c => StableHlo.after hostOps7 (W10 m ρ c)
theorem W11_keep (c : Dev nD) (b : Ref sig .tc) (hb : b ∉ hostOps7_W) : W11 m ρ c b = W10 m ρ c b :=
  StableHlo.after_of_writes_sub hostOps7 _ hostOps7_writes hb
/-- After region 7 (item 11): its arrays at what the pipeline leaves, every other buffer as entered. -/
def W12 (c : Dev nD) : Valuation τ sig (Elt F) :=
  Pipeline.withArrays spec7 c (W11 m ρ c) fun w => (dats7 (rd (W11 m ρ)) c).arrAt w cfg7.N
theorem W12_arr (c : Dev nD) (w : Fin cfg7.W) :
    W12 m ρ c (Proc.devRef .tc (Pipeline.arrRef spec7 w)) = (dats7 (rd (W11 m ρ)) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
theorem hF7 (c : Dev nD) (w : Fin cfg7.W) : (dats7 (rd (W11 m ρ)) c).arrAt w cfg7.N = rd (W12 m ρ) c (Pipeline.arrRef spec7 w) :=
  (W12_arr m ρ c w).symm
theorem hrest7 (c : Dev nD) : ∀ b, b ∉ Finset.univ.image (Pipeline.arrRef spec7) → rd (W12 m ρ) c b = rd (W11 m ρ) c b :=
  fun b hb => W12_of_ne m ρ c b fun w e => hb (Finset.mem_image.mpr ⟨w, Finset.mem_univ _, e⟩)
/-- Region 7 changes only its output array `main_v17`: an input array is left as entered, any other buffer bypasses it. -/
theorem W12_keep (c : Dev nD) (b : Ref sig .tc) (hb : b ≠ main_v17) : W12 m ρ c b = W11 m ρ c b := by
  by_cases h0 : b = main_arg2
  · subst h0; exact (W12_arr m ρ c 0).trans (((dats7 (rd (W11 m ρ)) c).arrAt_in 0 rfl _).trans (A_eq7 (rd (W11 m ρ)) c 0))
  by_cases h1 : b = main_v14
  · subst h1; exact (W12_arr m ρ c 1).trans (((dats7 (rd (W11 m ρ)) c).arrAt_in 1 rfl _).trans (A_eq7 (rd (W11 m ρ)) c 1))
  by_cases h2 : b = main_v16
  · subst h2; exact (W12_arr m ρ c 2).trans (((dats7 (rd (W11 m ρ)) c).arrAt_in 2 rfl _).trans (A_eq7 (rd (W11 m ρ)) c 2))
  exact W12_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After the host stretch `hostOps8` (item 12). -/
abbrev W13 : Dev nD → Valuation τ sig (Elt F) := fun c => StableHlo.after hostOps8 (W12 m ρ c)
theorem W13_keep (c : Dev nD) (b : Ref sig .tc) (hb : b ∉ hostOps8_W) : W13 m ρ c b = W12 m ρ c b :=
  StableHlo.after_of_writes_sub hostOps8 _ hostOps8_writes hb
/-- After region 8 (item 13): its arrays at what the pipeline leaves, every other buffer as entered. -/
def W14 (c : Dev nD) : Valuation τ sig (Elt F) :=
  Pipeline.withArrays spec8 c (W13 m ρ c) fun w => (dat8 (rd (W13 m ρ)) c).arrAt w cfg8.N
theorem W14_arr (c : Dev nD) (w : Fin cfg8.W) :
    W14 m ρ c (Proc.devRef .tc (Pipeline.arrRef spec8 w)) = (dat8 (rd (W13 m ρ)) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
theorem hF8 (c : Dev nD) (w : Fin cfg8.W) : (dat8 (rd (W13 m ρ)) c).arrAt w cfg8.N = rd (W14 m ρ) c (Pipeline.arrRef spec8 w) :=
  (W14_arr m ρ c w).symm
theorem hrest8 (c : Dev nD) : ∀ b, b ∉ Finset.univ.image (Pipeline.arrRef spec8) → rd (W14 m ρ) c b = rd (W13 m ρ) c b :=
  fun b hb => W14_of_ne m ρ c b fun w e => hb (Finset.mem_image.mpr ⟨w, Finset.mem_univ _, e⟩)
/-- Region 8 changes only its output array `main_v20`: an input array is left as entered, any other buffer bypasses it. -/
theorem W14_keep (c : Dev nD) (b : Ref sig .tc) (hb : b ≠ main_v20) : W14 m ρ c b = W13 m ρ c b := by
  by_cases h0 : b = main_v9
  · subst h0; exact (W14_arr m ρ c 0).trans (((dat8 (rd (W13 m ρ)) c).arrAt_in 0 rfl _).trans (A_eq8 (rd (W13 m ρ)) c 0))
  by_cases h1 : b = main_arg7
  · subst h1; exact (W14_arr m ρ c 1).trans (((dat8 (rd (W13 m ρ)) c).arrAt_in 1 rfl _).trans (A_eq8 (rd (W13 m ρ)) c 1))
  exact W14_of_ne m ρ c b fun w => by
    match w with
    | ⟨0, _⟩ => exact fun e => h0 e.symm
    | ⟨1, _⟩ => exact fun e => h1 e.symm
    | ⟨2, _⟩ => exact fun e => hb e.symm
/-- After the host stretch `hostOps9` (item 14). -/
abbrev W15 : Dev nD → Valuation τ sig (Elt F) := fun c => StableHlo.after hostOps9 (W14 m ρ c)
theorem W15_keep (c : Dev nD) (b : Ref sig .tc) (hb : b ∉ hostOps9_W) : W15 m ρ c b = W14 m ρ c b :=
  StableHlo.after_of_writes_sub hostOps9 _ hostOps9_writes hb
/-- After region 9 (item 15): its arrays at what the pipeline leaves, every other buffer as entered. -/
def W16 (c : Dev nD) : Valuation τ sig (Elt F) :=
  Pipeline.withArrays spec9 c (W15 m ρ c) fun w => (dats9 (rd (W15 m ρ)) c).arrAt w cfg9.N
theorem W16_arr (c : Dev nD) (w : Fin cfg9.W) :
    W16 m ρ c (Proc.devRef .tc (Pipeline.arrRef spec9 w)) = (dats9 (rd (W15 m ρ)) c).arrAt w cfg9.N := by
  unfold W16; exact Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) := by
  unfold W16; exact Pipeline.withArrays_of_ne spec9 c _ _ b hb
theorem hF9 (c : Dev nD) (w : Fin cfg9.W) : (dats9 (rd (W15 m ρ)) c).arrAt w cfg9.N = rd (W16 m ρ) c (Pipeline.arrRef spec9 w) :=
  (W16_arr m ρ c w).symm
theorem hrest9 (c : Dev nD) : ∀ b, b ∉ Finset.univ.image (Pipeline.arrRef spec9) → rd (W16 m ρ) c b = rd (W15 m ρ) c b :=
  fun b hb => W16_of_ne m ρ c b fun w e => hb (Finset.mem_image.mpr ⟨w, Finset.mem_univ _, e⟩)
/-- Region 9 changes only its output array `main_v22`: an input array is left as entered, any other buffer bypasses it. -/
theorem W16_keep (c : Dev nD) (b : Ref sig .tc) (hb : b ≠ main_v22) : W16 m ρ c b = W15 m ρ c b := by
  by_cases h0 : b = main_arg3
  · subst h0; exact (W16_arr m ρ c 0).trans (((dats9 (rd (W15 m ρ)) c).arrAt_in 0 rfl _).trans (A_eq9 (rd (W15 m ρ)) c 0))
  by_cases h1 : b = main_v20
  · subst h1; exact (W16_arr m ρ c 1).trans (((dats9 (rd (W15 m ρ)) c).arrAt_in 1 rfl _).trans (A_eq9 (rd (W15 m ρ)) c 1))
  by_cases h2 : b = main_v21
  · subst h2; exact (W16_arr m ρ c 2).trans (((dats9 (rd (W15 m ρ)) c).arrAt_in 2 rfl _).trans (A_eq9 (rd (W15 m ρ)) c 2))
  exact W16_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm
/-- After region 10 (item 16): its arrays at what the pipeline leaves, every other buffer as entered. -/
def W17 (c : Dev nD) : Valuation τ sig (Elt F) :=
  Pipeline.withArrays spec10 c (W16 m ρ c) fun w => (dat10 (rd (W16 m ρ)) c).arrAt w cfg10.N
theorem W17_arr (c : Dev nD) (w : Fin cfg10.W) :
    W17 m ρ c (Proc.devRef .tc (Pipeline.arrRef spec10 w)) = (dat10 (rd (W16 m ρ)) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
theorem hF10 (c : Dev nD) (w : Fin cfg10.W) : (dat10 (rd (W16 m ρ)) c).arrAt w cfg10.N = rd (W17 m ρ) c (Pipeline.arrRef spec10 w) :=
  (W17_arr m ρ c w).symm
theorem hrest10 (c : Dev nD) : ∀ b, b ∉ Finset.univ.image (Pipeline.arrRef spec10) → rd (W17 m ρ) c b = rd (W16 m ρ) c b :=
  fun b hb => W17_of_ne m ρ c b fun w e => hb (Finset.mem_image.mpr ⟨w, Finset.mem_univ _, e⟩)
/-- Region 10 changes only its output array `main_v23`: an input array is left as entered, any other buffer bypasses it. -/
theorem W17_keep (c : Dev nD) (b : Ref sig .tc) (hb : b ≠ main_v23) : W17 m ρ c b = W16 m ρ c b := by
  by_cases h0 : b = main_v11
  · subst h0; exact (W17_arr m ρ c 0).trans (((dat10 (rd (W16 m ρ)) c).arrAt_in 0 rfl _).trans (A_eq10 (rd (W16 m ρ)) c 0))
  by_cases h1 : b = main_arg7
  · subst h1; exact (W17_arr m ρ c 1).trans (((dat10 (rd (W16 m ρ)) c).arrAt_in 1 rfl _).trans (A_eq10 (rd (W16 m ρ)) c 1))
  exact W17_of_ne m ρ c b fun w => by
    match w with
    | ⟨0, _⟩ => exact fun e => h0 e.symm
    | ⟨1, _⟩ => exact fun e => h1 e.symm
    | ⟨2, _⟩ => exact fun e => hb e.symm
/-- After the host stretch `hostOps11` (item 17). -/
abbrev W18 : Dev nD → Valuation τ sig (Elt F) := fun c => StableHlo.after hostOps11 (W17 m ρ c)
theorem W18_keep (c : Dev nD) (b : Ref sig .tc) (hb : b ∉ hostOps11_W) : W18 m ρ c b = W17 m ρ c b :=
  StableHlo.after_of_writes_sub hostOps11 _ hostOps11_writes hb
/-- After region 11 (item 18): its arrays at what the pipeline leaves, every other buffer as entered. -/
def W19 (c : Dev nD) : Valuation τ sig (Elt F) :=
  Pipeline.withArrays spec11 c (W18 m ρ c) fun w => (dats11 (rd (W18 m ρ)) c).arrAt w cfg11.N
theorem W19_arr (c : Dev nD) (w : Fin cfg11.W) :
    W19 m ρ c (Proc.devRef .tc (Pipeline.arrRef spec11 w)) = (dats11 (rd (W18 m ρ)) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
theorem hF11 (c : Dev nD) (w : Fin cfg11.W) : (dats11 (rd (W18 m ρ)) c).arrAt w cfg11.N = rd (W19 m ρ) c (Pipeline.arrRef spec11 w) :=
  (W19_arr m ρ c w).symm
theorem hrest11 (c : Dev nD) : ∀ b, b ∉ Finset.univ.image (Pipeline.arrRef spec11) → rd (W19 m ρ) c b = rd (W18 m ρ) c b :=
  fun b hb => W19_of_ne m ρ c b fun w e => hb (Finset.mem_image.mpr ⟨w, Finset.mem_univ _, e⟩)
/-- Region 11 changes only its output array `main_v25`: an input array is left as entered, any other buffer bypasses it. -/
theorem W19_keep (c : Dev nD) (b : Ref sig .tc) (hb : b ≠ main_v25) : W19 m ρ c b = W18 m ρ c b := by
  by_cases h0 : b = main_arg4
  · subst h0; exact (W19_arr m ρ c 0).trans (((dats11 (rd (W18 m ρ)) c).arrAt_in 0 rfl _).trans (A_eq11 (rd (W18 m ρ)) c 0))
  by_cases h1 : b = main_v23
  · subst h1; exact (W19_arr m ρ c 1).trans (((dats11 (rd (W18 m ρ)) c).arrAt_in 1 rfl _).trans (A_eq11 (rd (W18 m ρ)) c 1))
  by_cases h2 : b = main_v24
  · subst h2; exact (W19_arr m ρ c 2).trans (((dats11 (rd (W18 m ρ)) c).arrAt_in 2 rfl _).trans (A_eq11 (rd (W18 m ρ)) c 2))
  exact W19_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-! ## The proof data family and the thread state -/

/-- The prefetched tables' admissible contents: no pipeline has a table (`Gen.adm`). Every pipeline's proof data, each at
    its region's entry contents — a literal match, so that the configuration at a numeral reduces to the printed one. -/
def pdats : (p : Fin 12) → (c : Dev nD) → Dat τ (Elt F) Unit ℕ (UR sig nD τ) ℕ (Pipeline.pin (pcfgs (F := F)) adm p) c
  | ⟨0, _⟩ => fun c => dat0 (rd (W0 m ρ)) c
  | ⟨1, _⟩ => fun c => dat1 (rd (W1 m ρ)) c
  | ⟨2, _⟩ => fun c => dats2 (rd (W3 m ρ)) c
  | ⟨3, _⟩ => fun c => dats3 (rd (W5 m ρ)) c
  | ⟨4, _⟩ => fun c => dats4 (rd (W7 m ρ)) c
  | ⟨5, _⟩ => fun c => dat5 (rd (W8 m ρ)) c
  | ⟨6, _⟩ => fun c => dat6 (rd (W9 m ρ)) c
  | ⟨7, _⟩ => fun c => dats7 (rd (W11 m ρ)) c
  | ⟨8, _⟩ => fun c => dat8 (rd (W13 m ρ)) c
  | ⟨9, _⟩ => fun c => dats9 (rd (W15 m ρ)) c
  | ⟨10, _⟩ => fun c => dat10 (rd (W16 m ρ)) c
  | ⟨11, _⟩ => fun c => dats11 (rd (W18 m ρ)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debt, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents `W19`, the generator register at some state. -/
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W0 m ρ)) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (rd (W0 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (rd (W0 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (rd (W0 m ρ) c) (rd (W1 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W1 m ρ)) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (rd (W1 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (rd (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (rd (W1 m ρ) c) (rd (W2 m ρ) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at the exit contents; the generator register goes into the region's invariant and
    comes back (the carried accumulator's contents are forgotten at the exit); nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W3 m ρ)) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (rd (W3 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (rd (W3 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dats2 (rd (W3 m ρ)) c).Φ 0 from rfl]
    have h := hin2 (rd (W3 m ρ)) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dats2 (rd (W3 m ρ)) c).Φ (Fin.last cfg2.N) from rfl]
    have h := hout2 (rd (W3 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (rd (W3 m ρ) c) (rd (W4 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays are split
    out of the unscoped buffers and put back at the exit contents; the generator register goes into the region's invariant and
    comes back (the carried accumulator's contents are forgotten at the exit); nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W5 m ρ)) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (rd (W5 m ρ) c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (rd (W5 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dats3 (rd (W5 m ρ)) c).Φ 0 from rfl]
    have h := hin3 (rd (W5 m ρ)) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dats3 (rd (W5 m ρ)) c).Φ (Fin.last cfg3.N) from rfl]
    have h := hout3 (rd (W5 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (rd (W5 m ρ) c) (rd (W6 m ρ) c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. Its arrays are split
    out of the unscoped buffers and put back at the exit contents; the generator register goes into the region's invariant and
    comes back (the carried accumulator's contents are forgotten at the exit); nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W7 m ρ)) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (rd (W7 m ρ) c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (rd (W7 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dats4 (rd (W7 m ρ)) c).Φ 0 from rfl]
    have h := hin4 (rd (W7 m ρ)) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dats4 (rd (W7 m ρ)) c).Φ (Fin.last cfg4.N) from rfl]
    have h := hout4 (rd (W7 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (rd (W7 m ρ) c) (rd (W8 m ρ) c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W8`, left at `W9`. Its arrays are split
    out of the unscoped buffers and put back at the exit contents; the generator register goes into the region's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W8 m ρ)) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (rd (W8 m ρ) c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (rd (W8 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (rd (W8 m ρ) c) (rd (W9 m ρ) c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W9`, left at `W10`. Its arrays are split
    out of the unscoped buffers and put back at the exit contents; the generator register goes into the region's invariant and
    comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (rd (W9 m ρ)) c).loose
  hwaits := Pipeline.hwaits_of_owed_zero _ _ _ _ L lv 6 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec6 c (rd (W9 m ρ) c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (rd (W9 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (rd (W9 m ρ) c) (rd (W10 m ρ) c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W11`, left at `W12`. Its arrays are split
    out of the unscoped buffers and put back at the exit contents; the generator register goes into the region's invariant and
    comes back (the carried accumulator's contents are forgotten at the exit); nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (rd (W11 m ρ)) c).loose
  hwaits := Pipeline.hwaits_of_owed_zero _ _ _ _ L lv 7 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec7 c (rd (W11 m ρ) c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (rd (W11 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dats7 (rd (W11 m ρ)) c).Φ 0 from rfl]
    have h := hin7 (rd (W11 m ρ)) c
    unfold Pipeline.ΦA at h
    iintro ⟨Hp, -, Hr⟩
    iapply h
    isplitl [Hr]; · iexact Hr
    iexact Hp
  hout c := by
    rw [Pipeline.ownSems0_none, show (pdats m ρ 7 c).Φ (Fin.last _) = (dats7 (rd (W11 m ρ)) c).Φ (Fin.last cfg7.N) from rfl]
    have h := hout7 (rd (W11 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (rd (W11 m ρ) c) (rd (W12 m ρ) c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W13`, left at `W14`. Its arrays are split
    out of the unscoped buffers and put back at the exit contents; the generator register goes into the region's invariant and
    comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (rd (W13 m ρ)) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (rd (W13 m ρ) c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (rd (W13 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (rd (W13 m ρ) c) (rd (W14 m ρ) c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W15`, left at `W16`. Its arrays are split
    out of the unscoped buffers and put back at the exit contents; the generator register goes into the region's invariant and
    comes back (the carried accumulator's contents are forgotten at the exit); nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (rd (W15 m ρ)) c).loose
  hwaits := Pipeline.hwaits_of_owed_zero _ _ _ _ L lv 9 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec9 c (rd (W15 m ρ) c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (rd (W15 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dats9 (rd (W15 m ρ)) c).Φ 0 from rfl]
    have h := hin9 (rd (W15 m ρ)) c
    unfold Pipeline.ΦA at h
    iintro ⟨Hp, -, Hr⟩
    iapply h
    isplitl [Hr]; · iexact Hr
    iexact Hp
  hout c := by
    rw [Pipeline.ownSems0_none, show (pdats m ρ 9 c).Φ (Fin.last _) = (dats9 (rd (W15 m ρ)) c).Φ (Fin.last cfg9.N) from rfl]
    have h := hout9 (rd (W15 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (rd (W15 m ρ) c) (rd (W16 m ρ) c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W16`, left at `W17`. Its arrays are split
    out of the unscoped buffers and put back at the exit contents; the generator register goes into the region's invariant and
    comes back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (rd (W16 m ρ)) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec10 c (rd (W16 m ρ) c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (rd (W16 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (rd (W16 m ρ) c) (rd (W17 m ρ) c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W18`, left at `W19`. Its arrays are split
    out of the unscoped buffers and put back at the exit contents; the generator register goes into the region's invariant and
    comes back (the carried accumulator's contents are forgotten at the exit); nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (rd (W18 m ρ)) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (rd (W18 m ρ) c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (rd (W18 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dats11 (rd (W18 m ρ)) c).Φ 0 from rfl]
    have h := hin11 (rd (W18 m ρ)) c
    unfold Pipeline.ΦA at h
    iintro ⟨Hp, -, Hr⟩
    iapply h
    isplitl [Hr]; · iexact Hr
    iexact Hp
  hout c := by
    rw [Pipeline.ownSems0_none, show (pdats m ρ 11 c).Φ (Fin.last _) = (dats11 (rd (W18 m ρ)) c).Φ (Fin.last cfg11.N) from rfl]
    have h := hout11 (rd (W18 m ρ)) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (rd (W18 m ρ) c) (rd (W19 m ρ) c) ((pdats m ρ 11 c).arrAt · cfg11.N) (hF11 m ρ c) (hrest11 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 19 items in order: a region per pallas_call, a host segment per stretch from its boundary's contents. -/
abbrev progSegs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .region (reg5 m ρ),
    .region (reg6 m ρ),
    .host (hseg hostOps7 hostOps7_sub hostOps7_fresh (W10 m ρ)),
    .region (reg7 m ρ),
    .host (hseg hostOps8 hostOps8_sub hostOps8_fresh (W12 m ρ)),
    .region (reg8 m ρ),
    .host (hseg hostOps9 hostOps9_sub hostOps9_fresh (W14 m ρ)),
    .region (reg9 m ρ),
    .region (reg10 m ρ),
    .host (hseg hostOps11 hostOps11_sub hostOps11_fresh (W17 m ρ)),
    .region (reg11 m ρ) ]
/-- The program is the run of its segments: the chain of its items, compared by the kernel's definitional check. -/
theorem main_run (c : Dev nD) : main (F := F) c = Pipeline.Seg.run (progSegs m ρ) := (main_chain c).trans (by chain_rfl)

set_option backward.isDefEq.respectTransparency.types false in
/-- THE RUN. From any memory with zero counters every weakly fair execution of the program on the TensorCores terminates,
    nothing faulting, and every final memory holds every unscoped buffer at the last valuation `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (progSegs m ρ)
    (fun c Q => by rw [main_run m ρ c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

/-! ## The arguments end as launched -/
theorem W19_main_arg0 (c : Dev nD) : W19 m ρ c main_arg0 = m ((c : Thread nD τ).loc main_arg0) :=
  (W19_keep m ρ c main_arg0 (by decide)).trans <|
  (W18_keep m ρ c main_arg0 (by decide)).trans <|
  (W17_keep m ρ c main_arg0 (by decide)).trans <|
  (W16_keep m ρ c main_arg0 (by decide)).trans <|
  (W15_keep m ρ c main_arg0 (by decide)).trans <|
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans rfl
theorem W19_main_arg1 (c : Dev nD) : W19 m ρ c main_arg1 = m ((c : Thread nD τ).loc main_arg1) :=
  (W19_keep m ρ c main_arg1 (by decide)).trans <|
  (W18_keep m ρ c main_arg1 (by decide)).trans <|
  (W17_keep m ρ c main_arg1 (by decide)).trans <|
  (W16_keep m ρ c main_arg1 (by decide)).trans <|
  (W15_keep m ρ c main_arg1 (by decide)).trans <|
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans rfl
theorem W19_main_arg2 (c : Dev nD) : W19 m ρ c main_arg2 = m ((c : Thread nD τ).loc main_arg2) :=
  (W19_keep m ρ c main_arg2 (by decide)).trans <|
  (W18_keep m ρ c main_arg2 (by decide)).trans <|
  (W17_keep m ρ c main_arg2 (by decide)).trans <|
  (W16_keep m ρ c main_arg2 (by decide)).trans <|
  (W15_keep m ρ c main_arg2 (by decide)).trans <|
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans rfl
theorem W19_main_arg3 (c : Dev nD) : W19 m ρ c main_arg3 = m ((c : Thread nD τ).loc main_arg3) :=
  (W19_keep m ρ c main_arg3 (by decide)).trans <|
  (W18_keep m ρ c main_arg3 (by decide)).trans <|
  (W17_keep m ρ c main_arg3 (by decide)).trans <|
  (W16_keep m ρ c main_arg3 (by decide)).trans <|
  (W15_keep m ρ c main_arg3 (by decide)).trans <|
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans rfl
theorem W19_main_arg4 (c : Dev nD) : W19 m ρ c main_arg4 = m ((c : Thread nD τ).loc main_arg4) :=
  (W19_keep m ρ c main_arg4 (by decide)).trans <|
  (W18_keep m ρ c main_arg4 (by decide)).trans <|
  (W17_keep m ρ c main_arg4 (by decide)).trans <|
  (W16_keep m ρ c main_arg4 (by decide)).trans <|
  (W15_keep m ρ c main_arg4 (by decide)).trans <|
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_keep m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans rfl
theorem W19_main_arg5 (c : Dev nD) : W19 m ρ c main_arg5 = m ((c : Thread nD τ).loc main_arg5) :=
  (W19_keep m ρ c main_arg5 (by decide)).trans <|
  (W18_keep m ρ c main_arg5 (by decide)).trans <|
  (W17_keep m ρ c main_arg5 (by decide)).trans <|
  (W16_keep m ρ c main_arg5 (by decide)).trans <|
  (W15_keep m ρ c main_arg5 (by decide)).trans <|
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans rfl
theorem W19_main_arg6 (c : Dev nD) : W19 m ρ c main_arg6 = m ((c : Thread nD τ).loc main_arg6) :=
  (W19_keep m ρ c main_arg6 (by decide)).trans <|
  (W18_keep m ρ c main_arg6 (by decide)).trans <|
  (W17_keep m ρ c main_arg6 (by decide)).trans <|
  (W16_keep m ρ c main_arg6 (by decide)).trans <|
  (W15_keep m ρ c main_arg6 (by decide)).trans <|
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans rfl
theorem W19_main_arg7 (c : Dev nD) : W19 m ρ c main_arg7 = m ((c : Thread nD τ).loc main_arg7) :=
  (W19_keep m ρ c main_arg7 (by decide)).trans <|
  (W18_keep m ρ c main_arg7 (by decide)).trans <|
  (W17_keep m ρ c main_arg7 (by decide)).trans <|
  (W16_keep m ρ c main_arg7 (by decide)).trans <|
  (W15_keep m ρ c main_arg7 (by decide)).trans <|
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans rfl
theorem W19_main_arg8 (c : Dev nD) : W19 m ρ c main_arg8 = m ((c : Thread nD τ).loc main_arg8) :=
  (W19_keep m ρ c main_arg8 (by decide)).trans <|
  (W18_keep m ρ c main_arg8 (by decide)).trans <|
  (W17_keep m ρ c main_arg8 (by decide)).trans <|
  (W16_keep m ρ c main_arg8 (by decide)).trans <|
  (W15_keep m ρ c main_arg8 (by decide)).trans <|
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans rfl

/-- THE FRAME: from any memory with zero counters the program runs to the end, nothing faulting, and its nine argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c),
    (h c _ (mem_uc main_arg6 (by decide))).trans (W19_main_arg6 m ρ c),
    (h c _ (mem_uc main_arg7 (by decide))).trans (W19_main_arg7 m ρ c),
    (h c _ (mem_uc main_arg8 (by decide))).trans (W19_main_arg8 m ρ c)⟩) (run_all m ρ)

end Cert.KernelIdeal.Gen

end
-- ==== Proof.Reads.lean ====
/-
  Reading the fold of buffer contents: every buffer of the program is written by one item only, so from the item after
  its writer on its contents are the final ones; and what a host stretch writes is its operations applied to what the
  stretch found.
-/
import proofs.«166906_j60567628808244_2_alg».proof.Proof.Run
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## A buffer's contents are final once its writer has run -/
theorem stab_0_arg0 : W0 m ρ c main_arg0 = W19 m ρ c main_arg0 :=
  ((W19_keep m ρ c main_arg0 (by decide)).trans <|
   (W18_keep m ρ c main_arg0 (by decide)).trans <|
   (W17_keep m ρ c main_arg0 (by decide)).trans <|
   (W16_keep m ρ c main_arg0 (by decide)).trans <|
   (W15_keep m ρ c main_arg0 (by decide)).trans <|
   (W14_keep m ρ c main_arg0 (by decide)).trans <|
   (W13_keep m ρ c main_arg0 (by decide)).trans <|
   (W12_keep m ρ c main_arg0 (by decide)).trans <|
   (W11_keep m ρ c main_arg0 (by decide)).trans <|
   (W10_keep m ρ c main_arg0 (by decide)).trans <|
   (W9_keep m ρ c main_arg0 (by decide)).trans <|
   (W8_keep m ρ c main_arg0 (by decide)).trans <|
   (W7_keep m ρ c main_arg0 (by decide)).trans <|
   (W6_keep m ρ c main_arg0 (by decide)).trans <|
   (W5_keep m ρ c main_arg0 (by decide)).trans <|
   (W4_keep m ρ c main_arg0 (by decide)).trans <|
   (W3_keep m ρ c main_arg0 (by decide)).trans <|
   (W2_keep m ρ c main_arg0 (by decide)).trans <|
   (W1_keep m ρ c main_arg0 (by decide))).symm
theorem stab_0_arg5 : W0 m ρ c main_arg5 = W19 m ρ c main_arg5 :=
  ((W19_keep m ρ c main_arg5 (by decide)).trans <|
   (W18_keep m ρ c main_arg5 (by decide)).trans <|
   (W17_keep m ρ c main_arg5 (by decide)).trans <|
   (W16_keep m ρ c main_arg5 (by decide)).trans <|
   (W15_keep m ρ c main_arg5 (by decide)).trans <|
   (W14_keep m ρ c main_arg5 (by decide)).trans <|
   (W13_keep m ρ c main_arg5 (by decide)).trans <|
   (W12_keep m ρ c main_arg5 (by decide)).trans <|
   (W11_keep m ρ c main_arg5 (by decide)).trans <|
   (W10_keep m ρ c main_arg5 (by decide)).trans <|
   (W9_keep m ρ c main_arg5 (by decide)).trans <|
   (W8_keep m ρ c main_arg5 (by decide)).trans <|
   (W7_keep m ρ c main_arg5 (by decide)).trans <|
   (W6_keep m ρ c main_arg5 (by decide)).trans <|
   (W5_keep m ρ c main_arg5 (by decide)).trans <|
   (W4_keep m ρ c main_arg5 (by decide)).trans <|
   (W3_keep m ρ c main_arg5 (by decide)).trans <|
   (W2_keep m ρ c main_arg5 (by decide)).trans <|
   (W1_keep m ρ c main_arg5 (by decide))).symm
theorem stab_1_arg1 : W1 m ρ c main_arg1 = W19 m ρ c main_arg1 :=
  ((W19_keep m ρ c main_arg1 (by decide)).trans <|
   (W18_keep m ρ c main_arg1 (by decide)).trans <|
   (W17_keep m ρ c main_arg1 (by decide)).trans <|
   (W16_keep m ρ c main_arg1 (by decide)).trans <|
   (W15_keep m ρ c main_arg1 (by decide)).trans <|
   (W14_keep m ρ c main_arg1 (by decide)).trans <|
   (W13_keep m ρ c main_arg1 (by decide)).trans <|
   (W12_keep m ρ c main_arg1 (by decide)).trans <|
   (W11_keep m ρ c main_arg1 (by decide)).trans <|
   (W10_keep m ρ c main_arg1 (by decide)).trans <|
   (W9_keep m ρ c main_arg1 (by decide)).trans <|
   (W8_keep m ρ c main_arg1 (by decide)).trans <|
   (W7_keep m ρ c main_arg1 (by decide)).trans <|
   (W6_keep m ρ c main_arg1 (by decide)).trans <|
   (W5_keep m ρ c main_arg1 (by decide)).trans <|
   (W4_keep m ρ c main_arg1 (by decide)).trans <|
   (W3_keep m ρ c main_arg1 (by decide)).trans <|
   (W2_keep m ρ c main_arg1 (by decide))).symm
theorem stab_1_arg5 : W1 m ρ c main_arg5 = W19 m ρ c main_arg5 :=
  ((W19_keep m ρ c main_arg5 (by decide)).trans <|
   (W18_keep m ρ c main_arg5 (by decide)).trans <|
   (W17_keep m ρ c main_arg5 (by decide)).trans <|
   (W16_keep m ρ c main_arg5 (by decide)).trans <|
   (W15_keep m ρ c main_arg5 (by decide)).trans <|
   (W14_keep m ρ c main_arg5 (by decide)).trans <|
   (W13_keep m ρ c main_arg5 (by decide)).trans <|
   (W12_keep m ρ c main_arg5 (by decide)).trans <|
   (W11_keep m ρ c main_arg5 (by decide)).trans <|
   (W10_keep m ρ c main_arg5 (by decide)).trans <|
   (W9_keep m ρ c main_arg5 (by decide)).trans <|
   (W8_keep m ρ c main_arg5 (by decide)).trans <|
   (W7_keep m ρ c main_arg5 (by decide)).trans <|
   (W6_keep m ρ c main_arg5 (by decide)).trans <|
   (W5_keep m ρ c main_arg5 (by decide)).trans <|
   (W4_keep m ρ c main_arg5 (by decide)).trans <|
   (W3_keep m ρ c main_arg5 (by decide)).trans <|
   (W2_keep m ρ c main_arg5 (by decide))).symm
theorem stab_3_arg2 : W3 m ρ c main_arg2 = W19 m ρ c main_arg2 :=
  ((W19_keep m ρ c main_arg2 (by decide)).trans <|
   (W18_keep m ρ c main_arg2 (by decide)).trans <|
   (W17_keep m ρ c main_arg2 (by decide)).trans <|
   (W16_keep m ρ c main_arg2 (by decide)).trans <|
   (W15_keep m ρ c main_arg2 (by decide)).trans <|
   (W14_keep m ρ c main_arg2 (by decide)).trans <|
   (W13_keep m ρ c main_arg2 (by decide)).trans <|
   (W12_keep m ρ c main_arg2 (by decide)).trans <|
   (W11_keep m ρ c main_arg2 (by decide)).trans <|
   (W10_keep m ρ c main_arg2 (by decide)).trans <|
   (W9_keep m ρ c main_arg2 (by decide)).trans <|
   (W8_keep m ρ c main_arg2 (by decide)).trans <|
   (W7_keep m ρ c main_arg2 (by decide)).trans <|
   (W6_keep m ρ c main_arg2 (by decide)).trans <|
   (W5_keep m ρ c main_arg2 (by decide)).trans <|
   (W4_keep m ρ c main_arg2 (by decide))).symm
theorem stab_3_v2 : W3 m ρ c main_v2 = W19 m ρ c main_v2 :=
  ((W19_keep m ρ c main_v2 (by decide)).trans <|
   (W18_keep m ρ c main_v2 (by decide)).trans <|
   (W17_keep m ρ c main_v2 (by decide)).trans <|
   (W16_keep m ρ c main_v2 (by decide)).trans <|
   (W15_keep m ρ c main_v2 (by decide)).trans <|
   (W14_keep m ρ c main_v2 (by decide)).trans <|
   (W13_keep m ρ c main_v2 (by decide)).trans <|
   (W12_keep m ρ c main_v2 (by decide)).trans <|
   (W11_keep m ρ c main_v2 (by decide)).trans <|
   (W10_keep m ρ c main_v2 (by decide)).trans <|
   (W9_keep m ρ c main_v2 (by decide)).trans <|
   (W8_keep m ρ c main_v2 (by decide)).trans <|
   (W7_keep m ρ c main_v2 (by decide)).trans <|
   (W6_keep m ρ c main_v2 (by decide)).trans <|
   (W5_keep m ρ c main_v2 (by decide)).trans <|
   (W4_keep m ρ c main_v2 (by decide))).symm
theorem stab_3_v4 : W3 m ρ c main_v4 = W19 m ρ c main_v4 :=
  ((W19_keep m ρ c main_v4 (by decide)).trans <|
   (W18_keep m ρ c main_v4 (by decide)).trans <|
   (W17_keep m ρ c main_v4 (by decide)).trans <|
   (W16_keep m ρ c main_v4 (by decide)).trans <|
   (W15_keep m ρ c main_v4 (by decide)).trans <|
   (W14_keep m ρ c main_v4 (by decide)).trans <|
   (W13_keep m ρ c main_v4 (by decide)).trans <|
   (W12_keep m ρ c main_v4 (by decide)).trans <|
   (W11_keep m ρ c main_v4 (by decide)).trans <|
   (W10_keep m ρ c main_v4 (by decide)).trans <|
   (W9_keep m ρ c main_v4 (by decide)).trans <|
   (W8_keep m ρ c main_v4 (by decide)).trans <|
   (W7_keep m ρ c main_v4 (by decide)).trans <|
   (W6_keep m ρ c main_v4 (by decide)).trans <|
   (W5_keep m ρ c main_v4 (by decide)).trans <|
   (W4_keep m ρ c main_v4 (by decide))).symm
theorem stab_5_arg3 : W5 m ρ c main_arg3 = W19 m ρ c main_arg3 :=
  ((W19_keep m ρ c main_arg3 (by decide)).trans <|
   (W18_keep m ρ c main_arg3 (by decide)).trans <|
   (W17_keep m ρ c main_arg3 (by decide)).trans <|
   (W16_keep m ρ c main_arg3 (by decide)).trans <|
   (W15_keep m ρ c main_arg3 (by decide)).trans <|
   (W14_keep m ρ c main_arg3 (by decide)).trans <|
   (W13_keep m ρ c main_arg3 (by decide)).trans <|
   (W12_keep m ρ c main_arg3 (by decide)).trans <|
   (W11_keep m ρ c main_arg3 (by decide)).trans <|
   (W10_keep m ρ c main_arg3 (by decide)).trans <|
   (W9_keep m ρ c main_arg3 (by decide)).trans <|
   (W8_keep m ρ c main_arg3 (by decide)).trans <|
   (W7_keep m ρ c main_arg3 (by decide)).trans <|
   (W6_keep m ρ c main_arg3 (by decide))).symm
theorem stab_5_v0 : W5 m ρ c main_v0 = W19 m ρ c main_v0 :=
  ((W19_keep m ρ c main_v0 (by decide)).trans <|
   (W18_keep m ρ c main_v0 (by decide)).trans <|
   (W17_keep m ρ c main_v0 (by decide)).trans <|
   (W16_keep m ρ c main_v0 (by decide)).trans <|
   (W15_keep m ρ c main_v0 (by decide)).trans <|
   (W14_keep m ρ c main_v0 (by decide)).trans <|
   (W13_keep m ρ c main_v0 (by decide)).trans <|
   (W12_keep m ρ c main_v0 (by decide)).trans <|
   (W11_keep m ρ c main_v0 (by decide)).trans <|
   (W10_keep m ρ c main_v0 (by decide)).trans <|
   (W9_keep m ρ c main_v0 (by decide)).trans <|
   (W8_keep m ρ c main_v0 (by decide)).trans <|
   (W7_keep m ρ c main_v0 (by decide)).trans <|
   (W6_keep m ρ c main_v0 (by decide))).symm
theorem stab_5_v8 : W5 m ρ c main_v8 = W19 m ρ c main_v8 :=
  ((W19_keep m ρ c main_v8 (by decide)).trans <|
   (W18_keep m ρ c main_v8 (by decide)).trans <|
   (W17_keep m ρ c main_v8 (by decide)).trans <|
   (W16_keep m ρ c main_v8 (by decide)).trans <|
   (W15_keep m ρ c main_v8 (by decide)).trans <|
   (W14_keep m ρ c main_v8 (by decide)).trans <|
   (W13_keep m ρ c main_v8 (by decide)).trans <|
   (W12_keep m ρ c main_v8 (by decide)).trans <|
   (W11_keep m ρ c main_v8 (by decide)).trans <|
   (W10_keep m ρ c main_v8 (by decide)).trans <|
   (W9_keep m ρ c main_v8 (by decide)).trans <|
   (W8_keep m ρ c main_v8 (by decide)).trans <|
   (W7_keep m ρ c main_v8 (by decide)).trans <|
   (W6_keep m ρ c main_v8 (by decide))).symm
theorem stab_7_arg4 : W7 m ρ c main_arg4 = W19 m ρ c main_arg4 :=
  ((W19_keep m ρ c main_arg4 (by decide)).trans <|
   (W18_keep m ρ c main_arg4 (by decide)).trans <|
   (W17_keep m ρ c main_arg4 (by decide)).trans <|
   (W16_keep m ρ c main_arg4 (by decide)).trans <|
   (W15_keep m ρ c main_arg4 (by decide)).trans <|
   (W14_keep m ρ c main_arg4 (by decide)).trans <|
   (W13_keep m ρ c main_arg4 (by decide)).trans <|
   (W12_keep m ρ c main_arg4 (by decide)).trans <|
   (W11_keep m ρ c main_arg4 (by decide)).trans <|
   (W10_keep m ρ c main_arg4 (by decide)).trans <|
   (W9_keep m ρ c main_arg4 (by decide)).trans <|
   (W8_keep m ρ c main_arg4 (by decide))).symm
theorem stab_7_v0 : W7 m ρ c main_v0 = W19 m ρ c main_v0 :=
  ((W19_keep m ρ c main_v0 (by decide)).trans <|
   (W18_keep m ρ c main_v0 (by decide)).trans <|
   (W17_keep m ρ c main_v0 (by decide)).trans <|
   (W16_keep m ρ c main_v0 (by decide)).trans <|
   (W15_keep m ρ c main_v0 (by decide)).trans <|
   (W14_keep m ρ c main_v0 (by decide)).trans <|
   (W13_keep m ρ c main_v0 (by decide)).trans <|
   (W12_keep m ρ c main_v0 (by decide)).trans <|
   (W11_keep m ρ c main_v0 (by decide)).trans <|
   (W10_keep m ρ c main_v0 (by decide)).trans <|
   (W9_keep m ρ c main_v0 (by decide)).trans <|
   (W8_keep m ρ c main_v0 (by decide))).symm
theorem stab_7_v10 : W7 m ρ c main_v10 = W19 m ρ c main_v10 :=
  ((W19_keep m ρ c main_v10 (by decide)).trans <|
   (W18_keep m ρ c main_v10 (by decide)).trans <|
   (W17_keep m ρ c main_v10 (by decide)).trans <|
   (W16_keep m ρ c main_v10 (by decide)).trans <|
   (W15_keep m ρ c main_v10 (by decide)).trans <|
   (W14_keep m ρ c main_v10 (by decide)).trans <|
   (W13_keep m ρ c main_v10 (by decide)).trans <|
   (W12_keep m ρ c main_v10 (by decide)).trans <|
   (W11_keep m ρ c main_v10 (by decide)).trans <|
   (W10_keep m ρ c main_v10 (by decide)).trans <|
   (W9_keep m ρ c main_v10 (by decide)).trans <|
   (W8_keep m ρ c main_v10 (by decide))).symm
theorem stab_8_v6 : W8 m ρ c main_v6 = W19 m ρ c main_v6 :=
  ((W19_keep m ρ c main_v6 (by decide)).trans <|
   (W18_keep m ρ c main_v6 (by decide)).trans <|
   (W17_keep m ρ c main_v6 (by decide)).trans <|
   (W16_keep m ρ c main_v6 (by decide)).trans <|
   (W15_keep m ρ c main_v6 (by decide)).trans <|
   (W14_keep m ρ c main_v6 (by decide)).trans <|
   (W13_keep m ρ c main_v6 (by decide)).trans <|
   (W12_keep m ρ c main_v6 (by decide)).trans <|
   (W11_keep m ρ c main_v6 (by decide)).trans <|
   (W10_keep m ρ c main_v6 (by decide)).trans <|
   (W9_keep m ρ c main_v6 (by decide))).symm
theorem stab_8_arg7 : W8 m ρ c main_arg7 = W19 m ρ c main_arg7 :=
  ((W19_keep m ρ c main_arg7 (by decide)).trans <|
   (W18_keep m ρ c main_arg7 (by decide)).trans <|
   (W17_keep m ρ c main_arg7 (by decide)).trans <|
   (W16_keep m ρ c main_arg7 (by decide)).trans <|
   (W15_keep m ρ c main_arg7 (by decide)).trans <|
   (W14_keep m ρ c main_arg7 (by decide)).trans <|
   (W13_keep m ρ c main_arg7 (by decide)).trans <|
   (W12_keep m ρ c main_arg7 (by decide)).trans <|
   (W11_keep m ρ c main_arg7 (by decide)).trans <|
   (W10_keep m ρ c main_arg7 (by decide)).trans <|
   (W9_keep m ρ c main_arg7 (by decide))).symm
theorem stab_9_v7 : W9 m ρ c main_v7 = W19 m ρ c main_v7 :=
  ((W19_keep m ρ c main_v7 (by decide)).trans <|
   (W18_keep m ρ c main_v7 (by decide)).trans <|
   (W17_keep m ρ c main_v7 (by decide)).trans <|
   (W16_keep m ρ c main_v7 (by decide)).trans <|
   (W15_keep m ρ c main_v7 (by decide)).trans <|
   (W14_keep m ρ c main_v7 (by decide)).trans <|
   (W13_keep m ρ c main_v7 (by decide)).trans <|
   (W12_keep m ρ c main_v7 (by decide)).trans <|
   (W11_keep m ρ c main_v7 (by decide)).trans <|
   (W10_keep m ρ c main_v7 (by decide))).symm
theorem stab_9_arg7 : W9 m ρ c main_arg7 = W19 m ρ c main_arg7 :=
  ((W19_keep m ρ c main_arg7 (by decide)).trans <|
   (W18_keep m ρ c main_arg7 (by decide)).trans <|
   (W17_keep m ρ c main_arg7 (by decide)).trans <|
   (W16_keep m ρ c main_arg7 (by decide)).trans <|
   (W15_keep m ρ c main_arg7 (by decide)).trans <|
   (W14_keep m ρ c main_arg7 (by decide)).trans <|
   (W13_keep m ρ c main_arg7 (by decide)).trans <|
   (W12_keep m ρ c main_arg7 (by decide)).trans <|
   (W11_keep m ρ c main_arg7 (by decide)).trans <|
   (W10_keep m ρ c main_arg7 (by decide))).symm
theorem stab_11_arg2 : W11 m ρ c main_arg2 = W19 m ρ c main_arg2 :=
  ((W19_keep m ρ c main_arg2 (by decide)).trans <|
   (W18_keep m ρ c main_arg2 (by decide)).trans <|
   (W17_keep m ρ c main_arg2 (by decide)).trans <|
   (W16_keep m ρ c main_arg2 (by decide)).trans <|
   (W15_keep m ρ c main_arg2 (by decide)).trans <|
   (W14_keep m ρ c main_arg2 (by decide)).trans <|
   (W13_keep m ρ c main_arg2 (by decide)).trans <|
   (W12_keep m ρ c main_arg2 (by decide))).symm
theorem stab_11_v14 : W11 m ρ c main_v14 = W19 m ρ c main_v14 :=
  ((W19_keep m ρ c main_v14 (by decide)).trans <|
   (W18_keep m ρ c main_v14 (by decide)).trans <|
   (W17_keep m ρ c main_v14 (by decide)).trans <|
   (W16_keep m ρ c main_v14 (by decide)).trans <|
   (W15_keep m ρ c main_v14 (by decide)).trans <|
   (W14_keep m ρ c main_v14 (by decide)).trans <|
   (W13_keep m ρ c main_v14 (by decide)).trans <|
   (W12_keep m ρ c main_v14 (by decide))).symm
theorem stab_11_v16 : W11 m ρ c main_v16 = W19 m ρ c main_v16 :=
  ((W19_keep m ρ c main_v16 (by decide)).trans <|
   (W18_keep m ρ c main_v16 (by decide)).trans <|
   (W17_keep m ρ c main_v16 (by decide)).trans <|
   (W16_keep m ρ c main_v16 (by decide)).trans <|
   (W15_keep m ρ c main_v16 (by decide)).trans <|
   (W14_keep m ρ c main_v16 (by decide)).trans <|
   (W13_keep m ρ c main_v16 (by decide)).trans <|
   (W12_keep m ρ c main_v16 (by decide))).symm
theorem stab_13_v9 : W13 m ρ c main_v9 = W19 m ρ c main_v9 :=
  ((W19_keep m ρ c main_v9 (by decide)).trans <|
   (W18_keep m ρ c main_v9 (by decide)).trans <|
   (W17_keep m ρ c main_v9 (by decide)).trans <|
   (W16_keep m ρ c main_v9 (by decide)).trans <|
   (W15_keep m ρ c main_v9 (by decide)).trans <|
   (W14_keep m ρ c main_v9 (by decide))).symm
theorem stab_13_arg7 : W13 m ρ c main_arg7 = W19 m ρ c main_arg7 :=
  ((W19_keep m ρ c main_arg7 (by decide)).trans <|
   (W18_keep m ρ c main_arg7 (by decide)).trans <|
   (W17_keep m ρ c main_arg7 (by decide)).trans <|
   (W16_keep m ρ c main_arg7 (by decide)).trans <|
   (W15_keep m ρ c main_arg7 (by decide)).trans <|
   (W14_keep m ρ c main_arg7 (by decide))).symm
theorem stab_15_arg3 : W15 m ρ c main_arg3 = W19 m ρ c main_arg3 :=
  ((W19_keep m ρ c main_arg3 (by decide)).trans <|
   (W18_keep m ρ c main_arg3 (by decide)).trans <|
   (W17_keep m ρ c main_arg3 (by decide)).trans <|
   (W16_keep m ρ c main_arg3 (by decide))).symm
theorem stab_15_v20 : W15 m ρ c main_v20 = W19 m ρ c main_v20 :=
  ((W19_keep m ρ c main_v20 (by decide)).trans <|
   (W18_keep m ρ c main_v20 (by decide)).trans <|
   (W17_keep m ρ c main_v20 (by decide)).trans <|
   (W16_keep m ρ c main_v20 (by decide))).symm
theorem stab_15_v21 : W15 m ρ c main_v21 = W19 m ρ c main_v21 :=
  ((W19_keep m ρ c main_v21 (by decide)).trans <|
   (W18_keep m ρ c main_v21 (by decide)).trans <|
   (W17_keep m ρ c main_v21 (by decide)).trans <|
   (W16_keep m ρ c main_v21 (by decide))).symm
theorem stab_16_v11 : W16 m ρ c main_v11 = W19 m ρ c main_v11 :=
  ((W19_keep m ρ c main_v11 (by decide)).trans <|
   (W18_keep m ρ c main_v11 (by decide)).trans <|
   (W17_keep m ρ c main_v11 (by decide))).symm
theorem stab_16_arg7 : W16 m ρ c main_arg7 = W19 m ρ c main_arg7 :=
  ((W19_keep m ρ c main_arg7 (by decide)).trans <|
   (W18_keep m ρ c main_arg7 (by decide)).trans <|
   (W17_keep m ρ c main_arg7 (by decide))).symm
theorem stab_18_arg4 : W18 m ρ c main_arg4 = W19 m ρ c main_arg4 :=
  ((W19_keep m ρ c main_arg4 (by decide))).symm
theorem stab_18_v23 : W18 m ρ c main_v23 = W19 m ρ c main_v23 :=
  ((W19_keep m ρ c main_v23 (by decide))).symm
theorem stab_18_v24 : W18 m ρ c main_v24 = W19 m ρ c main_v24 :=
  ((W19_keep m ρ c main_v24 (by decide))).symm
theorem stab_1_v0 : W1 m ρ c main_v0 = W19 m ρ c main_v0 :=
  ((W19_keep m ρ c main_v0 (by decide)).trans <|
   (W18_keep m ρ c main_v0 (by decide)).trans <|
   (W17_keep m ρ c main_v0 (by decide)).trans <|
   (W16_keep m ρ c main_v0 (by decide)).trans <|
   (W15_keep m ρ c main_v0 (by decide)).trans <|
   (W14_keep m ρ c main_v0 (by decide)).trans <|
   (W13_keep m ρ c main_v0 (by decide)).trans <|
   (W12_keep m ρ c main_v0 (by decide)).trans <|
   (W11_keep m ρ c main_v0 (by decide)).trans <|
   (W10_keep m ρ c main_v0 (by decide)).trans <|
   (W9_keep m ρ c main_v0 (by decide)).trans <|
   (W8_keep m ρ c main_v0 (by decide)).trans <|
   (W7_keep m ρ c main_v0 (by decide)).trans <|
   (W6_keep m ρ c main_v0 (by decide)).trans <|
   (W5_keep m ρ c main_v0 (by decide)).trans <|
   (W4_keep m ρ c main_v0 (by decide)).trans <|
   (W3_keep m ρ c main_v0 (by decide)).trans <|
   (W2_keep m ρ c main_v0 (by decide))).symm
theorem stab_2_v1 : W2 m ρ c main_v1 = W19 m ρ c main_v1 :=
  ((W19_keep m ρ c main_v1 (by decide)).trans <|
   (W18_keep m ρ c main_v1 (by decide)).trans <|
   (W17_keep m ρ c main_v1 (by decide)).trans <|
   (W16_keep m ρ c main_v1 (by decide)).trans <|
   (W15_keep m ρ c main_v1 (by decide)).trans <|
   (W14_keep m ρ c main_v1 (by decide)).trans <|
   (W13_keep m ρ c main_v1 (by decide)).trans <|
   (W12_keep m ρ c main_v1 (by decide)).trans <|
   (W11_keep m ρ c main_v1 (by decide)).trans <|
   (W10_keep m ρ c main_v1 (by decide)).trans <|
   (W9_keep m ρ c main_v1 (by decide)).trans <|
   (W8_keep m ρ c main_v1 (by decide)).trans <|
   (W7_keep m ρ c main_v1 (by decide)).trans <|
   (W6_keep m ρ c main_v1 (by decide)).trans <|
   (W5_keep m ρ c main_v1 (by decide)).trans <|
   (W4_keep m ρ c main_v1 (by decide)).trans <|
   (W3_keep m ρ c main_v1 (by decide))).symm
theorem stab_4_v5 : W4 m ρ c main_v5 = W19 m ρ c main_v5 :=
  ((W19_keep m ρ c main_v5 (by decide)).trans <|
   (W18_keep m ρ c main_v5 (by decide)).trans <|
   (W17_keep m ρ c main_v5 (by decide)).trans <|
   (W16_keep m ρ c main_v5 (by decide)).trans <|
   (W15_keep m ρ c main_v5 (by decide)).trans <|
   (W14_keep m ρ c main_v5 (by decide)).trans <|
   (W13_keep m ρ c main_v5 (by decide)).trans <|
   (W12_keep m ρ c main_v5 (by decide)).trans <|
   (W11_keep m ρ c main_v5 (by decide)).trans <|
   (W10_keep m ρ c main_v5 (by decide)).trans <|
   (W9_keep m ρ c main_v5 (by decide)).trans <|
   (W8_keep m ρ c main_v5 (by decide)).trans <|
   (W7_keep m ρ c main_v5 (by decide)).trans <|
   (W6_keep m ρ c main_v5 (by decide)).trans <|
   (W5_keep m ρ c main_v5 (by decide))).symm
theorem stab_6_v9 : W6 m ρ c main_v9 = W19 m ρ c main_v9 :=
  ((W19_keep m ρ c main_v9 (by decide)).trans <|
   (W18_keep m ρ c main_v9 (by decide)).trans <|
   (W17_keep m ρ c main_v9 (by decide)).trans <|
   (W16_keep m ρ c main_v9 (by decide)).trans <|
   (W15_keep m ρ c main_v9 (by decide)).trans <|
   (W14_keep m ρ c main_v9 (by decide)).trans <|
   (W13_keep m ρ c main_v9 (by decide)).trans <|
   (W12_keep m ρ c main_v9 (by decide)).trans <|
   (W11_keep m ρ c main_v9 (by decide)).trans <|
   (W10_keep m ρ c main_v9 (by decide)).trans <|
   (W9_keep m ρ c main_v9 (by decide)).trans <|
   (W8_keep m ρ c main_v9 (by decide)).trans <|
   (W7_keep m ρ c main_v9 (by decide))).symm
theorem stab_8_v11 : W8 m ρ c main_v11 = W19 m ρ c main_v11 :=
  ((W19_keep m ρ c main_v11 (by decide)).trans <|
   (W18_keep m ρ c main_v11 (by decide)).trans <|
   (W17_keep m ρ c main_v11 (by decide)).trans <|
   (W16_keep m ρ c main_v11 (by decide)).trans <|
   (W15_keep m ρ c main_v11 (by decide)).trans <|
   (W14_keep m ρ c main_v11 (by decide)).trans <|
   (W13_keep m ρ c main_v11 (by decide)).trans <|
   (W12_keep m ρ c main_v11 (by decide)).trans <|
   (W11_keep m ρ c main_v11 (by decide)).trans <|
   (W10_keep m ρ c main_v11 (by decide)).trans <|
   (W9_keep m ρ c main_v11 (by decide))).symm
theorem stab_9_v12 : W9 m ρ c main_v12 = W19 m ρ c main_v12 :=
  ((W19_keep m ρ c main_v12 (by decide)).trans <|
   (W18_keep m ρ c main_v12 (by decide)).trans <|
   (W17_keep m ρ c main_v12 (by decide)).trans <|
   (W16_keep m ρ c main_v12 (by decide)).trans <|
   (W15_keep m ρ c main_v12 (by decide)).trans <|
   (W14_keep m ρ c main_v12 (by decide)).trans <|
   (W13_keep m ρ c main_v12 (by decide)).trans <|
   (W12_keep m ρ c main_v12 (by decide)).trans <|
   (W11_keep m ρ c main_v12 (by decide)).trans <|
   (W10_keep m ρ c main_v12 (by decide))).symm
theorem stab_10_v13 : W10 m ρ c main_v13 = W19 m ρ c main_v13 :=
  ((W19_keep m ρ c main_v13 (by decide)).trans <|
   (W18_keep m ρ c main_v13 (by decide)).trans <|
   (W17_keep m ρ c main_v13 (by decide)).trans <|
   (W16_keep m ρ c main_v13 (by decide)).trans <|
   (W15_keep m ρ c main_v13 (by decide)).trans <|
   (W14_keep m ρ c main_v13 (by decide)).trans <|
   (W13_keep m ρ c main_v13 (by decide)).trans <|
   (W12_keep m ρ c main_v13 (by decide)).trans <|
   (W11_keep m ρ c main_v13 (by decide))).symm
theorem stab_12_v17 : W12 m ρ c main_v17 = W19 m ρ c main_v17 :=
  ((W19_keep m ρ c main_v17 (by decide)).trans <|
   (W18_keep m ρ c main_v17 (by decide)).trans <|
   (W17_keep m ρ c main_v17 (by decide)).trans <|
   (W16_keep m ρ c main_v17 (by decide)).trans <|
   (W15_keep m ρ c main_v17 (by decide)).trans <|
   (W14_keep m ρ c main_v17 (by decide)).trans <|
   (W13_keep m ρ c main_v17 (by decide))).symm
theorem stab_14_v20 : W14 m ρ c main_v20 = W19 m ρ c main_v20 :=
  ((W19_keep m ρ c main_v20 (by decide)).trans <|
   (W18_keep m ρ c main_v20 (by decide)).trans <|
   (W17_keep m ρ c main_v20 (by decide)).trans <|
   (W16_keep m ρ c main_v20 (by decide)).trans <|
   (W15_keep m ρ c main_v20 (by decide))).symm
theorem stab_16_v22 : W16 m ρ c main_v22 = W19 m ρ c main_v22 :=
  ((W19_keep m ρ c main_v22 (by decide)).trans <|
   (W18_keep m ρ c main_v22 (by decide)).trans <|
   (W17_keep m ρ c main_v22 (by decide))).symm
theorem stab_17_v23 : W17 m ρ c main_v23 = W19 m ρ c main_v23 :=
  ((W19_keep m ρ c main_v23 (by decide)).trans <|
   (W18_keep m ρ c main_v23 (by decide))).symm
theorem stab_2_v0 : W2 m ρ c main_v0 = W19 m ρ c main_v0 :=
  ((W19_keep m ρ c main_v0 (by decide)).trans <|
   (W18_keep m ρ c main_v0 (by decide)).trans <|
   (W17_keep m ρ c main_v0 (by decide)).trans <|
   (W16_keep m ρ c main_v0 (by decide)).trans <|
   (W15_keep m ρ c main_v0 (by decide)).trans <|
   (W14_keep m ρ c main_v0 (by decide)).trans <|
   (W13_keep m ρ c main_v0 (by decide)).trans <|
   (W12_keep m ρ c main_v0 (by decide)).trans <|
   (W11_keep m ρ c main_v0 (by decide)).trans <|
   (W10_keep m ρ c main_v0 (by decide)).trans <|
   (W9_keep m ρ c main_v0 (by decide)).trans <|
   (W8_keep m ρ c main_v0 (by decide)).trans <|
   (W7_keep m ρ c main_v0 (by decide)).trans <|
   (W6_keep m ρ c main_v0 (by decide)).trans <|
   (W5_keep m ρ c main_v0 (by decide)).trans <|
   (W4_keep m ρ c main_v0 (by decide)).trans <|
   (W3_keep m ρ c main_v0 (by decide))).symm
theorem stab_2_arg6 : W2 m ρ c main_arg6 = W19 m ρ c main_arg6 :=
  ((W19_keep m ρ c main_arg6 (by decide)).trans <|
   (W18_keep m ρ c main_arg6 (by decide)).trans <|
   (W17_keep m ρ c main_arg6 (by decide)).trans <|
   (W16_keep m ρ c main_arg6 (by decide)).trans <|
   (W15_keep m ρ c main_arg6 (by decide)).trans <|
   (W14_keep m ρ c main_arg6 (by decide)).trans <|
   (W13_keep m ρ c main_arg6 (by decide)).trans <|
   (W12_keep m ρ c main_arg6 (by decide)).trans <|
   (W11_keep m ρ c main_arg6 (by decide)).trans <|
   (W10_keep m ρ c main_arg6 (by decide)).trans <|
   (W9_keep m ρ c main_arg6 (by decide)).trans <|
   (W8_keep m ρ c main_arg6 (by decide)).trans <|
   (W7_keep m ρ c main_arg6 (by decide)).trans <|
   (W6_keep m ρ c main_arg6 (by decide)).trans <|
   (W5_keep m ρ c main_arg6 (by decide)).trans <|
   (W4_keep m ρ c main_arg6 (by decide)).trans <|
   (W3_keep m ρ c main_arg6 (by decide))).symm
theorem stab_4_arg6 : W4 m ρ c main_arg6 = W19 m ρ c main_arg6 :=
  ((W19_keep m ρ c main_arg6 (by decide)).trans <|
   (W18_keep m ρ c main_arg6 (by decide)).trans <|
   (W17_keep m ρ c main_arg6 (by decide)).trans <|
   (W16_keep m ρ c main_arg6 (by decide)).trans <|
   (W15_keep m ρ c main_arg6 (by decide)).trans <|
   (W14_keep m ρ c main_arg6 (by decide)).trans <|
   (W13_keep m ρ c main_arg6 (by decide)).trans <|
   (W12_keep m ρ c main_arg6 (by decide)).trans <|
   (W11_keep m ρ c main_arg6 (by decide)).trans <|
   (W10_keep m ρ c main_arg6 (by decide)).trans <|
   (W9_keep m ρ c main_arg6 (by decide)).trans <|
   (W8_keep m ρ c main_arg6 (by decide)).trans <|
   (W7_keep m ρ c main_arg6 (by decide)).trans <|
   (W6_keep m ρ c main_arg6 (by decide)).trans <|
   (W5_keep m ρ c main_arg6 (by decide))).symm
theorem stab_6_arg6 : W6 m ρ c main_arg6 = W19 m ρ c main_arg6 :=
  ((W19_keep m ρ c main_arg6 (by decide)).trans <|
   (W18_keep m ρ c main_arg6 (by decide)).trans <|
   (W17_keep m ρ c main_arg6 (by decide)).trans <|
   (W16_keep m ρ c main_arg6 (by decide)).trans <|
   (W15_keep m ρ c main_arg6 (by decide)).trans <|
   (W14_keep m ρ c main_arg6 (by decide)).trans <|
   (W13_keep m ρ c main_arg6 (by decide)).trans <|
   (W12_keep m ρ c main_arg6 (by decide)).trans <|
   (W11_keep m ρ c main_arg6 (by decide)).trans <|
   (W10_keep m ρ c main_arg6 (by decide)).trans <|
   (W9_keep m ρ c main_arg6 (by decide)).trans <|
   (W8_keep m ρ c main_arg6 (by decide)).trans <|
   (W7_keep m ρ c main_arg6 (by decide))).symm
theorem stab_10_v12 : W10 m ρ c main_v12 = W19 m ρ c main_v12 :=
  ((W19_keep m ρ c main_v12 (by decide)).trans <|
   (W18_keep m ρ c main_v12 (by decide)).trans <|
   (W17_keep m ρ c main_v12 (by decide)).trans <|
   (W16_keep m ρ c main_v12 (by decide)).trans <|
   (W15_keep m ρ c main_v12 (by decide)).trans <|
   (W14_keep m ρ c main_v12 (by decide)).trans <|
   (W13_keep m ρ c main_v12 (by decide)).trans <|
   (W12_keep m ρ c main_v12 (by decide)).trans <|
   (W11_keep m ρ c main_v12 (by decide))).symm
theorem stab_10_arg8 : W10 m ρ c main_arg8 = W19 m ρ c main_arg8 :=
  ((W19_keep m ρ c main_arg8 (by decide)).trans <|
   (W18_keep m ρ c main_arg8 (by decide)).trans <|
   (W17_keep m ρ c main_arg8 (by decide)).trans <|
   (W16_keep m ρ c main_arg8 (by decide)).trans <|
   (W15_keep m ρ c main_arg8 (by decide)).trans <|
   (W14_keep m ρ c main_arg8 (by decide)).trans <|
   (W13_keep m ρ c main_arg8 (by decide)).trans <|
   (W12_keep m ρ c main_arg8 (by decide)).trans <|
   (W11_keep m ρ c main_arg8 (by decide))).symm
theorem stab_14_arg8 : W14 m ρ c main_arg8 = W19 m ρ c main_arg8 :=
  ((W19_keep m ρ c main_arg8 (by decide)).trans <|
   (W18_keep m ρ c main_arg8 (by decide)).trans <|
   (W17_keep m ρ c main_arg8 (by decide)).trans <|
   (W16_keep m ρ c main_arg8 (by decide)).trans <|
   (W15_keep m ρ c main_arg8 (by decide))).symm
theorem stab_17_arg8 : W17 m ρ c main_arg8 = W19 m ρ c main_arg8 :=
  ((W19_keep m ρ c main_arg8 (by decide)).trans <|
   (W18_keep m ρ c main_arg8 (by decide))).symm
theorem stab_5_v6 : W5 m ρ c main_v6 = W19 m ρ c main_v6 :=
  ((W19_keep m ρ c main_v6 (by decide)).trans <|
   (W18_keep m ρ c main_v6 (by decide)).trans <|
   (W17_keep m ρ c main_v6 (by decide)).trans <|
   (W16_keep m ρ c main_v6 (by decide)).trans <|
   (W15_keep m ρ c main_v6 (by decide)).trans <|
   (W14_keep m ρ c main_v6 (by decide)).trans <|
   (W13_keep m ρ c main_v6 (by decide)).trans <|
   (W12_keep m ρ c main_v6 (by decide)).trans <|
   (W11_keep m ρ c main_v6 (by decide)).trans <|
   (W10_keep m ρ c main_v6 (by decide)).trans <|
   (W9_keep m ρ c main_v6 (by decide)).trans <|
   (W8_keep m ρ c main_v6 (by decide)).trans <|
   (W7_keep m ρ c main_v6 (by decide)).trans <|
   (W6_keep m ρ c main_v6 (by decide))).symm
theorem stab_5_v7 : W5 m ρ c main_v7 = W19 m ρ c main_v7 :=
  ((W19_keep m ρ c main_v7 (by decide)).trans <|
   (W18_keep m ρ c main_v7 (by decide)).trans <|
   (W17_keep m ρ c main_v7 (by decide)).trans <|
   (W16_keep m ρ c main_v7 (by decide)).trans <|
   (W15_keep m ρ c main_v7 (by decide)).trans <|
   (W14_keep m ρ c main_v7 (by decide)).trans <|
   (W13_keep m ρ c main_v7 (by decide)).trans <|
   (W12_keep m ρ c main_v7 (by decide)).trans <|
   (W11_keep m ρ c main_v7 (by decide)).trans <|
   (W10_keep m ρ c main_v7 (by decide)).trans <|
   (W9_keep m ρ c main_v7 (by decide)).trans <|
   (W8_keep m ρ c main_v7 (by decide)).trans <|
   (W7_keep m ρ c main_v7 (by decide)).trans <|
   (W6_keep m ρ c main_v7 (by decide))).symm
theorem stab_13_v18 : W13 m ρ c main_v18 = W19 m ρ c main_v18 :=
  ((W19_keep m ρ c main_v18 (by decide)).trans <|
   (W18_keep m ρ c main_v18 (by decide)).trans <|
   (W17_keep m ρ c main_v18 (by decide)).trans <|
   (W16_keep m ρ c main_v18 (by decide)).trans <|
   (W15_keep m ρ c main_v18 (by decide)).trans <|
   (W14_keep m ρ c main_v18 (by decide))).symm
theorem stab_13_v19 : W13 m ρ c main_v19 = W19 m ρ c main_v19 :=
  ((W19_keep m ρ c main_v19 (by decide)).trans <|
   (W18_keep m ρ c main_v19 (by decide)).trans <|
   (W17_keep m ρ c main_v19 (by decide)).trans <|
   (W16_keep m ρ c main_v19 (by decide)).trans <|
   (W15_keep m ρ c main_v19 (by decide)).trans <|
   (W14_keep m ρ c main_v19 (by decide))).symm

/-! ## What the host stretches write -/

theorem W3_v2 : W3 m ρ c main_v2 = concatenate S8192x1024 1 [⟨S8192x512, W2 m ρ c main_v0⟩, ⟨S8192x512, W2 m ρ c main_v1⟩] concatenates_S8192x512_S8192x512_S8192x1024_d1 := by
  show StableHlo.after hostOps2 (W2 m ρ c) (Proc.devRef .tc main_v2) = _
  after_results <;> rfl
theorem W3_v4 : W3 m ρ c main_v4 = shapeCast S1x1024 (concatenate S1024 0 [⟨S512, W2 m ρ c main_arg6⟩, ⟨S512, W2 m ρ c main_arg6⟩] concatenates_S512_S512_S1024_d0) shapeCasts_S1024_S1x1024 := by
  show StableHlo.after hostOps2 (W2 m ρ c) (Proc.devRef .tc main_v4) = _
  after_results <;> rfl
theorem W5_v6 : W5 m ρ c main_v6 = extractStridedSlice S8192x512 ![0, 0] (W4 m ρ c main_v5) slices_S8192x1024_S8192x512_0_0 := by
  show StableHlo.after hostOps3 (W4 m ρ c) (Proc.devRef .tc main_v6) = _
  after_results <;> rfl
theorem W5_v7 : W5 m ρ c main_v7 = extractStridedSlice S8192x512 ![0, 512] (W4 m ρ c main_v5) slices_S8192x1024_S8192x512_0_512 := by
  show StableHlo.after hostOps3 (W4 m ρ c) (Proc.devRef .tc main_v7) = _
  after_results <;> rfl
theorem W5_v8 : W5 m ρ c main_v8 = shapeCast S1x512 (W4 m ρ c main_arg6) shapeCasts_S512_S1x512 := by
  show StableHlo.after hostOps3 (W4 m ρ c) (Proc.devRef .tc main_v8) = _
  after_results <;> rfl
theorem W7_v10 : W7 m ρ c main_v10 = shapeCast S1x512 (W6 m ρ c main_arg6) shapeCasts_S512_S1x512 := by
  show StableHlo.after hostOps4 (W6 m ρ c) (Proc.devRef .tc main_v10) = _
  after_results <;> rfl
theorem W11_v14 : W11 m ρ c main_v14 = concatenate S8192x512 1 [⟨S8192x256, W10 m ρ c main_v12⟩, ⟨S8192x256, W10 m ρ c main_v13⟩] concatenates_S8192x256_S8192x256_S8192x512_d1 := by
  show StableHlo.after hostOps7 (W10 m ρ c) (Proc.devRef .tc main_v14) = _
  after_results <;> rfl
theorem W11_v16 : W11 m ρ c main_v16 = shapeCast S1x512 (concatenate S512 0 [⟨S256, W10 m ρ c main_arg8⟩, ⟨S256, W10 m ρ c main_arg8⟩] concatenates_S256_S256_S512_d0) shapeCasts_S512_S1x512 := by
  show StableHlo.after hostOps7 (W10 m ρ c) (Proc.devRef .tc main_v16) = _
  after_results <;> rfl
theorem W13_v18 : W13 m ρ c main_v18 = extractStridedSlice S8192x256 ![0, 0] (W12 m ρ c main_v17) slices_S8192x512_S8192x256_0_0 := by
  show StableHlo.after hostOps8 (W12 m ρ c) (Proc.devRef .tc main_v18) = _
  after_results <;> rfl
theorem W13_v19 : W13 m ρ c main_v19 = extractStridedSlice S8192x256 ![0, 256] (W12 m ρ c main_v17) slices_S8192x512_S8192x256_0_256 := by
  show StableHlo.after hostOps8 (W12 m ρ c) (Proc.devRef .tc main_v19) = _
  after_results <;> rfl
theorem W15_v21 : W15 m ρ c main_v21 = shapeCast S1x256 (W14 m ρ c main_arg8) shapeCasts_S256_S1x256 := by
  show StableHlo.after hostOps9 (W14 m ρ c) (Proc.devRef .tc main_v21) = _
  after_results <;> rfl
theorem W18_v24 : W18 m ρ c main_v24 = shapeCast S1x256 (W17 m ρ c main_arg8) shapeCasts_S256_S1x256 := by
  show StableHlo.after hostOps11 (W17 m ρ c) (Proc.devRef .tc main_v24) = _
  after_results <;> rfl

end Cert.KernelIdeal.Gen

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.Spec.lean ====
/-
  Two graph-convolution layers on the extended reals, as one function of the argument arrays.

  A layer is  adj · (x · W) + b : the features times the weights (the "support"), the adjacency matrix times the
  support, and the bias row added to every row.  The first layer is followed by the rectifier  y ↦ max y 0 ; the
  second is not.  One branch of the network is the second layer applied to the rectified first layer.  All sums are
  finite sums of products on the extended reals; only commutativity and associativity of the sum are ever used, so
  nothing here needs the entries to be finite.

  A sum over 8192 columns taken in consecutive blocks (16 blocks of 512, or 8 blocks of 1024), accumulated from zero
  block after block, is the whole sum: `acc_all`.
-/
import Idealize.ShloMosaic.Lib.ValueIdx
import Idealize.ShloMosaic.PureOps.Ideal.Laws
import proofs.«166906_j60567628808244_2_alg».proof.Proof.LibSumRegroup

noncomputable section

namespace Cert.Spec

open Idealize.ShloMosaic Idealize.ShloMosaic.ValueIdx

/-- An m × n matrix of extended reals, indexed as the programs index a rank-2 array. -/
abbrev Mat (m n : Nat) : Type := (⟨2, ![m, n]⟩ : Shape).Idx → EReal
/-- A vector of n extended reals, indexed as the programs index a rank-1 array. -/
abbrev Vc (n : Nat) : Type := (⟨1, ![n]⟩ : Shape).Idx → EReal

/-- Entry (r, j) of the product A · B: the sum over the shared coordinate. -/
def mm {m k n : Nat} (A : Mat m k) (B : Mat k n) (r : Fin m) (j : Fin n) : EReal :=
  ∑ c : Fin k, A (ix2 r c) * B (ix2 c j)

/-- The product A · B as a matrix. -/
def mmM {m k n : Nat} (A : Mat m k) (B : Mat k n) : Mat m n := fun i => mm A B (i 0) (i 1)

theorem mmM_apply {m k n : Nat} (A : Mat m k) (B : Mat k n) (r : Fin m) (j : Fin n) :
    mmM A B (ix2 r j) = mm A B r j := rfl

/-- The rectifier. -/
def relu0 (y : EReal) : EReal := max y 0

/-- The rectified first layer, as a matrix: max (Σ_k adj(r,k) · (x·W0)(k,j) + b0(j)) 0. -/
def hidden (x : Mat 8192 512) (adj : Mat 8192 8192) (W0 : Mat 512 512) (b0 : Vc 512) : Mat 8192 512 :=
  fun i => relu0 (mm adj (mmM x W0) (i 0) (i 1) + b0 (ix1 (i 1)))

theorem hidden_apply (x : Mat 8192 512) (adj : Mat 8192 8192) (W0 : Mat 512 512) (b0 : Vc 512) (r : Fin 8192) (j : Fin 512) :
    hidden x adj W0 b0 (ix2 r j) = relu0 (mm adj (mmM x W0) r j + b0 (ix1 j)) := rfl

/-- One branch of the network at entry (r, j): the second layer of the rectified first layer. -/
def branch (x : Mat 8192 512) (adj : Mat 8192 8192) (W0 : Mat 512 512) (b0 : Vc 512) (W1 : Mat 512 256) (b1 : Vc 256)
    (r : Fin 8192) (j : Fin 256) : EReal :=
  mm adj (mmM (hidden x adj W0 b0) W1) r j + b1 (ix1 j)

/-- One branch as a matrix. -/
def branchM (x : Mat 8192 512) (adj : Mat 8192 8192) (W0 : Mat 512 512) (b0 : Vc 512) (W1 : Mat 512 256) (b1 : Vc 256) :
    Mat 8192 256 := fun i => branch x adj W0 b0 W1 b1 (i 0) (i 1)

theorem branchM_apply (x : Mat 8192 512) (adj : Mat 8192 8192) (W0 : Mat 512 512) (b0 : Vc 512) (W1 : Mat 512 256) (b1 : Vc 256)
    (r : Fin 8192) (j : Fin 256) : branchM x adj W0 b0 W1 b1 (ix2 r j) = branch x adj W0 b0 W1 b1 r j := rfl

/-! ## A sum taken block after block from zero -/

/-- The running total after blocks 0 … b of a sum taken in blocks of `tk` consecutive terms: zero plus block 0, then
    each later block added to the total before it. -/
def acc (tk : ℕ) (f : ℕ → EReal) : ℕ → EReal
  | 0 => 0 + ∑ q : Fin tk, f q.val
  | b + 1 => acc tk f b + ∑ q : Fin tk, f ((b + 1) * tk + q.val)

/-- The running total after blocks 0 … b is the sum of those blocks. -/
theorem acc_eq (tk : ℕ) (f : ℕ → EReal) (b : ℕ) :
    acc tk f b = ∑ p ∈ Finset.range (b + 1), ∑ q : Fin tk, f (p * tk + q.val) := by
  induction b with
  | zero => simp [acc]
  | succ b ih => rw [acc, ih, Finset.sum_range_succ _ (b + 1)]

/-- After the last of `nk` blocks the running total is the whole sum over `nk * tk` terms. -/
theorem acc_all (nk tk : ℕ) (f : ℕ → EReal) :
    acc tk f nk = ∑ k : Fin ((nk + 1) * tk), f k.val := by
  rw [acc_eq, Cert.SumRegroup.sum_fin_mul (nk + 1) tk fun k => f k.val, Finset.sum_range]

end Cert.Spec

end
-- ==== Proof.Assemble.lean ====
/-
  The network's four results from the buffers the program fills one after the other.

  Every buffer of the program is written once: a support (features times weights), a pair of supports laid side by
  side, a bias row laid twice side by side, a layer (adjacency times support plus bias, rectified in the first layer),
  a half of a layer's columns.  Given each buffer's entries in terms of the buffers it is computed from, the four
  results are the four branches of the specification.  A product against two supports side by side is, column by
  column, the product against the one the column lies in; a layer over the pair, restricted to one half of the
  columns, is therefore the layer over that half's support with that half's bias.
-/
import proofs.«166906_j60567628808244_2_alg».proof.Proof.Spec

noncomputable section

namespace Cert.Spec

open Idealize.ShloMosaic Idealize.ShloMosaic.ValueIdx

/-- A product depends on its right factor only through the column read. -/
theorem mm_congr_col {m k n n' : Nat} (A : Mat m k) (B : Mat k n) (B' : Mat k n') (r : Fin m) (j : Fin n) (j' : Fin n')
    (h : ∀ c : Fin k, B (ix2 c j) = B' (ix2 c j')) : mm A B r j = mm A B' r j' :=
  Finset.sum_congr rfl fun c _ => by rw [h c]

/-- A product depends on its factors only through their entries. -/
theorem mm_congr {m k n : Nat} (A A' : Mat m k) (B B' : Mat k n) (r : Fin m) (j : Fin n)
    (hA : ∀ c : Fin k, A (ix2 r c) = A' (ix2 r c)) (hB : ∀ c : Fin k, B (ix2 c j) = B' (ix2 c j)) : mm A B r j = mm A' B' r j :=
  Finset.sum_congr rfl fun c _ => by rw [hA c, hB c]

/-- One branch from its buffers: the support `s0`, the rectified first layer `h`, the second support `s1`, the result `o`. -/
theorem branch_of (x : Mat 8192 512) (adj : Mat 8192 8192) (W0 : Mat 512 512) (b0 : Vc 512) (W1 : Mat 512 256) (b1 : Vc 256)
    (s0 h : Mat 8192 512) (s1 : Mat 8192 256)
    (hs0 : ∀ r j, s0 (ix2 r j) = mm x W0 r j)
    (hh : ∀ r j, h (ix2 r j) = relu0 (mm adj s0 r j + b0 (ix1 j)))
    (hs1 : ∀ r j, s1 (ix2 r j) = mm h W1 r j)
    (r : Fin 8192) (j : Fin 256) :
    mm adj s1 r j + b1 (ix1 j) = branch x adj W0 b0 W1 b1 r j := by
  unfold branch
  refine congrArg (· + b1 (ix1 j)) (mm_congr _ _ _ _ r j (fun _ => rfl) fun c => ?_)
  rw [hs1 c j, mmM_apply]
  refine mm_congr _ _ _ _ c j (fun d => ?_) fun _ => rfl
  rw [hh c d, hidden_apply]
  refine congrArg (fun y => relu0 (y + b0 (ix1 d))) (mm_congr _ _ _ _ c d (fun _ => rfl) fun e => ?_)
  rw [hs0 e d, mmM_apply]

/-- One branch computed on its own: the layers read their bias from a one-row copy of it. -/
theorem branch_of_rows (x : Mat 8192 512) (adj : Mat 8192 8192) (W0 : Mat 512 512) (b0 : Vc 512) (W1 : Mat 512 256) (b1 : Vc 256)
    (s0 h : Mat 8192 512) (br0 : Mat 1 512) (s1 o : Mat 8192 256) (br1 : Mat 1 256)
    (hs0 : ∀ r j, s0 (ix2 r j) = mm x W0 r j)
    (hbr0 : ∀ j, br0 (ix2 (0 : Fin 1) j) = b0 (ix1 j))
    (hh : ∀ r j, h (ix2 r j) = relu0 (mm adj s0 r j + br0 (ix2 (0 : Fin 1) j)))
    (hs1 : ∀ r j, s1 (ix2 r j) = mm h W1 r j)
    (hbr1 : ∀ j, br1 (ix2 (0 : Fin 1) j) = b1 (ix1 j))
    (ho : ∀ r j, o (ix2 r j) = mm adj s1 r j + br1 (ix2 (0 : Fin 1) j))
    (r : Fin 8192) (j : Fin 256) : o (ix2 r j) = branch x adj W0 b0 W1 b1 r j := by
  rw [ho r j, hbr1 j]
  exact branch_of x adj W0 b0 W1 b1 s0 h s1 hs0 (fun r j => by rw [hh r j, hbr0 j]) hs1 r j

/-- One branch computed side by side with another: its supports are half of the columns (the columns `e0 j`, `e1 j`) of a
    pair of supports, its bias rows half of a bias row laid twice, its layers the same half of the layers over the pair. -/
theorem branch_of_halves (x : Mat 8192 512) (adj : Mat 8192 8192) (W0 : Mat 512 512) (b0 : Vc 512) (W1 : Mat 512 256) (b1 : Vc 256)
    (e0 : Fin 512 → Fin 1024) (e1 : Fin 256 → Fin 512)
    (s0 : Mat 8192 512) (cat0 : Mat 8192 1024) (bc0 : Mat 1 1024) (hc : Mat 8192 1024) (h : Mat 8192 512)
    (s1 : Mat 8192 256) (cat1 : Mat 8192 512) (bc1 : Mat 1 512) (oc : Mat 8192 512) (o : Mat 8192 256)
    (hs0 : ∀ r j, s0 (ix2 r j) = mm x W0 r j)
    (hcat0 : ∀ r j, cat0 (ix2 r (e0 j)) = s0 (ix2 r j))
    (hbc0 : ∀ j, bc0 (ix2 (0 : Fin 1) (e0 j)) = b0 (ix1 j))
    (hhc : ∀ r j', hc (ix2 r j') = relu0 (mm adj cat0 r j' + bc0 (ix2 (0 : Fin 1) j')))
    (hh : ∀ r j, h (ix2 r j) = hc (ix2 r (e0 j)))
    (hs1 : ∀ r j, s1 (ix2 r j) = mm h W1 r j)
    (hcat1 : ∀ r j, cat1 (ix2 r (e1 j)) = s1 (ix2 r j))
    (hbc1 : ∀ j, bc1 (ix2 (0 : Fin 1) (e1 j)) = b1 (ix1 j))
    (hoc : ∀ r j', oc (ix2 r j') = mm adj cat1 r j' + bc1 (ix2 (0 : Fin 1) j'))
    (ho : ∀ r j, o (ix2 r j) = oc (ix2 r (e1 j)))
    (r : Fin 8192) (j : Fin 256) : o (ix2 r j) = branch x adj W0 b0 W1 b1 r j := by
  rw [ho r j, hoc r (e1 j), hbc1 j, mm_congr_col adj cat1 s1 r (e1 j) j fun c => hcat1 c j]
  refine branch_of x adj W0 b0 W1 b1 s0 h s1 hs0 (fun r j => ?_) hs1 r j
  rw [hh r j, hhc r (e0 j), hbc0 j, mm_congr_col adj cat0 s0 r (e0 j) j fun c => hcat0 c j]

end Cert.Spec

end
-- ==== Proof.HostGlue.lean ====
/-
  The layout steps between the kernel program's regions, read at an index.

  Two supports side by side (a concatenation along the columns) read, at column j' of the wide array, the first piece
  at column j' when j' is below the first piece's width and the second piece at column j' less that width otherwise;
  a column slice of the wide result reads the wide array at the column shifted by the slice's offset; a bias vector
  reshaped to one row reads the vector at the column; and the bias vector written twice end to end and reshaped to
  one row reads the vector at the column taken modulo its length.  From these, the product of the adjacency matrix
  with two supports side by side is, in each half of the columns, the product with that half's support.
-/
import proofs.«166906_j60567628808244_2_alg».proof.KernelIdeal
import proofs.«166906_j60567628808244_2_alg».proof.Proof.Spec
import Idealize.ShloMosaic.Lib.Pipeline.Value
import Idealize.ShloMosaic.Lib.ValueIdx

noncomputable section

namespace Cert.KernelIdeal.Glue

open Cert.KernelIdeal Idealize.ShloMosaic Idealize.ShloMosaic.ValueIdx

variable {α : Type}

/-! ## Width 512 pieces in a width 1024 array -/

/-- Two arrays side by side, at a column of the left half: the left array there. -/
theorem concat_cols_lo (a b : S8192x512.Idx → α) (h : Shape.Concatenates [S8192x512, S8192x512] S8192x1024 1)
    (r : Fin 8192) (j : Fin 512) (j' : Fin 1024) (hj : j'.val = j.val) :
    concatenate S8192x1024 1 [⟨S8192x512, a⟩, ⟨S8192x512, b⟩] h (ix2 r j') = a (ix2 r j) :=
  concatenate_pair_apply_left 1 a b h (ix2 r j') rfl (ix2 r j) (fun x => match x with
    | ⟨0, _⟩ => rfl
    | ⟨1, _⟩ => hj.symm)

/-- Two arrays side by side, at a column of the right half: the right array at the column less 512. -/
theorem concat_cols_hi (a b : S8192x512.Idx → α) (h : Shape.Concatenates [S8192x512, S8192x512] S8192x1024 1)
    (r : Fin 8192) (j : Fin 512) (j' : Fin 1024) (hj : j'.val = 512 + j.val) :
    concatenate S8192x1024 1 [⟨S8192x512, a⟩, ⟨S8192x512, b⟩] h (ix2 r j') = b (ix2 r j) :=
  concatenate_pair_apply_right 1 a b h (ix2 r j') rfl rfl (ix2 r j) (fun x hx => match x, hx with
    | ⟨0, _⟩, _ => rfl
    | ⟨1, _⟩, hx => absurd rfl hx) (by show j.val + 512 = j'.val; omega)

/-- The left column slice of a wide array. -/
theorem slice_lo (v : S8192x1024.Idx → α) (h : S8192x1024.Slices ![0, 0] S8192x512)
    (r : Fin 8192) (j : Fin 512) (j' : Fin 1024) (hj : j'.val = j.val) :
    extractStridedSlice S8192x512 ![0, 0] v h (ix2 r j) = v (ix2 r j') :=
  extractStridedSlice_apply ![0, 0] v h (ix2 r j) (ix2 r j') (fun a => match a with
    | ⟨0, _⟩ => by show r.val = 0 + r.val; omega
    | ⟨1, _⟩ => by show j'.val = 0 + j.val; omega)

/-- The right column slice of a wide array. -/
theorem slice_hi (v : S8192x1024.Idx → α) (h : S8192x1024.Slices ![0, 512] S8192x512)
    (r : Fin 8192) (j : Fin 512) (j' : Fin 1024) (hj : j'.val = 512 + j.val) :
    extractStridedSlice S8192x512 ![0, 512] v h (ix2 r j) = v (ix2 r j') :=
  extractStridedSlice_apply ![0, 512] v h (ix2 r j) (ix2 r j') (fun a => match a with
    | ⟨0, _⟩ => by show r.val = 0 + r.val; omega
    | ⟨1, _⟩ => by show j'.val = 512 + j.val; omega)

/-- A vector of 512 entries as one row. -/
theorem bias_row (b : S512.Idx → α) (h : S512.ShapeCasts S1x512) (j : Fin 512) :
    shapeCast S1x512 b h (ix2 (0 : Fin 1) j) = b (ix1 j) :=
  shapeCast_apply b h (ix2 (0 : Fin 1) j) (ix1 j) (by
    rw [Shape.rowMajor_val_one, Shape.rowMajor_val_two]
    show j.val = 0 * 512 + j.val
    omega)

/-- A vector of 512 entries written twice end to end, at a position in the first copy. -/
theorem concat_vec_lo (a b : S512.Idx → α) (h : Shape.Concatenates [S512, S512] S1024 0)
    (j : Fin 512) (j' : Fin 1024) (hj : j'.val = j.val) :
    concatenate S1024 0 [⟨S512, a⟩, ⟨S512, b⟩] h (ix1 j') = a (ix1 j) :=
  concatenate_pair_apply_left 0 a b h (ix1 j') rfl (ix1 j) (fun x => match x with
    | ⟨0, _⟩ => hj.symm)

/-- A vector of 512 entries written twice end to end, at a position in the second copy. -/
theorem concat_vec_hi (a b : S512.Idx → α) (h : Shape.Concatenates [S512, S512] S1024 0)
    (j : Fin 512) (j' : Fin 1024) (hj : j'.val = 512 + j.val) :
    concatenate S1024 0 [⟨S512, a⟩, ⟨S512, b⟩] h (ix1 j') = b (ix1 j) :=
  concatenate_pair_apply_right 0 a b h (ix1 j') rfl rfl (ix1 j) (fun x hx => match x, hx with
    | ⟨0, _⟩, hx => absurd rfl hx) (by show j.val + 512 = j'.val; omega)

/-- The bias written twice end to end, as one row: the bias at the column modulo 512. -/
theorem bias_cat_row (b : S512.Idx → α) (h' : Shape.Concatenates [S512, S512] S1024 0) (h : S1024.ShapeCasts S1x1024)
    (j : Fin 512) (j' : Fin 1024) (hj : j'.val = j.val ∨ j'.val = 512 + j.val) :
    shapeCast S1x1024 (concatenate S1024 0 [⟨S512, b⟩, ⟨S512, b⟩] h') h (ix2 (0 : Fin 1) j') = b (ix1 j) := by
  refine (shapeCast_apply _ h (ix2 (0 : Fin 1) j') (ix1 j') (by
    rw [Shape.rowMajor_val_one, Shape.rowMajor_val_two]
    show j'.val = 0 * 1024 + j'.val
    omega)).trans ?_
  rcases hj with hj | hj
  · exact concat_vec_lo b b h' j j' hj
  · exact concat_vec_hi b b h' j j' hj

/-! ## Width 256 pieces in a width 512 array -/

/-- Two arrays side by side, at a column of the left half: the left array there. -/
theorem concat_cols_lo256 (a b : S8192x256.Idx → α) (h : Shape.Concatenates [S8192x256, S8192x256] S8192x512 1)
    (r : Fin 8192) (j : Fin 256) (j' : Fin 512) (hj : j'.val = j.val) :
    concatenate S8192x512 1 [⟨S8192x256, a⟩, ⟨S8192x256, b⟩] h (ix2 r j') = a (ix2 r j) :=
  concatenate_pair_apply_left 1 a b h (ix2 r j') rfl (ix2 r j) (fun x => match x with
    | ⟨0, _⟩ => rfl
    | ⟨1, _⟩ => hj.symm)

/-- Two arrays side by side, at a column of the right half: the right array at the column less 256. -/
theorem concat_cols_hi256 (a b : S8192x256.Idx → α) (h : Shape.Concatenates [S8192x256, S8192x256] S8192x512 1)
    (r : Fin 8192) (j : Fin 256) (j' : Fin 512) (hj : j'.val = 256 + j.val) :
    concatenate S8192x512 1 [⟨S8192x256, a⟩, ⟨S8192x256, b⟩] h (ix2 r j') = b (ix2 r j) :=
  concatenate_pair_apply_right 1 a b h (ix2 r j') rfl rfl (ix2 r j) (fun x hx => match x, hx with
    | ⟨0, _⟩, _ => rfl
    | ⟨1, _⟩, hx => absurd rfl hx) (by show j.val + 256 = j'.val; omega)

/-- The left column slice of a wide array. -/
theorem slice_lo256 (v : S8192x512.Idx → α) (h : S8192x512.Slices ![0, 0] S8192x256)
    (r : Fin 8192) (j : Fin 256) (j' : Fin 512) (hj : j'.val = j.val) :
    extractStridedSlice S8192x256 ![0, 0] v h (ix2 r j) = v (ix2 r j') :=
  extractStridedSlice_apply ![0, 0] v h (ix2 r j) (ix2 r j') (fun a => match a with
    | ⟨0, _⟩ => by show r.val = 0 + r.val; omega
    | ⟨1, _⟩ => by show j'.val = 0 + j.val; omega)

/-- The right column slice of a wide array. -/
theorem slice_hi256 (v : S8192x512.Idx → α) (h : S8192x512.Slices ![0, 256] S8192x256)
    (r : Fin 8192) (j : Fin 256) (j' : Fin 512) (hj : j'.val = 256 + j.val) :
    extractStridedSlice S8192x256 ![0, 256] v h (ix2 r j) = v (ix2 r j') :=
  extractStridedSlice_apply ![0, 256] v h (ix2 r j) (ix2 r j') (fun a => match a with
    | ⟨0, _⟩ => by show r.val = 0 + r.val; omega
    | ⟨1, _⟩ => by show j'.val = 256 + j.val; omega)

/-- A vector of 256 entries as one row. -/
theorem bias_row256 (b : S256.Idx → α) (h : S256.ShapeCasts S1x256) (j : Fin 256) :
    shapeCast S1x256 b h (ix2 (0 : Fin 1) j) = b (ix1 j) :=
  shapeCast_apply b h (ix2 (0 : Fin 1) j) (ix1 j) (by
    rw [Shape.rowMajor_val_one, Shape.rowMajor_val_two]
    show j.val = 0 * 256 + j.val
    omega)

/-- A vector of 256 entries written twice end to end, at a position in the first copy. -/
theorem concat_vec_lo256 (a b : S256.Idx → α) (h : Shape.Concatenates [S256, S256] S512 0)
    (j : Fin 256) (j' : Fin 512) (hj : j'.val = j.val) :
    concatenate S512 0 [⟨S256, a⟩, ⟨S256, b⟩] h (ix1 j') = a (ix1 j) :=
  concatenate_pair_apply_left 0 a b h (ix1 j') rfl (ix1 j) (fun x => match x with
    | ⟨0, _⟩ => hj.symm)

/-- A vector of 256 entries written twice end to end, at a position in the second copy. -/
theorem concat_vec_hi256 (a b : S256.Idx → α) (h : Shape.Concatenates [S256, S256] S512 0)
    (j : Fin 256) (j' : Fin 512) (hj : j'.val = 256 + j.val) :
    concatenate S512 0 [⟨S256, a⟩, ⟨S256, b⟩] h (ix1 j') = b (ix1 j) :=
  concatenate_pair_apply_right 0 a b h (ix1 j') rfl rfl (ix1 j) (fun x hx => match x, hx with
    | ⟨0, _⟩, hx => absurd rfl hx) (by show j.val + 256 = j'.val; omega)

/-- The bias written twice end to end, as one row: the bias at the column modulo 256. -/
theorem bias_cat_row256 (b : S256.Idx → α) (h' : Shape.Concatenates [S256, S256] S512 0) (h : S512.ShapeCasts S1x512)
    (j : Fin 256) (j' : Fin 512) (hj : j'.val = j.val ∨ j'.val = 256 + j.val) :
    shapeCast S1x512 (concatenate S512 0 [⟨S256, b⟩, ⟨S256, b⟩] h') h (ix2 (0 : Fin 1) j') = b (ix1 j) := by
  refine (shapeCast_apply _ h (ix2 (0 : Fin 1) j') (ix1 j') (by
    rw [Shape.rowMajor_val_one, Shape.rowMajor_val_two]
    show j'.val = 0 * 512 + j'.val
    omega)).trans ?_
  rcases hj with hj | hj
  · exact concat_vec_lo256 b b h' j j' hj
  · exact concat_vec_hi256 b b h' j j' hj

/-! ## The adjacency matrix times two supports side by side -/

/-- In the left half of the columns, the product with two supports side by side is the product with the left one. -/
theorem mm_concat_lo (adj : Cert.Spec.Mat 8192 8192) (s1 s2 : Cert.Spec.Mat 8192 512)
    (h : Shape.Concatenates [S8192x512, S8192x512] S8192x1024 1) (r : Fin 8192) (j : Fin 512) (j' : Fin 1024)
    (hj : j'.val = j.val) :
    Cert.Spec.mm adj (concatenate S8192x1024 1 [⟨S8192x512, s1⟩, ⟨S8192x512, s2⟩] h) r j' = Cert.Spec.mm adj s1 r j := by
  unfold Cert.Spec.mm
  refine Finset.sum_congr rfl fun c _ => ?_
  rw [concat_cols_lo s1 s2 h c j j' hj]

/-- In the right half of the columns, the product with two supports side by side is the product with the right one. -/
theorem mm_concat_hi (adj : Cert.Spec.Mat 8192 8192) (s1 s2 : Cert.Spec.Mat 8192 512)
    (h : Shape.Concatenates [S8192x512, S8192x512] S8192x1024 1) (r : Fin 8192) (j : Fin 512) (j' : Fin 1024)
    (hj : j'.val = 512 + j.val) :
    Cert.Spec.mm adj (concatenate S8192x1024 1 [⟨S8192x512, s1⟩, ⟨S8192x512, s2⟩] h) r j' = Cert.Spec.mm adj s2 r j := by
  unfold Cert.Spec.mm
  refine Finset.sum_congr rfl fun c _ => ?_
  rw [concat_cols_hi s1 s2 h c j j' hj]

/-- The same at width 256, left half. -/
theorem mm_concat_lo256 (adj : Cert.Spec.Mat 8192 8192) (s1 s2 : Cert.Spec.Mat 8192 256)
    (h : Shape.Concatenates [S8192x256, S8192x256] S8192x512 1) (r : Fin 8192) (j : Fin 256) (j' : Fin 512)
    (hj : j'.val = j.val) :
    Cert.Spec.mm adj (concatenate S8192x512 1 [⟨S8192x256, s1⟩, ⟨S8192x256, s2⟩] h) r j' = Cert.Spec.mm adj s1 r j := by
  unfold Cert.Spec.mm
  refine Finset.sum_congr rfl fun c _ => ?_
  rw [concat_cols_lo256 s1 s2 h c j j' hj]

/-- The same at width 256, right half. -/
theorem mm_concat_hi256 (adj : Cert.Spec.Mat 8192 8192) (s1 s2 : Cert.Spec.Mat 8192 256)
    (h : Shape.Concatenates [S8192x256, S8192x256] S8192x512 1) (r : Fin 8192) (j : Fin 256) (j' : Fin 512)
    (hj : j'.val = 256 + j.val) :
    Cert.Spec.mm adj (concatenate S8192x512 1 [⟨S8192x256, s1⟩, ⟨S8192x256, s2⟩] h) r j' = Cert.Spec.mm adj s2 r j := by
  unfold Cert.Spec.mm
  refine Finset.sum_congr rfl fun c _ => ?_
  rw [concat_cols_hi256 s1 s2 h c j j' hj]

end Cert.KernelIdeal.Glue

end
-- ==== Proof.DenseVal0.lean ====
/-
  Region 0 of the main function at the extended reals: the array the region leaves is the product x · W.

  At the extended reals a change of format is the identity, and a product accumulated into zeros is the plain sum of
  products over the shared coordinate.  So the block the body stores at a point is the block of ONE function of the
  whole arrays — the product matrix — read through the output window's rectangle; the eight row blocks cover the
  array (row r lies in block r / 1024), and the array ends holding the product everywhere.
-/
import proofs.«166906_j60567628808244_2_alg».proof.Proof.Dense0
import proofs.«166906_j60567628808244_2_alg».proof.Proof.Spec
import Idealize.ShloMosaic.Lib.Pipeline.Value
import Idealize.ShloMosaic.Lib.KernelVsHost
import Idealize.ShloMosaic.Lib.StackMember
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

/-- The zero offsets of a whole-block access, however spelt. -/
theorem zero_off0 : (![0, 0] : Fin 2 → Nat) = fun _ => 0 := funext fun a => by fin_cases a <;> rfl

/-- The product's dimension numbers are those of a plain m×k by k×n product. -/
theorem dot_plain0 : dot_S1024x512_S512x512_S1024x512_1_0_0_1_n_n = DotDims.plain 1024 512 512 := rfl

/-- The stored payload at entry (p, q): the sum over the shared coordinate of the products of the entries. -/
theorem pay0_apply (x0 : Vec Ideal S1024x512 .f32) (x1 : Vec Ideal S512x512 .f32) (p : Fin 1024) (q : Fin 512) :
    k0_pay1 (F := Ideal) x0 x1 (ix2 p q) = ∑ c : Fin 512, x0 (ix2 p c) * x1 (ix2 c q) := by
  unfold k0_pay1
  refine (congrFun (matmul_zero_eq_dotGeneral dot_S1024x512_S512x512_S1024x512_1_0_0_1_n_n none
    (truncf .bf16 x0 bitsLt_bf16_f32) (truncf .bf16 x1 bitsLt_bf16_f32)) (ix2 p q)).trans ?_
  rw [dot_plain0]
  exact StackMember.dotGeneral_plain_apply none _ _ p q

section
variable (V : (c : Dev nD) → (b : Ref sig .tc) → Buf (Elt Ideal) ((c : Thread nD τ).loc b))

/-- The product matrix of the two input arrays as the region finds them. -/
abbrev prod0 (c : Dev nD) : Cert.Spec.Mat 8192 512 :=
  fun i => Cert.Spec.mm (V c main_arg0 : Cert.Spec.Mat 8192 512) (V c main_arg5 : Cert.Spec.Mat 512 512) (i 0) (i 1)

/-- The printed index maps over the grid: x and the output move together down the rows, block t at point t; W stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product matrix. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero zero_off0]
  simp only [View.ld_unit_zero (S := S1024x512) zero_off0, View.ld_unit_zero (S := S512x512) zero_off0]
  obtain ⟨e0, e1, e2, e3, e4, e5⟩ := idx_facts0 t
  funext j
  obtain ⟨p, q, rfl⟩ : ∃ (p : Fin 1024) (q : Fin 512), j = ix2 p q := ⟨j 0, j 1, eq_ix2 j⟩
  refine (pay0_apply (iblk0 (F := Ideal) V c 0 t) (iblk0 (F := Ideal) V c 1 t) p q).trans ?_
  show _ = Cert.Spec.mm (V c main_arg0 : Cert.Spec.Mat 8192 512) (V c main_arg5 : Cert.Spec.Mat 512 512)
    ((((cfg0.win 2).blk t).view.emb (ix2 p q)) 0) ((((cfg0.win 2).blk t).view.emb (ix2 p q)) 1)
  unfold Cert.Spec.mm
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 512 + 1 * q.val = win0_2.index t (1 : Fin 2) * 512 + 1 * q.val; omega
  exact congrArg₂ (fun a b : EReal => a * b) (congrArg (V c main_arg0) h0) (congrArg (V c main_arg5) h1)

/-- An index of the output array is in point `t`'s block iff each coordinate is in the block's range on its axis. -/
theorem mem_blk0 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every index of the output array is in some point's block: row r is in block r / 1024. -/
theorem covered0 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  refine ⟨⟨(i 0).val / 1024, by rw [hN]; omega⟩, flush0_2 _, ?_⟩
  obtain ⟨e0, e1, e2, e3, e4, e5⟩ := idx_facts0 ⟨(i 0).val / 1024, by rw [hN]; omega⟩
  rw [mem_blk0]
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 512 ≤ (i 1).val ∧ (i 1).val < win0_2.index _ (1 : Fin 2) * 512 + 512; rw [e5]; omega

/-- The output array after the region's run is the product matrix. -/
theorem final0 (c : Dev nD) : (dat0 (F := Ideal) V c).arrAt 2 cfg0.N = prod0 V c :=
  (dat0 (F := Ideal) V c).arrAt_eq_of_cover 2 (prod0 V c) (fun t _ => flushed0_eq V c t) (covered0)

/-- Entry (r, j) of the output array after the region's run: entry (r, j) of x · W. -/
theorem arrAt0 (c : Dev nD) (r : Fin 8192) (j : Fin 512) :
    ((dat0 (F := Ideal) V c).arrAt 2 cfg0.N : Cert.Spec.Mat 8192 512) (ix2 r j)
      = Cert.Spec.mm (V c main_arg0 : Cert.Spec.Mat 8192 512) (V c main_arg5 : Cert.Spec.Mat 512 512) r j := by
  rw [final0]

end

end Cert.KernelIdeal.Gen

end
-- ==== Proof.DenseVal1.lean ====
/-
  Region 1 of the main function at the extended reals: the array the region leaves is the product x · W.

  At the extended reals a change of format is the identity, and a product accumulated into zeros is the plain sum of
  products over the shared coordinate.  So the block the body stores at a point is the block of ONE function of the
  whole arrays — the product matrix — read through the output window's rectangle; the eight row blocks cover the
  array (row r lies in block r / 1024), and the array ends holding the product everywhere.
-/
import proofs.«166906_j60567628808244_2_alg».proof.Proof.Dense1
import proofs.«166906_j60567628808244_2_alg».proof.Proof.Spec
import Idealize.ShloMosaic.Lib.Pipeline.Value
import Idealize.ShloMosaic.Lib.KernelVsHost
import Idealize.ShloMosaic.Lib.StackMember
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

/-- The zero offsets of a whole-block access, however spelt. -/
theorem zero_off1 : (![0, 0] : Fin 2 → Nat) = fun _ => 0 := funext fun a => by fin_cases a <;> rfl

/-- The product's dimension numbers are those of a plain m×k by k×n product. -/
theorem dot_plain1 : dot_S1024x512_S512x512_S1024x512_1_0_0_1_n_n = DotDims.plain 1024 512 512 := rfl

/-- The stored payload at entry (p, q): the sum over the shared coordinate of the products of the entries. -/
theorem pay1_apply (x0 : Vec Ideal S1024x512 .f32) (x1 : Vec Ideal S512x512 .f32) (p : Fin 1024) (q : Fin 512) :
    k1_pay1 (F := Ideal) x0 x1 (ix2 p q) = ∑ c : Fin 512, x0 (ix2 p c) * x1 (ix2 c q) := by
  unfold k1_pay1
  refine (congrFun (matmul_zero_eq_dotGeneral dot_S1024x512_S512x512_S1024x512_1_0_0_1_n_n none
    (truncf .bf16 x0 bitsLt_bf16_f32) (truncf .bf16 x1 bitsLt_bf16_f32)) (ix2 p q)).trans ?_
  rw [dot_plain1]
  exact StackMember.dotGeneral_plain_apply none _ _ p q

section
variable (V : (c : Dev nD) → (b : Ref sig .tc) → Buf (Elt Ideal) ((c : Thread nD τ).loc b))

/-- The product matrix of the two input arrays as the region finds them. -/
abbrev prod1 (c : Dev nD) : Cert.Spec.Mat 8192 512 :=
  fun i => Cert.Spec.mm (V c main_arg1 : Cert.Spec.Mat 8192 512) (V c main_arg5 : Cert.Spec.Mat 512 512) (i 0) (i 1)

/-- The printed index maps over the grid: x and the output move together down the rows, block t at point t; W stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product matrix. -/
theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 (F := Ideal) V c).after 2 t) = _
  rw [after1_2]
  unfold out1_2
  rw [View.canon_unit_zero zero_off1]
  simp only [View.ld_unit_zero (S := S1024x512) zero_off1, View.ld_unit_zero (S := S512x512) zero_off1]
  obtain ⟨e0, e1, e2, e3, e4, e5⟩ := idx_facts1 t
  funext j
  obtain ⟨p, q, rfl⟩ : ∃ (p : Fin 1024) (q : Fin 512), j = ix2 p q := ⟨j 0, j 1, eq_ix2 j⟩
  refine (pay1_apply (iblk1 (F := Ideal) V c 0 t) (iblk1 (F := Ideal) V c 1 t) p q).trans ?_
  show _ = Cert.Spec.mm (V c main_arg1 : Cert.Spec.Mat 8192 512) (V c main_arg5 : Cert.Spec.Mat 512 512)
    ((((cfg1.win 2).blk t).view.emb (ix2 p q)) 0) ((((cfg1.win 2).blk t).view.emb (ix2 p q)) 1)
  unfold Cert.Spec.mm
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 512 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 512 + 1 * k.val = k.val; omega
    | ⟨1, _⟩ => show win1_1.index t (1 : Fin 2) * 512 + 1 * q.val = win1_2.index t (1 : Fin 2) * 512 + 1 * q.val; omega
  exact congrArg₂ (fun a b : EReal => a * b) (congrArg (V c main_arg1) h0) (congrArg (V c main_arg5) h1)

/-- An index of the output array is in point `t`'s block iff each coordinate is in the block's range on its axis. -/
theorem mem_blk1 (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1).slice (win1_2.rect t)).set ↔ _
  rw [View.set_slice_whole, Rect.mem_set_unit]
  exact Iff.rfl

/-- Every index of the output array is in some point's block: row r is in block r / 1024. -/
theorem covered1 (i : S8192x512.Idx) :
    ∃ t : Fin cfg1.N, (cfg1.win 2).flush t = true ∧ i ∈ ((cfg1.win 2).blk t).view.set := by
  have hi0 : (i 0).val < 8192 := (i 0).isLt
  have hi1 : (i 1).val < 512 := (i 1).isLt
  have hN : cfg1.N = 8 := N_1
  refine ⟨⟨(i 0).val / 1024, by rw [hN]; omega⟩, flush1_2 _, ?_⟩
  obtain ⟨e0, e1, e2, e3, e4, e5⟩ := idx_facts1 ⟨(i 0).val / 1024, by rw [hN]; omega⟩
  rw [mem_blk1]
  intro a
  match a with
  | ⟨0, _⟩ => show win1_2.index _ (0 : Fin 2) * 1024 ≤ (i 0).val ∧ (i 0).val < win1_2.index _ (0 : Fin 2) * 1024 + 1024; rw [e4]; show (i 0).val / 1024 * 1024 ≤ (i 0).val ∧ (i 0).val < (i 0).val / 1024 * 1024 + 1024; omega
  | ⟨1, _⟩ => show win1_2.index _ (1 : Fin 2) * 512 ≤ (i 1).val ∧ (i 1).val < win1_2.index _ (1 : Fin 2) * 512 + 512; rw [e5]; omega

/-- The output array after the region's run is the product matrix. -/
theorem final1 (c : Dev nD) : (dat1 (F := Ideal) V c).arrAt 2 cfg1.N = prod1 V c :=
  (dat1 (F := Ideal) V c).arrAt_eq_of_cover 2 (prod1 V c) (fun t _ => flushed1_eq V c t) (covered1)

/-- Entry (r, j) of the output array after the region's run: entry (r, j) of x · W. -/
theorem arrAt1 (c : Dev nD) (r : Fin 8192) (j : Fin 512) :
    ((dat1 (F := Ideal) V c).arrAt 2 cfg1.N : Cert.Spec.Mat 8192 512) (ix2 r j)
      = Cert.Spec.mm (V c main_arg1 : Cert.Spec.Mat 8192 512) (V c main_arg5 : Cert.Spec.Mat 512 512) r j := by
  rw [final1]

end

end Cert.KernelIdeal.Gen

end
-- ==== Proof.DenseVal5.lean ====
/-
  Region 5 of the main function at the extended reals: the array the region leaves is the product x · W.

  At the extended reals a change of format is the identity, and a product accumulated into zeros is the plain sum of
  products over the shared coordinate.  So the block the body stores at a point is the block of ONE function of the
  whole arrays — the product matrix — read through the output window's rectangle; the eight row blocks cover the
  array (row r lies in block r / 1024), and the array ends holding the product everywhere.
-/
import proofs.«166906_j60567628808244_2_alg».proof.Proof.Dense5
import proofs.«166906_j60567628808244_2_alg».proof.Proof.Spec
import Idealize.ShloMosaic.Lib.Pipeline.Value
import Idealize.ShloMosaic.Lib.KernelVsHost
import Idealize.ShloMosaic.Lib.StackMember
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

/-- The zero offsets of a whole-block access, however spelt. -/
theorem zero_off5 : (![0, 0] : Fin 2 → Nat) = fun _ => 0 := funext fun a => by fin_cases a <;> rfl

/-- The product's dimension numbers are those of a plain m×k by k×n product. -/
theorem dot_plain5 : dot_S1024x512_S512x256_S1024x256_1_0_0_1_n_n = DotDims.plain 1024 512 256 := rfl

/-- The stored payload at entry (p, q): the sum over the shared coordinate of the products of the entries. -/
theorem pay5_apply (x0 : Vec Ideal S1024x512 .f32) (x1 : Vec Ideal S512x256 .f32) (p : Fin 1024) (q : Fin 256) :
    k5_pay1 (F := Ideal) x0 x1 (ix2 p q) = ∑ c : Fin 512, x0 (ix2 p c) * x1 (ix2 c q) := by
  unfold k5_pay1
  refine (congrFun (matmul_zero_eq_dotGeneral dot_S1024x512_S512x256_S1024x256_1_0_0_1_n_n none
    (truncf .bf16 (shapeCast S1024x512 x0 shapeCasts_S1024x512_S1024x512) bitsLt_bf16_f32) (truncf .bf16 x1 bitsLt_bf16_f32)) (ix2 p q)).trans ?_
  rw [dot_plain5]
  refine (StackMember.dotGeneral_plain_apply none _ _ p q).trans ?_
  rw [shapeCast_self]
  rfl

section
variable (V : (c : Dev nD) → (b : Ref sig .tc) → Buf (Elt Ideal) ((c : Thread nD τ).loc b))

/-- The product matrix of the two input arrays as the region finds them. -/
abbrev prod5 (c : Dev nD) : Cert.Spec.Mat 8192 256 :=
  fun i => Cert.Spec.mm (V c main_v6 : Cert.Spec.Mat 8192 512) (V c main_arg7 : Cert.Spec.Mat 512 256) (i 0) (i 1)

/-- The printed index maps over the grid: x and the output move together down the rows, block t at point t; W stays. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the product matrix. -/
theorem flushed5_eq (c : Dev nD) (t : Fin cfg5.N) :
    (dat5 (F := Ideal) V c).flushed 2 t = ((cfg5.win 2).blk t).view.read (Elt Ideal) (prod5 V c) := by
  show (cfg5.win 2).cut (grid5.coords t) ((dat5 (F := Ideal) V c).after 2 t) = _
  rw [after5_2]
  unfold out5_2
  rw [View.canon_unit_zero zero_off5]
  simp only [View.ld_unit_zero (S := S1024x512) zero_off5, View.ld_unit_zero (S := S512x256) zero_off5]
  obtain ⟨e0, e1, e2, e3, e4, e5⟩ := idx_facts5 t
  funext j
  obtain ⟨p, q, rfl⟩ : ∃ (p : Fin 1024) (q : Fin 256), j = ix2 p q := ⟨j 0, j 1, eq_ix2 j⟩
  refine (pay5_apply (iblk5 (F := Ideal) V c 0 t) (iblk5 (F := Ideal) V c 1 t) p q).trans ?_
  show _ = Cert.Spec.mm (V c main_v6 : Cert.Spec.Mat 8192 512) (V c main_arg7 : Cert.Spec.Mat 512 256)
    ((((cfg5.win 2).blk t).view.emb (ix2 p q)) 0) ((((cfg5.win 2).blk t).view.emb (ix2 p q)) 1)
  unfold Cert.Spec.mm
  refine Finset.sum_congr rfl fun k _ => ?_
  have h0 : ((cfg5.win 0).blk t).view.emb (ix2 p k) = ix2 ((((cfg5.win 2).blk t).view.emb (ix2 p q)) 0) k := by
    funext a; apply Fin.ext
    match a with
    | ⟨0, _⟩ => show win5_0.index t (0 : Fin 2) * 1024 + 1 * p.val = win5_2.index t (0 : Fin 2) * 1024 + 1 * p.val; omega
    | ⟨1, _⟩ => show win5_0.index t (1 : Fin 2) * 512 + 1 * k.val = k.val; omega
  have h1 : ((cfg5.win 1).blk t).view.emb (ix2 k q) = ix2 k ((((cfg5.win 2).blk t).view.emb (ix2 p q)) 1) := by
    funext a; apply Fin.ext
    match a with
    | ⟨0, _⟩ => show win5_1.index t (0 : Fin 2) * 512 + 1 * k.val = k.val; omega
    | ⟨1, _⟩ => show win5_1.index t (1 : Fin 2) * 256 + 1 * q.val = win5_2.index t (1 : Fin 2) * 256 + 1 * q.val; omega
  exact congrArg₂ (fun a b : EReal => a * b) (congrArg (V c main_v6) h0) (congrArg (V c main_arg7) h1)

/-- An index of the output array is in point `t`'s block iff each coordinate is in the block's range on its axis. -/
theorem mem_blk5 (t : Fin cfg5.N) (i : S8192x256.Idx) :
    i ∈ ((cfg5.win 2).blk t).view.set ↔ ∀ a : Fin 2, win5_2.index t a * S1024x256.size a ≤ (i a).val ∧ (i a).val < win5_2.index t a * S1024x256.size a + S1024x256.size a := by
  show i ∈ ((View.whole main_v12).slice (win5_2.rect t)).set ↔ _
  rw [View.set_slice_whole, Rect.mem_set_unit]
  exact Iff.rfl

/-- Every index of the output array is in some point's block: row r is in block r / 1024. -/
theorem covered5 (i : S8192x256.Idx) :
    ∃ t : Fin cfg5.N, (cfg5.win 2).flush t = true ∧ i ∈ ((cfg5.win 2).blk t).view.set := by
  have hi0 : (i 0).val < 8192 := (i 0).isLt
  have hi1 : (i 1).val < 256 := (i 1).isLt
  have hN : cfg5.N = 8 := N_5
  refine ⟨⟨(i 0).val / 1024, by rw [hN]; omega⟩, flush5_2 _, ?_⟩
  obtain ⟨e0, e1, e2, e3, e4, e5⟩ := idx_facts5 ⟨(i 0).val / 1024, by rw [hN]; omega⟩
  rw [mem_blk5]
  intro a
  match a with
  | ⟨0, _⟩ => show win5_2.index _ (0 : Fin 2) * 1024 ≤ (i 0).val ∧ (i 0).val < win5_2.index _ (0 : Fin 2) * 1024 + 1024; rw [e4]; show (i 0).val / 1024 * 1024 ≤ (i 0).val ∧ (i 0).val < (i 0).val / 1024 * 1024 + 1024; omega
  | ⟨1, _⟩ => show win5_2.index _ (1 : Fin 2) * 256 ≤ (i 1).val ∧ (i 1).val < win5_2.index _ (1 : Fin 2) * 256 + 256; rw [e5]; omega

/-- The output array after the region's run is the product matrix. -/
theorem final5 (c : Dev nD) : (dat5 (F := Ideal) V c).arrAt 2 cfg5.N = prod5 V c :=
  (dat5 (F := Ideal) V c).arrAt_eq_of_cover 2 (prod5 V c) (fun t _ => flushed5_eq V c t) (covered5)

/-- Entry (r, j) of the output array after the region's run: entry (r, j) of x · W. -/
theorem arrAt5 (c : Dev nD) (r : Fin 8192) (j : Fin 256) :
    ((dat5 (F := Ideal) V c).arrAt 2 cfg5.N : Cert.Spec.Mat 8192 256) (ix2 r j)
      = Cert.Spec.mm (V c main_v6 : Cert.Spec.Mat 8192 512) (V c main_arg7 : Cert.Spec.Mat 512 256) r j := by
  rw [final5]

end

end Cert.KernelIdeal.Gen

end
-- ==== Proof.DenseVal6.lean ====
/-
  Region 6 of the main function at the extended reals: the array the region leaves is the product x · W.

  At the extended reals a change of format is the identity, and a product accumulated into zeros is the plain sum of
  products over the shared coordinate.  So the block the body stores at a point is the block of ONE function of the
  whole arrays — the product matrix — read through the output window's rectangle; the eight row blocks cover the
  array (row r lies in block r / 1024), and the array ends holding the product everywhere.
-/
import proofs.«166906_j60567628808244_2_alg».proof.Proof.Dense6
import proofs.«166906_j60567628808244_2_alg».proof.Proof.Spec
import Idealize.ShloMosaic.Lib.Pipeline.Value
import Idealize.ShloMosaic.Lib.KernelVsHost
import Idealize.ShloMosaic.Lib.StackMember
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

/-- The zero offsets of a whole-block access, however spelt. -/
theorem zero_off6 : (![0, 0] : Fin 2 → Nat) = fun _ => 0 := funext fun a => by fin_cases a <;> rfl

/-- The product's dimension numbers are those of a plain m×k by k×n product. -/
theorem dot_plain6 : dot_S1024x512_S512x256_S1024x256_1_0_0_1_n_n = DotDims.plain 1024 512 256 := rfl

/-- The stored payload at entry (p, q): the sum over the shared coordinate of the products of the entries. -/
theorem pay6_apply (x0 : Vec Ideal S1024x512 .f32) (x1 : Vec Ideal S512x256 .f32) (p : Fin 1024) (q : Fin 256) :
    k6_pay1 (F := Ideal) x0 x1 (ix2 p q) = ∑ c : Fin 512, x0 (ix2 p c) * x1 (ix2 c q) := by
  unfold k6_pay1
  refine (congrFun (matmul_zero_eq_dotGeneral dot_S1024x512_S512x256_S1024x256_1_0_0_1_n_n none
    (truncf .bf16 (shapeCast S1024x512 x0 shapeCasts_S1024x512_S1024x512) bitsLt_bf16_f32) (truncf .bf16 x1 bitsLt_bf16_f32)) (ix2 p q)).trans ?_
  rw [dot_plain6]
  refine (StackMember.dotGeneral_plain_apply none _ _ p q).trans ?_
  rw [shapeCast_self]
  rfl

section
variable (V : (c : Dev nD) → (b : Ref sig .tc) → Buf (Elt Ideal) ((c : Thread nD τ).loc b))

/-- The product matrix of the two input arrays as the region finds them. -/
abbrev prod6 (c : Dev nD) : Cert.Spec.Mat 8192 256 :=
  fun i => Cert.Spec.mm (V c main_v7 : Cert.Spec.Mat 8192 512) (V c main_arg7 : Cert.Spec.Mat 512 256) (i 0) (i 1)

/-- The printed index maps over the grid: x and the output move together down the rows, block t at point t; W stays. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the product matrix. -/
theorem flushed6_eq (c : Dev nD) (t : Fin cfg6.N) :
    (dat6 (F := Ideal) V c).flushed 2 t = ((cfg6.win 2).blk t).view.read (Elt Ideal) (prod6 V c) := by
  show (cfg6.win 2).cut (grid6.coords t) ((dat6 (F := Ideal) V c).after 2 t) = _
  rw [after6_2]
  unfold out6_2
  rw [View.canon_unit_zero zero_off6]
  simp only [View.ld_unit_zero (S := S1024x512) zero_off6, View.ld_unit_zero (S := S512x256) zero_off6]
  obtain ⟨e0, e1, e2, e3, e4, e5⟩ := idx_facts6 t
  funext j
  obtain ⟨p, q, rfl⟩ : ∃ (p : Fin 1024) (q : Fin 256), j = ix2 p q := ⟨j 0, j 1, eq_ix2 j⟩
  refine (pay6_apply (iblk6 (F := Ideal) V c 0 t) (iblk6 (F := Ideal) V c 1 t) p q).trans ?_
  show _ = Cert.Spec.mm (V c main_v7 : Cert.Spec.Mat 8192 512) (V c main_arg7 : Cert.Spec.Mat 512 256)
    ((((cfg6.win 2).blk t).view.emb (ix2 p q)) 0) ((((cfg6.win 2).blk t).view.emb (ix2 p q)) 1)
  unfold Cert.Spec.mm
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 1024 + 1 * p.val = win6_2.index t (0 : Fin 2) * 1024 + 1 * p.val; omega
    | ⟨1, _⟩ => show win6_0.index t (1 : Fin 2) * 512 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 512 + 1 * k.val = k.val; omega
    | ⟨1, _⟩ => show win6_1.index t (1 : Fin 2) * 256 + 1 * q.val = win6_2.index t (1 : Fin 2) * 256 + 1 * q.val; omega
  exact congrArg₂ (fun a b : EReal => a * b) (congrArg (V c main_v7) h0) (congrArg (V c main_arg7) h1)

/-- An index of the output array is in point `t`'s block iff each coordinate is in the block's range on its axis. -/
theorem mem_blk6 (t : Fin cfg6.N) (i : S8192x256.Idx) :
    i ∈ ((cfg6.win 2).blk t).view.set ↔ ∀ a : Fin 2, win6_2.index t a * S1024x256.size a ≤ (i a).val ∧ (i a).val < win6_2.index t a * S1024x256.size a + S1024x256.size a := by
  show i ∈ ((View.whole main_v13).slice (win6_2.rect t)).set ↔ _
  rw [View.set_slice_whole, Rect.mem_set_unit]
  exact Iff.rfl

/-- Every index of the output array is in some point's block: row r is in block r / 1024. -/
theorem covered6 (i : S8192x256.Idx) :
    ∃ t : Fin cfg6.N, (cfg6.win 2).flush t = true ∧ i ∈ ((cfg6.win 2).blk t).view.set := by
  have hi0 : (i 0).val < 8192 := (i 0).isLt
  have hi1 : (i 1).val < 256 := (i 1).isLt
  have hN : cfg6.N = 8 := N_6
  refine ⟨⟨(i 0).val / 1024, by rw [hN]; omega⟩, flush6_2 _, ?_⟩
  obtain ⟨e0, e1, e2, e3, e4, e5⟩ := idx_facts6 ⟨(i 0).val / 1024, by rw [hN]; omega⟩
  rw [mem_blk6]
  intro a
  match a with
  | ⟨0, _⟩ => show win6_2.index _ (0 : Fin 2) * 1024 ≤ (i 0).val ∧ (i 0).val < win6_2.index _ (0 : Fin 2) * 1024 + 1024; rw [e4]; show (i 0).val / 1024 * 1024 ≤ (i 0).val ∧ (i 0).val < (i 0).val / 1024 * 1024 + 1024; omega
  | ⟨1, _⟩ => show win6_2.index _ (1 : Fin 2) * 256 ≤ (i 1).val ∧ (i 1).val < win6_2.index _ (1 : Fin 2) * 256 + 256; rw [e5]; omega

/-- The output array after the region's run is the product matrix. -/
theorem final6 (c : Dev nD) : (dat6 (F := Ideal) V c).arrAt 2 cfg6.N = prod6 V c :=
  (dat6 (F := Ideal) V c).arrAt_eq_of_cover 2 (prod6 V c) (fun t _ => flushed6_eq V c t) (covered6)

/-- Entry (r, j) of the output array after the region's run: entry (r, j) of x · W. -/
theorem arrAt6 (c : Dev nD) (r : Fin 8192) (j : Fin 256) :
    ((dat6 (F := Ideal) V c).arrAt 2 cfg6.N : Cert.Spec.Mat 8192 256) (ix2 r j)
      = Cert.Spec.mm (V c main_v7 : Cert.Spec.Mat 8192 512) (V c main_arg7 : Cert.Spec.Mat 512 256) r j := by
  rw [final6]

end

end Cert.KernelIdeal.Gen

end
-- ==== Proof.DenseVal8.lean ====
/-
  Region 8 of the main function at the extended reals: the array the region leaves is the product x · W.

  At the extended reals a change of format is the identity, and a product accumulated into zeros is the plain sum of
  products over the shared coordinate.  So the block the body stores at a point is the block of ONE function of the
  whole arrays — the product matrix — read through the output window's rectangle; the eight row blocks cover the
  array (row r lies in block r / 1024), and the array ends holding the product everywhere.
-/
import proofs.«166906_j60567628808244_2_alg».proof.Proof.Dense8
import proofs.«166906_j60567628808244_2_alg».proof.Proof.Spec
import Idealize.ShloMosaic.Lib.Pipeline.Value
import Idealize.ShloMosaic.Lib.KernelVsHost
import Idealize.ShloMosaic.Lib.StackMember
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

/-- The zero offsets of a whole-block access, however spelt. -/
theorem zero_off8 : (![0, 0] : Fin 2 → Nat) = fun _ => 0 := funext fun a => by fin_cases a <;> rfl

/-- The product's dimension numbers are those of a plain m×k by k×n product. -/
theorem dot_plain8 : dot_S1024x512_S512x256_S1024x256_1_0_0_1_n_n = DotDims.plain 1024 512 256 := rfl

/-- The stored payload at entry (p, q): the sum over the shared coordinate of the products of the entries. -/
theorem pay8_apply (x0 : Vec Ideal S1024x512 .f32) (x1 : Vec Ideal S512x256 .f32) (p : Fin 1024) (q : Fin 256) :
    k8_pay1 (F := Ideal) x0 x1 (ix2 p q) = ∑ c : Fin 512, x0 (ix2 p c) * x1 (ix2 c q) := by
  unfold k8_pay1
  refine (congrFun (matmul_zero_eq_dotGeneral dot_S1024x512_S512x256_S1024x256_1_0_0_1_n_n none
    (truncf .bf16 (shapeCast S1024x512 x0 shapeCasts_S1024x512_S1024x512) bitsLt_bf16_f32) (truncf .bf16 x1 bitsLt_bf16_f32)) (ix2 p q)).trans ?_
  rw [dot_plain8]
  refine (StackMember.dotGeneral_plain_apply none _ _ p q).trans ?_
  rw [shapeCast_self]
  rfl

section
variable (V : (c : Dev nD) → (b : Ref sig .tc) → Buf (Elt Ideal) ((c : Thread nD τ).loc b))

/-- The product matrix of the two input arrays as the region finds them. -/
abbrev prod8 (c : Dev nD) : Cert.Spec.Mat 8192 256 :=
  fun i => Cert.Spec.mm (V c main_v9 : Cert.Spec.Mat 8192 512) (V c main_arg7 : Cert.Spec.Mat 512 256) (i 0) (i 1)

/-- The printed index maps over the grid: x and the output move together down the rows, block t at point t; W stays. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the product matrix. -/
theorem flushed8_eq (c : Dev nD) (t : Fin cfg8.N) :
    (dat8 (F := Ideal) V c).flushed 2 t = ((cfg8.win 2).blk t).view.read (Elt Ideal) (prod8 V c) := by
  show (cfg8.win 2).cut (grid8.coords t) ((dat8 (F := Ideal) V c).after 2 t) = _
  rw [after8_2]
  unfold out8_2
  rw [View.canon_unit_zero zero_off8]
  simp only [View.ld_unit_zero (S := S1024x512) zero_off8, View.ld_unit_zero (S := S512x256) zero_off8]
  obtain ⟨e0, e1, e2, e3, e4, e5⟩ := idx_facts8 t
  funext j
  obtain ⟨p, q, rfl⟩ : ∃ (p : Fin 1024) (q : Fin 256), j = ix2 p q := ⟨j 0, j 1, eq_ix2 j⟩
  refine (pay8_apply (iblk8 (F := Ideal) V c 0 t) (iblk8 (F := Ideal) V c 1 t) p q).trans ?_
  show _ = Cert.Spec.mm (V c main_v9 : Cert.Spec.Mat 8192 512) (V c main_arg7 : Cert.Spec.Mat 512 256)
    ((((cfg8.win 2).blk t).view.emb (ix2 p q)) 0) ((((cfg8.win 2).blk t).view.emb (ix2 p q)) 1)
  unfold Cert.Spec.mm
  refine Finset.sum_congr rfl fun k _ => ?_
  have h0 : ((cfg8.win 0).blk t).view.emb (ix2 p k) = ix2 ((((cfg8.win 2).blk t).view.emb (ix2 p q)) 0) k := by
    funext a; apply Fin.ext
    match a with
    | ⟨0, _⟩ => show win8_0.index t (0 : Fin 2) * 1024 + 1 * p.val = win8_2.index t (0 : Fin 2) * 1024 + 1 * p.val; omega
    | ⟨1, _⟩ => show win8_0.index t (1 : Fin 2) * 512 + 1 * k.val = k.val; omega
  have h1 : ((cfg8.win 1).blk t).view.emb (ix2 k q) = ix2 k ((((cfg8.win 2).blk t).view.emb (ix2 p q)) 1) := by
    funext a; apply Fin.ext
    match a with
    | ⟨0, _⟩ => show win8_1.index t (0 : Fin 2) * 512 + 1 * k.val = k.val; omega
    | ⟨1, _⟩ => show win8_1.index t (1 : Fin 2) * 256 + 1 * q.val = win8_2.index t (1 : Fin 2) * 256 + 1 * q.val; omega
  exact congrArg₂ (fun a b : EReal => a * b) (congrArg (V c main_v9) h0) (congrArg (V c main_arg7) h1)

/-- An index of the output array is in point `t`'s block iff each coordinate is in the block's range on its axis. -/
theorem mem_blk8 (t : Fin cfg8.N) (i : S8192x256.Idx) :
    i ∈ ((cfg8.win 2).blk t).view.set ↔ ∀ a : Fin 2, win8_2.index t a * S1024x256.size a ≤ (i a).val ∧ (i a).val < win8_2.index t a * S1024x256.size a + S1024x256.size a := by
  show i ∈ ((View.whole main_v20).slice (win8_2.rect t)).set ↔ _
  rw [View.set_slice_whole, Rect.mem_set_unit]
  exact Iff.rfl

/-- Every index of the output array is in some point's block: row r is in block r / 1024. -/
theorem covered8 (i : S8192x256.Idx) :
    ∃ t : Fin cfg8.N, (cfg8.win 2).flush t = true ∧ i ∈ ((cfg8.win 2).blk t).view.set := by
  have hi0 : (i 0).val < 8192 := (i 0).isLt
  have hi1 : (i 1).val < 256 := (i 1).isLt
  have hN : cfg8.N = 8 := N_8
  refine ⟨⟨(i 0).val / 1024, by rw [hN]; omega⟩, flush8_2 _, ?_⟩
  obtain ⟨e0, e1, e2, e3, e4, e5⟩ := idx_facts8 ⟨(i 0).val / 1024, by rw [hN]; omega⟩
  rw [mem_blk8]
  intro a
  match a with
  | ⟨0, _⟩ => show win8_2.index _ (0 : Fin 2) * 1024 ≤ (i 0).val ∧ (i 0).val < win8_2.index _ (0 : Fin 2) * 1024 + 1024; rw [e4]; show (i 0).val / 1024 * 1024 ≤ (i 0).val ∧ (i 0).val < (i 0).val / 1024 * 1024 + 1024; omega
  | ⟨1, _⟩ => show win8_2.index _ (1 : Fin 2) * 256 ≤ (i 1).val ∧ (i 1).val < win8_2.index _ (1 : Fin 2) * 256 + 256; rw [e5]; omega

/-- The output array after the region's run is the product matrix. -/
theorem final8 (c : Dev nD) : (dat8 (F := Ideal) V c).arrAt 2 cfg8.N = prod8 V c :=
  (dat8 (F := Ideal) V c).arrAt_eq_of_cover 2 (prod8 V c) (fun t _ => flushed8_eq V c t) (covered8)

/-- Entry (r, j) of the output array after the region's run: entry (r, j) of x · W. -/
theorem arrAt8 (c : Dev nD) (r : Fin 8192) (j : Fin 256) :
    ((dat8 (F := Ideal) V c).arrAt 2 cfg8.N : Cert.Spec.Mat 8192 256) (ix2 r j)
      = Cert.Spec.mm (V c main_v9 : Cert.Spec.Mat 8192 512) (V c main_arg7 : Cert.Spec.Mat 512 256) r j := by
  rw [final8]

end

end Cert.KernelIdeal.Gen

end
-- ==== Proof.DenseVal10.lean ====
/-
  Region 10 of the main function at the extended reals: the array the region leaves is the product x · W.

  At the extended reals a change of format is the identity, and a product accumulated into zeros is the plain sum of
  products over the shared coordinate.  So the block the body stores at a point is the block of ONE function of the
  whole arrays — the product matrix — read through the output window's rectangle; the eight row blocks cover the
  array (row r lies in block r / 1024), and the array ends holding the product everywhere.
-/
import proofs.«166906_j60567628808244_2_alg».proof.Proof.Dense10
import proofs.«166906_j60567628808244_2_alg».proof.Proof.Spec
import Idealize.ShloMosaic.Lib.Pipeline.Value
import Idealize.ShloMosaic.Lib.KernelVsHost
import Idealize.ShloMosaic.Lib.StackMember
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

/-- The zero offsets of a whole-block access, however spelt. -/
theorem zero_off10 : (![0, 0] : Fin 2 → Nat) = fun _ => 0 := funext fun a => by fin_cases a <;> rfl

/-- The product's dimension numbers are those of a plain m×k by k×n product. -/
theorem dot_plain10 : dot_S1024x512_S512x256_S1024x256_1_0_0_1_n_n = DotDims.plain 1024 512 256 := rfl

/-- The stored payload at entry (p, q): the sum over the shared coordinate of the products of the entries. -/
theorem pay10_apply (x0 : Vec Ideal S1024x512 .f32) (x1 : Vec Ideal S512x256 .f32) (p : Fin 1024) (q : Fin 256) :
    k10_pay1 (F := Ideal) x0 x1 (ix2 p q) = ∑ c : Fin 512, x0 (ix2 p c) * x1 (ix2 c q) := by
  unfold k10_pay1
  refine (congrFun (matmul_zero_eq_dotGeneral dot_S1024x512_S512x256_S1024x256_1_0_0_1_n_n none
    (truncf .bf16 (shapeCast S1024x512 x0 shapeCasts_S1024x512_S1024x512) bitsLt_bf16_f32) (truncf .bf16 x1 bitsLt_bf16_f32)) (ix2 p q)).trans ?_
  rw [dot_plain10]
  refine (StackMember.dotGeneral_plain_apply none _ _ p q).trans ?_
  rw [shapeCast_self]
  rfl

section
variable (V : (c : Dev nD) → (b : Ref sig .tc) → Buf (Elt Ideal) ((c : Thread nD τ).loc b))

/-- The product matrix of the two input arrays as the region finds them. -/
abbrev prod10 (c : Dev nD) : Cert.Spec.Mat 8192 256 :=
  fun i => Cert.Spec.mm (V c main_v11 : Cert.Spec.Mat 8192 512) (V c main_arg7 : Cert.Spec.Mat 512 256) (i 0) (i 1)

/-- The printed index maps over the grid: x and the output move together down the rows, block t at point t; W stays. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point `t` writes back is block `t` of the product matrix. -/
theorem flushed10_eq (c : Dev nD) (t : Fin cfg10.N) :
    (dat10 (F := Ideal) V c).flushed 2 t = ((cfg10.win 2).blk t).view.read (Elt Ideal) (prod10 V c) := by
  show (cfg10.win 2).cut (grid10.coords t) ((dat10 (F := Ideal) V c).after 2 t) = _
  rw [after10_2]
  unfold out10_2
  rw [View.canon_unit_zero zero_off10]
  simp only [View.ld_unit_zero (S := S1024x512) zero_off10, View.ld_unit_zero (S := S512x256) zero_off10]
  obtain ⟨e0, e1, e2, e3, e4, e5⟩ := idx_facts10 t
  funext j
  obtain ⟨p, q, rfl⟩ : ∃ (p : Fin 1024) (q : Fin 256), j = ix2 p q := ⟨j 0, j 1, eq_ix2 j⟩
  refine (pay10_apply (iblk10 (F := Ideal) V c 0 t) (iblk10 (F := Ideal) V c 1 t) p q).trans ?_
  show _ = Cert.Spec.mm (V c main_v11 : Cert.Spec.Mat 8192 512) (V c main_arg7 : Cert.Spec.Mat 512 256)
    ((((cfg10.win 2).blk t).view.emb (ix2 p q)) 0) ((((cfg10.win 2).blk t).view.emb (ix2 p q)) 1)
  unfold Cert.Spec.mm
  refine Finset.sum_congr rfl fun k _ => ?_
  have h0 : ((cfg10.win 0).blk t).view.emb (ix2 p k) = ix2 ((((cfg10.win 2).blk t).view.emb (ix2 p q)) 0) k := by
    funext a; apply Fin.ext
    match a with
    | ⟨0, _⟩ => show win10_0.index t (0 : Fin 2) * 1024 + 1 * p.val = win10_2.index t (0 : Fin 2) * 1024 + 1 * p.val; omega
    | ⟨1, _⟩ => show win10_0.index t (1 : Fin 2) * 512 + 1 * k.val = k.val; omega
  have h1 : ((cfg10.win 1).blk t).view.emb (ix2 k q) = ix2 k ((((cfg10.win 2).blk t).view.emb (ix2 p q)) 1) := by
    funext a; apply Fin.ext
    match a with
    | ⟨0, _⟩ => show win10_1.index t (0 : Fin 2) * 512 + 1 * k.val = k.val; omega
    | ⟨1, _⟩ => show win10_1.index t (1 : Fin 2) * 256 + 1 * q.val = win10_2.index t (1 : Fin 2) * 256 + 1 * q.val; omega
  exact congrArg₂ (fun a b : EReal => a * b) (congrArg (V c main_v11) h0) (congrArg (V c main_arg7) h1)

/-- An index of the output array is in point `t`'s block iff each coordinate is in the block's range on its axis. -/
theorem mem_blk10 (t : Fin cfg10.N) (i : S8192x256.Idx) :
    i ∈ ((cfg10.win 2).blk t).view.set ↔ ∀ a : Fin 2, win10_2.index t a * S1024x256.size a ≤ (i a).val ∧ (i a).val < win10_2.index t a * S1024x256.size a + S1024x256.size a := by
  show i ∈ ((View.whole main_v23).slice (win10_2.rect t)).set ↔ _
  rw [View.set_slice_whole, Rect.mem_set_unit]
  exact Iff.rfl

/-- Every index of the output array is in some point's block: row r is in block r / 1024. -/
theorem covered10 (i : S8192x256.Idx) :
    ∃ t : Fin cfg10.N, (cfg10.win 2).flush t = true ∧ i ∈ ((cfg10.win 2).blk t).view.set := by
  have hi0 : (i 0).val < 8192 := (i 0).isLt
  have hi1 : (i 1).val < 256 := (i 1).isLt
  have hN : cfg10.N = 8 := N_10
  refine ⟨⟨(i 0).val / 1024, by rw [hN]; omega⟩, flush10_2 _, ?_⟩
  obtain ⟨e0, e1, e2, e3, e4, e5⟩ := idx_facts10 ⟨(i 0).val / 1024, by rw [hN]; omega⟩
  rw [mem_blk10]
  intro a
  match a with
  | ⟨0, _⟩ => show win10_2.index _ (0 : Fin 2) * 1024 ≤ (i 0).val ∧ (i 0).val < win10_2.index _ (0 : Fin 2) * 1024 + 1024; rw [e4]; show (i 0).val / 1024 * 1024 ≤ (i 0).val ∧ (i 0).val < (i 0).val / 1024 * 1024 + 1024; omega
  | ⟨1, _⟩ => show win10_2.index _ (1 : Fin 2) * 256 ≤ (i 1).val ∧ (i 1).val < win10_2.index _ (1 : Fin 2) * 256 + 256; rw [e5]; omega

/-- The output array after the region's run is the product matrix. -/
theorem final10 (c : Dev nD) : (dat10 (F := Ideal) V c).arrAt 2 cfg10.N = prod10 V c :=
  (dat10 (F := Ideal) V c).arrAt_eq_of_cover 2 (prod10 V c) (fun t _ => flushed10_eq V c t) (covered10)

/-- Entry (r, j) of the output array after the region's run: entry (r, j) of x · W. -/
theorem arrAt10 (c : Dev nD) (r : Fin 8192) (j : Fin 256) :
    ((dat10 (F := Ideal) V c).arrAt 2 cfg10.N : Cert.Spec.Mat 8192 256) (ix2 r j)
      = Cert.Spec.mm (V c main_v11 : Cert.Spec.Mat 8192 512) (V c main_arg7 : Cert.Spec.Mat 512 256) r j := by
  rw [final10]

end

end Cert.KernelIdeal.Gen

end
-- ==== Proof.GcnPay2.lean ====
/-
  The arithmetic of one grid point of the first graph-convolution product, read entry by entry on the extended reals.

  At a grid point the accumulator block (1024 rows, 1024 columns) is first the zero block (at the first contraction
  block), then at every contraction block it gains the product of the 1024 × 512 block of the adjacency matrix with
  the matching 512 rows of the support; after the last contraction block the output block is the accumulator plus
  the bias row, rectified.  On the extended reals a change of float format is the identity, so each entry is a plain
  finite sum of products.
-/
import proofs.«166906_j60567628808244_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-- The zero block: every entry is 0. -/
theorem k2_pay1_apply (p : Fin 1024) (q : Fin 1024) : k2_pay1 (F := Ideal) (ix2 p q) = 0 := by
  unfold k2_pay1
  rw [shapeCast_self]
  exact Ideal.ofBits_zero_f32

/-- The printed contraction record is the plain product of a 1024 × 512 by a 512 × 1024 matrix. -/
theorem k2_dot_eq : dot_S1024x512_S512x1024_S1024x1024_1_0_0_1_n_n = DotDims.plain 1024 512 1024 := rfl

/-- One accumulation step: the old entry plus the sum over the block's 512 contracted columns. -/
theorem k2_pay2_apply (v3 : Vec Ideal S1024x512 .f32) (v8 : Vec Ideal S512x1024 .bf16) (v10 : Vec Ideal S1024x1024 .f32)
    (p : Fin 1024) (q : Fin 1024) :
    k2_pay2 (F := Ideal) v3 v8 v10 (ix2 p q) = v10 (ix2 p q) + ∑ c : Fin 512, v3 (ix2 p c) * v8 (ix2 c q) := by
  unfold k2_pay2
  rw [shapeCast_self, shapeCast_self]
  refine (addf_apply _ _ _).trans ?_
  congr 1
  rw [matmul_zero_eq_dotGeneral, k2_dot_eq]
  exact StackMember.dotGeneral_plain_apply none _ _ p q

/-- The finishing step: the accumulator entry plus the bias of its column, rectified. -/
theorem k2_pay3_apply (v19 : Vec Ideal S1024x1024 .f32) (v20 : Vec Ideal S1x1024 .f32) (p : Fin 1024) (q : Fin 1024) :
    k2_pay3 (F := Ideal) v19 v20 (ix2 p q) = max (v19 (ix2 p q) + v20 (ix2 (0 : Fin 1) q)) 0 := by
  unfold k2_pay3
  rw [shapeCast_self]
  refine (maximumf_apply _ _ _).trans ?_
  congr 1
  · refine (addf_apply _ _ _).trans ?_
    congr 1
    refine broadcastTo_apply (s := S1x1024) (t := S1024x1024) v20 broadcasts_S1x1024_S1024x1024 (ix2 p q) (ix2 (0 : Fin 1) q) ?_
    intro a
    match a with
    | ⟨0, _⟩ => rfl
    | ⟨1, _⟩ => rfl
  · exact Ideal.ofBits_zero_f32

end Cert.KernelIdeal.Gen

end
-- ==== Proof.GcnPiece2.lean ====
/-
  What each case of the body of the first graph-convolution product leaves in the accumulator and in the output
  block, as the arithmetic of the blocks it is given: at the first contraction block the accumulator is the zero block
  plus the block's product, at a later one the accumulator before plus the block's product, and after the last one the
  output block is finished from the accumulator and the bias row.  The body reads 512 rows of the whole support, those
  its contraction block meets.
-/
import proofs.«166906_j60567628808244_2_alg».proof.Proof.Gcn2Frame
import proofs.«166906_j60567628808244_2_alg».proof.Proof.GcnPay2
import Idealize.ShloMosaic.Lib.Pipeline.Value
import Idealize.ShloMosaic.Lib.KernelVsHost
import Idealize.ShloMosaic.Lib.StackMember
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

/-! ## What each case of the body leaves, as payloads of the blocks it is given -/

section Pieces

variable {F : FTy → Type} [FloatOps F]

/-- The zero offsets of a whole-buffer access, however spelt. -/
theorem gcn2_hz : (![0, 0] : Fin 2 → Nat) = fun _ => 0 := funext fun a => by fin_cases a <;> rfl

/-- The 512 rows of the support that the contraction block at grid coordinates `i` meets, read out of the whole support. -/
def gcn2_supRows (i : grid2.Coords) (x1 : Vec F S8192x1024 .bf16) : Vec F S512x1024 .bf16 :=
  View.ld x1 (Rect.unit (s := S8192x1024) (k2_off1 i) S512x1024.size (k2_off1_inb i))

/-- At the first contraction block the accumulator is zeroed and then gains the block's product. -/
theorem gcn2_sout_A (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S1024x512 .f32) (x1 : Vec F S8192x1024 .bf16) (x2 : Vec F S1x1024 .f32) :
    sout2_A_0 c i arg2 harg2 arg3 harg3 arg4 harg4 arg5 harg5 arg6 harg6 hc0 hc1 x0 x1 x2 = k2_pay2 x0 (gcn2_supRows i x1) k2_pay1 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_run_names
  rw [View.canon_cons_unit_zero (S := S1024x1024) gcn2_hz, View.readCov_unit_zero (S := S1024x1024) _ gcn2_hz]
  simp only [View.readAt_eq_ld, harg2.read_unread, harg3.read_unread,
    View.ld_unit_zero (S := S1024x512) gcn2_hz]
  rfl

/-- At a middle contraction block the accumulator gains the block's product. -/
theorem gcn2_sout_B (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S1024x512 .f32) (x1 : Vec F S8192x1024 .bf16) (x2 : Vec F S1x1024 .f32) (xs0 : Vec F S1024x1024 .f32) :
    sout2_B_0 c i arg2 harg2 arg3 harg3 arg4 harg4 arg5 harg5 arg6 harg6 hc0 hc1 x0 x1 x2 xs0 = k2_pay2 x0 (gcn2_supRows i x1) xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_run_names
  rw [View.canon_unit_zero gcn2_hz]
  simp only [View.readAt_eq_ld, harg2.read_unread, harg3.read_unread, harg6.read_unread,
    View.ld_unit_zero (S := S1024x512) gcn2_hz, View.ld_unit_zero (S := S1024x1024) gcn2_hz]
  rfl

/-- At the last contraction block the accumulator gains the block's product, -/
theorem gcn2_sout_C (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) :
    sout2_C_0 c i arg2 harg2 arg3 harg3 arg4 harg4 arg5 harg5 arg6 harg6 hc0 hc1 x0 x1 x2 xs0 = k2_pay2 x0 (gcn2_supRows i x1) xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_run_names
  rw [View.canon_unit_zero gcn2_hz]
  simp only [View.readAt_eq_ld, harg2.read_unread, harg3.read_unread, harg6.read_unread,
    View.ld_unit_zero (S := S1024x512) gcn2_hz, View.ld_unit_zero (S := S1024x1024) gcn2_hz]
  rfl

/-- and the output block is finished from the accumulator so updated and the bias row. -/
theorem gcn2_out_C (c : Dev nD) (i : grid2.Coords) (arg2 : Memref sig .tc .vmem S1024x512 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S1024x512 .f32) (x1 : Vec F S8192x1024 .bf16) (x2 : Vec F S1x1024 .f32) (xs0 : Vec F S1024x1024 .f32) :
    out2_C_3 c i arg2 harg2 arg3 harg3 arg4 harg4 arg5 harg5 arg6 harg6 hc0 hc1 x0 x1 x2 xs0 = k2_pay3 (k2_pay2 x0 (gcn2_supRows i x1) xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_run_names
  rw [View.canon_unit_zero gcn2_hz, View.readCov_unit_zero (S := S1024x1024) _ gcn2_hz]
  simp only [View.readAt_eq_ld, harg2.read_unread, harg3.read_unread, harg4.read_unread, harg6.read_unread,
    View.ld_unit_zero (S := S1024x512) gcn2_hz, View.ld_unit_zero (S := S1024x1024) gcn2_hz, View.ld_unit_zero (S := S1x1024) gcn2_hz]
  rfl

end Pieces

/-! ## One accumulation step at an entry, over any blocks -/

/-- If the products of the adjacency block's row p with the support rows' column q are the terms f(k · 512 + e) of a
    sum, the accumulation step adds those 512 terms to the old entry. -/
theorem gcn2_step (x0 : Vec Ideal S1024x512 .f32) (xr : Vec Ideal S512x1024 .bf16) (xs0 : Vec Ideal S1024x1024 .f32)
    (f : ℕ → EReal) (k : ℕ) (p : Fin 1024) (q : Fin 1024)
    (hterm : ∀ e : Fin 512, x0 (ix2 p e) * xr (ix2 e q) = f (k * 512 + e.val)) :
    k2_pay2 (F := Ideal) x0 xr xs0 (ix2 p q) = xs0 (ix2 p q) + ∑ e : Fin 512, f (k * 512 + e.val) := by
  rw [k2_pay2_apply]
  exact congrArg (xs0 (ix2 p q) + ·) (Finset.sum_congr rfl fun e _ => hterm e)

end Cert.KernelIdeal.Gen

end
-- ==== Proof.GcnAcc.lean ====
/-
  A matrix product whose contracted axis is walked block after block.

  The entry (r, j) of A · B is a sum over the contracted coordinate e of A(r, e) · B(e, j).  Written over natural-number
  coordinates (zero where a coordinate is past the end of its axis) the terms can be grouped into consecutive blocks of
  `tk` coordinates; the running total after the last block, each block added to the total before it, starting from zero,
  is the whole entry.  Only commutativity and associativity of the sum are used.
-/
import proofs.«166906_j60567628808244_2_alg».proof.Proof.Spec

noncomputable section

namespace Cert.Spec

open Idealize.ShloMosaic Idealize.ShloMosaic.ValueIdx

/-- The term A(r, e) · B(e, j) of entry (r, j) of the product, over natural-number coordinates r and e; zero where r or
    e is past the end of its axis. -/
def termN {m k n : ℕ} (A : Mat m k) (B : Mat k n) (r : ℕ) (j : Fin n) (e : ℕ) : EReal :=
  if h : r < m ∧ e < k then A (ix2 ⟨r, h.1⟩ ⟨e, h.2⟩) * B (ix2 ⟨e, h.2⟩ j) else 0

/-- In range the term is the product of the two entries. -/
theorem termN_of_lt {m k n : ℕ} (A : Mat m k) (B : Mat k n) (r : ℕ) (j : Fin n) (e : ℕ) (hr : r < m) (he : e < k) :
    termN A B r j e = A (ix2 ⟨r, hr⟩ ⟨e, he⟩) * B (ix2 ⟨e, he⟩ j) := dif_pos ⟨hr, he⟩

/-- An entry of the product is the running total, after the last of `nk + 1` blocks of `tk` contracted coordinates, of
    its terms taken block after block from zero. -/
theorem mm_eq_acc {m k n : ℕ} (nk tk : ℕ) (hk : (nk + 1) * tk = k) (A : Mat m k) (B : Mat k n) (r : Fin m) (j : Fin n) :
    mm A B r j = acc tk (termN A B r.val j) nk := by
  subst hk
  rw [acc_all]
  unfold mm
  exact Finset.sum_congr rfl fun c _ => (termN_of_lt A B r.val j c.val r.isLt c.isLt).symm

/-- One more block: the running total after block `b + 1` is the total after block `b` plus that block's terms. -/
theorem acc_succ (tk : ℕ) (f : ℕ → EReal) (b : ℕ) :
    acc tk f (b + 1) = acc tk f b + ∑ q : Fin tk, f ((b + 1) * tk + q.val) := rfl

/-- The first block: zero plus its terms. -/
theorem acc_zero (tk : ℕ) (f : ℕ → EReal) : acc tk f 0 = 0 + ∑ q : Fin tk, f q.val := rfl

end Cert.Spec

end
-- ==== Proof.GcnVal2.lean ====
/-
  What the first graph-convolution product leaves in its output array, on the extended reals.

  The grid walks 8 row blocks of 1024 rows and, inside each, 16 contraction blocks of 512 columns of the adjacency
  matrix; point t is row block t / 16, contraction block t % 16.  The accumulator carried from point to point holds,
  after point t, the running total of the terms adj(r, e) · support(e, j) over the contraction blocks 0 … t % 16 of its
  row block, taken block after block from zero: at the first contraction block the zero block plus that block's terms,
  at every later one the total before plus that block's terms.  After the last contraction block the total is the
  whole entry of the product adj · support, and the output block receives it plus the bias of its column, rectified.
  The output blocks written after the last contraction block of each row block are the blocks of ONE function of the
  whole arrays, and the 8 row blocks cover the output array (row r lies in row block r / 1024).
-/
import proofs.«166906_j60567628808244_2_alg».proof.Proof.GcnPiece2
import proofs.«166906_j60567628808244_2_alg».proof.Proof.GcnAcc

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

variable (V : (c : Dev nD) → (b : Ref sig .tc) → Buf (Elt Ideal) ((c : Thread nD τ).loc b))

/-! ## The blocks a point is given, and where they sit in their arrays -/

/-- Point t's block of the adjacency matrix, -/
abbrev gcn2_adjBlk (c : Dev nD) (t : Fin cfg2.N) : Vec Ideal S1024x512 .f32 := iblk2 (F := Ideal) V c 0 t
/-- its block of the support (the whole support), -/
abbrev gcn2_supBlk (c : Dev nD) (t : Fin cfg2.N) : Vec Ideal S8192x1024 .bf16 := iblk2 (F := Ideal) V c 1 t
/-- and its block of the bias (the whole row). -/
abbrev gcn2_biasBlk (c : Dev nD) (t : Fin cfg2.N) : Vec Ideal S1x1024 .f32 := iblk2 (F := Ideal) V c 2 t

/-- The printed index maps and the body's row offset over the grid: the adjacency block is (t / 16, t % 16); the support
    and the bias row are whole; the output block is row block t / 16; the support rows the body reads start at row
    (t % 16) · 512. -/
theorem gcn2_idx : ∀ t : Fin cfg2.N,
    win2_0.index t (0 : Fin 2) = t.val / 16 ∧ win2_0.index t (1 : Fin 2) = t.val % 16
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val / 16 ∧ win2_3.index t (1 : Fin 2) = 0
    ∧ k2_off1 (grid2.coords t) (0 : Fin 2) = t.val % 16 * 512 ∧ k2_off1 (grid2.coords t) (1 : Fin 2) = 0 :=
  (by decide +kernel : ∀ t : Fin grid2.N, _)

/-- The number of grid points. -/
theorem gcn2_N : cfg2.N = 128 := N_2

/-- Entry (p, e) of point t's adjacency block is entry ((t / 16) · 1024 + p, (t % 16) · 512 + e) of the adjacency matrix. -/
theorem gcn2_adj_at (c : Dev nD) (t : Fin cfg2.N) (p : Fin 1024) (e : Fin 512)
    (hr : t.val / 16 * 1024 + p.val < 8192) (he : t.val % 16 * 512 + e.val < 8192) :
    gcn2_adjBlk V c t (ix2 p e) = (V c main_arg2 : Cert.Spec.Mat 8192 8192) (ix2 ⟨t.val / 16 * 1024 + p.val, hr⟩ ⟨t.val % 16 * 512 + e.val, he⟩) := by
  obtain ⟨e0, e1, -⟩ := gcn2_idx t
  refine congrArg (V c main_arg2) ?_
  funext a; apply Fin.ext
  match a with
  | ⟨0, _⟩ => show win2_0.index t (0 : Fin 2) * 1024 + 1 * p.val = t.val / 16 * 1024 + p.val; omega
  | ⟨1, _⟩ => show win2_0.index t (1 : Fin 2) * 512 + 1 * e.val = t.val % 16 * 512 + e.val; omega

/-- Entry (e, q) of the support rows point t's contraction block meets is entry ((t % 16) · 512 + e, q) of the support. -/
theorem gcn2_sup_at (c : Dev nD) (t : Fin cfg2.N) (e : Fin 512) (q : Fin 1024)
    (he : t.val % 16 * 512 + e.val < 8192) :
    gcn2_supRows (F := Ideal) (grid2.coords t) (gcn2_supBlk V c t) (ix2 e q)
      = (V c main_v2 : Cert.Spec.Mat 8192 1024) (ix2 ⟨t.val % 16 * 512 + e.val, he⟩ q) := by
  obtain ⟨-, -, e2, e3, -, -, -, -, e8, e9⟩ := gcn2_idx t
  refine congrArg (V c main_v2) ?_
  funext a; apply Fin.ext
  match a with
  | ⟨0, _⟩ => show win2_1.index t (0 : Fin 2) * 8192 + 1 * (k2_off1 (grid2.coords t) (0 : Fin 2) + 1 * e.val) = t.val % 16 * 512 + e.val; omega
  | ⟨1, _⟩ => show win2_1.index t (1 : Fin 2) * 1024 + 1 * (k2_off1 (grid2.coords t) (1 : Fin 2) + 1 * q.val) = q.val; omega

/-- Entry (0, q) of point t's bias block is entry (0, q) of the bias row. -/
theorem gcn2_bias_at (c : Dev nD) (t : Fin cfg2.N) (q : Fin 1024) :
    gcn2_biasBlk V c t (ix2 (0 : Fin 1) q) = (V c main_v4 : Cert.Spec.Mat 1 1024) (ix2 (0 : Fin 1) q) := by
  obtain ⟨-, -, -, -, e4, e5, -⟩ := gcn2_idx t
  refine congrArg (V c main_v4) ?_
  funext a; apply Fin.ext
  match a with
  | ⟨0, _⟩ => show win2_2.index t (0 : Fin 2) * 1 + 1 * 0 = 0; omega
  | ⟨1, _⟩ => show win2_2.index t (1 : Fin 2) * 1024 + 1 * q.val = q.val; omega

/-- The terms of row (n / 16) · 1024 + p of the product, column q, over the contracted coordinate. -/
abbrev gcn2_f (c : Dev nD) (n : ℕ) (p : Fin 1024) (q : Fin 1024) : ℕ → EReal :=
  Cert.Spec.termN (V c main_arg2 : Cert.Spec.Mat 8192 8192) (V c main_v2 : Cert.Spec.Mat 8192 1024) (n / 16 * 1024 + p.val) q

/-- The product of entry (p, e) of point t's adjacency block with entry (e, q) of the support rows it meets is the term
    of the whole product at row (t / 16) · 1024 + p, contracted coordinate (t % 16) · 512 + e, column q. -/
theorem gcn2_term (c : Dev nD) (t : Fin cfg2.N) (p : Fin 1024) (q : Fin 1024) (e : Fin 512) :
    gcn2_adjBlk V c t (ix2 p e) * gcn2_supRows (F := Ideal) (grid2.coords t) (gcn2_supBlk V c t) (ix2 e q)
      = gcn2_f V c t.val p q (t.val % 16 * 512 + e.val) := by
  have hN : t.val < 128 := lt_of_lt_of_eq t.isLt (gcn2_N)
  have hr : t.val / 16 * 1024 + p.val < 8192 := by omega
  have he : t.val % 16 * 512 + e.val < 8192 := by omega
  rw [gcn2_adj_at V c t p e hr he, gcn2_sup_at V c t e q he]
  exact (Cert.Spec.termN_of_lt (V c main_arg2 : Cert.Spec.Mat 8192 8192) (V c main_v2 : Cert.Spec.Mat 8192 1024) (t.val / 16 * 1024 + p.val) q (t.val % 16 * 512 + e.val) hr he).symm

/-! ## The accumulator after each point -/

/-- At a first contraction block the accumulator is the zero block plus the block's product. -/
theorem gcn2_scr_first (c : Dev nD) (t : Fin cfg2.N) (h0 : t.val % 16 = 0) :
    (outsAt2 (F := Ideal) V c t.val t.isLt).2
      = k2_pay2 (gcn2_adjBlk V c t) (gcn2_supRows (grid2.coords t) (gcn2_supBlk V c t)) (k2_pay1 (F := Ideal)) := by
  have h1 : ¬t.val % 16 = 15 := by omega
  rw [outsAt2_A (F := Ideal) V c t h0 h1]
  dsimp only
  rw [gcn2_sout_A]

/-- At a later contraction block the accumulator is what the point before left plus the block's product. -/
theorem gcn2_scr_next (c : Dev nD) (t : Fin cfg2.N) (h0 : ¬t.val % 16 = 0) :
    (outsAt2 (F := Ideal) V c t.val t.isLt).2
      = k2_pay2 (gcn2_adjBlk V c t) (gcn2_supRows (grid2.coords t) (gcn2_supBlk V c t))
          (outsAt2 (F := Ideal) V c (t.val - 1) (Nat.lt_of_le_of_lt (Nat.sub_le _ _) t.isLt)).2 := by
  by_cases h1 : t.val % 16 = 15
  · rw [outsAt2_C (F := Ideal) V c t h0 h1]
    dsimp only
    rw [gcn2_sout_C]
  · rw [outsAt2_B (F := Ideal) V c t h0 h1]
    dsimp only
    rw [gcn2_sout_B]

/-- After the last contraction block the output block is finished from the accumulator the point leaves and the bias row. -/
theorem gcn2_out_last (c : Dev nD) (t : Fin cfg2.N) (h1 : t.val % 16 = 15) :
    (outsAt2 (F := Ideal) V c t.val t.isLt).1
      = k2_pay3 (outsAt2 (F := Ideal) V c t.val t.isLt).2 (gcn2_biasBlk V c t) := by
  have h0 : ¬t.val % 16 = 0 := by omega
  rw [outsAt2_C (F := Ideal) V c t h0 h1]
  dsimp only
  rw [gcn2_sout_C, gcn2_out_C]

/-- THE RUNNING TOTAL.  After point n the accumulator's entry (p, q) is the running total, over the contraction blocks
    0 … n % 16, of the terms of row (n / 16) · 1024 + p, column q of the product. -/
theorem gcn2_acc (c : Dev nD) (p : Fin 1024) (q : Fin 1024) : ∀ (n : ℕ) (hn : n < cfg2.N),
    (outsAt2 (F := Ideal) V c n hn).2 (ix2 p q) = Cert.Spec.acc 512 (gcn2_f V c n p q) (n % 16) := by
  intro n
  induction n with
  | zero =>
    intro hn
    rw [gcn2_scr_first V c ⟨0, hn⟩ (Nat.zero_mod _)]
    refine (gcn2_step (gcn2_adjBlk V c ⟨0, hn⟩) (gcn2_supRows (grid2.coords ⟨0, hn⟩) (gcn2_supBlk V c ⟨0, hn⟩)) (k2_pay1 (F := Ideal))
      (gcn2_f V c 0 p q) (0 % 16) p q (gcn2_term V c ⟨0, hn⟩ p q)).trans ?_
    rw [k2_pay1_apply, Nat.zero_mod, Cert.Spec.acc_zero]
    simp only [Nat.zero_mul, Nat.zero_add]
  | succ n ih =>
    intro hn
    by_cases h0 : (n + 1) % 16 = 0
    · rw [gcn2_scr_first V c ⟨n + 1, hn⟩ h0]
      refine (gcn2_step (gcn2_adjBlk V c ⟨n + 1, hn⟩) (gcn2_supRows (grid2.coords ⟨n + 1, hn⟩) (gcn2_supBlk V c ⟨n + 1, hn⟩)) (k2_pay1 (F := Ideal))
        (gcn2_f V c (n + 1) p q) ((n + 1) % 16) p q (gcn2_term V c ⟨n + 1, hn⟩ p q)).trans ?_
      rw [k2_pay1_apply, h0, Cert.Spec.acc_zero]
      simp only [Nat.zero_mul, Nat.zero_add]
    · have hq : (n + 1) / 16 = n / 16 := by omega
      have hr : (n + 1) % 16 = n % 16 + 1 := by omega
      rw [gcn2_scr_next V c ⟨n + 1, hn⟩ h0]
      refine (gcn2_step (gcn2_adjBlk V c ⟨n + 1, hn⟩) (gcn2_supRows (grid2.coords ⟨n + 1, hn⟩) (gcn2_supBlk V c ⟨n + 1, hn⟩))
        (outsAt2 (F := Ideal) V c n (Nat.lt_of_succ_lt hn)).2
        (gcn2_f V c (n + 1) p q) ((n + 1) % 16) p q (gcn2_term V c ⟨n + 1, hn⟩ p q)).trans ?_
      rw [ih (Nat.lt_of_succ_lt hn)]
      unfold gcn2_f
      rw [hq, hr, Cert.Spec.acc_succ]

/-! ## The output block at the points that write it back, and the whole array -/

/-- The region's result as one function of the whole arrays: the product adj · support plus the bias of its column, rectified. -/
abbrev gcn2_G (c : Dev nD) : Cert.Spec.Mat 8192 1024 := fun i =>
  Cert.Spec.relu0 (Cert.Spec.mm (V c main_arg2 : Cert.Spec.Mat 8192 8192) (V c main_v2 : Cert.Spec.Mat 8192 1024) (i 0) (i 1) + (V c main_v4 : Cert.Spec.Mat 1 1024) (ix2 (0 : Fin 1) (i 1)))

/-- Entry (p, q) of the output block after the last contraction block of row block t / 16. -/
theorem gcn2_out_at (c : Dev nD) (t : Fin cfg2.N) (h1 : t.val % 16 = 15) (p : Fin 1024) (q : Fin 1024)
    (hr : t.val / 16 * 1024 + p.val < 8192) :
    (outsAt2 (F := Ideal) V c t.val t.isLt).1 (ix2 p q) = Cert.Spec.relu0 (Cert.Spec.mm (V c main_arg2 : Cert.Spec.Mat 8192 8192) (V c main_v2 : Cert.Spec.Mat 8192 1024) ⟨t.val / 16 * 1024 + p.val, hr⟩ q + (V c main_v4 : Cert.Spec.Mat 1 1024) (ValueIdx.ix2 (0 : Fin 1) q)) := by
  rw [gcn2_out_last V c t h1]
  refine (k2_pay3_apply (outsAt2 (F := Ideal) V c t.val t.isLt).2 (gcn2_biasBlk V c t) p q).trans ?_
  rw [gcn2_acc V c p q t.val t.isLt, h1, gcn2_bias_at V c t q,
    Cert.Spec.mm_eq_acc 15 512 rfl (V c main_arg2 : Cert.Spec.Mat 8192 8192) (V c main_v2 : Cert.Spec.Mat 8192 1024) ⟨t.val / 16 * 1024 + p.val, hr⟩ q]
  rfl

/-- What a point after the last contraction block writes back is its block of that function. -/
theorem gcn2_flushed (c : Dev nD) (t : Fin cfg2.N) (hf : (cfg2.win 3).flush t = true) :
    (dats2 (F := Ideal) V c).flushed 3 t = ((cfg2.win 3).blk t).view.read (Elt Ideal) (gcn2_G V c) := by
  have h1 : t.val % 16 = 15 := (flush2_3 t).mp hf
  have hN : t.val < 128 := lt_of_lt_of_eq t.isLt (gcn2_N)
  obtain ⟨-, -, -, -, -, -, e6, e7, -⟩ := gcn2_idx t
  show (cfg2.win 3).cut (grid2.coords t) ((dats2 (F := Ideal) V c).after 3 t) = _
  rw [after2_3]
  funext j
  obtain ⟨p, q, rfl⟩ : ∃ (p : Fin 1024) (q : Fin 1024), j = ix2 p q := ⟨j 0, j 1, eq_ix2 j⟩
  have hr : t.val / 16 * 1024 + p.val < 8192 := by omega
  have hemb : ((cfg2.win 3).blk t).view.emb (ix2 p q) = ix2 (⟨t.val / 16 * 1024 + p.val, hr⟩ : Fin 8192) q := by
    funext a; apply Fin.ext
    match a with
    | ⟨0, _⟩ => show win2_3.index t (0 : Fin 2) * 1024 + 1 * p.val = t.val / 16 * 1024 + p.val; rw [e6]; omega
    | ⟨1, _⟩ => show win2_3.index t (1 : Fin 2) * 1024 + 1 * q.val = q.val; rw [e7]; omega
  refine (gcn2_out_at V c t h1 p q hr).trans ?_
  show _ = gcn2_G V c (((cfg2.win 3).blk t).view.emb (ix2 p q))
  rw [hemb]

/-- An index of the output array is in point `t`'s block iff each coordinate is in the block's range on its axis. -/
theorem gcn2_mem_blk (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v5).slice (win2_3.rect t)).set ↔ _
  rw [View.set_slice_whole, Rect.mem_set_unit]
  exact Iff.rfl

/-- Every index of the output array is in the block written back after the last contraction block of its row block. -/
theorem gcn2_covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 128 := gcn2_N
  have ht : (i 0).val / 1024 * 16 + 15 < cfg2.N := by rw [hN]; omega
  obtain ⟨-, -, -, -, -, -, e6, e7, -⟩ := gcn2_idx ⟨(i 0).val / 1024 * 16 + 15, ht⟩
  refine ⟨⟨(i 0).val / 1024 * 16 + 15, ht⟩, (flush2_3 _).mpr (by show ((i 0).val / 1024 * 16 + 15) % 16 = 15; omega), ?_⟩
  rw [gcn2_mem_blk]
  intro a
  match a with
  | ⟨0, _⟩ =>
    show win2_3.index _ (0 : Fin 2) * 1024 ≤ (i 0).val ∧ (i 0).val < win2_3.index _ (0 : Fin 2) * 1024 + 1024
    rw [e6]
    show ((i 0).val / 1024 * 16 + 15) / 16 * 1024 ≤ (i 0).val ∧ (i 0).val < ((i 0).val / 1024 * 16 + 15) / 16 * 1024 + 1024
    omega
  | ⟨1, _⟩ =>
    show win2_3.index _ (1 : Fin 2) * 1024 ≤ (i 1).val ∧ (i 1).val < win2_3.index _ (1 : Fin 2) * 1024 + 1024
    rw [e7]; omega

/-- The output array after the region's run is that function. -/
theorem gcn2_final (c : Dev nD) : (dats2 (F := Ideal) V c).arrAt 3 cfg2.N = gcn2_G V c :=
  (dats2 (F := Ideal) V c).arrAt_eq_of_cover 3 (gcn2_G V c) (fun t hf => gcn2_flushed V c t hf) gcn2_covered

/-- Entry (r, j) of the output array after the region's run. -/
theorem arrAt2 (c : Dev nD) (r : Fin 8192) (j : Fin 1024) :
    ((dats2 (F := Ideal) V c).arrAt 3 cfg2.N : Cert.Spec.Mat 8192 1024) (ValueIdx.ix2 r j)
      = Cert.Spec.relu0 (Cert.Spec.mm (V c main_arg2 : Cert.Spec.Mat 8192 8192) (V c main_v2 : Cert.Spec.Mat 8192 1024) r j + (V c main_v4 : Cert.Spec.Mat 1 1024) (ValueIdx.ix2 (0 : Fin 1) j)) := by
  rw [gcn2_final]

end Cert.KernelIdeal.Gen

end
-- ==== Proof.GcnPay3.lean ====
/-
  The arithmetic of one grid point of the second graph-convolution product, read entry by entry on the extended reals.

  At a grid point the accumulator block (1024 rows, 512 columns) is first the zero block (at the first contraction
  block), then at every contraction block it gains the product of the 1024 × 1024 block of the adjacency matrix with
  the matching 1024 rows of the support; after the last contraction block the output block is the accumulator plus
  the bias row, rectified.  On the extended reals a change of float format is the identity, so each entry is a plain
  finite sum of products.
-/
import proofs.«166906_j60567628808244_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-- The zero block: every entry is 0. -/
theorem k3_pay1_apply (p : Fin 1024) (q : Fin 512) : k3_pay1 (F := Ideal) (ix2 p q) = 0 := by
  unfold k3_pay1
  rw [shapeCast_self]
  exact Ideal.ofBits_zero_f32

/-- The printed contraction record is the plain product of a 1024 × 1024 by a 1024 × 512 matrix. -/
theorem k3_dot_eq : dot_S1024x1024_S1024x512_S1024x512_1_0_0_1_n_n = DotDims.plain 1024 1024 512 := rfl

/-- One accumulation step: the old entry plus the sum over the block's 1024 contracted columns. -/
theorem k3_pay2_apply (v3 : Vec Ideal S1024x1024 .f32) (v8 : Vec Ideal S1024x512 .bf16) (v10 : Vec Ideal S1024x512 .f32)
    (p : Fin 1024) (q : Fin 512) :
    k3_pay2 (F := Ideal) v3 v8 v10 (ix2 p q) = v10 (ix2 p q) + ∑ c : Fin 1024, v3 (ix2 p c) * v8 (ix2 c q) := by
  unfold k3_pay2
  rw [shapeCast_self, shapeCast_self]
  refine (addf_apply _ _ _).trans ?_
  congr 1
  rw [matmul_zero_eq_dotGeneral, k3_dot_eq]
  exact StackMember.dotGeneral_plain_apply none _ _ p q

/-- The finishing step: the accumulator entry plus the bias of its column, rectified. -/
theorem k3_pay3_apply (v19 : Vec Ideal S1024x512 .f32) (v20 : Vec Ideal S1x512 .f32) (p : Fin 1024) (q : Fin 512) :
    k3_pay3 (F := Ideal) v19 v20 (ix2 p q) = max (v19 (ix2 p q) + v20 (ix2 (0 : Fin 1) q)) 0 := by
  unfold k3_pay3
  rw [shapeCast_self]
  refine (maximumf_apply _ _ _).trans ?_
  congr 1
  · refine (addf_apply _ _ _).trans ?_
    congr 1
    refine broadcastTo_apply (s := S1x512) (t := S1024x512) v20 broadcasts_S1x512_S1024x512 (ix2 p q) (ix2 (0 : Fin 1) q) ?_
    intro a
    match a with
    | ⟨0, _⟩ => rfl
    | ⟨1, _⟩ => rfl
  · exact Ideal.ofBits_zero_f32

end Cert.KernelIdeal.Gen

end
-- ==== Proof.GcnPiece3.lean ====
/-
  What each case of the body of the second graph-convolution product leaves in the accumulator and in the output
  block, as the arithmetic of the blocks it is given: at the first contraction block the accumulator is the zero block
  plus the block's product, at a later one the accumulator before plus the block's product, and after the last one the
  output block is finished from the accumulator and the bias row.  The body reads 1024 rows of the whole support, those
  its contraction block meets.
-/
import proofs.«166906_j60567628808244_2_alg».proof.Proof.Gcn3Frame
import proofs.«166906_j60567628808244_2_alg».proof.Proof.GcnPay3
import Idealize.ShloMosaic.Lib.Pipeline.Value
import Idealize.ShloMosaic.Lib.KernelVsHost
import Idealize.ShloMosaic.Lib.StackMember
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

/-! ## What each case of the body leaves, as payloads of the blocks it is given -/

section Pieces

variable {F : FTy → Type} [FloatOps F]

/-- The zero offsets of a whole-buffer access, however spelt. -/
theorem gcn3_hz : (![0, 0] : Fin 2 → Nat) = fun _ => 0 := funext fun a => by fin_cases a <;> rfl

/-- The 1024 rows of the support that the contraction block at grid coordinates `i` meets, read out of the whole support. -/
def gcn3_supRows (i : grid3.Coords) (x1 : Vec F S8192x512 .bf16) : Vec F S1024x512 .bf16 :=
  View.ld x1 (Rect.unit (s := S8192x512) (k3_off1 i) S1024x512.size (k3_off1_inb i))

/-- At the first contraction block the accumulator is zeroed and then gains the block's product. -/
theorem gcn3_sout_A (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond3_0 i) (hc1 : ¬cond3_1 i)
    (x0 : Vec F S1024x1024 .f32) (x1 : Vec F S8192x512 .bf16) (x2 : Vec F S1x512 .f32) :
    sout3_A_0 c i arg2 harg2 arg3 harg3 arg4 harg4 arg5 harg5 arg6 harg6 hc0 hc1 x0 x1 x2 = k3_pay2 x0 (gcn3_supRows i x1) k3_pay1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_run_names
  rw [View.canon_cons_unit_zero (S := S1024x512) gcn3_hz, View.readCov_unit_zero (S := S1024x512) _ gcn3_hz]
  simp only [View.readAt_eq_ld, harg2.read_unread, harg3.read_unread,
    View.ld_unit_zero (S := S1024x1024) gcn3_hz]
  rfl

/-- At a middle contraction block the accumulator gains the block's product. -/
theorem gcn3_sout_B (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : ¬cond3_1 i)
    (x0 : Vec F S1024x1024 .f32) (x1 : Vec F S8192x512 .bf16) (x2 : Vec F S1x512 .f32) (xs0 : Vec F S1024x512 .f32) :
    sout3_B_0 c i arg2 harg2 arg3 harg3 arg4 harg4 arg5 harg5 arg6 harg6 hc0 hc1 x0 x1 x2 xs0 = k3_pay2 x0 (gcn3_supRows i x1) xs0 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  sl_unfold_run_names
  rw [View.canon_unit_zero gcn3_hz]
  simp only [View.readAt_eq_ld, harg2.read_unread, harg3.read_unread, harg6.read_unread,
    View.ld_unit_zero (S := S1024x1024) gcn3_hz, View.ld_unit_zero (S := S1024x512) gcn3_hz]
  rfl

/-- At the last contraction block the accumulator gains the block's product, -/
theorem gcn3_sout_C (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) :
    sout3_C_0 c i arg2 harg2 arg3 harg3 arg4 harg4 arg5 harg5 arg6 harg6 hc0 hc1 x0 x1 x2 xs0 = k3_pay2 x0 (gcn3_supRows i x1) xs0 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  sl_unfold_run_names
  rw [View.canon_unit_zero gcn3_hz]
  simp only [View.readAt_eq_ld, harg2.read_unread, harg3.read_unread, harg6.read_unread,
    View.ld_unit_zero (S := S1024x1024) gcn3_hz, View.ld_unit_zero (S := S1024x512) gcn3_hz]
  rfl

/-- and the output block is finished from the accumulator so updated and the bias row. -/
theorem gcn3_out_C (c : Dev nD) (i : grid3.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond3_0 i) (hc1 : cond3_1 i)
    (x0 : Vec F S1024x1024 .f32) (x1 : Vec F S8192x512 .bf16) (x2 : Vec F S1x512 .f32) (xs0 : Vec F S1024x512 .f32) :
    out3_C_3 c i arg2 harg2 arg3 harg3 arg4 harg4 arg5 harg5 arg6 harg6 hc0 hc1 x0 x1 x2 xs0 = k3_pay3 (k3_pay2 x0 (gcn3_supRows i x1) xs0) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_run_names
  rw [View.canon_unit_zero gcn3_hz, View.readCov_unit_zero (S := S1024x512) _ gcn3_hz]
  simp only [View.readAt_eq_ld, harg2.read_unread, harg3.read_unread, harg4.read_unread, harg6.read_unread,
    View.ld_unit_zero (S := S1024x1024) gcn3_hz, View.ld_unit_zero (S := S1024x512) gcn3_hz, View.ld_unit_zero (S := S1x512) gcn3_hz]
  rfl

end Pieces

/-! ## One accumulation step at an entry, over any blocks -/

/-- If the products of the adjacency block's row p with the support rows' column q are the terms f(k · 1024 + e) of a
    sum, the accumulation step adds those 1024 terms to the old entry. -/
theorem gcn3_step (x0 : Vec Ideal S1024x1024 .f32) (xr : Vec Ideal S1024x512 .bf16) (xs0 : Vec Ideal S1024x512 .f32)
    (f : ℕ → EReal) (k : ℕ) (p : Fin 1024) (q : Fin 512)
    (hterm : ∀ e : Fin 1024, x0 (ix2 p e) * xr (ix2 e q) = f (k * 1024 + e.val)) :
    k3_pay2 (F := Ideal) x0 xr xs0 (ix2 p q) = xs0 (ix2 p q) + ∑ e : Fin 1024, f (k * 1024 + e.val) := by
  rw [k3_pay2_apply]
  exact congrArg (xs0 (ix2 p q) + ·) (Finset.sum_congr rfl fun e _ => hterm e)

end Cert.KernelIdeal.Gen

end
-- ==== Proof.GcnVal3.lean ====
/-
  What the second graph-convolution product leaves in its output array, on the extended reals.

  The grid walks 8 row blocks of 1024 rows and, inside each, 8 contraction blocks of 1024 columns of the adjacency matrix;
  point t is row block t / 8, contraction block t % 8.  The accumulator carried from point to point holds, after
  point t, the running total of the terms adj(r, e) · support(e, j) over the contraction blocks 0 … t % 8 of its row
  block, taken block after block from zero: at the first contraction block the zero block plus that block's terms, at
  every later one the total before plus that block's terms.  After the last contraction block the total is the whole
  entry of the product adj · support, and the output block receives it plus the bias of its column, rectified.
  The output blocks written after the last contraction block of each row block are the blocks of ONE function of the
  whole arrays, and the 8 row blocks cover the output array (row r lies in row block r / 1024).
-/
import proofs.«166906_j60567628808244_2_alg».proof.Proof.GcnPiece3
import proofs.«166906_j60567628808244_2_alg».proof.Proof.GcnAcc

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

variable (V : (c : Dev nD) → (b : Ref sig .tc) → Buf (Elt Ideal) ((c : Thread nD τ).loc b))

/-! ## The blocks a point is given, and where they sit in their arrays -/

/-- Point t's block of the adjacency matrix, -/
abbrev gcn3_adjBlk (c : Dev nD) (t : Fin cfg3.N) : Vec Ideal S1024x1024 .f32 := iblk3 (F := Ideal) V c 0 t
/-- its block of the support (the whole support), -/
abbrev gcn3_supBlk (c : Dev nD) (t : Fin cfg3.N) : Vec Ideal S8192x512 .bf16 := iblk3 (F := Ideal) V c 1 t
/-- and its block of the bias (the whole row). -/
abbrev gcn3_biasBlk (c : Dev nD) (t : Fin cfg3.N) : Vec Ideal S1x512 .f32 := iblk3 (F := Ideal) V c 2 t

/-- The printed index maps over the grid: the adjacency block is (t / 8, t % 8); the support and the bias row are whole;
    the output block is row block t / 8; the contraction coordinate of point t is t % 8. -/
theorem gcn3_idx : ∀ t : Fin cfg3.N, win3_0.index t (0 : Fin 2) = t.val / 8 ∧ win3_0.index t (1 : Fin 2) = t.val % 8
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0
    ∧ ((grid3.coords t) 1).val = t.val % 8 :=
  (by decide +kernel : ∀ t : Fin grid3.N, _)

/-- The number of grid points. -/
theorem gcn3_N : cfg3.N = 64 := N_3

/-- Entry (p, e) of point t's adjacency block is entry ((t / 8) · 1024 + p, (t % 8) · 1024 + e) of the adjacency matrix. -/
theorem gcn3_adj_at (c : Dev nD) (t : Fin cfg3.N) (p : Fin 1024) (e : Fin 1024)
    (hr : t.val / 8 * 1024 + p.val < 8192) (he : t.val % 8 * 1024 + e.val < 8192) :
    gcn3_adjBlk V c t (ix2 p e) = (V c main_arg3 : Cert.Spec.Mat 8192 8192) (ix2 ⟨t.val / 8 * 1024 + p.val, hr⟩ ⟨t.val % 8 * 1024 + e.val, he⟩) := by
  obtain ⟨e0, e1, e2, e3, e4, e5, e6, e7, e8⟩ := gcn3_idx t
  show (V c main_arg3 : Cert.Spec.Mat 8192 8192) (((cfg3.win 0).blk t).view.emb (ix2 p e)) = _
  refine congrArg _ (funext fun a => Fin.ext ?_)
  match a with
  | ⟨0, _⟩ => show win3_0.index t (0 : Fin 2) * 1024 + 1 * p.val = t.val / 8 * 1024 + p.val; rw [e0]; omega
  | ⟨1, _⟩ => show win3_0.index t (1 : Fin 2) * 1024 + 1 * e.val = t.val % 8 * 1024 + e.val; rw [e1]; omega

/-- Entry (e, q) of the support rows point t's contraction block meets is entry ((t % 8) · 1024 + e, q) of the support. -/
theorem gcn3_sup_at (c : Dev nD) (t : Fin cfg3.N) (e : Fin 1024) (q : Fin 512)
    (he : t.val % 8 * 1024 + e.val < 8192) :
    gcn3_supRows (F := Ideal) (grid3.coords t) (gcn3_supBlk V c t) (ix2 e q)
      = (V c main_v0 : Cert.Spec.Mat 8192 512) (ix2 ⟨t.val % 8 * 1024 + e.val, he⟩ q) := by
  obtain ⟨e0, e1, e2, e3, e4, e5, e6, e7, e8⟩ := gcn3_idx t
  have hoff := k3_off1_eq (grid3.coords t)
  show (V c main_v0 : Cert.Spec.Mat 8192 512) (((cfg3.win 1).blk t).view.emb
      ((Rect.unit (s := S8192x512) (k3_off1 (grid3.coords t)) S1024x512.size (k3_off1_inb (grid3.coords t))).idx (ix2 e q))) = _
  refine congrArg _ (funext fun a => Fin.ext ?_)
  match a with
  | ⟨0, _⟩ =>
    show win3_1.index t (0 : Fin 2) * 8192 + 1 * (k3_off1 (grid3.coords t) 0 + 1 * e.val) = t.val % 8 * 1024 + e.val
    rw [e2, hoff]
    show 0 * 8192 + 1 * (1024 * ((grid3.coords t) 1).val + 1 * e.val) = t.val % 8 * 1024 + e.val
    rw [e8]; omega
  | ⟨1, _⟩ =>
    show win3_1.index t (1 : Fin 2) * 512 + 1 * (k3_off1 (grid3.coords t) 1 + 1 * q.val) = q.val
    rw [e3, hoff]
    show 0 * 512 + 1 * (0 + 1 * q.val) = q.val
    omega

/-- Entry (0, q) of point t's bias block is entry (0, q) of the bias row. -/
theorem gcn3_bias_at (c : Dev nD) (t : Fin cfg3.N) (q : Fin 512) :
    gcn3_biasBlk V c t (ix2 (0 : Fin 1) q) = (V c main_v8 : Cert.Spec.Mat 1 512) (ix2 (0 : Fin 1) q) := by
  obtain ⟨e0, e1, e2, e3, e4, e5, e6, e7, e8⟩ := gcn3_idx t
  show (V c main_v8 : Cert.Spec.Mat 1 512) (((cfg3.win 2).blk t).view.emb (ix2 (0 : Fin 1) q)) = _
  refine congrArg _ (funext fun a => Fin.ext ?_)
  match a with
  | ⟨0, _⟩ => show win3_2.index t (0 : Fin 2) * 1 + 1 * 0 = 0; rw [e4]
  | ⟨1, _⟩ => show win3_2.index t (1 : Fin 2) * 512 + 1 * q.val = q.val; rw [e5]; omega

/-- The terms of row (n / 8) · 1024 + p of the product, column q, over the contracted coordinate. -/
abbrev gcn3_f (c : Dev nD) (n : ℕ) (p : Fin 1024) (q : Fin 512) : ℕ → EReal :=
  Cert.Spec.termN (V c main_arg3 : Cert.Spec.Mat 8192 8192) (V c main_v0 : Cert.Spec.Mat 8192 512) (n / 8 * 1024 + p.val) q

/-- The product of entry (p, e) of point t's adjacency block with entry (e, q) of the support rows it meets is the term
    of the whole product at row (t / 8) · 1024 + p, contracted coordinate (t % 8) · 1024 + e, column q. -/
theorem gcn3_term (c : Dev nD) (t : Fin cfg3.N) (p : Fin 1024) (q : Fin 512) (e : Fin 1024) :
    gcn3_adjBlk V c t (ix2 p e) * gcn3_supRows (F := Ideal) (grid3.coords t) (gcn3_supBlk V c t) (ix2 e q)
      = gcn3_f V c t.val p q (t.val % 8 * 1024 + e.val) := by
  have hN : t.val < 64 := lt_of_lt_of_eq t.isLt (gcn3_N)
  have hr : t.val / 8 * 1024 + p.val < 8192 := by omega
  have he : t.val % 8 * 1024 + e.val < 8192 := by omega
  rw [gcn3_adj_at V c t p e hr he, gcn3_sup_at V c t e q he]
  exact (Cert.Spec.termN_of_lt (V c main_arg3 : Cert.Spec.Mat 8192 8192) (V c main_v0 : Cert.Spec.Mat 8192 512) (t.val / 8 * 1024 + p.val) q (t.val % 8 * 1024 + e.val) hr he).symm

/-! ## The accumulator after each point -/

/-- At a first contraction block the accumulator is the zero block plus the block's product. -/
theorem gcn3_scr_first (c : Dev nD) (t : Fin cfg3.N) (h0 : t.val % 8 = 0) :
    (outsAt3 (F := Ideal) V c t.val t.isLt).2
      = k3_pay2 (gcn3_adjBlk V c t) (gcn3_supRows (grid3.coords t) (gcn3_supBlk V c t)) (k3_pay1 (F := Ideal)) := by
  have h1 : ¬t.val % 8 = 7 := by omega
  rw [outsAt3_A (F := Ideal) V c t h0 h1]
  dsimp only
  rw [gcn3_sout_A]

/-- At a later contraction block the accumulator is what the point before left plus the block's product. -/
theorem gcn3_scr_next (c : Dev nD) (t : Fin cfg3.N) (h0 : ¬t.val % 8 = 0) :
    (outsAt3 (F := Ideal) V c t.val t.isLt).2
      = k3_pay2 (gcn3_adjBlk V c t) (gcn3_supRows (grid3.coords t) (gcn3_supBlk V c t))
          (outsAt3 (F := Ideal) V c (t.val - 1) (Nat.lt_of_le_of_lt (Nat.sub_le _ _) t.isLt)).2 := by
  by_cases h1 : t.val % 8 = 7
  · rw [outsAt3_C (F := Ideal) V c t h0 h1]
    dsimp only
    rw [gcn3_sout_C]
  · rw [outsAt3_B (F := Ideal) V c t h0 h1]
    dsimp only
    rw [gcn3_sout_B]

/-- After the last contraction block the output block is finished from the accumulator the point leaves and the bias row. -/
theorem gcn3_out_last (c : Dev nD) (t : Fin cfg3.N) (h1 : t.val % 8 = 7) :
    (outsAt3 (F := Ideal) V c t.val t.isLt).1
      = k3_pay3 (outsAt3 (F := Ideal) V c t.val t.isLt).2 (gcn3_biasBlk V c t) := by
  have h0 : ¬t.val % 8 = 0 := by omega
  rw [outsAt3_C (F := Ideal) V c t h0 h1]
  dsimp only
  rw [gcn3_sout_C, gcn3_out_C]

/-- THE RUNNING TOTAL.  After point n the accumulator's entry (p, q) is the running total, over the contraction blocks
    0 … n % 8, of the terms of row (n / 8) · 1024 + p, column q of the product. -/
theorem gcn3_acc (c : Dev nD) (p : Fin 1024) (q : Fin 512) : ∀ (n : ℕ) (hn : n < cfg3.N),
    (outsAt3 (F := Ideal) V c n hn).2 (ix2 p q) = Cert.Spec.acc 1024 (gcn3_f V c n p q) (n % 8) := by
  intro n
  induction n with
  | zero =>
    intro hn
    rw [gcn3_scr_first V c ⟨0, hn⟩ (Nat.zero_mod _)]
    refine (gcn3_step (gcn3_adjBlk V c ⟨0, hn⟩) (gcn3_supRows (grid3.coords ⟨0, hn⟩) (gcn3_supBlk V c ⟨0, hn⟩)) (k3_pay1 (F := Ideal))
      (gcn3_f V c 0 p q) (0 % 8) p q (gcn3_term V c ⟨0, hn⟩ p q)).trans ?_
    rw [k3_pay1_apply, Nat.zero_mod, Cert.Spec.acc_zero]
    simp only [Nat.zero_mul, Nat.zero_add]
  | succ n ih =>
    intro hn
    by_cases h0 : (n + 1) % 8 = 0
    · rw [gcn3_scr_first V c ⟨n + 1, hn⟩ h0]
      refine (gcn3_step (gcn3_adjBlk V c ⟨n + 1, hn⟩) (gcn3_supRows (grid3.coords ⟨n + 1, hn⟩) (gcn3_supBlk V c ⟨n + 1, hn⟩)) (k3_pay1 (F := Ideal))
        (gcn3_f V c (n + 1) p q) ((n + 1) % 8) p q (gcn3_term V c ⟨n + 1, hn⟩ p q)).trans ?_
      rw [k3_pay1_apply, h0, Cert.Spec.acc_zero]
      simp only [Nat.zero_mul, Nat.zero_add]
    · have hq : (n + 1) / 8 = n / 8 := by omega
      have hr : (n + 1) % 8 = n % 8 + 1 := by omega
      rw [gcn3_scr_next V c ⟨n + 1, hn⟩ h0]
      refine (gcn3_step (gcn3_adjBlk V c ⟨n + 1, hn⟩) (gcn3_supRows (grid3.coords ⟨n + 1, hn⟩) (gcn3_supBlk V c ⟨n + 1, hn⟩))
        (outsAt3 (F := Ideal) V c n (Nat.lt_of_succ_lt hn)).2
        (gcn3_f V c (n + 1) p q) ((n + 1) % 8) p q (gcn3_term V c ⟨n + 1, hn⟩ p q)).trans ?_
      rw [ih (Nat.lt_of_succ_lt hn)]
      unfold gcn3_f
      rw [hq, hr, Cert.Spec.acc_succ]

/-! ## The output block at the points that write it back, and the whole array -/

/-- The region's result as one function of the whole arrays: the product adj · support plus the bias of its column, rectified. -/
abbrev gcn3_G (c : Dev nD) : Cert.Spec.Mat 8192 512 := fun i =>
  Cert.Spec.relu0 (Cert.Spec.mm (V c main_arg3 : Cert.Spec.Mat 8192 8192) (V c main_v0 : Cert.Spec.Mat 8192 512) (i 0) (i 1) + (V c main_v8 : Cert.Spec.Mat 1 512) (ix2 (0 : Fin 1) (i 1)))

/-- Entry (p, q) of the output block after the last contraction block of row block t / 8. -/
theorem gcn3_out_at (c : Dev nD) (t : Fin cfg3.N) (h1 : t.val % 8 = 7) (p : Fin 1024) (q : Fin 512)
    (hr : t.val / 8 * 1024 + p.val < 8192) :
    (outsAt3 (F := Ideal) V c t.val t.isLt).1 (ix2 p q) = Cert.Spec.relu0 (Cert.Spec.mm (V c main_arg3 : Cert.Spec.Mat 8192 8192) (V c main_v0 : Cert.Spec.Mat 8192 512) ⟨t.val / 8 * 1024 + p.val, hr⟩ q + (V c main_v8 : Cert.Spec.Mat 1 512) (ValueIdx.ix2 (0 : Fin 1) q)) := by
  rw [gcn3_out_last V c t h1]
  refine (k3_pay3_apply (outsAt3 (F := Ideal) V c t.val t.isLt).2 (gcn3_biasBlk V c t) p q).trans ?_
  rw [gcn3_acc V c p q t.val t.isLt, h1, gcn3_bias_at V c t q,
    Cert.Spec.mm_eq_acc 7 1024 rfl (V c main_arg3 : Cert.Spec.Mat 8192 8192) (V c main_v0 : Cert.Spec.Mat 8192 512) ⟨t.val / 8 * 1024 + p.val, hr⟩ q]
  rfl

/-- What a point after the last contraction block writes back is its block of that function. -/
theorem gcn3_flushed (c : Dev nD) (t : Fin cfg3.N) (hf : (cfg3.win 3).flush t = true) :
    (dats3 (F := Ideal) V c).flushed 3 t = ((cfg3.win 3).blk t).view.read (Elt Ideal) (gcn3_G V c) := by
  have h1 : t.val % 8 = 7 := (flush3_3 t).mp hf
  have hN : t.val < 64 := lt_of_lt_of_eq t.isLt (gcn3_N)
  obtain ⟨e0, e1, e2, e3, e4, e5, e6, e7, e8⟩ := gcn3_idx t
  show (cfg3.win 3).cut (grid3.coords t) ((dats3 (F := Ideal) V c).after 3 t) = _
  rw [after3_3]
  funext j
  obtain ⟨p, q, rfl⟩ : ∃ (p : Fin 1024) (q : Fin 512), j = ix2 p q := ⟨j 0, j 1, eq_ix2 j⟩
  have hr : t.val / 8 * 1024 + p.val < 8192 := by omega
  have hemb : ((cfg3.win 3).blk t).view.emb (ix2 p q) = ix2 (⟨t.val / 8 * 1024 + p.val, hr⟩ : Fin 8192) q := by
    funext a; apply Fin.ext
    match a with
    | ⟨0, _⟩ => show win3_3.index t (0 : Fin 2) * 1024 + 1 * p.val = t.val / 8 * 1024 + p.val; rw [e6]; omega
    | ⟨1, _⟩ => show win3_3.index t (1 : Fin 2) * 512 + 1 * q.val = q.val; rw [e7]; omega
  refine (gcn3_out_at V c t h1 p q hr).trans ?_
  show _ = gcn3_G V c (((cfg3.win 3).blk t).view.emb (ix2 p q))
  rw [hemb]

/-- An index of the output array is in point `t`'s block iff each coordinate is in the block's range on its axis. -/
theorem gcn3_mem_blk (t : Fin cfg3.N) (i : S8192x512.Idx) :
    i ∈ ((cfg3.win 3).blk t).view.set ↔ ∀ a : Fin 2, win3_3.index t a * S1024x512.size a ≤ (i a).val ∧ (i a).val < win3_3.index t a * S1024x512.size a + S1024x512.size a := by
  show i ∈ ((View.whole main_v9).slice (win3_3.rect t)).set ↔ _
  rw [View.set_slice_whole, Rect.mem_set_unit]
  exact Iff.rfl

/-- Every index of the output array is in the block written back after the last contraction block of its row block. -/
theorem gcn3_covered (i : S8192x512.Idx) :
    ∃ t : Fin cfg3.N, (cfg3.win 3).flush t = true ∧ i ∈ ((cfg3.win 3).blk t).view.set := by
  have hi0 : (i 0).val < 8192 := (i 0).isLt
  have hi1 : (i 1).val < 512 := (i 1).isLt
  have hN : cfg3.N = 64 := gcn3_N
  have ht : (i 0).val / 1024 * 8 + 7 < cfg3.N := by rw [hN]; omega
  obtain ⟨e0, e1, e2, e3, e4, e5, e6, e7, e8⟩ := gcn3_idx ⟨(i 0).val / 1024 * 8 + 7, ht⟩
  refine ⟨⟨(i 0).val / 1024 * 8 + 7, ht⟩, (flush3_3 _).mpr (by show ((i 0).val / 1024 * 8 + 7) % 8 = 7; omega), ?_⟩
  rw [gcn3_mem_blk]
  intro a
  match a with
  | ⟨0, _⟩ =>
    show win3_3.index _ (0 : Fin 2) * 1024 ≤ (i 0).val ∧ (i 0).val < win3_3.index _ (0 : Fin 2) * 1024 + 1024
    rw [e6]
    show ((i 0).val / 1024 * 8 + 7) / 8 * 1024 ≤ (i 0).val ∧ (i 0).val < ((i 0).val / 1024 * 8 + 7) / 8 * 1024 + 1024
    omega
  | ⟨1, _⟩ =>
    show win3_3.index _ (1 : Fin 2) * 512 ≤ (i 1).val ∧ (i 1).val < win3_3.index _ (1 : Fin 2) * 512 + 512
    rw [e7]; omega

/-- The output array after the region's run is that function. -/
theorem gcn3_final (c : Dev nD) : (dats3 (F := Ideal) V c).arrAt 3 cfg3.N = gcn3_G V c :=
  (dats3 (F := Ideal) V c).arrAt_eq_of_cover 3 (gcn3_G V c) (fun t hf => gcn3_flushed V c t hf) gcn3_covered

/-- Entry (r, j) of the output array after the region's run. -/
theorem arrAt3 (c : Dev nD) (r : Fin 8192) (j : Fin 512) :
    ((dats3 (F := Ideal) V c).arrAt 3 cfg3.N : Cert.Spec.Mat 8192 512) (ValueIdx.ix2 r j)
      = Cert.Spec.relu0 (Cert.Spec.mm (V c main_arg3 : Cert.Spec.Mat 8192 8192) (V c main_v0 : Cert.Spec.Mat 8192 512) r j + (V c main_v8 : Cert.Spec.Mat 1 512) (ValueIdx.ix2 (0 : Fin 1) j)) := by
  rw [gcn3_final]

end Cert.KernelIdeal.Gen

end
-- ==== Proof.GcnPay4.lean ====
/-
  The arithmetic of one grid point of the third graph-convolution product, read entry by entry on the extended reals.

  At a grid point the accumulator block (1024 rows, 512 columns) is first the zero block (at the first contraction
  block), then at every contraction block it gains the product of the 1024 × 1024 block of the adjacency matrix with
  the matching 1024 rows of the support; after the last contraction block the output block is the accumulator plus
  the bias row, rectified.  On the extended reals a change of float format is the identity, so each entry is a plain
  finite sum of products.
-/
import proofs.«166906_j60567628808244_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-- The zero block: every entry is 0. -/
theorem k4_pay1_apply (p : Fin 1024) (q : Fin 512) : k4_pay1 (F := Ideal) (ix2 p q) = 0 := by
  unfold k4_pay1
  rw [shapeCast_self]
  exact Ideal.ofBits_zero_f32

/-- The printed contraction record is the plain product of a 1024 × 1024 by a 1024 × 512 matrix. -/
theorem k4_dot_eq : dot_S1024x1024_S1024x512_S1024x512_1_0_0_1_n_n = DotDims.plain 1024 1024 512 := rfl

/-- One accumulation step: the old entry plus the sum over the block's 1024 contracted columns. -/
theorem k4_pay2_apply (v3 : Vec Ideal S1024x1024 .f32) (v8 : Vec Ideal S1024x512 .bf16) (v10 : Vec Ideal S1024x512 .f32)
    (p : Fin 1024) (q : Fin 512) :
    k4_pay2 (F := Ideal) v3 v8 v10 (ix2 p q) = v10 (ix2 p q) + ∑ c : Fin 1024, v3 (ix2 p c) * v8 (ix2 c q) := by
  unfold k4_pay2
  rw [shapeCast_self, shapeCast_self]
  refine (addf_apply _ _ _).trans ?_
  congr 1
  rw [matmul_zero_eq_dotGeneral, k4_dot_eq]
  exact StackMember.dotGeneral_plain_apply none _ _ p q

/-- The finishing step: the accumulator entry plus the bias of its column, rectified. -/
theorem k4_pay3_apply (v19 : Vec Ideal S1024x512 .f32) (v20 : Vec Ideal S1x512 .f32) (p : Fin 1024) (q : Fin 512) :
    k4_pay3 (F := Ideal) v19 v20 (ix2 p q) = max (v19 (ix2 p q) + v20 (ix2 (0 : Fin 1) q)) 0 := by
  unfold k4_pay3
  rw [shapeCast_self]
  refine (maximumf_apply _ _ _).trans ?_
  congr 1
  · refine (addf_apply _ _ _).trans ?_
    congr 1
    refine broadcastTo_apply (s := S1x512) (t := S1024x512) v20 broadcasts_S1x512_S1024x512 (ix2 p q) (ix2 (0 : Fin 1) q) ?_
    intro a
    match a with
    | ⟨0, _⟩ => rfl
    | ⟨1, _⟩ => rfl
  · exact Ideal.ofBits_zero_f32

end Cert.KernelIdeal.Gen

end
-- ==== Proof.GcnPiece4.lean ====
/-
  What each case of the body of the third graph-convolution product leaves in the accumulator and in the output
  block, as the arithmetic of the blocks it is given: at the first contraction block the accumulator is the zero block
  plus the block's product, at a later one the accumulator before plus the block's product, and after the last one the
  output block is finished from the accumulator and the bias row.  The body reads 1024 rows of the whole support, those
  its contraction block meets.
-/
import proofs.«166906_j60567628808244_2_alg».proof.Proof.Gcn4Frame
import proofs.«166906_j60567628808244_2_alg».proof.Proof.GcnPay4
import Idealize.ShloMosaic.Lib.Pipeline.Value
import Idealize.ShloMosaic.Lib.KernelVsHost
import Idealize.ShloMosaic.Lib.StackMember
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

/-! ## What each case of the body leaves, as payloads of the blocks it is given -/

section Pieces

variable {F : FTy → Type} [FloatOps F]

/-- The zero offsets of a whole-buffer access, however spelt. -/
theorem gcn4_hz : (![0, 0] : Fin 2 → Nat) = fun _ => 0 := funext fun a => by fin_cases a <;> rfl

/-- The 1024 rows of the support that the contraction block at grid coordinates `i` meets, read out of the whole support. -/
def gcn4_supRows (i : grid4.Coords) (x1 : Vec F S8192x512 .bf16) : Vec F S1024x512 .bf16 :=
  View.ld x1 (Rect.unit (s := S8192x512) (k4_off1 i) S1024x512.size (k4_off1_inb i))

/-- At the first contraction block the accumulator is zeroed and then gains the block's product. -/
theorem gcn4_sout_A (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond4_0 i) (hc1 : ¬cond4_1 i)
    (x0 : Vec F S1024x1024 .f32) (x1 : Vec F S8192x512 .bf16) (x2 : Vec F S1x512 .f32) :
    sout4_A_0 c i arg2 harg2 arg3 harg3 arg4 harg4 arg5 harg5 arg6 harg6 hc0 hc1 x0 x1 x2 = k4_pay2 x0 (gcn4_supRows i x1) k4_pay1 := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_run_names
  rw [View.canon_cons_unit_zero (S := S1024x512) gcn4_hz, View.readCov_unit_zero (S := S1024x512) _ gcn4_hz]
  simp only [View.readAt_eq_ld, harg2.read_unread, harg3.read_unread,
    View.ld_unit_zero (S := S1024x1024) gcn4_hz]
  rfl

/-- At a middle contraction block the accumulator gains the block's product. -/
theorem gcn4_sout_B (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : ¬cond4_1 i)
    (x0 : Vec F S1024x1024 .f32) (x1 : Vec F S8192x512 .bf16) (x2 : Vec F S1x512 .f32) (xs0 : Vec F S1024x512 .f32) :
    sout4_B_0 c i arg2 harg2 arg3 harg3 arg4 harg4 arg5 harg5 arg6 harg6 hc0 hc1 x0 x1 x2 xs0 = k4_pay2 x0 (gcn4_supRows i x1) xs0 := by
  unfold sout4_B_0
  rw [View.read_writes_eq_canon _ _ _ (scover4_B_0 c i arg2 harg2 arg3 harg3 arg4 harg4 arg5 harg5 arg6 harg6 hc0 hc1 x0 x1 x2 xs0)]
  unfold kernelRun4_B
  dsimp only
  sl_unfold_run_names
  rw [View.canon_unit_zero gcn4_hz]
  simp only [View.readAt_eq_ld, harg2.read_unread, harg3.read_unread, harg6.read_unread,
    View.ld_unit_zero (S := S1024x1024) gcn4_hz, View.ld_unit_zero (S := S1024x512) gcn4_hz]
  rfl

/-- At the last contraction block the accumulator gains the block's product, -/
theorem gcn4_sout_C (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) :
    sout4_C_0 c i arg2 harg2 arg3 harg3 arg4 harg4 arg5 harg5 arg6 harg6 hc0 hc1 x0 x1 x2 xs0 = k4_pay2 x0 (gcn4_supRows i x1) xs0 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  sl_unfold_run_names
  rw [View.canon_unit_zero gcn4_hz]
  simp only [View.readAt_eq_ld, harg2.read_unread, harg3.read_unread, harg6.read_unread,
    View.ld_unit_zero (S := S1024x1024) gcn4_hz, View.ld_unit_zero (S := S1024x512) gcn4_hz]
  rfl

/-- and the output block is finished from the accumulator so updated and the bias row. -/
theorem gcn4_out_C (c : Dev nD) (i : grid4.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond4_0 i) (hc1 : cond4_1 i)
    (x0 : Vec F S1024x1024 .f32) (x1 : Vec F S8192x512 .bf16) (x2 : Vec F S1x512 .f32) (xs0 : Vec F S1024x512 .f32) :
    out4_C_3 c i arg2 harg2 arg3 harg3 arg4 harg4 arg5 harg5 arg6 harg6 hc0 hc1 x0 x1 x2 xs0 = k4_pay3 (k4_pay2 x0 (gcn4_supRows i x1) xs0) x2 := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  sl_unfold_run_names
  rw [View.canon_unit_zero gcn4_hz, View.readCov_unit_zero (S := S1024x512) _ gcn4_hz]
  simp only [View.readAt_eq_ld, harg2.read_unread, harg3.read_unread, harg4.read_unread, harg6.read_unread,
    View.ld_unit_zero (S := S1024x1024) gcn4_hz, View.ld_unit_zero (S := S1024x512) gcn4_hz, View.ld_unit_zero (S := S1x512) gcn4_hz]
  rfl

end Pieces

/-! ## One accumulation step at an entry, over any blocks -/

/-- If the products of the adjacency block's row p with the support rows' column q are the terms f(k · 1024 + e) of a
    sum, the accumulation step adds those 1024 terms to the old entry. -/
theorem gcn4_step (x0 : Vec Ideal S1024x1024 .f32) (xr : Vec Ideal S1024x512 .bf16) (xs0 : Vec Ideal S1024x512 .f32)
    (f : ℕ → EReal) (k : ℕ) (p : Fin 1024) (q : Fin 512)
    (hterm : ∀ e : Fin 1024, x0 (ix2 p e) * xr (ix2 e q) = f (k * 1024 + e.val)) :
    k4_pay2 (F := Ideal) x0 xr xs0 (ix2 p q) = xs0 (ix2 p q) + ∑ e : Fin 1024, f (k * 1024 + e.val) := by
  rw [k4_pay2_apply]
  exact congrArg (xs0 (ix2 p q) + ·) (Finset.sum_congr rfl fun e _ => hterm e)

end Cert.KernelIdeal.Gen

end
-- ==== Proof.GcnVal4.lean ====
/-
  What the third graph-convolution product leaves in its output array, on the extended reals.

  The grid walks 8 row blocks of 1024 rows and, inside each, 8 contraction blocks of 1024 columns of the adjacency matrix;
  point t is row block t / 8, contraction block t % 8.  The accumulator carried from point to point holds, after
  point t, the running total of the terms adj(r, e) · support(e, j) over the contraction blocks 0 … t % 8 of its row
  block, taken block after block from zero: at the first contraction block the zero block plus that block's terms, at
  every later one the total before plus that block's terms.  After the last contraction block the total is the whole
  entry of the product adj · support, and the output block receives it plus the bias of its column, rectified.
  The output blocks written after the last contraction block of each row block are the blocks of ONE function of the
  whole arrays, and the 8 row blocks cover the output array (row r lies in row block r / 1024).
-/
import proofs.«166906_j60567628808244_2_alg».proof.Proof.GcnPiece4
import proofs.«166906_j60567628808244_2_alg».proof.Proof.GcnAcc

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

variable (V : (c : Dev nD) → (b : Ref sig .tc) → Buf (Elt Ideal) ((c : Thread nD τ).loc b))

/-! ## The blocks a point is given, and where they sit in their arrays -/

/-- Point t's block of the adjacency matrix, -/
abbrev gcn4_adjBlk (c : Dev nD) (t : Fin cfg4.N) : Vec Ideal S1024x1024 .f32 := iblk4 (F := Ideal) V c 0 t
/-- its block of the support (the whole support), -/
abbrev gcn4_supBlk (c : Dev nD) (t : Fin cfg4.N) : Vec Ideal S8192x512 .bf16 := iblk4 (F := Ideal) V c 1 t
/-- and its block of the bias (the whole row). -/
abbrev gcn4_biasBlk (c : Dev nD) (t : Fin cfg4.N) : Vec Ideal S1x512 .f32 := iblk4 (F := Ideal) V c 2 t

/-- The printed index maps over the grid: the adjacency block is (t / 8, t % 8); the support and the bias row are whole;
    the output block is row block t / 8; the contraction coordinate of point t is t % 8. -/
theorem gcn4_idx : ∀ t : Fin cfg4.N, win4_0.index t (0 : Fin 2) = t.val / 8 ∧ win4_0.index t (1 : Fin 2) = t.val % 8
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val / 8 ∧ win4_3.index t (1 : Fin 2) = 0
    ∧ ((grid4.coords t) 1).val = t.val % 8 :=
  (by decide +kernel : ∀ t : Fin grid4.N, _)

/-- The number of grid points. -/
theorem gcn4_N : cfg4.N = 64 := N_4

/-- Entry (p, e) of point t's adjacency block is entry ((t / 8) · 1024 + p, (t % 8) · 1024 + e) of the adjacency matrix. -/
theorem gcn4_adj_at (c : Dev nD) (t : Fin cfg4.N) (p : Fin 1024) (e : Fin 1024)
    (hr : t.val / 8 * 1024 + p.val < 8192) (he : t.val % 8 * 1024 + e.val < 8192) :
    gcn4_adjBlk V c t (ix2 p e) = (V c main_arg4 : Cert.Spec.Mat 8192 8192) (ix2 ⟨t.val / 8 * 1024 + p.val, hr⟩ ⟨t.val % 8 * 1024 + e.val, he⟩) := by
  obtain ⟨e0, e1, e2, e3, e4, e5, e6, e7, e8⟩ := gcn4_idx t
  show (V c main_arg4 : Cert.Spec.Mat 8192 8192) (((cfg4.win 0).blk t).view.emb (ix2 p e)) = _
  refine congrArg _ (funext fun a => Fin.ext ?_)
  match a with
  | ⟨0, _⟩ => show win4_0.index t (0 : Fin 2) * 1024 + 1 * p.val = t.val / 8 * 1024 + p.val; rw [e0]; omega
  | ⟨1, _⟩ => show win4_0.index t (1 : Fin 2) * 1024 + 1 * e.val = t.val % 8 * 1024 + e.val; rw [e1]; omega

/-- Entry (e, q) of the support rows point t's contraction block meets is entry ((t % 8) · 1024 + e, q) of the support. -/
theorem gcn4_sup_at (c : Dev nD) (t : Fin cfg4.N) (e : Fin 1024) (q : Fin 512)
    (he : t.val % 8 * 1024 + e.val < 8192) :
    gcn4_supRows (F := Ideal) (grid4.coords t) (gcn4_supBlk V c t) (ix2 e q)
      = (V c main_v0 : Cert.Spec.Mat 8192 512) (ix2 ⟨t.val % 8 * 1024 + e.val, he⟩ q) := by
  obtain ⟨e0, e1, e2, e3, e4, e5, e6, e7, e8⟩ := gcn4_idx t
  have hoff := k4_off1_eq (grid4.coords t)
  show (V c main_v0 : Cert.Spec.Mat 8192 512) (((cfg4.win 1).blk t).view.emb
      ((Rect.unit (s := S8192x512) (k4_off1 (grid4.coords t)) S1024x512.size (k4_off1_inb (grid4.coords t))).idx (ix2 e q))) = _
  refine congrArg _ (funext fun a => Fin.ext ?_)
  match a with
  | ⟨0, _⟩ =>
    show win4_1.index t (0 : Fin 2) * 8192 + 1 * (k4_off1 (grid4.coords t) 0 + 1 * e.val) = t.val % 8 * 1024 + e.val
    rw [e2, hoff]
    show 0 * 8192 + 1 * (1024 * ((grid4.coords t) 1).val + 1 * e.val) = t.val % 8 * 1024 + e.val
    rw [e8]; omega
  | ⟨1, _⟩ =>
    show win4_1.index t (1 : Fin 2) * 512 + 1 * (k4_off1 (grid4.coords t) 1 + 1 * q.val) = q.val
    rw [e3, hoff]
    show 0 * 512 + 1 * (0 + 1 * q.val) = q.val
    omega

/-- Entry (0, q) of point t's bias block is entry (0, q) of the bias row. -/
theorem gcn4_bias_at (c : Dev nD) (t : Fin cfg4.N) (q : Fin 512) :
    gcn4_biasBlk V c t (ix2 (0 : Fin 1) q) = (V c main_v10 : Cert.Spec.Mat 1 512) (ix2 (0 : Fin 1) q) := by
  obtain ⟨e0, e1, e2, e3, e4, e5, e6, e7, e8⟩ := gcn4_idx t
  show (V c main_v10 : Cert.Spec.Mat 1 512) (((cfg4.win 2).blk t).view.emb (ix2 (0 : Fin 1) q)) = _
  refine congrArg _ (funext fun a => Fin.ext ?_)
  match a with
  | ⟨0, _⟩ => show win4_2.index t (0 : Fin 2) * 1 + 1 * 0 = 0; rw [e4]
  | ⟨1, _⟩ => show win4_2.index t (1 : Fin 2) * 512 + 1 * q.val = q.val; rw [e5]; omega

/-- The terms of row (n / 8) · 1024 + p of the product, column q, over the contracted coordinate. -/
abbrev gcn4_f (c : Dev nD) (n : ℕ) (p : Fin 1024) (q : Fin 512) : ℕ → EReal :=
  Cert.Spec.termN (V c main_arg4 : Cert.Spec.Mat 8192 8192) (V c main_v0 : Cert.Spec.Mat 8192 512) (n / 8 * 1024 + p.val) q

/-- The product of entry (p, e) of point t's adjacency block with entry (e, q) of the support rows it meets is the term
    of the whole product at row (t / 8) · 1024 + p, contracted coordinate (t % 8) · 1024 + e, column q. -/
theorem gcn4_term (c : Dev nD) (t : Fin cfg4.N) (p : Fin 1024) (q : Fin 512) (e : Fin 1024) :
    gcn4_adjBlk V c t (ix2 p e) * gcn4_supRows (F := Ideal) (grid4.coords t) (gcn4_supBlk V c t) (ix2 e q)
      = gcn4_f V c t.val p q (t.val % 8 * 1024 + e.val) := by
  have hN : t.val < 64 := lt_of_lt_of_eq t.isLt (gcn4_N)
  have hr : t.val / 8 * 1024 + p.val < 8192 := by omega
  have he : t.val % 8 * 1024 + e.val < 8192 := by omega
  rw [gcn4_adj_at V c t p e hr he, gcn4_sup_at V c t e q he]
  exact (Cert.Spec.termN_of_lt (V c main_arg4 : Cert.Spec.Mat 8192 8192) (V c main_v0 : Cert.Spec.Mat 8192 512) (t.val / 8 * 1024 + p.val) q (t.val % 8 * 1024 + e.val) hr he).symm

/-! ## The accumulator after each point -/

/-- At a first contraction block the accumulator is the zero block plus the block's product. -/
theorem gcn4_scr_first (c : Dev nD) (t : Fin cfg4.N) (h0 : t.val % 8 = 0) :
    (outsAt4 (F := Ideal) V c t.val t.isLt).2
      = k4_pay2 (gcn4_adjBlk V c t) (gcn4_supRows (grid4.coords t) (gcn4_supBlk V c t)) (k4_pay1 (F := Ideal)) := by
  have h1 : ¬t.val % 8 = 7 := by omega
  rw [outsAt4_A (F := Ideal) V c t h0 h1]
  dsimp only
  rw [gcn4_sout_A]

/-- At a later contraction block the accumulator is what the point before left plus the block's product. -/
theorem gcn4_scr_next (c : Dev nD) (t : Fin cfg4.N) (h0 : ¬t.val % 8 = 0) :
    (outsAt4 (F := Ideal) V c t.val t.isLt).2
      = k4_pay2 (gcn4_adjBlk V c t) (gcn4_supRows (grid4.coords t) (gcn4_supBlk V c t))
          (outsAt4 (F := Ideal) V c (t.val - 1) (Nat.lt_of_le_of_lt (Nat.sub_le _ _) t.isLt)).2 := by
  by_cases h1 : t.val % 8 = 7
  · rw [outsAt4_C (F := Ideal) V c t h0 h1]
    dsimp only
    rw [gcn4_sout_C]
  · rw [outsAt4_B (F := Ideal) V c t h0 h1]
    dsimp only
    rw [gcn4_sout_B]

/-- After the last contraction block the output block is finished from the accumulator the point leaves and the bias row. -/
theorem gcn4_out_last (c : Dev nD) (t : Fin cfg4.N) (h1 : t.val % 8 = 7) :
    (outsAt4 (F := Ideal) V c t.val t.isLt).1
      = k4_pay3 (outsAt4 (F := Ideal) V c t.val t.isLt).2 (gcn4_biasBlk V c t) := by
  have h0 : ¬t.val % 8 = 0 := by omega
  rw [outsAt4_C (F := Ideal) V c t h0 h1]
  dsimp only
  rw [gcn4_sout_C, gcn4_out_C]

/-- THE RUNNING TOTAL.  After point n the accumulator's entry (p, q) is the running total, over the contraction blocks
    0 … n % 8, of the terms of row (n / 8) · 1024 + p, column q of the product. -/
theorem gcn4_acc (c : Dev nD) (p : Fin 1024) (q : Fin 512) : ∀ (n : ℕ) (hn : n < cfg4.N),
    (outsAt4 (F := Ideal) V c n hn).2 (ix2 p q) = Cert.Spec.acc 1024 (gcn4_f V c n p q) (n % 8) := by
  intro n
  induction n with
  | zero =>
    intro hn
    rw [gcn4_scr_first V c ⟨0, hn⟩ (Nat.zero_mod _)]
    refine (gcn4_step (gcn4_adjBlk V c ⟨0, hn⟩) (gcn4_supRows (grid4.coords ⟨0, hn⟩) (gcn4_supBlk V c ⟨0, hn⟩)) (k4_pay1 (F := Ideal))
      (gcn4_f V c 0 p q) (0 % 8) p q (gcn4_term V c ⟨0, hn⟩ p q)).trans ?_
    rw [k4_pay1_apply, Nat.zero_mod, Cert.Spec.acc_zero]
    simp only [Nat.zero_mul, Nat.zero_add]
  | succ n ih =>
    intro hn
    by_cases h0 : (n + 1) % 8 = 0
    · rw [gcn4_scr_first V c ⟨n + 1, hn⟩ h0]
      refine (gcn4_step (gcn4_adjBlk V c ⟨n + 1, hn⟩) (gcn4_supRows (grid4.coords ⟨n + 1, hn⟩) (gcn4_supBlk V c ⟨n + 1, hn⟩)) (k4_pay1 (F := Ideal))
        (gcn4_f V c (n + 1) p q) ((n + 1) % 8) p q (gcn4_term V c ⟨n + 1, hn⟩ p q)).trans ?_
      rw [k4_pay1_apply, h0, Cert.Spec.acc_zero]
      simp only [Nat.zero_mul, Nat.zero_add]
    · have hq : (n + 1) / 8 = n / 8 := by omega
      have hr : (n + 1) % 8 = n % 8 + 1 := by omega
      rw [gcn4_scr_next V c ⟨n + 1, hn⟩ h0]
      refine (gcn4_step (gcn4_adjBlk V c ⟨n + 1, hn⟩) (gcn4_supRows (grid4.coords ⟨n + 1, hn⟩) (gcn4_supBlk V c ⟨n + 1, hn⟩))
        (outsAt4 (F := Ideal) V c n (Nat.lt_of_succ_lt hn)).2
        (gcn4_f V c (n + 1) p q) ((n + 1) % 8) p q (gcn4_term V c ⟨n + 1, hn⟩ p q)).trans ?_
      rw [ih (Nat.lt_of_succ_lt hn)]
      unfold gcn4_f
      rw [hq, hr, Cert.Spec.acc_succ]

/-! ## The output block at the points that write it back, and the whole array -/

/-- The region's result as one function of the whole arrays: the product adj · support plus the bias of its column, rectified. -/
abbrev gcn4_G (c : Dev nD) : Cert.Spec.Mat 8192 512 := fun i =>
  Cert.Spec.relu0 (Cert.Spec.mm (V c main_arg4 : Cert.Spec.Mat 8192 8192) (V c main_v0 : Cert.Spec.Mat 8192 512) (i 0) (i 1) + (V c main_v10 : Cert.Spec.Mat 1 512) (ix2 (0 : Fin 1) (i 1)))

/-- Entry (p, q) of the output block after the last contraction block of row block t / 8. -/
theorem gcn4_out_at (c : Dev nD) (t : Fin cfg4.N) (h1 : t.val % 8 = 7) (p : Fin 1024) (q : Fin 512)
    (hr : t.val / 8 * 1024 + p.val < 8192) :
    (outsAt4 (F := Ideal) V c t.val t.isLt).1 (ix2 p q) = Cert.Spec.relu0 (Cert.Spec.mm (V c main_arg4 : Cert.Spec.Mat 8192 8192) (V c main_v0 : Cert.Spec.Mat 8192 512) ⟨t.val / 8 * 1024 + p.val, hr⟩ q + (V c main_v10 : Cert.Spec.Mat 1 512) (ValueIdx.ix2 (0 : Fin 1) q)) := by
  rw [gcn4_out_last V c t h1]
  refine (k4_pay3_apply (outsAt4 (F := Ideal) V c t.val t.isLt).2 (gcn4_biasBlk V c t) p q).trans ?_
  rw [gcn4_acc V c p q t.val t.isLt, h1, gcn4_bias_at V c t q,
    Cert.Spec.mm_eq_acc 7 1024 rfl (V c main_arg4 : Cert.Spec.Mat 8192 8192) (V c main_v0 : Cert.Spec.Mat 8192 512) ⟨t.val / 8 * 1024 + p.val, hr⟩ q]
  rfl

/-- What a point after the last contraction block writes back is its block of that function. -/
theorem gcn4_flushed (c : Dev nD) (t : Fin cfg4.N) (hf : (cfg4.win 3).flush t = true) :
    (dats4 (F := Ideal) V c).flushed 3 t = ((cfg4.win 3).blk t).view.read (Elt Ideal) (gcn4_G V c) := by
  have h1 : t.val % 8 = 7 := (flush4_3 t).mp hf
  have hN : t.val < 64 := lt_of_lt_of_eq t.isLt (gcn4_N)
  obtain ⟨e0, e1, e2, e3, e4, e5, e6, e7, e8⟩ := gcn4_idx t
  show (cfg4.win 3).cut (grid4.coords t) ((dats4 (F := Ideal) V c).after 3 t) = _
  rw [after4_3]
  funext j
  obtain ⟨p, q, rfl⟩ : ∃ (p : Fin 1024) (q : Fin 512), j = ix2 p q := ⟨j 0, j 1, eq_ix2 j⟩
  have hr : t.val / 8 * 1024 + p.val < 8192 := by omega
  have hemb : ((cfg4.win 3).blk t).view.emb (ix2 p q) = ix2 (⟨t.val / 8 * 1024 + p.val, hr⟩ : Fin 8192) q := by
    funext a; apply Fin.ext
    match a with
    | ⟨0, _⟩ => show win4_3.index t (0 : Fin 2) * 1024 + 1 * p.val = t.val / 8 * 1024 + p.val; rw [e6]; omega
    | ⟨1, _⟩ => show win4_3.index t (1 : Fin 2) * 512 + 1 * q.val = q.val; rw [e7]; omega
  refine (gcn4_out_at V c t h1 p q hr).trans ?_
  show _ = gcn4_G V c (((cfg4.win 3).blk t).view.emb (ix2 p q))
  rw [hemb]

/-- An index of the output array is in point `t`'s block iff each coordinate is in the block's range on its axis. -/
theorem gcn4_mem_blk (t : Fin cfg4.N) (i : S8192x512.Idx) :
    i ∈ ((cfg4.win 3).blk t).view.set ↔ ∀ a : Fin 2, win4_3.index t a * S1024x512.size a ≤ (i a).val ∧ (i a).val < win4_3.index t a * S1024x512.size a + S1024x512.size a := by
  show i ∈ ((View.whole main_v11).slice (win4_3.rect t)).set ↔ _
  rw [View.set_slice_whole, Rect.mem_set_unit]
  exact Iff.rfl

/-- Every index of the output array is in the block written back after the last contraction block of its row block. -/
theorem gcn4_covered (i : S8192x512.Idx) :
    ∃ t : Fin cfg4.N, (cfg4.win 3).flush t = true ∧ i ∈ ((cfg4.win 3).blk t).view.set := by
  have hi0 : (i 0).val < 8192 := (i 0).isLt
  have hi1 : (i 1).val < 512 := (i 1).isLt
  have hN : cfg4.N = 64 := gcn4_N
  have ht : (i 0).val / 1024 * 8 + 7 < cfg4.N := by rw [hN]; omega
  obtain ⟨e0, e1, e2, e3, e4, e5, e6, e7, e8⟩ := gcn4_idx ⟨(i 0).val / 1024 * 8 + 7, ht⟩
  refine ⟨⟨(i 0).val / 1024 * 8 + 7, ht⟩, (flush4_3 _).mpr (by show ((i 0).val / 1024 * 8 + 7) % 8 = 7; omega), ?_⟩
  rw [gcn4_mem_blk]
  intro a
  match a with
  | ⟨0, _⟩ =>
    show win4_3.index _ (0 : Fin 2) * 1024 ≤ (i 0).val ∧ (i 0).val < win4_3.index _ (0 : Fin 2) * 1024 + 1024
    rw [e6]
    show ((i 0).val / 1024 * 8 + 7) / 8 * 1024 ≤ (i 0).val ∧ (i 0).val < ((i 0).val / 1024 * 8 + 7) / 8 * 1024 + 1024
    omega
  | ⟨1, _⟩ =>
    show win4_3.index _ (1 : Fin 2) * 512 ≤ (i 1).val ∧ (i 1).val < win4_3.index _ (1 : Fin 2) * 512 + 512
    rw [e7]; omega

/-- The output array after the region's run is that function. -/
theorem gcn4_final (c : Dev nD) : (dats4 (F := Ideal) V c).arrAt 3 cfg4.N = gcn4_G V c :=
  (dats4 (F := Ideal) V c).arrAt_eq_of_cover 3 (gcn4_G V c) (fun t hf => gcn4_flushed V c t hf) gcn4_covered

/-- Entry (r, j) of the output array after the region's run. -/
theorem arrAt4 (c : Dev nD) (r : Fin 8192) (j : Fin 512) :
    ((dats4 (F := Ideal) V c).arrAt 3 cfg4.N : Cert.Spec.Mat 8192 512) (ValueIdx.ix2 r j)
      = Cert.Spec.relu0 (Cert.Spec.mm (V c main_arg4 : Cert.Spec.Mat 8192 8192) (V c main_v0 : Cert.Spec.Mat 8192 512) r j + (V c main_v10 : Cert.Spec.Mat 1 512) (ValueIdx.ix2 (0 : Fin 1) j)) := by
  rw [gcn4_final]

end Cert.KernelIdeal.Gen

end
-- ==== Proof.GcnPay7.lean ====
/-
  The arithmetic of one grid point of the fourth graph-convolution product, read entry by entry on the extended reals.

  At a grid point the accumulator block (1024 rows, 512 columns) is first the zero block (at the first contraction
  block), then at every contraction block it gains the product of the 1024 × 1024 block of the adjacency matrix with
  the matching 1024 rows of the support; after the last contraction block the output block is the accumulator plus
  the bias row.  On the extended reals a change of float format is the identity, so each entry is a plain
  finite sum of products.
-/
import proofs.«166906_j60567628808244_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-- The zero block: every entry is 0. -/
theorem k7_pay1_apply (p : Fin 1024) (q : Fin 512) : k7_pay1 (F := Ideal) (ix2 p q) = 0 := by
  unfold k7_pay1
  rw [shapeCast_self]
  exact Ideal.ofBits_zero_f32

/-- The printed contraction record is the plain product of a 1024 × 1024 by a 1024 × 512 matrix. -/
theorem k7_dot_eq : dot_S1024x1024_S1024x512_S1024x512_1_0_0_1_n_n = DotDims.plain 1024 1024 512 := rfl

/-- One accumulation step: the old entry plus the sum over the block's 1024 contracted columns. -/
theorem k7_pay2_apply (v3 : Vec Ideal S1024x1024 .f32) (v8 : Vec Ideal S1024x512 .bf16) (v10 : Vec Ideal S1024x512 .f32)
    (p : Fin 1024) (q : Fin 512) :
    k7_pay2 (F := Ideal) v3 v8 v10 (ix2 p q) = v10 (ix2 p q) + ∑ c : Fin 1024, v3 (ix2 p c) * v8 (ix2 c q) := by
  unfold k7_pay2
  rw [shapeCast_self, shapeCast_self]
  refine (addf_apply _ _ _).trans ?_
  congr 1
  rw [matmul_zero_eq_dotGeneral, k7_dot_eq]
  exact StackMember.dotGeneral_plain_apply none _ _ p q

/-- The finishing step: the accumulator entry plus the bias of its column. -/
theorem k7_pay3_apply (v19 : Vec Ideal S1024x512 .f32) (v20 : Vec Ideal S1x512 .f32) (p : Fin 1024) (q : Fin 512) :
    k7_pay3 (F := Ideal) v19 v20 (ix2 p q) = v19 (ix2 p q) + v20 (ix2 (0 : Fin 1) q) := by
  unfold k7_pay3
  rw [shapeCast_self]
  refine (addf_apply _ _ _).trans ?_
  congr 1
  refine broadcastTo_apply (s := S1x512) (t := S1024x512) v20 broadcasts_S1x512_S1024x512 (ix2 p q) (ix2 (0 : Fin 1) q) ?_
  intro a
  match a with
  | ⟨0, _⟩ => rfl
  | ⟨1, _⟩ => rfl

end Cert.KernelIdeal.Gen

end
-- ==== Proof.GcnPiece7.lean ====
/-
  What each case of the body of the fourth graph-convolution product leaves in the accumulator and in the output
  block, as the arithmetic of the blocks it is given: at the first contraction block the accumulator is the zero block
  plus the block's product, at a later one the accumulator before plus the block's product, and after the last one the
  output block is finished from the accumulator and the bias row.  The body reads 1024 rows of the whole support, those
  its contraction block meets.
-/
import proofs.«166906_j60567628808244_2_alg».proof.Proof.Gcn7Frame
import proofs.«166906_j60567628808244_2_alg».proof.Proof.GcnPay7
import Idealize.ShloMosaic.Lib.Pipeline.Value
import Idealize.ShloMosaic.Lib.KernelVsHost
import Idealize.ShloMosaic.Lib.StackMember
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

/-! ## What each case of the body leaves, as payloads of the blocks it is given -/

section Pieces

variable {F : FTy → Type} [FloatOps F]

/-- The zero offsets of a whole-buffer access, however spelt. -/
theorem gcn7_hz : (![0, 0] : Fin 2 → Nat) = fun _ => 0 := funext fun a => by fin_cases a <;> rfl

/-- The 1024 rows of the support that the contraction block at grid coordinates `i` meets, read out of the whole support. -/
def gcn7_supRows (i : grid7.Coords) (x1 : Vec F S8192x512 .bf16) : Vec F S1024x512 .bf16 :=
  View.ld x1 (Rect.unit (s := S8192x512) (k7_off1 i) S1024x512.size (k7_off1_inb i))

/-- At the first contraction block the accumulator is zeroed and then gains the block's product. -/
theorem gcn7_sout_A (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond7_0 i) (hc1 : ¬cond7_1 i)
    (x0 : Vec F S1024x1024 .f32) (x1 : Vec F S8192x512 .bf16) (x2 : Vec F S1x512 .f32) :
    sout7_A_0 c i arg2 harg2 arg3 harg3 arg4 harg4 arg5 harg5 arg6 harg6 hc0 hc1 x0 x1 x2 = k7_pay2 x0 (gcn7_supRows i x1) k7_pay1 := by
  unfold sout7_A_0
  rw [View.read_writes_eq_canon _ _ _ (scover7_A_0 c i arg2 harg2 arg3 harg3 arg4 harg4 arg5 harg5 arg6 harg6 hc0 hc1 x0 x1 x2)]
  unfold kernelRun7_A
  dsimp only
  sl_unfold_run_names
  rw [View.canon_cons_unit_zero (S := S1024x512) gcn7_hz, View.readCov_unit_zero (S := S1024x512) _ gcn7_hz]
  simp only [View.readAt_eq_ld, harg2.read_unread, harg3.read_unread,
    View.ld_unit_zero (S := S1024x1024) gcn7_hz]
  rfl

/-- At a middle contraction block the accumulator gains the block's product. -/
theorem gcn7_sout_B (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : ¬cond7_1 i)
    (x0 : Vec F S1024x1024 .f32) (x1 : Vec F S8192x512 .bf16) (x2 : Vec F S1x512 .f32) (xs0 : Vec F S1024x512 .f32) :
    sout7_B_0 c i arg2 harg2 arg3 harg3 arg4 harg4 arg5 harg5 arg6 harg6 hc0 hc1 x0 x1 x2 xs0 = k7_pay2 x0 (gcn7_supRows i x1) xs0 := by
  unfold sout7_B_0
  rw [View.read_writes_eq_canon _ _ _ (scover7_B_0 c i arg2 harg2 arg3 harg3 arg4 harg4 arg5 harg5 arg6 harg6 hc0 hc1 x0 x1 x2 xs0)]
  unfold kernelRun7_B
  dsimp only
  sl_unfold_run_names
  rw [View.canon_unit_zero gcn7_hz]
  simp only [View.readAt_eq_ld, harg2.read_unread, harg3.read_unread, harg6.read_unread,
    View.ld_unit_zero (S := S1024x1024) gcn7_hz, View.ld_unit_zero (S := S1024x512) gcn7_hz]
  rfl

/-- At the last contraction block the accumulator gains the block's product, -/
theorem gcn7_sout_C (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) :
    sout7_C_0 c i arg2 harg2 arg3 harg3 arg4 harg4 arg5 harg5 arg6 harg6 hc0 hc1 x0 x1 x2 xs0 = k7_pay2 x0 (gcn7_supRows i x1) xs0 := by
  unfold sout7_C_0
  rw [View.read_writes_eq_canon _ _ _ (scover7_C_0 c i arg2 harg2 arg3 harg3 arg4 harg4 arg5 harg5 arg6 harg6 hc0 hc1 x0 x1 x2 xs0)]
  unfold kernelRun7_C
  dsimp only
  sl_unfold_run_names
  rw [View.canon_unit_zero gcn7_hz]
  simp only [View.readAt_eq_ld, harg2.read_unread, harg3.read_unread, harg6.read_unread,
    View.ld_unit_zero (S := S1024x1024) gcn7_hz, View.ld_unit_zero (S := S1024x512) gcn7_hz]
  rfl

/-- and the output block is finished from the accumulator so updated and the bias row. -/
theorem gcn7_out_C (c : Dev nD) (i : grid7.Coords) (arg2 : Memref sig .tc .vmem S1024x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond7_0 i) (hc1 : cond7_1 i)
    (x0 : Vec F S1024x1024 .f32) (x1 : Vec F S8192x512 .bf16) (x2 : Vec F S1x512 .f32) (xs0 : Vec F S1024x512 .f32) :
    out7_C_3 c i arg2 harg2 arg3 harg3 arg4 harg4 arg5 harg5 arg6 harg6 hc0 hc1 x0 x1 x2 xs0 = k7_pay3 (k7_pay2 x0 (gcn7_supRows i x1) xs0) x2 := by
  unfold out7_C_3
  rw [View.read_writes_eq_canon _ _ _ (cover7_C_3 c i arg2 harg2 arg3 harg3 arg4 harg4 arg5 harg5 arg6 harg6 hc0 hc1 x0 x1 x2 xs0)]
  unfold kernelRun7_C
  dsimp only
  sl_unfold_run_names
  rw [View.canon_unit_zero gcn7_hz, View.readCov_unit_zero (S := S1024x512) _ gcn7_hz]
  simp only [View.readAt_eq_ld, harg2.read_unread, harg3.read_unread, harg4.read_unread, harg6.read_unread,
    View.ld_unit_zero (S := S1024x1024) gcn7_hz, View.ld_unit_zero (S := S1024x512) gcn7_hz, View.ld_unit_zero (S := S1x512) gcn7_hz]
  rfl

end Pieces

/-! ## One accumulation step at an entry, over any blocks -/

/-- If the products of the adjacency block's row p with the support rows' column q are the terms f(k · 1024 + e) of a
    sum, the accumulation step adds those 1024 terms to the old entry. -/
theorem gcn7_step (x0 : Vec Ideal S1024x1024 .f32) (xr : Vec Ideal S1024x512 .bf16) (xs0 : Vec Ideal S1024x512 .f32)
    (f : ℕ → EReal) (k : ℕ) (p : Fin 1024) (q : Fin 512)
    (hterm : ∀ e : Fin 1024, x0 (ix2 p e) * xr (ix2 e q) = f (k * 1024 + e.val)) :
    k7_pay2 (F := Ideal) x0 xr xs0 (ix2 p q) = xs0 (ix2 p q) + ∑ e : Fin 1024, f (k * 1024 + e.val) := by
  rw [k7_pay2_apply]
  exact congrArg (xs0 (ix2 p q) + ·) (Finset.sum_congr rfl fun e _ => hterm e)

end Cert.KernelIdeal.Gen

end
-- ==== Proof.GcnVal7.lean ====
/-
  What the fourth graph-convolution product leaves in its output array, on the extended reals.

  The grid walks 8 row blocks of 1024 rows and, inside each, 8 contraction blocks of 1024 columns of the adjacency
  matrix; point t is row block t / 8, contraction block t % 8.  The accumulator carried from point to point holds,
  after point t, the running total of the terms adj(r, e) · support(e, j) over the contraction blocks 0 … t % 8 of its
  row block, taken block after block from zero: at the first contraction block the zero block plus that block's terms,
  at every later one the total before plus that block's terms.  After the last contraction block the total is the
  whole entry of the product adj · support, and the output block receives it plus the bias of its column.
  The output blocks written after the last contraction block of each row block are the blocks of ONE function of the
  whole arrays, and the 8 row blocks cover the output array (row r lies in row block r / 1024).
-/
import proofs.«166906_j60567628808244_2_alg».proof.Proof.GcnPiece7
import proofs.«166906_j60567628808244_2_alg».proof.Proof.GcnAcc

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

variable (V : (c : Dev nD) → (b : Ref sig .tc) → Buf (Elt Ideal) ((c : Thread nD τ).loc b))

/-! ## The blocks a point is given, and where they sit in their arrays -/

/-- Point t's block of the adjacency matrix, -/
abbrev gcn7_adjBlk (c : Dev nD) (t : Fin cfg7.N) : Vec Ideal S1024x1024 .f32 := iblk7 (F := Ideal) V c 0 t
/-- its block of the support (the whole support), -/
abbrev gcn7_supBlk (c : Dev nD) (t : Fin cfg7.N) : Vec Ideal S8192x512 .bf16 := iblk7 (F := Ideal) V c 1 t
/-- and its block of the bias (the whole row). -/
abbrev gcn7_biasBlk (c : Dev nD) (t : Fin cfg7.N) : Vec Ideal S1x512 .f32 := iblk7 (F := Ideal) V c 2 t

/-- The printed index maps and the body's row offset over the grid: the adjacency block is (t / 8, t % 8); the support
    and the bias row are whole; the output block is row block t / 8; the support rows the body reads start at row
    (t % 8) · 1024. -/
theorem gcn7_idx : ∀ t : Fin cfg7.N,
    win7_0.index t (0 : Fin 2) = t.val / 8 ∧ win7_0.index t (1 : Fin 2) = t.val % 8
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val / 8 ∧ win7_3.index t (1 : Fin 2) = 0
    ∧ k7_off1 (grid7.coords t) (0 : Fin 2) = t.val % 8 * 1024 ∧ k7_off1 (grid7.coords t) (1 : Fin 2) = 0 :=
  (by decide +kernel : ∀ t : Fin grid7.N, _)

/-- The number of grid points. -/
theorem gcn7_N : cfg7.N = 64 := N_7

/-- Entry (p, e) of point t's adjacency block is entry ((t / 8) · 1024 + p, (t % 8) · 1024 + e) of the adjacency matrix. -/
theorem gcn7_adj_at (c : Dev nD) (t : Fin cfg7.N) (p : Fin 1024) (e : Fin 1024)
    (hr : t.val / 8 * 1024 + p.val < 8192) (he : t.val % 8 * 1024 + e.val < 8192) :
    gcn7_adjBlk V c t (ix2 p e) = (V c main_arg2 : Cert.Spec.Mat 8192 8192) (ix2 ⟨t.val / 8 * 1024 + p.val, hr⟩ ⟨t.val % 8 * 1024 + e.val, he⟩) := by
  obtain ⟨e0, e1, -⟩ := gcn7_idx t
  refine congrArg (V c main_arg2) ?_
  funext a; apply Fin.ext
  match a with
  | ⟨0, _⟩ => show win7_0.index t (0 : Fin 2) * 1024 + 1 * p.val = t.val / 8 * 1024 + p.val; omega
  | ⟨1, _⟩ => show win7_0.index t (1 : Fin 2) * 1024 + 1 * e.val = t.val % 8 * 1024 + e.val; omega

/-- Entry (e, q) of the support rows point t's contraction block meets is entry ((t % 8) · 1024 + e, q) of the support. -/
theorem gcn7_sup_at (c : Dev nD) (t : Fin cfg7.N) (e : Fin 1024) (q : Fin 512)
    (he : t.val % 8 * 1024 + e.val < 8192) :
    gcn7_supRows (F := Ideal) (grid7.coords t) (gcn7_supBlk V c t) (ix2 e q)
      = (V c main_v14 : Cert.Spec.Mat 8192 512) (ix2 ⟨t.val % 8 * 1024 + e.val, he⟩ q) := by
  obtain ⟨-, -, e2, e3, -, -, -, -, e8, e9⟩ := gcn7_idx t
  refine congrArg (V c main_v14) ?_
  funext a; apply Fin.ext
  match a with
  | ⟨0, _⟩ => show win7_1.index t (0 : Fin 2) * 8192 + 1 * (k7_off1 (grid7.coords t) (0 : Fin 2) + 1 * e.val) = t.val % 8 * 1024 + e.val; omega
  | ⟨1, _⟩ => show win7_1.index t (1 : Fin 2) * 512 + 1 * (k7_off1 (grid7.coords t) (1 : Fin 2) + 1 * q.val) = q.val; omega

/-- Entry (0, q) of point t's bias block is entry (0, q) of the bias row. -/
theorem gcn7_bias_at (c : Dev nD) (t : Fin cfg7.N) (q : Fin 512) :
    gcn7_biasBlk V c t (ix2 (0 : Fin 1) q) = (V c main_v16 : Cert.Spec.Mat 1 512) (ix2 (0 : Fin 1) q) := by
  obtain ⟨-, -, -, -, e4, e5, -⟩ := gcn7_idx t
  refine congrArg (V c main_v16) ?_
  funext a; apply Fin.ext
  match a with
  | ⟨0, _⟩ => show win7_2.index t (0 : Fin 2) * 1 + 1 * 0 = 0; omega
  | ⟨1, _⟩ => show win7_2.index t (1 : Fin 2) * 512 + 1 * q.val = q.val; omega

/-- The terms of row (n / 8) · 1024 + p of the product, column q, over the contracted coordinate. -/
abbrev gcn7_f (c : Dev nD) (n : ℕ) (p : Fin 1024) (q : Fin 512) : ℕ → EReal :=
  Cert.Spec.termN (V c main_arg2 : Cert.Spec.Mat 8192 8192) (V c main_v14 : Cert.Spec.Mat 8192 512) (n / 8 * 1024 + p.val) q

/-- The product of entry (p, e) of point t's adjacency block with entry (e, q) of the support rows it meets is the term
    of the whole product at row (t / 8) · 1024 + p, contracted coordinate (t % 8) · 1024 + e, column q. -/
theorem gcn7_term (c : Dev nD) (t : Fin cfg7.N) (p : Fin 1024) (q : Fin 512) (e : Fin 1024) :
    gcn7_adjBlk V c t (ix2 p e) * gcn7_supRows (F := Ideal) (grid7.coords t) (gcn7_supBlk V c t) (ix2 e q)
      = gcn7_f V c t.val p q (t.val % 8 * 1024 + e.val) := by
  have hN : t.val < 64 := lt_of_lt_of_eq t.isLt (gcn7_N)
  have hr : t.val / 8 * 1024 + p.val < 8192 := by omega
  have he : t.val % 8 * 1024 + e.val < 8192 := by omega
  rw [gcn7_adj_at V c t p e hr he, gcn7_sup_at V c t e q he]
  exact (Cert.Spec.termN_of_lt (V c main_arg2 : Cert.Spec.Mat 8192 8192) (V c main_v14 : Cert.Spec.Mat 8192 512) (t.val / 8 * 1024 + p.val) q (t.val % 8 * 1024 + e.val) hr he).symm

/-! ## The accumulator after each point -/

/-- At a first contraction block the accumulator is the zero block plus the block's product. -/
theorem gcn7_scr_first (c : Dev nD) (t : Fin cfg7.N) (h0 : t.val % 8 = 0) :
    (outsAt7 (F := Ideal) V c t.val t.isLt).2
      = k7_pay2 (gcn7_adjBlk V c t) (gcn7_supRows (grid7.coords t) (gcn7_supBlk V c t)) (k7_pay1 (F := Ideal)) := by
  have h1 : ¬t.val % 8 = 7 := by omega
  rw [outsAt7_A (F := Ideal) V c t h0 h1]
  dsimp only
  rw [gcn7_sout_A]

/-- At a later contraction block the accumulator is what the point before left plus the block's product. -/
theorem gcn7_scr_next (c : Dev nD) (t : Fin cfg7.N) (h0 : ¬t.val % 8 = 0) :
    (outsAt7 (F := Ideal) V c t.val t.isLt).2
      = k7_pay2 (gcn7_adjBlk V c t) (gcn7_supRows (grid7.coords t) (gcn7_supBlk V c t))
          (outsAt7 (F := Ideal) V c (t.val - 1) (Nat.lt_of_le_of_lt (Nat.sub_le _ _) t.isLt)).2 := by
  by_cases h1 : t.val % 8 = 7
  · rw [outsAt7_C (F := Ideal) V c t h0 h1]
    dsimp only
    rw [gcn7_sout_C]
  · rw [outsAt7_B (F := Ideal) V c t h0 h1]
    dsimp only
    rw [gcn7_sout_B]

/-- After the last contraction block the output block is finished from the accumulator the point leaves and the bias row. -/
theorem gcn7_out_last (c : Dev nD) (t : Fin cfg7.N) (h1 : t.val % 8 = 7) :
    (outsAt7 (F := Ideal) V c t.val t.isLt).1
      = k7_pay3 (outsAt7 (F := Ideal) V c t.val t.isLt).2 (gcn7_biasBlk V c t) := by
  have h0 : ¬t.val % 8 = 0 := by omega
  rw [outsAt7_C (F := Ideal) V c t h0 h1]
  dsimp only
  rw [gcn7_sout_C, gcn7_out_C]

/-- THE RUNNING TOTAL.  After point n the accumulator's entry (p, q) is the running total, over the contraction blocks
    0 … n % 8, of the terms of row (n / 8) · 1024 + p, column q of the product. -/
theorem gcn7_acc (c : Dev nD) (p : Fin 1024) (q : Fin 512) : ∀ (n : ℕ) (hn : n < cfg7.N),
    (outsAt7 (F := Ideal) V c n hn).2 (ix2 p q) = Cert.Spec.acc 1024 (gcn7_f V c n p q) (n % 8) := by
  intro n
  induction n with
  | zero =>
    intro hn
    rw [gcn7_scr_first V c ⟨0, hn⟩ (Nat.zero_mod _)]
    refine (gcn7_step (gcn7_adjBlk V c ⟨0, hn⟩) (gcn7_supRows (grid7.coords ⟨0, hn⟩) (gcn7_supBlk V c ⟨0, hn⟩)) (k7_pay1 (F := Ideal))
      (gcn7_f V c 0 p q) (0 % 8) p q (gcn7_term V c ⟨0, hn⟩ p q)).trans ?_
    rw [k7_pay1_apply, Nat.zero_mod, Cert.Spec.acc_zero]
    simp only [Nat.zero_mul, Nat.zero_add]
  | succ n ih =>
    intro hn
    by_cases h0 : (n + 1) % 8 = 0
    · rw [gcn7_scr_first V c ⟨n + 1, hn⟩ h0]
      refine (gcn7_step (gcn7_adjBlk V c ⟨n + 1, hn⟩) (gcn7_supRows (grid7.coords ⟨n + 1, hn⟩) (gcn7_supBlk V c ⟨n + 1, hn⟩)) (k7_pay1 (F := Ideal))
        (gcn7_f V c (n + 1) p q) ((n + 1) % 8) p q (gcn7_term V c ⟨n + 1, hn⟩ p q)).trans ?_
      rw [k7_pay1_apply, h0, Cert.Spec.acc_zero]
      simp only [Nat.zero_mul, Nat.zero_add]
    · have hq : (n + 1) / 8 = n / 8 := by omega
      have hr : (n + 1) % 8 = n % 8 + 1 := by omega
      rw [gcn7_scr_next V c ⟨n + 1, hn⟩ h0]
      refine (gcn7_step (gcn7_adjBlk V c ⟨n + 1, hn⟩) (gcn7_supRows (grid7.coords ⟨n + 1, hn⟩) (gcn7_supBlk V c ⟨n + 1, hn⟩))
        (outsAt7 (F := Ideal) V c n (Nat.lt_of_succ_lt hn)).2
        (gcn7_f V c (n + 1) p q) ((n + 1) % 8) p q (gcn7_term V c ⟨n + 1, hn⟩ p q)).trans ?_
      rw [ih (Nat.lt_of_succ_lt hn)]
      unfold gcn7_f
      rw [hq, hr, Cert.Spec.acc_succ]

/-! ## The output block at the points that write it back, and the whole array -/

/-- The region's result as one function of the whole arrays: the product adj · support plus the bias of its column. -/
abbrev gcn7_G (c : Dev nD) : Cert.Spec.Mat 8192 512 := fun i =>
  Cert.Spec.mm (V c main_arg2 : Cert.Spec.Mat 8192 8192) (V c main_v14 : Cert.Spec.Mat 8192 512) (i 0) (i 1) + (V c main_v16 : Cert.Spec.Mat 1 512) (ix2 (0 : Fin 1) (i 1))

/-- Entry (p, q) of the output block after the last contraction block of row block t / 8. -/
theorem gcn7_out_at (c : Dev nD) (t : Fin cfg7.N) (h1 : t.val % 8 = 7) (p : Fin 1024) (q : Fin 512)
    (hr : t.val / 8 * 1024 + p.val < 8192) :
    (outsAt7 (F := Ideal) V c t.val t.isLt).1 (ix2 p q) = Cert.Spec.mm (V c main_arg2 : Cert.Spec.Mat 8192 8192) (V c main_v14 : Cert.Spec.Mat 8192 512) ⟨t.val / 8 * 1024 + p.val, hr⟩ q + (V c main_v16 : Cert.Spec.Mat 1 512) (ValueIdx.ix2 (0 : Fin 1) q) := by
  rw [gcn7_out_last V c t h1]
  refine (k7_pay3_apply (outsAt7 (F := Ideal) V c t.val t.isLt).2 (gcn7_biasBlk V c t) p q).trans ?_
  rw [gcn7_acc V c p q t.val t.isLt, h1, gcn7_bias_at V c t q,
    Cert.Spec.mm_eq_acc 7 1024 rfl (V c main_arg2 : Cert.Spec.Mat 8192 8192) (V c main_v14 : Cert.Spec.Mat 8192 512) ⟨t.val / 8 * 1024 + p.val, hr⟩ q]

/-- What a point after the last contraction block writes back is its block of that function. -/
theorem gcn7_flushed (c : Dev nD) (t : Fin cfg7.N) (hf : (cfg7.win 3).flush t = true) :
    (dats7 (F := Ideal) V c).flushed 3 t = ((cfg7.win 3).blk t).view.read (Elt Ideal) (gcn7_G V c) := by
  have h1 : t.val % 8 = 7 := (flush7_3 t).mp hf
  have hN : t.val < 64 := lt_of_lt_of_eq t.isLt (gcn7_N)
  obtain ⟨-, -, -, -, -, -, e6, e7, -⟩ := gcn7_idx t
  show (cfg7.win 3).cut (grid7.coords t) ((dats7 (F := Ideal) V c).after 3 t) = _
  rw [after7_3]
  funext j
  obtain ⟨p, q, rfl⟩ : ∃ (p : Fin 1024) (q : Fin 512), j = ix2 p q := ⟨j 0, j 1, eq_ix2 j⟩
  have hr : t.val / 8 * 1024 + p.val < 8192 := by omega
  have hemb : ((cfg7.win 3).blk t).view.emb (ix2 p q) = ix2 (⟨t.val / 8 * 1024 + p.val, hr⟩ : Fin 8192) q := by
    funext a; apply Fin.ext
    match a with
    | ⟨0, _⟩ => show win7_3.index t (0 : Fin 2) * 1024 + 1 * p.val = t.val / 8 * 1024 + p.val; rw [e6]; omega
    | ⟨1, _⟩ => show win7_3.index t (1 : Fin 2) * 512 + 1 * q.val = q.val; rw [e7]; omega
  refine (gcn7_out_at V c t h1 p q hr).trans ?_
  show _ = gcn7_G V c (((cfg7.win 3).blk t).view.emb (ix2 p q))
  rw [hemb]

/-- An index of the output array is in point `t`'s block iff each coordinate is in the block's range on its axis. -/
theorem gcn7_mem_blk (t : Fin cfg7.N) (i : S8192x512.Idx) :
    i ∈ ((cfg7.win 3).blk t).view.set ↔ ∀ a : Fin 2, win7_3.index t a * S1024x512.size a ≤ (i a).val ∧ (i a).val < win7_3.index t a * S1024x512.size a + S1024x512.size a := by
  show i ∈ ((View.whole main_v17).slice (win7_3.rect t)).set ↔ _
  rw [View.set_slice_whole, Rect.mem_set_unit]
  exact Iff.rfl

/-- Every index of the output array is in the block written back after the last contraction block of its row block. -/
theorem gcn7_covered (i : S8192x512.Idx) :
    ∃ t : Fin cfg7.N, (cfg7.win 3).flush t = true ∧ i ∈ ((cfg7.win 3).blk t).view.set := by
  have hi0 : (i 0).val < 8192 := (i 0).isLt
  have hi1 : (i 1).val < 512 := (i 1).isLt
  have hN : cfg7.N = 64 := gcn7_N
  have ht : (i 0).val / 1024 * 8 + 7 < cfg7.N := by rw [hN]; omega
  obtain ⟨-, -, -, -, -, -, e6, e7, -⟩ := gcn7_idx ⟨(i 0).val / 1024 * 8 + 7, ht⟩
  refine ⟨⟨(i 0).val / 1024 * 8 + 7, ht⟩, (flush7_3 _).mpr (by show ((i 0).val / 1024 * 8 + 7) % 8 = 7; omega), ?_⟩
  rw [gcn7_mem_blk]
  intro a
  match a with
  | ⟨0, _⟩ =>
    show win7_3.index _ (0 : Fin 2) * 1024 ≤ (i 0).val ∧ (i 0).val < win7_3.index _ (0 : Fin 2) * 1024 + 1024
    rw [e6]
    show ((i 0).val / 1024 * 8 + 7) / 8 * 1024 ≤ (i 0).val ∧ (i 0).val < ((i 0).val / 1024 * 8 + 7) / 8 * 1024 + 1024
    omega
  | ⟨1, _⟩ =>
    show win7_3.index _ (1 : Fin 2) * 512 ≤ (i 1).val ∧ (i 1).val < win7_3.index _ (1 : Fin 2) * 512 + 512
    rw [e7]; omega

/-- The output array after the region's run is that function. -/
theorem gcn7_final (c : Dev nD) : (dats7 (F := Ideal) V c).arrAt 3 cfg7.N = gcn7_G V c :=
  (dats7 (F := Ideal) V c).arrAt_eq_of_cover 3 (gcn7_G V c) (fun t hf => gcn7_flushed V c t hf) gcn7_covered

/-- Entry (r, j) of the output array after the region's run. -/
theorem arrAt7 (c : Dev nD) (r : Fin 8192) (j : Fin 512) :
    ((dats7 (F := Ideal) V c).arrAt 3 cfg7.N : Cert.Spec.Mat 8192 512) (ValueIdx.ix2 r j)
      = Cert.Spec.mm (V c main_arg2 : Cert.Spec.Mat 8192 8192) (V c main_v14 : Cert.Spec.Mat 8192 512) r j + (V c main_v16 : Cert.Spec.Mat 1 512) (ValueIdx.ix2 (0 : Fin 1) j) := by
  rw [gcn7_final]

end Cert.KernelIdeal.Gen

end
-- ==== Proof.GcnPay9.lean ====
/-
  The arithmetic of one grid point of the fifth graph-convolution product, read entry by entry on the extended reals.

  At a grid point the accumulator block (1024 rows, 256 columns) is first the zero block (at the first contraction
  block), then at every contraction block it gains the product of the 1024 × 1024 block of the adjacency matrix with
  the matching 1024 rows of the support; after the last contraction block the output block is the accumulator plus
  the bias row.  On the extended reals a change of float format is the identity, so each entry is a plain
  finite sum of products.
-/
import proofs.«166906_j60567628808244_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-- The zero block: every entry is 0. -/
theorem k9_pay1_apply (p : Fin 1024) (q : Fin 256) : k9_pay1 (F := Ideal) (ix2 p q) = 0 := by
  unfold k9_pay1
  rw [shapeCast_self]
  exact Ideal.ofBits_zero_f32

/-- The printed contraction record is the plain product of a 1024 × 1024 by a 1024 × 256 matrix. -/
theorem k9_dot_eq : dot_S1024x1024_S1024x256_S1024x256_1_0_0_1_n_n = DotDims.plain 1024 1024 256 := rfl

/-- One accumulation step: the old entry plus the sum over the block's 1024 contracted columns. -/
theorem k9_pay2_apply (v3 : Vec Ideal S1024x1024 .f32) (v8 : Vec Ideal S1024x256 .bf16) (v10 : Vec Ideal S1024x256 .f32)
    (p : Fin 1024) (q : Fin 256) :
    k9_pay2 (F := Ideal) v3 v8 v10 (ix2 p q) = v10 (ix2 p q) + ∑ c : Fin 1024, v3 (ix2 p c) * v8 (ix2 c q) := by
  unfold k9_pay2
  rw [shapeCast_self, shapeCast_self]
  refine (addf_apply _ _ _).trans ?_
  congr 1
  rw [matmul_zero_eq_dotGeneral, k9_dot_eq]
  exact StackMember.dotGeneral_plain_apply none _ _ p q

/-- The finishing step: the accumulator entry plus the bias of its column. -/
theorem k9_pay3_apply (v19 : Vec Ideal S1024x256 .f32) (v20 : Vec Ideal S1x256 .f32) (p : Fin 1024) (q : Fin 256) :
    k9_pay3 (F := Ideal) v19 v20 (ix2 p q) = v19 (ix2 p q) + v20 (ix2 (0 : Fin 1) q) := by
  unfold k9_pay3
  rw [shapeCast_self]
  refine (addf_apply _ _ _).trans ?_
  congr 1
  refine broadcastTo_apply (s := S1x256) (t := S1024x256) v20 broadcasts_S1x256_S1024x256 (ix2 p q) (ix2 (0 : Fin 1) q) ?_
  intro a
  match a with
  | ⟨0, _⟩ => rfl
  | ⟨1, _⟩ => rfl

end Cert.KernelIdeal.Gen

end
-- ==== Proof.GcnPiece9.lean ====
/-
  What each case of the body of the fifth graph-convolution product leaves in the accumulator and in the output
  block, as the arithmetic of the blocks it is given: at the first contraction block the accumulator is the zero block
  plus the block's product, at a later one the accumulator before plus the block's product, and after the last one the
  output block is finished from the accumulator and the bias row.  The body reads 1024 rows of the whole support, those
  its contraction block meets.
-/
import proofs.«166906_j60567628808244_2_alg».proof.Proof.Gcn9Frame
import proofs.«166906_j60567628808244_2_alg».proof.Proof.GcnPay9
import Idealize.ShloMosaic.Lib.Pipeline.Value
import Idealize.ShloMosaic.Lib.KernelVsHost
import Idealize.ShloMosaic.Lib.StackMember
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

/-! ## What each case of the body leaves, as payloads of the blocks it is given -/

section Pieces

variable {F : FTy → Type} [FloatOps F]

/-- The zero offsets of a whole-buffer access, however spelt. -/
theorem gcn9_hz : (![0, 0] : Fin 2 → Nat) = fun _ => 0 := funext fun a => by fin_cases a <;> rfl

/-- The 1024 rows of the support that the contraction block at grid coordinates `i` meets, read out of the whole support. -/
def gcn9_supRows (i : grid9.Coords) (x1 : Vec F S8192x256 .bf16) : Vec F S1024x256 .bf16 :=
  View.ld x1 (Rect.unit (s := S8192x256) (k9_off1 i) S1024x256.size (k9_off1_inb i))

/-- At the first contraction block the accumulator is zeroed and then gains the block's product. -/
theorem gcn9_sout_A (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond9_0 i) (hc1 : ¬cond9_1 i)
    (x0 : Vec F S1024x1024 .f32) (x1 : Vec F S8192x256 .bf16) (x2 : Vec F S1x256 .f32) :
    sout9_A_0 c i arg2 harg2 arg3 harg3 arg4 harg4 arg5 harg5 arg6 harg6 hc0 hc1 x0 x1 x2 = k9_pay2 x0 (gcn9_supRows i x1) k9_pay1 := by
  unfold sout9_A_0
  rw [View.read_writes_eq_canon _ _ _ (scover9_A_0 c i arg2 harg2 arg3 harg3 arg4 harg4 arg5 harg5 arg6 harg6 hc0 hc1 x0 x1 x2)]
  unfold kernelRun9_A
  dsimp only
  sl_unfold_run_names
  rw [View.canon_cons_unit_zero (S := S1024x256) gcn9_hz, View.readCov_unit_zero (S := S1024x256) _ gcn9_hz]
  simp only [View.readAt_eq_ld, harg2.read_unread, harg3.read_unread,
    View.ld_unit_zero (S := S1024x1024) gcn9_hz]
  rfl

/-- At a middle contraction block the accumulator gains the block's product. -/
theorem gcn9_sout_B (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : ¬cond9_1 i)
    (x0 : Vec F S1024x1024 .f32) (x1 : Vec F S8192x256 .bf16) (x2 : Vec F S1x256 .f32) (xs0 : Vec F S1024x256 .f32) :
    sout9_B_0 c i arg2 harg2 arg3 harg3 arg4 harg4 arg5 harg5 arg6 harg6 hc0 hc1 x0 x1 x2 xs0 = k9_pay2 x0 (gcn9_supRows i x1) xs0 := by
  unfold sout9_B_0
  rw [View.read_writes_eq_canon _ _ _ (scover9_B_0 c i arg2 harg2 arg3 harg3 arg4 harg4 arg5 harg5 arg6 harg6 hc0 hc1 x0 x1 x2 xs0)]
  unfold kernelRun9_B
  dsimp only
  sl_unfold_run_names
  rw [View.canon_unit_zero gcn9_hz]
  simp only [View.readAt_eq_ld, harg2.read_unread, harg3.read_unread, harg6.read_unread,
    View.ld_unit_zero (S := S1024x1024) gcn9_hz, View.ld_unit_zero (S := S1024x256) gcn9_hz]
  rfl

/-- At the last contraction block the accumulator gains the block's product, -/
theorem gcn9_sout_C (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) :
    sout9_C_0 c i arg2 harg2 arg3 harg3 arg4 harg4 arg5 harg5 arg6 harg6 hc0 hc1 x0 x1 x2 xs0 = k9_pay2 x0 (gcn9_supRows i x1) xs0 := by
  unfold sout9_C_0
  rw [View.read_writes_eq_canon _ _ _ (scover9_C_0 c i arg2 harg2 arg3 harg3 arg4 harg4 arg5 harg5 arg6 harg6 hc0 hc1 x0 x1 x2 xs0)]
  unfold kernelRun9_C
  dsimp only
  sl_unfold_run_names
  rw [View.canon_unit_zero gcn9_hz]
  simp only [View.readAt_eq_ld, harg2.read_unread, harg3.read_unread, harg6.read_unread,
    View.ld_unit_zero (S := S1024x1024) gcn9_hz, View.ld_unit_zero (S := S1024x256) gcn9_hz]
  rfl

/-- and the output block is finished from the accumulator so updated and the bias row. -/
theorem gcn9_out_C (c : Dev nD) (i : grid9.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond9_0 i) (hc1 : cond9_1 i)
    (x0 : Vec F S1024x1024 .f32) (x1 : Vec F S8192x256 .bf16) (x2 : Vec F S1x256 .f32) (xs0 : Vec F S1024x256 .f32) :
    out9_C_3 c i arg2 harg2 arg3 harg3 arg4 harg4 arg5 harg5 arg6 harg6 hc0 hc1 x0 x1 x2 xs0 = k9_pay3 (k9_pay2 x0 (gcn9_supRows i x1) xs0) x2 := by
  unfold out9_C_3
  rw [View.read_writes_eq_canon _ _ _ (cover9_C_3 c i arg2 harg2 arg3 harg3 arg4 harg4 arg5 harg5 arg6 harg6 hc0 hc1 x0 x1 x2 xs0)]
  unfold kernelRun9_C
  dsimp only
  sl_unfold_run_names
  rw [View.canon_unit_zero gcn9_hz, View.readCov_unit_zero (S := S1024x256) _ gcn9_hz]
  simp only [View.readAt_eq_ld, harg2.read_unread, harg3.read_unread, harg4.read_unread, harg6.read_unread,
    View.ld_unit_zero (S := S1024x1024) gcn9_hz, View.ld_unit_zero (S := S1024x256) gcn9_hz, View.ld_unit_zero (S := S1x256) gcn9_hz]
  rfl

end Pieces

/-! ## One accumulation step at an entry, over any blocks -/

/-- If the products of the adjacency block's row p with the support rows' column q are the terms f(k · 1024 + e) of a
    sum, the accumulation step adds those 1024 terms to the old entry. -/
theorem gcn9_step (x0 : Vec Ideal S1024x1024 .f32) (xr : Vec Ideal S1024x256 .bf16) (xs0 : Vec Ideal S1024x256 .f32)
    (f : ℕ → EReal) (k : ℕ) (p : Fin 1024) (q : Fin 256)
    (hterm : ∀ e : Fin 1024, x0 (ix2 p e) * xr (ix2 e q) = f (k * 1024 + e.val)) :
    k9_pay2 (F := Ideal) x0 xr xs0 (ix2 p q) = xs0 (ix2 p q) + ∑ e : Fin 1024, f (k * 1024 + e.val) := by
  rw [k9_pay2_apply]
  exact congrArg (xs0 (ix2 p q) + ·) (Finset.sum_congr rfl fun e _ => hterm e)

end Cert.KernelIdeal.Gen

end
-- ==== Proof.GcnVal9.lean ====
/-
  What the fifth graph-convolution product leaves in its output array, on the extended reals.

  The grid walks 8 row blocks of 1024 rows and, inside each, 8 contraction blocks of 1024 columns of the adjacency
  matrix; point t is row block t / 8, contraction block t % 8.  The accumulator carried from point to point holds,
  after point t, the running total of the terms adj(r, e) · support(e, j) over the contraction blocks 0 … t % 8 of its
  row block, taken block after block from zero: at the first contraction block the zero block plus that block's terms,
  at every later one the total before plus that block's terms.  After the last contraction block the total is the
  whole entry of the product adj · support, and the output block receives it plus the bias of its column.
  The output blocks written after the last contraction block of each row block are the blocks of ONE function of the
  whole arrays, and the 8 row blocks cover the output array (row r lies in row block r / 1024).
-/
import proofs.«166906_j60567628808244_2_alg».proof.Proof.GcnPiece9
import proofs.«166906_j60567628808244_2_alg».proof.Proof.GcnAcc

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

variable (V : (c : Dev nD) → (b : Ref sig .tc) → Buf (Elt Ideal) ((c : Thread nD τ).loc b))

/-! ## The blocks a point is given, and where they sit in their arrays -/

/-- Point t's block of the adjacency matrix, -/
abbrev gcn9_adjBlk (c : Dev nD) (t : Fin cfg9.N) : Vec Ideal S1024x1024 .f32 := iblk9 (F := Ideal) V c 0 t
/-- its block of the support (the whole support), -/
abbrev gcn9_supBlk (c : Dev nD) (t : Fin cfg9.N) : Vec Ideal S8192x256 .bf16 := iblk9 (F := Ideal) V c 1 t
/-- and its block of the bias (the whole row). -/
abbrev gcn9_biasBlk (c : Dev nD) (t : Fin cfg9.N) : Vec Ideal S1x256 .f32 := iblk9 (F := Ideal) V c 2 t

/-- The printed index maps and the body's row offset over the grid: the adjacency block is (t / 8, t % 8); the support
    and the bias row are whole; the output block is row block t / 8; the support rows the body reads start at row
    (t % 8) · 1024. -/
theorem gcn9_idx : ∀ t : Fin cfg9.N,
    win9_0.index t (0 : Fin 2) = t.val / 8 ∧ win9_0.index t (1 : Fin 2) = t.val % 8
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val / 8 ∧ win9_3.index t (1 : Fin 2) = 0
    ∧ k9_off1 (grid9.coords t) (0 : Fin 2) = t.val % 8 * 1024 ∧ k9_off1 (grid9.coords t) (1 : Fin 2) = 0 :=
  (by decide +kernel : ∀ t : Fin grid9.N, _)

/-- The number of grid points. -/
theorem gcn9_N : cfg9.N = 64 := N_9

/-- Entry (p, e) of point t's adjacency block is entry ((t / 8) · 1024 + p, (t % 8) · 1024 + e) of the adjacency matrix. -/
theorem gcn9_adj_at (c : Dev nD) (t : Fin cfg9.N) (p : Fin 1024) (e : Fin 1024)
    (hr : t.val / 8 * 1024 + p.val < 8192) (he : t.val % 8 * 1024 + e.val < 8192) :
    gcn9_adjBlk V c t (ix2 p e) = (V c main_arg3 : Cert.Spec.Mat 8192 8192) (ix2 ⟨t.val / 8 * 1024 + p.val, hr⟩ ⟨t.val % 8 * 1024 + e.val, he⟩) := by
  obtain ⟨e0, e1, -⟩ := gcn9_idx t
  refine congrArg (V c main_arg3) ?_
  funext a; apply Fin.ext
  match a with
  | ⟨0, _⟩ => show win9_0.index t (0 : Fin 2) * 1024 + 1 * p.val = t.val / 8 * 1024 + p.val; omega
  | ⟨1, _⟩ => show win9_0.index t (1 : Fin 2) * 1024 + 1 * e.val = t.val % 8 * 1024 + e.val; omega

/-- Entry (e, q) of the support rows point t's contraction block meets is entry ((t % 8) · 1024 + e, q) of the support. -/
theorem gcn9_sup_at (c : Dev nD) (t : Fin cfg9.N) (e : Fin 1024) (q : Fin 256)
    (he : t.val % 8 * 1024 + e.val < 8192) :
    gcn9_supRows (F := Ideal) (grid9.coords t) (gcn9_supBlk V c t) (ix2 e q)
      = (V c main_v20 : Cert.Spec.Mat 8192 256) (ix2 ⟨t.val % 8 * 1024 + e.val, he⟩ q) := by
  obtain ⟨-, -, e2, e3, -, -, -, -, e8, e9⟩ := gcn9_idx t
  refine congrArg (V c main_v20) ?_
  funext a; apply Fin.ext
  match a with
  | ⟨0, _⟩ => show win9_1.index t (0 : Fin 2) * 8192 + 1 * (k9_off1 (grid9.coords t) (0 : Fin 2) + 1 * e.val) = t.val % 8 * 1024 + e.val; omega
  | ⟨1, _⟩ => show win9_1.index t (1 : Fin 2) * 256 + 1 * (k9_off1 (grid9.coords t) (1 : Fin 2) + 1 * q.val) = q.val; omega

/-- Entry (0, q) of point t's bias block is entry (0, q) of the bias row. -/
theorem gcn9_bias_at (c : Dev nD) (t : Fin cfg9.N) (q : Fin 256) :
    gcn9_biasBlk V c t (ix2 (0 : Fin 1) q) = (V c main_v21 : Cert.Spec.Mat 1 256) (ix2 (0 : Fin 1) q) := by
  obtain ⟨-, -, -, -, e4, e5, -⟩ := gcn9_idx t
  refine congrArg (V c main_v21) ?_
  funext a; apply Fin.ext
  match a with
  | ⟨0, _⟩ => show win9_2.index t (0 : Fin 2) * 1 + 1 * 0 = 0; omega
  | ⟨1, _⟩ => show win9_2.index t (1 : Fin 2) * 256 + 1 * q.val = q.val; omega

/-- The terms of row (n / 8) · 1024 + p of the product, column q, over the contracted coordinate. -/
abbrev gcn9_f (c : Dev nD) (n : ℕ) (p : Fin 1024) (q : Fin 256) : ℕ → EReal :=
  Cert.Spec.termN (V c main_arg3 : Cert.Spec.Mat 8192 8192) (V c main_v20 : Cert.Spec.Mat 8192 256) (n / 8 * 1024 + p.val) q

/-- The product of entry (p, e) of point t's adjacency block with entry (e, q) of the support rows it meets is the term
    of the whole product at row (t / 8) · 1024 + p, contracted coordinate (t % 8) · 1024 + e, column q. -/
theorem gcn9_term (c : Dev nD) (t : Fin cfg9.N) (p : Fin 1024) (q : Fin 256) (e : Fin 1024) :
    gcn9_adjBlk V c t (ix2 p e) * gcn9_supRows (F := Ideal) (grid9.coords t) (gcn9_supBlk V c t) (ix2 e q)
      = gcn9_f V c t.val p q (t.val % 8 * 1024 + e.val) := by
  have hN : t.val < 64 := lt_of_lt_of_eq t.isLt (gcn9_N)
  have hr : t.val / 8 * 1024 + p.val < 8192 := by omega
  have he : t.val % 8 * 1024 + e.val < 8192 := by omega
  rw [gcn9_adj_at V c t p e hr he, gcn9_sup_at V c t e q he]
  exact (Cert.Spec.termN_of_lt (V c main_arg3 : Cert.Spec.Mat 8192 8192) (V c main_v20 : Cert.Spec.Mat 8192 256) (t.val / 8 * 1024 + p.val) q (t.val % 8 * 1024 + e.val) hr he).symm

/-! ## The accumulator after each point -/

/-- At a first contraction block the accumulator is the zero block plus the block's product. -/
theorem gcn9_scr_first (c : Dev nD) (t : Fin cfg9.N) (h0 : t.val % 8 = 0) :
    (outsAt9 (F := Ideal) V c t.val t.isLt).2
      = k9_pay2 (gcn9_adjBlk V c t) (gcn9_supRows (grid9.coords t) (gcn9_supBlk V c t)) (k9_pay1 (F := Ideal)) := by
  have h1 : ¬t.val % 8 = 7 := by omega
  rw [outsAt9_A (F := Ideal) V c t h0 h1]
  dsimp only
  rw [gcn9_sout_A]

/-- At a later contraction block the accumulator is what the point before left plus the block's product. -/
theorem gcn9_scr_next (c : Dev nD) (t : Fin cfg9.N) (h0 : ¬t.val % 8 = 0) :
    (outsAt9 (F := Ideal) V c t.val t.isLt).2
      = k9_pay2 (gcn9_adjBlk V c t) (gcn9_supRows (grid9.coords t) (gcn9_supBlk V c t))
          (outsAt9 (F := Ideal) V c (t.val - 1) (Nat.lt_of_le_of_lt (Nat.sub_le _ _) t.isLt)).2 := by
  by_cases h1 : t.val % 8 = 7
  · rw [outsAt9_C (F := Ideal) V c t h0 h1]
    dsimp only
    rw [gcn9_sout_C]
  · rw [outsAt9_B (F := Ideal) V c t h0 h1]
    dsimp only
    rw [gcn9_sout_B]

/-- After the last contraction block the output block is finished from the accumulator the point leaves and the bias row. -/
theorem gcn9_out_last (c : Dev nD) (t : Fin cfg9.N) (h1 : t.val % 8 = 7) :
    (outsAt9 (F := Ideal) V c t.val t.isLt).1
      = k9_pay3 (outsAt9 (F := Ideal) V c t.val t.isLt).2 (gcn9_biasBlk V c t) := by
  have h0 : ¬t.val % 8 = 0 := by omega
  rw [outsAt9_C (F := Ideal) V c t h0 h1]
  dsimp only
  rw [gcn9_sout_C, gcn9_out_C]

/-- THE RUNNING TOTAL.  After point n the accumulator's entry (p, q) is the running total, over the contraction blocks
    0 … n % 8, of the terms of row (n / 8) · 1024 + p, column q of the product. -/
theorem gcn9_acc (c : Dev nD) (p : Fin 1024) (q : Fin 256) : ∀ (n : ℕ) (hn : n < cfg9.N),
    (outsAt9 (F := Ideal) V c n hn).2 (ix2 p q) = Cert.Spec.acc 1024 (gcn9_f V c n p q) (n % 8) := by
  intro n
  induction n with
  | zero =>
    intro hn
    rw [gcn9_scr_first V c ⟨0, hn⟩ (Nat.zero_mod _)]
    refine (gcn9_step (gcn9_adjBlk V c ⟨0, hn⟩) (gcn9_supRows (grid9.coords ⟨0, hn⟩) (gcn9_supBlk V c ⟨0, hn⟩)) (k9_pay1 (F := Ideal))
      (gcn9_f V c 0 p q) (0 % 8) p q (gcn9_term V c ⟨0, hn⟩ p q)).trans ?_
    rw [k9_pay1_apply, Nat.zero_mod, Cert.Spec.acc_zero]
    simp only [Nat.zero_mul, Nat.zero_add]
  | succ n ih =>
    intro hn
    by_cases h0 : (n + 1) % 8 = 0
    · rw [gcn9_scr_first V c ⟨n + 1, hn⟩ h0]
      refine (gcn9_step (gcn9_adjBlk V c ⟨n + 1, hn⟩) (gcn9_supRows (grid9.coords ⟨n + 1, hn⟩) (gcn9_supBlk V c ⟨n + 1, hn⟩)) (k9_pay1 (F := Ideal))
        (gcn9_f V c (n + 1) p q) ((n + 1) % 8) p q (gcn9_term V c ⟨n + 1, hn⟩ p q)).trans ?_
      rw [k9_pay1_apply, h0, Cert.Spec.acc_zero]
      simp only [Nat.zero_mul, Nat.zero_add]
    · have hq : (n + 1) / 8 = n / 8 := by omega
      have hr : (n + 1) % 8 = n % 8 + 1 := by omega
      rw [gcn9_scr_next V c ⟨n + 1, hn⟩ h0]
      refine (gcn9_step (gcn9_adjBlk V c ⟨n + 1, hn⟩) (gcn9_supRows (grid9.coords ⟨n + 1, hn⟩) (gcn9_supBlk V c ⟨n + 1, hn⟩))
        (outsAt9 (F := Ideal) V c n (Nat.lt_of_succ_lt hn)).2
        (gcn9_f V c (n + 1) p q) ((n + 1) % 8) p q (gcn9_term V c ⟨n + 1, hn⟩ p q)).trans ?_
      rw [ih (Nat.lt_of_succ_lt hn)]
      unfold gcn9_f
      rw [hq, hr, Cert.Spec.acc_succ]

/-! ## The output block at the points that write it back, and the whole array -/

/-- The region's result as one function of the whole arrays: the product adj · support plus the bias of its column. -/
abbrev gcn9_G (c : Dev nD) : Cert.Spec.Mat 8192 256 := fun i =>
  Cert.Spec.mm (V c main_arg3 : Cert.Spec.Mat 8192 8192) (V c main_v20 : Cert.Spec.Mat 8192 256) (i 0) (i 1) + (V c main_v21 : Cert.Spec.Mat 1 256) (ix2 (0 : Fin 1) (i 1))

/-- Entry (p, q) of the output block after the last contraction block of row block t / 8. -/
theorem gcn9_out_at (c : Dev nD) (t : Fin cfg9.N) (h1 : t.val % 8 = 7) (p : Fin 1024) (q : Fin 256)
    (hr : t.val / 8 * 1024 + p.val < 8192) :
    (outsAt9 (F := Ideal) V c t.val t.isLt).1 (ix2 p q) = Cert.Spec.mm (V c main_arg3 : Cert.Spec.Mat 8192 8192) (V c main_v20 : Cert.Spec.Mat 8192 256) ⟨t.val / 8 * 1024 + p.val, hr⟩ q + (V c main_v21 : Cert.Spec.Mat 1 256) (ValueIdx.ix2 (0 : Fin 1) q) := by
  rw [gcn9_out_last V c t h1]
  refine (k9_pay3_apply (outsAt9 (F := Ideal) V c t.val t.isLt).2 (gcn9_biasBlk V c t) p q).trans ?_
  rw [gcn9_acc V c p q t.val t.isLt, h1, gcn9_bias_at V c t q,
    Cert.Spec.mm_eq_acc 7 1024 rfl (V c main_arg3 : Cert.Spec.Mat 8192 8192) (V c main_v20 : Cert.Spec.Mat 8192 256) ⟨t.val / 8 * 1024 + p.val, hr⟩ q]
  try rfl

/-- What a point after the last contraction block writes back is its block of that function. -/
theorem gcn9_flushed (c : Dev nD) (t : Fin cfg9.N) (hf : (cfg9.win 3).flush t = true) :
    (dats9 (F := Ideal) V c).flushed 3 t = ((cfg9.win 3).blk t).view.read (Elt Ideal) (gcn9_G V c) := by
  have h1 : t.val % 8 = 7 := (flush9_3 t).mp hf
  have hN : t.val < 64 := lt_of_lt_of_eq t.isLt (gcn9_N)
  obtain ⟨-, -, -, -, -, -, e6, e7, -⟩ := gcn9_idx t
  show (cfg9.win 3).cut (grid9.coords t) ((dats9 (F := Ideal) V c).after 3 t) = _
  rw [after9_3]
  funext j
  obtain ⟨p, q, rfl⟩ : ∃ (p : Fin 1024) (q : Fin 256), j = ix2 p q := ⟨j 0, j 1, eq_ix2 j⟩
  have hr : t.val / 8 * 1024 + p.val < 8192 := by omega
  have hemb : ((cfg9.win 3).blk t).view.emb (ix2 p q) = ix2 (⟨t.val / 8 * 1024 + p.val, hr⟩ : Fin 8192) q := by
    funext a; apply Fin.ext
    match a with
    | ⟨0, _⟩ => show win9_3.index t (0 : Fin 2) * 1024 + 1 * p.val = t.val / 8 * 1024 + p.val; rw [e6]; omega
    | ⟨1, _⟩ => show win9_3.index t (1 : Fin 2) * 256 + 1 * q.val = q.val; rw [e7]; omega
  refine (gcn9_out_at V c t h1 p q hr).trans ?_
  show _ = gcn9_G V c (((cfg9.win 3).blk t).view.emb (ix2 p q))
  rw [hemb]

/-- An index of the output array is in point `t`'s block iff each coordinate is in the block's range on its axis. -/
theorem gcn9_mem_blk (t : Fin cfg9.N) (i : S8192x256.Idx) :
    i ∈ ((cfg9.win 3).blk t).view.set ↔ ∀ a : Fin 2, win9_3.index t a * S1024x256.size a ≤ (i a).val ∧ (i a).val < win9_3.index t a * S1024x256.size a + S1024x256.size a := by
  show i ∈ ((View.whole main_v22).slice (win9_3.rect t)).set ↔ _
  rw [View.set_slice_whole, Rect.mem_set_unit]
  exact Iff.rfl

/-- Every index of the output array is in the block written back after the last contraction block of its row block. -/
theorem gcn9_covered (i : S8192x256.Idx) :
    ∃ t : Fin cfg9.N, (cfg9.win 3).flush t = true ∧ i ∈ ((cfg9.win 3).blk t).view.set := by
  have hi0 : (i 0).val < 8192 := (i 0).isLt
  have hi1 : (i 1).val < 256 := (i 1).isLt
  have hN : cfg9.N = 64 := gcn9_N
  have ht : (i 0).val / 1024 * 8 + 7 < cfg9.N := by rw [hN]; omega
  obtain ⟨-, -, -, -, -, -, e6, e7, -⟩ := gcn9_idx ⟨(i 0).val / 1024 * 8 + 7, ht⟩
  refine ⟨⟨(i 0).val / 1024 * 8 + 7, ht⟩, (flush9_3 _).mpr (by show ((i 0).val / 1024 * 8 + 7) % 8 = 7; omega), ?_⟩
  rw [gcn9_mem_blk]
  intro a
  match a with
  | ⟨0, _⟩ =>
    show win9_3.index _ (0 : Fin 2) * 1024 ≤ (i 0).val ∧ (i 0).val < win9_3.index _ (0 : Fin 2) * 1024 + 1024
    rw [e6]
    show ((i 0).val / 1024 * 8 + 7) / 8 * 1024 ≤ (i 0).val ∧ (i 0).val < ((i 0).val / 1024 * 8 + 7) / 8 * 1024 + 1024
    omega
  | ⟨1, _⟩ =>
    show win9_3.index _ (1 : Fin 2) * 256 ≤ (i 1).val ∧ (i 1).val < win9_3.index _ (1 : Fin 2) * 256 + 256
    rw [e7]; omega

/-- The output array after the region's run is that function. -/
theorem gcn9_final (c : Dev nD) : (dats9 (F := Ideal) V c).arrAt 3 cfg9.N = gcn9_G V c :=
  (dats9 (F := Ideal) V c).arrAt_eq_of_cover 3 (gcn9_G V c) (fun t hf => gcn9_flushed V c t hf) gcn9_covered

/-- Entry (r, j) of the output array after the region's run. -/
theorem arrAt9 (c : Dev nD) (r : Fin 8192) (j : Fin 256) :
    ((dats9 (F := Ideal) V c).arrAt 3 cfg9.N : Cert.Spec.Mat 8192 256) (ValueIdx.ix2 r j)
      = Cert.Spec.mm (V c main_arg3 : Cert.Spec.Mat 8192 8192) (V c main_v20 : Cert.Spec.Mat 8192 256) r j + (V c main_v21 : Cert.Spec.Mat 1 256) (ValueIdx.ix2 (0 : Fin 1) j) := by
  rw [gcn9_final]

end Cert.KernelIdeal.Gen

end
-- ==== Proof.GcnPay11.lean ====
/-
  The arithmetic of one grid point of the sixth graph-convolution product, read entry by entry on the extended reals.

  At a grid point the accumulator block (1024 rows, 256 columns) is first the zero block (at the first contraction
  block), then at every contraction block it gains the product of the 1024 × 1024 block of the adjacency matrix with
  the matching 1024 rows of the support; after the last contraction block the output block is the accumulator plus
  the bias row.  On the extended reals a change of float format is the identity, so each entry is a plain
  finite sum of products.
-/
import proofs.«166906_j60567628808244_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-- The zero block: every entry is 0. -/
theorem k11_pay1_apply (p : Fin 1024) (q : Fin 256) : k11_pay1 (F := Ideal) (ix2 p q) = 0 := by
  unfold k11_pay1
  rw [shapeCast_self]
  exact Ideal.ofBits_zero_f32

/-- The printed contraction record is the plain product of a 1024 × 1024 by a 1024 × 256 matrix. -/
theorem k11_dot_eq : dot_S1024x1024_S1024x256_S1024x256_1_0_0_1_n_n = DotDims.plain 1024 1024 256 := rfl

/-- One accumulation step: the old entry plus the sum over the block's 1024 contracted columns. -/
theorem k11_pay2_apply (v3 : Vec Ideal S1024x1024 .f32) (v8 : Vec Ideal S1024x256 .bf16) (v10 : Vec Ideal S1024x256 .f32)
    (p : Fin 1024) (q : Fin 256) :
    k11_pay2 (F := Ideal) v3 v8 v10 (ix2 p q) = v10 (ix2 p q) + ∑ c : Fin 1024, v3 (ix2 p c) * v8 (ix2 c q) := by
  unfold k11_pay2
  rw [shapeCast_self, shapeCast_self]
  refine (addf_apply _ _ _).trans ?_
  congr 1
  rw [matmul_zero_eq_dotGeneral, k11_dot_eq]
  exact StackMember.dotGeneral_plain_apply none _ _ p q

/-- The finishing step: the accumulator entry plus the bias of its column. -/
theorem k11_pay3_apply (v19 : Vec Ideal S1024x256 .f32) (v20 : Vec Ideal S1x256 .f32) (p : Fin 1024) (q : Fin 256) :
    k11_pay3 (F := Ideal) v19 v20 (ix2 p q) = v19 (ix2 p q) + v20 (ix2 (0 : Fin 1) q) := by
  unfold k11_pay3
  rw [shapeCast_self]
  refine (addf_apply _ _ _).trans ?_
  congr 1
  refine broadcastTo_apply (s := S1x256) (t := S1024x256) v20 broadcasts_S1x256_S1024x256 (ix2 p q) (ix2 (0 : Fin 1) q) ?_
  intro a
  match a with
  | ⟨0, _⟩ => rfl
  | ⟨1, _⟩ => rfl

end Cert.KernelIdeal.Gen

end
-- ==== Proof.GcnPiece11.lean ====
/-
  What each case of the body of the sixth graph-convolution product leaves in the accumulator and in the output
  block, as the arithmetic of the blocks it is given: at the first contraction block the accumulator is the zero block
  plus the block's product, at a later one the accumulator before plus the block's product, and after the last one the
  output block is finished from the accumulator and the bias row.  The body reads 1024 rows of the whole support, those
  its contraction block meets.
-/
import proofs.«166906_j60567628808244_2_alg».proof.Proof.Gcn11Frame
import proofs.«166906_j60567628808244_2_alg».proof.Proof.GcnPay11
import Idealize.ShloMosaic.Lib.Pipeline.Value
import Idealize.ShloMosaic.Lib.KernelVsHost
import Idealize.ShloMosaic.Lib.StackMember
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

/-! ## What each case of the body leaves, as payloads of the blocks it is given -/

section Pieces

variable {F : FTy → Type} [FloatOps F]

/-- The zero offsets of a whole-buffer access, however spelt. -/
theorem gcn11_hz : (![0, 0] : Fin 2 → Nat) = fun _ => 0 := funext fun a => by fin_cases a <;> rfl

/-- The 1024 rows of the support that the contraction block at grid coordinates `i` meets, read out of the whole support. -/
def gcn11_supRows (i : grid11.Coords) (x1 : Vec F S8192x256 .bf16) : Vec F S1024x256 .bf16 :=
  View.ld x1 (Rect.unit (s := S8192x256) (k11_off1 i) S1024x256.size (k11_off1_inb i))

/-- At the first contraction block the accumulator is zeroed and then gains the block's product. -/
theorem gcn11_sout_A (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond11_0 i) (hc1 : ¬cond11_1 i)
    (x0 : Vec F S1024x1024 .f32) (x1 : Vec F S8192x256 .bf16) (x2 : Vec F S1x256 .f32) :
    sout11_A_0 c i arg2 harg2 arg3 harg3 arg4 harg4 arg5 harg5 arg6 harg6 hc0 hc1 x0 x1 x2 = k11_pay2 x0 (gcn11_supRows i x1) k11_pay1 := by
  unfold sout11_A_0
  rw [View.read_writes_eq_canon _ _ _ (scover11_A_0 c i arg2 harg2 arg3 harg3 arg4 harg4 arg5 harg5 arg6 harg6 hc0 hc1 x0 x1 x2)]
  unfold kernelRun11_A
  dsimp only
  sl_unfold_run_names
  rw [View.canon_cons_unit_zero (S := S1024x256) gcn11_hz, View.readCov_unit_zero (S := S1024x256) _ gcn11_hz]
  simp only [View.readAt_eq_ld, harg2.read_unread, harg3.read_unread,
    View.ld_unit_zero (S := S1024x1024) gcn11_hz]
  rfl

/-- At a middle contraction block the accumulator gains the block's product. -/
theorem gcn11_sout_B (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : ¬cond11_1 i)
    (x0 : Vec F S1024x1024 .f32) (x1 : Vec F S8192x256 .bf16) (x2 : Vec F S1x256 .f32) (xs0 : Vec F S1024x256 .f32) :
    sout11_B_0 c i arg2 harg2 arg3 harg3 arg4 harg4 arg5 harg5 arg6 harg6 hc0 hc1 x0 x1 x2 xs0 = k11_pay2 x0 (gcn11_supRows i x1) xs0 := by
  unfold sout11_B_0
  rw [View.read_writes_eq_canon _ _ _ (scover11_B_0 c i arg2 harg2 arg3 harg3 arg4 harg4 arg5 harg5 arg6 harg6 hc0 hc1 x0 x1 x2 xs0)]
  unfold kernelRun11_B
  dsimp only
  sl_unfold_run_names
  rw [View.canon_unit_zero gcn11_hz]
  simp only [View.readAt_eq_ld, harg2.read_unread, harg3.read_unread, harg6.read_unread,
    View.ld_unit_zero (S := S1024x1024) gcn11_hz, View.ld_unit_zero (S := S1024x256) gcn11_hz]
  rfl

/-- At the last contraction block the accumulator gains the block's product, -/
theorem gcn11_sout_C (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) :
    sout11_C_0 c i arg2 harg2 arg3 harg3 arg4 harg4 arg5 harg5 arg6 harg6 hc0 hc1 x0 x1 x2 xs0 = k11_pay2 x0 (gcn11_supRows i x1) xs0 := by
  unfold sout11_C_0
  rw [View.read_writes_eq_canon _ _ _ (scover11_C_0 c i arg2 harg2 arg3 harg3 arg4 harg4 arg5 harg5 arg6 harg6 hc0 hc1 x0 x1 x2 xs0)]
  unfold kernelRun11_C
  dsimp only
  sl_unfold_run_names
  rw [View.canon_unit_zero gcn11_hz]
  simp only [View.readAt_eq_ld, harg2.read_unread, harg3.read_unread, harg6.read_unread,
    View.ld_unit_zero (S := S1024x1024) gcn11_hz, View.ld_unit_zero (S := S1024x256) gcn11_hz]
  rfl

/-- and the output block is finished from the accumulator so updated and the bias row. -/
theorem gcn11_out_C (c : Dev nD) (i : grid11.Coords) (arg2 : Memref sig .tc .vmem S1024x1024 .f32) (harg2 : arg2.IsWhole) (arg3 : Memref sig .tc .vmem S8192x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond11_0 i) (hc1 : cond11_1 i)
    (x0 : Vec F S1024x1024 .f32) (x1 : Vec F S8192x256 .bf16) (x2 : Vec F S1x256 .f32) (xs0 : Vec F S1024x256 .f32) :
    out11_C_3 c i arg2 harg2 arg3 harg3 arg4 harg4 arg5 harg5 arg6 harg6 hc0 hc1 x0 x1 x2 xs0 = k11_pay3 (k11_pay2 x0 (gcn11_supRows i x1) xs0) x2 := by
  unfold out11_C_3
  rw [View.read_writes_eq_canon _ _ _ (cover11_C_3 c i arg2 harg2 arg3 harg3 arg4 harg4 arg5 harg5 arg6 harg6 hc0 hc1 x0 x1 x2 xs0)]
  unfold kernelRun11_C
  dsimp only
  sl_unfold_run_names
  rw [View.canon_unit_zero gcn11_hz, View.readCov_unit_zero (S := S1024x256) _ gcn11_hz]
  simp only [View.readAt_eq_ld, harg2.read_unread, harg3.read_unread, harg4.read_unread, harg6.read_unread,
    View.ld_unit_zero (S := S1024x1024) gcn11_hz, View.ld_unit_zero (S := S1024x256) gcn11_hz, View.ld_unit_zero (S := S1x256) gcn11_hz]
  rfl

end Pieces

/-! ## One accumulation step at an entry, over any blocks -/

/-- If the products of the adjacency block's row p with the support rows' column q are the terms f(k · 1024 + e) of a
    sum, the accumulation step adds those 1024 terms to the old entry. -/
theorem gcn11_step (x0 : Vec Ideal S1024x1024 .f32) (xr : Vec Ideal S1024x256 .bf16) (xs0 : Vec Ideal S1024x256 .f32)
    (f : ℕ → EReal) (k : ℕ) (p : Fin 1024) (q : Fin 256)
    (hterm : ∀ e : Fin 1024, x0 (ix2 p e) * xr (ix2 e q) = f (k * 1024 + e.val)) :
    k11_pay2 (F := Ideal) x0 xr xs0 (ix2 p q) = xs0 (ix2 p q) + ∑ e : Fin 1024, f (k * 1024 + e.val) := by
  rw [k11_pay2_apply]
  exact congrArg (xs0 (ix2 p q) + ·) (Finset.sum_congr rfl fun e _ => hterm e)

end Cert.KernelIdeal.Gen

end
-- ==== Proof.GcnVal11.lean ====
/-
  What the sixth graph-convolution product leaves in its output array, on the extended reals.

  The grid walks 8 row blocks of 1024 rows and, inside each, 8 contraction blocks of 1024 columns of the adjacency
  matrix; point t is row block t / 8, contraction block t % 8.  The accumulator carried from point to point holds,
  after point t, the running total of the terms adj(r, e) · support(e, j) over the contraction blocks 0 … t % 8 of its
  row block, taken block after block from zero: at the first contraction block the zero block plus that block's terms,
  at every later one the total before plus that block's terms.  After the last contraction block the total is the
  whole entry of the product adj · support, and the output block receives it plus the bias of its column.
  The output blocks written after the last contraction block of each row block are the blocks of ONE function of the
  whole arrays, and the 8 row blocks cover the output array (row r lies in row block r / 1024).
-/
import proofs.«166906_j60567628808244_2_alg».proof.Proof.GcnPiece11
import proofs.«166906_j60567628808244_2_alg».proof.Proof.GcnAcc

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)
open Idealize.ShloMosaic.ValueIdx

variable (V : (c : Dev nD) → (b : Ref sig .tc) → Buf (Elt Ideal) ((c : Thread nD τ).loc b))

/-! ## The blocks a point is given, and where they sit in their arrays -/

/-- Point t's block of the adjacency matrix, -/
abbrev gcn11_adjBlk (c : Dev nD) (t : Fin cfg11.N) : Vec Ideal S1024x1024 .f32 := iblk11 (F := Ideal) V c 0 t
/-- its block of the support (the whole support), -/
abbrev gcn11_supBlk (c : Dev nD) (t : Fin cfg11.N) : Vec Ideal S8192x256 .bf16 := iblk11 (F := Ideal) V c 1 t
/-- and its block of the bias (the whole row). -/
abbrev gcn11_biasBlk (c : Dev nD) (t : Fin cfg11.N) : Vec Ideal S1x256 .f32 := iblk11 (F := Ideal) V c 2 t

/-- The printed index maps and the body's row offset over the grid: the adjacency block is (t / 8, t % 8); the support
    and the bias row are whole; the output block is row block t / 8; the support rows the body reads start at row
    (t % 8) · 1024. -/
theorem gcn11_idx : ∀ t : Fin cfg11.N,
    win11_0.index t (0 : Fin 2) = t.val / 8 ∧ win11_0.index t (1 : Fin 2) = t.val % 8
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val / 8 ∧ win11_3.index t (1 : Fin 2) = 0
    ∧ k11_off1 (grid11.coords t) (0 : Fin 2) = t.val % 8 * 1024 ∧ k11_off1 (grid11.coords t) (1 : Fin 2) = 0 :=
  (by decide +kernel : ∀ t : Fin grid11.N, _)

/-- The number of grid points. -/
theorem gcn11_N : cfg11.N = 64 := N_11

/-- Entry (p, e) of point t's adjacency block is entry ((t / 8) · 1024 + p, (t % 8) · 1024 + e) of the adjacency matrix. -/
theorem gcn11_adj_at (c : Dev nD) (t : Fin cfg11.N) (p : Fin 1024) (e : Fin 1024)
    (hr : t.val / 8 * 1024 + p.val < 8192) (he : t.val % 8 * 1024 + e.val < 8192) :
    gcn11_adjBlk V c t (ix2 p e) = (V c main_arg4 : Cert.Spec.Mat 8192 8192) (ix2 ⟨t.val / 8 * 1024 + p.val, hr⟩ ⟨t.val % 8 * 1024 + e.val, he⟩) := by
  obtain ⟨e0, e1, -⟩ := gcn11_idx t
  refine congrArg (V c main_arg4) ?_
  funext a; apply Fin.ext
  match a with
  | ⟨0, _⟩ => show win11_0.index t (0 : Fin 2) * 1024 + 1 * p.val = t.val / 8 * 1024 + p.val; omega
  | ⟨1, _⟩ => show win11_0.index t (1 : Fin 2) * 1024 + 1 * e.val = t.val % 8 * 1024 + e.val; omega

/-- Entry (e, q) of the support rows point t's contraction block meets is entry ((t % 8) · 1024 + e, q) of the support. -/
theorem gcn11_sup_at (c : Dev nD) (t : Fin cfg11.N) (e : Fin 1024) (q : Fin 256)
    (he : t.val % 8 * 1024 + e.val < 8192) :
    gcn11_supRows (F := Ideal) (grid11.coords t) (gcn11_supBlk V c t) (ix2 e q)
      = (V c main_v23 : Cert.Spec.Mat 8192 256) (ix2 ⟨t.val % 8 * 1024 + e.val, he⟩ q) := by
  obtain ⟨-, -, e2, e3, -, -, -, -, e8, e9⟩ := gcn11_idx t
  refine congrArg (V c main_v23) ?_
  funext a; apply Fin.ext
  match a with
  | ⟨0, _⟩ => show win11_1.index t (0 : Fin 2) * 8192 + 1 * (k11_off1 (grid11.coords t) (0 : Fin 2) + 1 * e.val) = t.val % 8 * 1024 + e.val; omega
  | ⟨1, _⟩ => show win11_1.index t (1 : Fin 2) * 256 + 1 * (k11_off1 (grid11.coords t) (1 : Fin 2) + 1 * q.val) = q.val; omega

/-- Entry (0, q) of point t's bias block is entry (0, q) of the bias row. -/
theorem gcn11_bias_at (c : Dev nD) (t : Fin cfg11.N) (q : Fin 256) :
    gcn11_biasBlk V c t (ix2 (0 : Fin 1) q) = (V c main_v24 : Cert.Spec.Mat 1 256) (ix2 (0 : Fin 1) q) := by
  obtain ⟨-, -, -, -, e4, e5, -⟩ := gcn11_idx t
  refine congrArg (V c main_v24) ?_
  funext a; apply Fin.ext
  match a with
  | ⟨0, _⟩ => show win11_2.index t (0 : Fin 2) * 1 + 1 * 0 = 0; omega
  | ⟨1, _⟩ => show win11_2.index t (1 : Fin 2) * 256 + 1 * q.val = q.val; omega

/-- The terms of row (n / 8) · 1024 + p of the product, column q, over the contracted coordinate. -/
abbrev gcn11_f (c : Dev nD) (n : ℕ) (p : Fin 1024) (q : Fin 256) : ℕ → EReal :=
  Cert.Spec.termN (V c main_arg4 : Cert.Spec.Mat 8192 8192) (V c main_v23 : Cert.Spec.Mat 8192 256) (n / 8 * 1024 + p.val) q

/-- The product of entry (p, e) of point t's adjacency block with entry (e, q) of the support rows it meets is the term
    of the whole product at row (t / 8) · 1024 + p, contracted coordinate (t % 8) · 1024 + e, column q. -/
theorem gcn11_term (c : Dev nD) (t : Fin cfg11.N) (p : Fin 1024) (q : Fin 256) (e : Fin 1024) :
    gcn11_adjBlk V c t (ix2 p e) * gcn11_supRows (F := Ideal) (grid11.coords t) (gcn11_supBlk V c t) (ix2 e q)
      = gcn11_f V c t.val p q (t.val % 8 * 1024 + e.val) := by
  have hN : t.val < 64 := lt_of_lt_of_eq t.isLt (gcn11_N)
  have hr : t.val / 8 * 1024 + p.val < 8192 := by omega
  have he : t.val % 8 * 1024 + e.val < 8192 := by omega
  rw [gcn11_adj_at V c t p e hr he, gcn11_sup_at V c t e q he]
  exact (Cert.Spec.termN_of_lt (V c main_arg4 : Cert.Spec.Mat 8192 8192) (V c main_v23 : Cert.Spec.Mat 8192 256) (t.val / 8 * 1024 + p.val) q (t.val % 8 * 1024 + e.val) hr he).symm

/-! ## The accumulator after each point -/

/-- At a first contraction block the accumulator is the zero block plus the block's product. -/
theorem gcn11_scr_first (c : Dev nD) (t : Fin cfg11.N) (h0 : t.val % 8 = 0) :
    (outsAt11 (F := Ideal) V c t.val t.isLt).2
      = k11_pay2 (gcn11_adjBlk V c t) (gcn11_supRows (grid11.coords t) (gcn11_supBlk V c t)) (k11_pay1 (F := Ideal)) := by
  have h1 : ¬t.val % 8 = 7 := by omega
  rw [outsAt11_A (F := Ideal) V c t h0 h1]
  dsimp only
  rw [gcn11_sout_A]

/-- At a later contraction block the accumulator is what the point before left plus the block's product. -/
theorem gcn11_scr_next (c : Dev nD) (t : Fin cfg11.N) (h0 : ¬t.val % 8 = 0) :
    (outsAt11 (F := Ideal) V c t.val t.isLt).2
      = k11_pay2 (gcn11_adjBlk V c t) (gcn11_supRows (grid11.coords t) (gcn11_supBlk V c t))
          (outsAt11 (F := Ideal) V c (t.val - 1) (Nat.lt_of_le_of_lt (Nat.sub_le _ _) t.isLt)).2 := by
  by_cases h1 : t.val % 8 = 7
  · rw [outsAt11_C (F := Ideal) V c t h0 h1]
    dsimp only
    rw [gcn11_sout_C]
  · rw [outsAt11_B (F := Ideal) V c t h0 h1]
    dsimp only
    rw [gcn11_sout_B]

/-- After the last contraction block the output block is finished from the accumulator the point leaves and the bias row. -/
theorem gcn11_out_last (c : Dev nD) (t : Fin cfg11.N) (h1 : t.val % 8 = 7) :
    (outsAt11 (F := Ideal) V c t.val t.isLt).1
      = k11_pay3 (outsAt11 (F := Ideal) V c t.val t.isLt).2 (gcn11_biasBlk V c t) := by
  have h0 : ¬t.val % 8 = 0 := by omega
  rw [outsAt11_C (F := Ideal) V c t h0 h1]
  dsimp only
  rw [gcn11_sout_C, gcn11_out_C]

/-- THE RUNNING TOTAL.  After point n the accumulator's entry (p, q) is the running total, over the contraction blocks
    0 … n % 8, of the terms of row (n / 8) · 1024 + p, column q of the product. -/
theorem gcn11_acc (c : Dev nD) (p : Fin 1024) (q : Fin 256) : ∀ (n : ℕ) (hn : n < cfg11.N),
    (outsAt11 (F := Ideal) V c n hn).2 (ix2 p q) = Cert.Spec.acc 1024 (gcn11_f V c n p q) (n % 8) := by
  intro n
  induction n with
  | zero =>
    intro hn
    rw [gcn11_scr_first V c ⟨0, hn⟩ (Nat.zero_mod _)]
    refine (gcn11_step (gcn11_adjBlk V c ⟨0, hn⟩) (gcn11_supRows (grid11.coords ⟨0, hn⟩) (gcn11_supBlk V c ⟨0, hn⟩)) (k11_pay1 (F := Ideal))
      (gcn11_f V c 0 p q) (0 % 8) p q (gcn11_term V c ⟨0, hn⟩ p q)).trans ?_
    rw [k11_pay1_apply, Nat.zero_mod, Cert.Spec.acc_zero]
    simp only [Nat.zero_mul, Nat.zero_add]
  | succ n ih =>
    intro hn
    by_cases h0 : (n + 1) % 8 = 0
    · rw [gcn11_scr_first V c ⟨n + 1, hn⟩ h0]
      refine (gcn11_step (gcn11_adjBlk V c ⟨n + 1, hn⟩) (gcn11_supRows (grid11.coords ⟨n + 1, hn⟩) (gcn11_supBlk V c ⟨n + 1, hn⟩)) (k11_pay1 (F := Ideal))
        (gcn11_f V c (n + 1) p q) ((n + 1) % 8) p q (gcn11_term V c ⟨n + 1, hn⟩ p q)).trans ?_
      rw [k11_pay1_apply, h0, Cert.Spec.acc_zero]
      simp only [Nat.zero_mul, Nat.zero_add]
    · have hq : (n + 1) / 8 = n / 8 := by omega
      have hr : (n + 1) % 8 = n % 8 + 1 := by omega
      rw [gcn11_scr_next V c ⟨n + 1, hn⟩ h0]
      refine (gcn11_step (gcn11_adjBlk V c ⟨n + 1, hn⟩) (gcn11_supRows (grid11.coords ⟨n + 1, hn⟩) (gcn11_supBlk V c ⟨n + 1, hn⟩))
        (outsAt11 (F := Ideal) V c n (Nat.lt_of_succ_lt hn)).2
        (gcn11_f V c (n + 1) p q) ((n + 1) % 8) p q (gcn11_term V c ⟨n + 1, hn⟩ p q)).trans ?_
      rw [ih (Nat.lt_of_succ_lt hn)]
      unfold gcn11_f
      rw [hq, hr, Cert.Spec.acc_succ]

/-! ## The output block at the points that write it back, and the whole array -/

/-- The region's result as one function of the whole arrays: the product adj · support plus the bias of its column. -/
abbrev gcn11_G (c : Dev nD) : Cert.Spec.Mat 8192 256 := fun i =>
  Cert.Spec.mm (V c main_arg4 : Cert.Spec.Mat 8192 8192) (V c main_v23 : Cert.Spec.Mat 8192 256) (i 0) (i 1) + (V c main_v24 : Cert.Spec.Mat 1 256) (ix2 (0 : Fin 1) (i 1))

/-- Entry (p, q) of the output block after the last contraction block of row block t / 8. -/
theorem gcn11_out_at (c : Dev nD) (t : Fin cfg11.N) (h1 : t.val % 8 = 7) (p : Fin 1024) (q : Fin 256)
    (hr : t.val / 8 * 1024 + p.val < 8192) :
    (outsAt11 (F := Ideal) V c t.val t.isLt).1 (ix2 p q) = Cert.Spec.mm (V c main_arg4 : Cert.Spec.Mat 8192 8192) (V c main_v23 : Cert.Spec.Mat 8192 256) ⟨t.val / 8 * 1024 + p.val, hr⟩ q + (V c main_v24 : Cert.Spec.Mat 1 256) (ValueIdx.ix2 (0 : Fin 1) q) := by
  rw [gcn11_out_last V c t h1]
  refine (k11_pay3_apply (outsAt11 (F := Ideal) V c t.val t.isLt).2 (gcn11_biasBlk V c t) p q).trans ?_
  rw [gcn11_acc V c p q t.val t.isLt, h1, gcn11_bias_at V c t q,
    Cert.Spec.mm_eq_acc 7 1024 rfl (V c main_arg4 : Cert.Spec.Mat 8192 8192) (V c main_v23 : Cert.Spec.Mat 8192 256) ⟨t.val / 8 * 1024 + p.val, hr⟩ q]
  try rfl

/-- What a point after the last contraction block writes back is its block of that function. -/
theorem gcn11_flushed (c : Dev nD) (t : Fin cfg11.N) (hf : (cfg11.win 3).flush t = true) :
    (dats11 (F := Ideal) V c).flushed 3 t = ((cfg11.win 3).blk t).view.read (Elt Ideal) (gcn11_G V c) := by
  have h1 : t.val % 8 = 7 := (flush11_3 t).mp hf
  have hN : t.val < 64 := lt_of_lt_of_eq t.isLt (gcn11_N)
  obtain ⟨-, -, -, -, -, -, e6, e7, -⟩ := gcn11_idx t
  show (cfg11.win 3).cut (grid11.coords t) ((dats11 (F := Ideal) V c).after 3 t) = _
  rw [after11_3]
  funext j
  obtain ⟨p, q, rfl⟩ : ∃ (p : Fin 1024) (q : Fin 256), j = ix2 p q := ⟨j 0, j 1, eq_ix2 j⟩
  have hr : t.val / 8 * 1024 + p.val < 8192 := by omega
  have hemb : ((cfg11.win 3).blk t).view.emb (ix2 p q) = ix2 (⟨t.val / 8 * 1024 + p.val, hr⟩ : Fin 8192) q := by
    funext a; apply Fin.ext
    match a with
    | ⟨0, _⟩ => show win11_3.index t (0 : Fin 2) * 1024 + 1 * p.val = t.val / 8 * 1024 + p.val; rw [e6]; omega
    | ⟨1, _⟩ => show win11_3.index t (1 : Fin 2) * 256 + 1 * q.val = q.val; rw [e7]; omega
  refine (gcn11_out_at V c t h1 p q hr).trans ?_
  show _ = gcn11_G V c (((cfg11.win 3).blk t).view.emb (ix2 p q))
  rw [hemb]

/-- An index of the output array is in point `t`'s block iff each coordinate is in the block's range on its axis. -/
theorem gcn11_mem_blk (t : Fin cfg11.N) (i : S8192x256.Idx) :
    i ∈ ((cfg11.win 3).blk t).view.set ↔ ∀ a : Fin 2, win11_3.index t a * S1024x256.size a ≤ (i a).val ∧ (i a).val < win11_3.index t a * S1024x256.size a + S1024x256.size a := by
  show i ∈ ((View.whole main_v25).slice (win11_3.rect t)).set ↔ _
  rw [View.set_slice_whole, Rect.mem_set_unit]
  exact Iff.rfl

/-- Every index of the output array is in the block written back after the last contraction block of its row block. -/
theorem gcn11_covered (i : S8192x256.Idx) :
    ∃ t : Fin cfg11.N, (cfg11.win 3).flush t = true ∧ i ∈ ((cfg11.win 3).blk t).view.set := by
  have hi0 : (i 0).val < 8192 := (i 0).isLt
  have hi1 : (i 1).val < 256 := (i 1).isLt
  have hN : cfg11.N = 64 := gcn11_N
  have ht : (i 0).val / 1024 * 8 + 7 < cfg11.N := by rw [hN]; omega
  obtain ⟨-, -, -, -, -, -, e6, e7, -⟩ := gcn11_idx ⟨(i 0).val / 1024 * 8 + 7, ht⟩
  refine ⟨⟨(i 0).val / 1024 * 8 + 7, ht⟩, (flush11_3 _).mpr (by show ((i 0).val / 1024 * 8 + 7) % 8 = 7; omega), ?_⟩
  rw [gcn11_mem_blk]
  intro a
  match a with
  | ⟨0, _⟩ =>
    show win11_3.index _ (0 : Fin 2) * 1024 ≤ (i 0).val ∧ (i 0).val < win11_3.index _ (0 : Fin 2) * 1024 + 1024
    rw [e6]
    show ((i 0).val / 1024 * 8 + 7) / 8 * 1024 ≤ (i 0).val ∧ (i 0).val < ((i 0).val / 1024 * 8 + 7) / 8 * 1024 + 1024
    omega
  | ⟨1, _⟩ =>
    show win11_3.index _ (1 : Fin 2) * 256 ≤ (i 1).val ∧ (i 1).val < win11_3.index _ (1 : Fin 2) * 256 + 256
    rw [e7]; omega

/-- The output array after the region's run is that function. -/
theorem gcn11_final (c : Dev nD) : (dats11 (F := Ideal) V c).arrAt 3 cfg11.N = gcn11_G V c :=
  (dats11 (F := Ideal) V c).arrAt_eq_of_cover 3 (gcn11_G V c) (fun t hf => gcn11_flushed V c t hf) gcn11_covered

/-- Entry (r, j) of the output array after the region's run. -/
theorem arrAt11 (c : Dev nD) (r : Fin 8192) (j : Fin 256) :
    ((dats11 (F := Ideal) V c).arrAt 3 cfg11.N : Cert.Spec.Mat 8192 256) (ValueIdx.ix2 r j)
      = Cert.Spec.mm (V c main_arg4 : Cert.Spec.Mat 8192 8192) (V c main_v23 : Cert.Spec.Mat 8192 256) r j + (V c main_v24 : Cert.Spec.Mat 1 256) (ValueIdx.ix2 (0 : Fin 1) j) := by
  rw [gcn11_final]

end Cert.KernelIdeal.Gen

end
-- ==== Proof.KernelValue.lean ====
/-
  The values of the program's four results, as functions of its argument arrays.

  Every buffer's final contents are read off the fold: a region's output array is what its pipeline accumulated, which
  the regions' value lemmas state entry by entry in terms of the region's input arrays as it found them; a host
  stretch's result is its operations' term.  Since each buffer is written once, all of these are equations between
  FINAL contents, and the network's structure — two branches computed side by side over a pair of supports, two computed
  on their own — assembles them into the four branches of the specification.
-/
import proofs.«166906_j60567628808244_2_alg».proof.Proof.Reads
import proofs.«166906_j60567628808244_2_alg».proof.Proof.Assemble
import proofs.«166906_j60567628808244_2_alg».proof.Proof.HostGlue
import proofs.«166906_j60567628808244_2_alg».proof.Proof.DenseVal0
import proofs.«166906_j60567628808244_2_alg».proof.Proof.DenseVal1
import proofs.«166906_j60567628808244_2_alg».proof.Proof.DenseVal5
import proofs.«166906_j60567628808244_2_alg».proof.Proof.DenseVal6
import proofs.«166906_j60567628808244_2_alg».proof.Proof.DenseVal8
import proofs.«166906_j60567628808244_2_alg».proof.Proof.DenseVal10
import proofs.«166906_j60567628808244_2_alg».proof.Proof.GcnVal2
import proofs.«166906_j60567628808244_2_alg».proof.Proof.GcnVal3
import proofs.«166906_j60567628808244_2_alg».proof.Proof.GcnVal4
import proofs.«166906_j60567628808244_2_alg».proof.Proof.GcnVal7
import proofs.«166906_j60567628808244_2_alg».proof.Proof.GcnVal9
import proofs.«166906_j60567628808244_2_alg».proof.Proof.GcnVal11

set_option maxRecDepth 16384

noncomputable section

namespace Cert.KernelIdeal.Gen

open Idealize.ShloMosaic Idealize.ShloMosaic.TcCoe Idealize.ShloMosaic.ValueIdx Idealize.SL.Sem Cert.Spec

variable (m : (ℓ : Loc nD τ sig) → Buf (Elt Ideal) ℓ) (ρ : Dev nD → PrngReg) (c : Dev nD)

/-- Column j of the left half / the right half of 1024 columns, and of 512 columns. -/
def lo512 (j : Fin 512) : Fin 1024 := ⟨j.val, by omega⟩
def hi512 (j : Fin 512) : Fin 1024 := ⟨512 + j.val, by omega⟩
def lo256 (j : Fin 256) : Fin 512 := ⟨j.val, by omega⟩
def hi256 (j : Fin 256) : Fin 512 := ⟨256 + j.val, by omega⟩

/-! ## The buffers' final contents, typed as matrices -/
abbrev Aarg0 : Mat 8192 512 := W19 (F := Ideal) m ρ c main_arg0
abbrev Aarg1 : Mat 8192 512 := W19 (F := Ideal) m ρ c main_arg1
abbrev Aarg2 : Mat 8192 8192 := W19 (F := Ideal) m ρ c main_arg2
abbrev Aarg3 : Mat 8192 8192 := W19 (F := Ideal) m ρ c main_arg3
abbrev Aarg4 : Mat 8192 8192 := W19 (F := Ideal) m ρ c main_arg4
abbrev Aarg5 : Mat 512 512 := W19 (F := Ideal) m ρ c main_arg5
abbrev Aarg7 : Mat 512 256 := W19 (F := Ideal) m ρ c main_arg7
abbrev Av0 : Mat 8192 512 := W19 (F := Ideal) m ρ c main_v0
abbrev Av1 : Mat 8192 512 := W19 (F := Ideal) m ρ c main_v1
abbrev Av2 : Mat 8192 1024 := W19 (F := Ideal) m ρ c main_v2
abbrev Av4 : Mat 1 1024 := W19 (F := Ideal) m ρ c main_v4
abbrev Av5 : Mat 8192 1024 := W19 (F := Ideal) m ρ c main_v5
abbrev Av6 : Mat 8192 512 := W19 (F := Ideal) m ρ c main_v6
abbrev Av7 : Mat 8192 512 := W19 (F := Ideal) m ρ c main_v7
abbrev Av8 : Mat 1 512 := W19 (F := Ideal) m ρ c main_v8
abbrev Av9 : Mat 8192 512 := W19 (F := Ideal) m ρ c main_v9
abbrev Av10 : Mat 1 512 := W19 (F := Ideal) m ρ c main_v10
abbrev Av11 : Mat 8192 512 := W19 (F := Ideal) m ρ c main_v11
abbrev Av12 : Mat 8192 256 := W19 (F := Ideal) m ρ c main_v12
abbrev Av13 : Mat 8192 256 := W19 (F := Ideal) m ρ c main_v13
abbrev Av14 : Mat 8192 512 := W19 (F := Ideal) m ρ c main_v14
abbrev Av16 : Mat 1 512 := W19 (F := Ideal) m ρ c main_v16
abbrev Av17 : Mat 8192 512 := W19 (F := Ideal) m ρ c main_v17
abbrev Av18 : Mat 8192 256 := W19 (F := Ideal) m ρ c main_v18
abbrev Av19 : Mat 8192 256 := W19 (F := Ideal) m ρ c main_v19
abbrev Av20 : Mat 8192 256 := W19 (F := Ideal) m ρ c main_v20
abbrev Av21 : Mat 1 256 := W19 (F := Ideal) m ρ c main_v21
abbrev Av22 : Mat 8192 256 := W19 (F := Ideal) m ρ c main_v22
abbrev Av23 : Mat 8192 256 := W19 (F := Ideal) m ρ c main_v23
abbrev Av24 : Mat 1 256 := W19 (F := Ideal) m ρ c main_v24
abbrev Av25 : Mat 8192 256 := W19 (F := Ideal) m ρ c main_v25
abbrev Aarg6 : Vc 512 := W19 (F := Ideal) m ρ c main_arg6
abbrev Aarg8 : Vc 256 := W19 (F := Ideal) m ρ c main_arg8

/-! ## The regions' outputs -/
theorem f_v0 (r : Fin 8192) (j : Fin 512) : Av0 m ρ c (ix2 r j) = mm (Aarg0 m ρ c) (Aarg5 m ρ c) r j := by
  show (W19 (F := Ideal) m ρ c main_v0 : Mat 8192 512) (ix2 r j) = mm (W19 (F := Ideal) m ρ c main_arg0 : Mat _ _) (W19 (F := Ideal) m ρ c main_arg5 : Mat _ _) r j
  rw [← stab_1_v0 m ρ c, ← stab_0_arg0 m ρ c, ← stab_0_arg5 m ρ c]
  exact (congrFun (W1_arr m ρ c 2) _).trans (arrAt0 (rd (W0 m ρ)) c r j)
theorem f_v1 (r : Fin 8192) (j : Fin 512) : Av1 m ρ c (ix2 r j) = mm (Aarg1 m ρ c) (Aarg5 m ρ c) r j := by
  show (W19 (F := Ideal) m ρ c main_v1 : Mat 8192 512) (ix2 r j) = mm (W19 (F := Ideal) m ρ c main_arg1 : Mat _ _) (W19 (F := Ideal) m ρ c main_arg5 : Mat _ _) r j
  rw [← stab_2_v1 m ρ c, ← stab_1_arg1 m ρ c, ← stab_1_arg5 m ρ c]
  exact (congrFun (W2_arr m ρ c 2) _).trans (arrAt1 (rd (W1 m ρ)) c r j)
theorem f_v5 (r : Fin 8192) (j : Fin 1024) : Av5 m ρ c (ix2 r j) = relu0 (mm (Aarg2 m ρ c) (Av2 m ρ c) r j + Av4 m ρ c (ix2 (0 : Fin 1) j)) := by
  show (W19 (F := Ideal) m ρ c main_v5 : Mat 8192 1024) (ix2 r j) = relu0 (mm (W19 (F := Ideal) m ρ c main_arg2 : Mat _ _) (W19 (F := Ideal) m ρ c main_v2 : Mat _ _) r j + (W19 (F := Ideal) m ρ c main_v4 : Mat 1 1024) (ix2 (0 : Fin 1) j))
  rw [← stab_4_v5 m ρ c, ← stab_3_arg2 m ρ c, ← stab_3_v2 m ρ c, ← stab_3_v4 m ρ c]
  exact (congrFun (W4_arr m ρ c 3) _).trans (arrAt2 (rd (W3 m ρ)) c r j)
theorem f_v9 (r : Fin 8192) (j : Fin 512) : Av9 m ρ c (ix2 r j) = relu0 (mm (Aarg3 m ρ c) (Av0 m ρ c) r j + Av8 m ρ c (ix2 (0 : Fin 1) j)) := by
  show (W19 (F := Ideal) m ρ c main_v9 : Mat 8192 512) (ix2 r j) = relu0 (mm (W19 (F := Ideal) m ρ c main_arg3 : Mat _ _) (W19 (F := Ideal) m ρ c main_v0 : Mat _ _) r j + (W19 (F := Ideal) m ρ c main_v8 : Mat 1 512) (ix2 (0 : Fin 1) j))
  rw [← stab_6_v9 m ρ c, ← stab_5_arg3 m ρ c, ← stab_5_v0 m ρ c, ← stab_5_v8 m ρ c]
  exact (congrFun (W6_arr m ρ c 3) _).trans (arrAt3 (rd (W5 m ρ)) c r j)
theorem f_v11 (r : Fin 8192) (j : Fin 512) : Av11 m ρ c (ix2 r j) = relu0 (mm (Aarg4 m ρ c) (Av0 m ρ c) r j + Av10 m ρ c (ix2 (0 : Fin 1) j)) := by
  show (W19 (F := Ideal) m ρ c main_v11 : Mat 8192 512) (ix2 r j) = relu0 (mm (W19 (F := Ideal) m ρ c main_arg4 : Mat _ _) (W19 (F := Ideal) m ρ c main_v0 : Mat _ _) r j + (W19 (F := Ideal) m ρ c main_v10 : Mat 1 512) (ix2 (0 : Fin 1) j))
  rw [← stab_8_v11 m ρ c, ← stab_7_arg4 m ρ c, ← stab_7_v0 m ρ c, ← stab_7_v10 m ρ c]
  exact (congrFun (W8_arr m ρ c 3) _).trans (arrAt4 (rd (W7 m ρ)) c r j)
theorem f_v12 (r : Fin 8192) (j : Fin 256) : Av12 m ρ c (ix2 r j) = mm (Av6 m ρ c) (Aarg7 m ρ c) r j := by
  show (W19 (F := Ideal) m ρ c main_v12 : Mat 8192 256) (ix2 r j) = mm (W19 (F := Ideal) m ρ c main_v6 : Mat _ _) (W19 (F := Ideal) m ρ c main_arg7 : Mat _ _) r j
  rw [← stab_9_v12 m ρ c, ← stab_8_v6 m ρ c, ← stab_8_arg7 m ρ c]
  exact (congrFun (W9_arr m ρ c 2) _).trans (arrAt5 (rd (W8 m ρ)) c r j)
theorem f_v13 (r : Fin 8192) (j : Fin 256) : Av13 m ρ c (ix2 r j) = mm (Av7 m ρ c) (Aarg7 m ρ c) r j := by
  show (W19 (F := Ideal) m ρ c main_v13 : Mat 8192 256) (ix2 r j) = mm (W19 (F := Ideal) m ρ c main_v7 : Mat _ _) (W19 (F := Ideal) m ρ c main_arg7 : Mat _ _) r j
  rw [← stab_10_v13 m ρ c, ← stab_9_v7 m ρ c, ← stab_9_arg7 m ρ c]
  exact (congrFun (W10_arr m ρ c 2) _).trans (arrAt6 (rd (W9 m ρ)) c r j)
theorem f_v17 (r : Fin 8192) (j : Fin 512) : Av17 m ρ c (ix2 r j) = mm (Aarg2 m ρ c) (Av14 m ρ c) r j + Av16 m ρ c (ix2 (0 : Fin 1) j) := by
  show (W19 (F := Ideal) m ρ c main_v17 : Mat 8192 512) (ix2 r j) = mm (W19 (F := Ideal) m ρ c main_arg2 : Mat _ _) (W19 (F := Ideal) m ρ c main_v14 : Mat _ _) r j + (W19 (F := Ideal) m ρ c main_v16 : Mat 1 512) (ix2 (0 : Fin 1) j)
  rw [← stab_12_v17 m ρ c, ← stab_11_arg2 m ρ c, ← stab_11_v14 m ρ c, ← stab_11_v16 m ρ c]
  exact (congrFun (W12_arr m ρ c 3) _).trans (arrAt7 (rd (W11 m ρ)) c r j)
theorem f_v20 (r : Fin 8192) (j : Fin 256) : Av20 m ρ c (ix2 r j) = mm (Av9 m ρ c) (Aarg7 m ρ c) r j := by
  show (W19 (F := Ideal) m ρ c main_v20 : Mat 8192 256) (ix2 r j) = mm (W19 (F := Ideal) m ρ c main_v9 : Mat _ _) (W19 (F := Ideal) m ρ c main_arg7 : Mat _ _) r j
  rw [← stab_14_v20 m ρ c, ← stab_13_v9 m ρ c, ← stab_13_arg7 m ρ c]
  exact (congrFun (W14_arr m ρ c 2) _).trans (arrAt8 (rd (W13 m ρ)) c r j)
theorem f_v22 (r : Fin 8192) (j : Fin 256) : Av22 m ρ c (ix2 r j) = mm (Aarg3 m ρ c) (Av20 m ρ c) r j + Av21 m ρ c (ix2 (0 : Fin 1) j) := by
  show (W19 (F := Ideal) m ρ c main_v22 : Mat 8192 256) (ix2 r j) = mm (W19 (F := Ideal) m ρ c main_arg3 : Mat _ _) (W19 (F := Ideal) m ρ c main_v20 : Mat _ _) r j + (W19 (F := Ideal) m ρ c main_v21 : Mat 1 256) (ix2 (0 : Fin 1) j)
  rw [← stab_16_v22 m ρ c, ← stab_15_arg3 m ρ c, ← stab_15_v20 m ρ c, ← stab_15_v21 m ρ c]
  exact (congrFun (W16_arr m ρ c 3) _).trans (arrAt9 (rd (W15 m ρ)) c r j)
theorem f_v23 (r : Fin 8192) (j : Fin 256) : Av23 m ρ c (ix2 r j) = mm (Av11 m ρ c) (Aarg7 m ρ c) r j := by
  show (W19 (F := Ideal) m ρ c main_v23 : Mat 8192 256) (ix2 r j) = mm (W19 (F := Ideal) m ρ c main_v11 : Mat _ _) (W19 (F := Ideal) m ρ c main_arg7 : Mat _ _) r j
  rw [← stab_17_v23 m ρ c, ← stab_16_v11 m ρ c, ← stab_16_arg7 m ρ c]
  exact (congrFun (W17_arr m ρ c 2) _).trans (arrAt10 (rd (W16 m ρ)) c r j)
theorem f_v25 (r : Fin 8192) (j : Fin 256) : Av25 m ρ c (ix2 r j) = mm (Aarg4 m ρ c) (Av23 m ρ c) r j + Av24 m ρ c (ix2 (0 : Fin 1) j) := by
  show (W19 (F := Ideal) m ρ c main_v25 : Mat 8192 256) (ix2 r j) = mm (W19 (F := Ideal) m ρ c main_arg4 : Mat _ _) (W19 (F := Ideal) m ρ c main_v23 : Mat _ _) r j + (W19 (F := Ideal) m ρ c main_v24 : Mat 1 256) (ix2 (0 : Fin 1) j)
  rw [← stab_18_arg4 m ρ c, ← stab_18_v23 m ρ c, ← stab_18_v24 m ρ c]
  exact (congrFun (W19_arr m ρ c 3) _).trans (arrAt11 (rd (W18 m ρ)) c r j)

/-! ## The host stretches' results -/
theorem f_v2lo (r : Fin 8192) (j : Fin 512) : Av2 m ρ c (ix2 r (lo512 j)) = Av0 m ρ c (ix2 r j) := by
  show (W19 (F := Ideal) m ρ c main_v2 : Mat 8192 1024) (ix2 r (lo512 j)) = (W19 (F := Ideal) m ρ c main_v0 : Mat 8192 512) (ix2 r j)
  rw [← stab_3_v2 m ρ c, ← stab_2_v0 m ρ c, W3_v2 m ρ c]
  exact Glue.concat_cols_lo _ _ _ r j (lo512 j) rfl
theorem f_v2hi (r : Fin 8192) (j : Fin 512) : Av2 m ρ c (ix2 r (hi512 j)) = Av1 m ρ c (ix2 r j) := by
  show (W19 (F := Ideal) m ρ c main_v2 : Mat 8192 1024) (ix2 r (hi512 j)) = (W19 (F := Ideal) m ρ c main_v1 : Mat 8192 512) (ix2 r j)
  rw [← stab_3_v2 m ρ c, ← stab_2_v1 m ρ c, W3_v2 m ρ c]
  exact Glue.concat_cols_hi _ _ _ r j (hi512 j) rfl
theorem f_v4lo (j : Fin 512) : Av4 m ρ c (ix2 (0 : Fin 1) (lo512 j)) = Aarg6 m ρ c (ix1 j) := by
  show (W19 (F := Ideal) m ρ c main_v4 : Mat 1 1024) (ix2 (0 : Fin 1) (lo512 j)) = (W19 (F := Ideal) m ρ c main_arg6 : Vc 512) (ix1 j)
  rw [← stab_3_v4 m ρ c, ← stab_2_arg6 m ρ c, W3_v4 m ρ c]
  exact Glue.bias_cat_row _ _ _ j (lo512 j) (Or.inl rfl)
theorem f_v4hi (j : Fin 512) : Av4 m ρ c (ix2 (0 : Fin 1) (hi512 j)) = Aarg6 m ρ c (ix1 j) := by
  show (W19 (F := Ideal) m ρ c main_v4 : Mat 1 1024) (ix2 (0 : Fin 1) (hi512 j)) = (W19 (F := Ideal) m ρ c main_arg6 : Vc 512) (ix1 j)
  rw [← stab_3_v4 m ρ c, ← stab_2_arg6 m ρ c, W3_v4 m ρ c]
  exact Glue.bias_cat_row _ _ _ j (hi512 j) (Or.inr rfl)
theorem f_v6 (r : Fin 8192) (j : Fin 512) : Av6 m ρ c (ix2 r j) = Av5 m ρ c (ix2 r (lo512 j)) := by
  show (W19 (F := Ideal) m ρ c main_v6 : Mat 8192 512) (ix2 r j) = (W19 (F := Ideal) m ρ c main_v5 : Mat 8192 1024) (ix2 r (lo512 j))
  rw [← stab_5_v6 m ρ c, ← stab_4_v5 m ρ c, W5_v6 m ρ c]
  exact Glue.slice_lo _ _ r j (lo512 j) rfl
theorem f_v7 (r : Fin 8192) (j : Fin 512) : Av7 m ρ c (ix2 r j) = Av5 m ρ c (ix2 r (hi512 j)) := by
  show (W19 (F := Ideal) m ρ c main_v7 : Mat 8192 512) (ix2 r j) = (W19 (F := Ideal) m ρ c main_v5 : Mat 8192 1024) (ix2 r (hi512 j))
  rw [← stab_5_v7 m ρ c, ← stab_4_v5 m ρ c, W5_v7 m ρ c]
  exact Glue.slice_hi _ _ r j (hi512 j) rfl
theorem f_v8 (j : Fin 512) : Av8 m ρ c (ix2 (0 : Fin 1) j) = Aarg6 m ρ c (ix1 j) := by
  show (W19 (F := Ideal) m ρ c main_v8 : Mat 1 512) (ix2 (0 : Fin 1) j) = (W19 (F := Ideal) m ρ c main_arg6 : Vc 512) (ix1 j)
  rw [← stab_5_v8 m ρ c, ← stab_4_arg6 m ρ c, W5_v8 m ρ c]
  exact Glue.bias_row _ _ j
theorem f_v10 (j : Fin 512) : Av10 m ρ c (ix2 (0 : Fin 1) j) = Aarg6 m ρ c (ix1 j) := by
  show (W19 (F := Ideal) m ρ c main_v10 : Mat 1 512) (ix2 (0 : Fin 1) j) = (W19 (F := Ideal) m ρ c main_arg6 : Vc 512) (ix1 j)
  rw [← stab_7_v10 m ρ c, ← stab_6_arg6 m ρ c, W7_v10 m ρ c]
  exact Glue.bias_row _ _ j
theorem f_v14lo (r : Fin 8192) (j : Fin 256) : Av14 m ρ c (ix2 r (lo256 j)) = Av12 m ρ c (ix2 r j) := by
  show (W19 (F := Ideal) m ρ c main_v14 : Mat 8192 512) (ix2 r (lo256 j)) = (W19 (F := Ideal) m ρ c main_v12 : Mat 8192 256) (ix2 r j)
  rw [← stab_11_v14 m ρ c, ← stab_10_v12 m ρ c, W11_v14 m ρ c]
  exact Glue.concat_cols_lo256 _ _ _ r j (lo256 j) rfl
theorem f_v14hi (r : Fin 8192) (j : Fin 256) : Av14 m ρ c (ix2 r (hi256 j)) = Av13 m ρ c (ix2 r j) := by
  show (W19 (F := Ideal) m ρ c main_v14 : Mat 8192 512) (ix2 r (hi256 j)) = (W19 (F := Ideal) m ρ c main_v13 : Mat 8192 256) (ix2 r j)
  rw [← stab_11_v14 m ρ c, ← stab_10_v13 m ρ c, W11_v14 m ρ c]
  exact Glue.concat_cols_hi256 _ _ _ r j (hi256 j) rfl
theorem f_v16lo (j : Fin 256) : Av16 m ρ c (ix2 (0 : Fin 1) (lo256 j)) = Aarg8 m ρ c (ix1 j) := by
  show (W19 (F := Ideal) m ρ c main_v16 : Mat 1 512) (ix2 (0 : Fin 1) (lo256 j)) = (W19 (F := Ideal) m ρ c main_arg8 : Vc 256) (ix1 j)
  rw [← stab_11_v16 m ρ c, ← stab_10_arg8 m ρ c, W11_v16 m ρ c]
  exact Glue.bias_cat_row256 _ _ _ j (lo256 j) (Or.inl rfl)
theorem f_v16hi (j : Fin 256) : Av16 m ρ c (ix2 (0 : Fin 1) (hi256 j)) = Aarg8 m ρ c (ix1 j) := by
  show (W19 (F := Ideal) m ρ c main_v16 : Mat 1 512) (ix2 (0 : Fin 1) (hi256 j)) = (W19 (F := Ideal) m ρ c main_arg8 : Vc 256) (ix1 j)
  rw [← stab_11_v16 m ρ c, ← stab_10_arg8 m ρ c, W11_v16 m ρ c]
  exact Glue.bias_cat_row256 _ _ _ j (hi256 j) (Or.inr rfl)
theorem f_v18 (r : Fin 8192) (j : Fin 256) : Av18 m ρ c (ix2 r j) = Av17 m ρ c (ix2 r (lo256 j)) := by
  show (W19 (F := Ideal) m ρ c main_v18 : Mat 8192 256) (ix2 r j) = (W19 (F := Ideal) m ρ c main_v17 : Mat 8192 512) (ix2 r (lo256 j))
  rw [← stab_13_v18 m ρ c, ← stab_12_v17 m ρ c, W13_v18 m ρ c]
  exact Glue.slice_lo256 _ _ r j (lo256 j) rfl
theorem f_v19 (r : Fin 8192) (j : Fin 256) : Av19 m ρ c (ix2 r j) = Av17 m ρ c (ix2 r (hi256 j)) := by
  show (W19 (F := Ideal) m ρ c main_v19 : Mat 8192 256) (ix2 r j) = (W19 (F := Ideal) m ρ c main_v17 : Mat 8192 512) (ix2 r (hi256 j))
  rw [← stab_13_v19 m ρ c, ← stab_12_v17 m ρ c, W13_v19 m ρ c]
  exact Glue.slice_hi256 _ _ r j (hi256 j) rfl
theorem f_v21 (j : Fin 256) : Av21 m ρ c (ix2 (0 : Fin 1) j) = Aarg8 m ρ c (ix1 j) := by
  show (W19 (F := Ideal) m ρ c main_v21 : Mat 1 256) (ix2 (0 : Fin 1) j) = (W19 (F := Ideal) m ρ c main_arg8 : Vc 256) (ix1 j)
  rw [← stab_15_v21 m ρ c, ← stab_14_arg8 m ρ c, W15_v21 m ρ c]
  exact Glue.bias_row256 _ _ j
theorem f_v24 (j : Fin 256) : Av24 m ρ c (ix2 (0 : Fin 1) j) = Aarg8 m ρ c (ix1 j) := by
  show (W19 (F := Ideal) m ρ c main_v24 : Mat 1 256) (ix2 (0 : Fin 1) j) = (W19 (F := Ideal) m ρ c main_arg8 : Vc 256) (ix1 j)
  rw [← stab_18_v24 m ρ c, ← stab_17_arg8 m ρ c, W18_v24 m ρ c]
  exact Glue.bias_row256 _ _ j

/-! ## The four results -/

theorem res_v18 (r : Fin 8192) (j : Fin 256) : Av18 m ρ c (ix2 r j) = branch (Aarg0 m ρ c) (Aarg2 m ρ c) (Aarg5 m ρ c) (Aarg6 m ρ c) (Aarg7 m ρ c) (Aarg8 m ρ c) r j :=
  branch_of_halves _ _ _ _ _ _ lo512 lo256 (Av0 m ρ c) (Av2 m ρ c) (Av4 m ρ c) (Av5 m ρ c) (Av6 m ρ c) (Av12 m ρ c) (Av14 m ρ c) (Av16 m ρ c) (Av17 m ρ c) (Av18 m ρ c)
    (f_v0 m ρ c) (f_v2lo m ρ c) (f_v4lo m ρ c) (f_v5 m ρ c) (f_v6 m ρ c) (f_v12 m ρ c) (f_v14lo m ρ c) (f_v16lo m ρ c) (f_v17 m ρ c) (f_v18 m ρ c) r j
theorem res_v19 (r : Fin 8192) (j : Fin 256) : Av19 m ρ c (ix2 r j) = branch (Aarg1 m ρ c) (Aarg2 m ρ c) (Aarg5 m ρ c) (Aarg6 m ρ c) (Aarg7 m ρ c) (Aarg8 m ρ c) r j :=
  branch_of_halves _ _ _ _ _ _ hi512 hi256 (Av1 m ρ c) (Av2 m ρ c) (Av4 m ρ c) (Av5 m ρ c) (Av7 m ρ c) (Av13 m ρ c) (Av14 m ρ c) (Av16 m ρ c) (Av17 m ρ c) (Av19 m ρ c)
    (f_v1 m ρ c) (f_v2hi m ρ c) (f_v4hi m ρ c) (f_v5 m ρ c) (f_v7 m ρ c) (f_v13 m ρ c) (f_v14hi m ρ c) (f_v16hi m ρ c) (f_v17 m ρ c) (f_v19 m ρ c) r j
theorem res_v22 (r : Fin 8192) (j : Fin 256) : Av22 m ρ c (ix2 r j) = branch (Aarg0 m ρ c) (Aarg3 m ρ c) (Aarg5 m ρ c) (Aarg6 m ρ c) (Aarg7 m ρ c) (Aarg8 m ρ c) r j :=
  branch_of_rows _ _ _ _ _ _ (Av0 m ρ c) (Av9 m ρ c) (Av8 m ρ c) (Av20 m ρ c) (Av22 m ρ c) (Av21 m ρ c)
    (f_v0 m ρ c) (f_v8 m ρ c) (f_v9 m ρ c) (f_v20 m ρ c) (f_v21 m ρ c) (f_v22 m ρ c) r j
theorem res_v25 (r : Fin 8192) (j : Fin 256) : Av25 m ρ c (ix2 r j) = branch (Aarg0 m ρ c) (Aarg4 m ρ c) (Aarg5 m ρ c) (Aarg6 m ρ c) (Aarg7 m ρ c) (Aarg8 m ρ c) r j :=
  branch_of_rows _ _ _ _ _ _ (Av0 m ρ c) (Av11 m ρ c) (Av10 m ρ c) (Av23 m ρ c) (Av25 m ρ c) (Av24 m ρ c)
    (f_v0 m ρ c) (f_v10 m ρ c) (f_v11 m ρ c) (f_v23 m ρ c) (f_v24 m ρ c) (f_v25 m ρ c) r j

/-- A result as one matrix: the branch of the specification over the launch memory's arguments. -/
theorem out_v18 : W19 (F := Ideal) m ρ c main_v18 = branchM (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  rw [← W19_main_arg0 m ρ c, ← W19_main_arg2 m ρ c, ← W19_main_arg5 m ρ c, ← W19_main_arg6 m ρ c, ← W19_main_arg7 m ρ c, ← W19_main_arg8 m ρ c]
  funext i; obtain ⟨r, j, rfl⟩ : ∃ (r : Fin 8192) (j : Fin 256), i = ix2 r j := ⟨i 0, i 1, eq_ix2 i⟩
  exact res_v18 m ρ c r j
theorem out_v19 : W19 (F := Ideal) m ρ c main_v19 = branchM (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  rw [← W19_main_arg1 m ρ c, ← W19_main_arg2 m ρ c, ← W19_main_arg5 m ρ c, ← W19_main_arg6 m ρ c, ← W19_main_arg7 m ρ c, ← W19_main_arg8 m ρ c]
  funext i; obtain ⟨r, j, rfl⟩ : ∃ (r : Fin 8192) (j : Fin 256), i = ix2 r j := ⟨i 0, i 1, eq_ix2 i⟩
  exact res_v19 m ρ c r j
theorem out_v22 : W19 (F := Ideal) m ρ c main_v22 = branchM (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  rw [← W19_main_arg0 m ρ c, ← W19_main_arg3 m ρ c, ← W19_main_arg5 m ρ c, ← W19_main_arg6 m ρ c, ← W19_main_arg7 m ρ c, ← W19_main_arg8 m ρ c]
  funext i; obtain ⟨r, j, rfl⟩ : ∃ (r : Fin 8192) (j : Fin 256), i = ix2 r j := ⟨i 0, i 1, eq_ix2 i⟩
  exact res_v22 m ρ c r j
theorem out_v25 : W19 (F := Ideal) m ρ c main_v25 = branchM (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) := by
  rw [← W19_main_arg0 m ρ c, ← W19_main_arg4 m ρ c, ← W19_main_arg5 m ρ c, ← W19_main_arg6 m ρ c, ← W19_main_arg7 m ρ c, ← W19_main_arg8 m ρ c]
  funext i; obtain ⟨r, j, rfl⟩ : ∃ (r : Fin 8192) (j : Fin 256), i = ix2 r j := ⟨i 0, i 1, eq_ix2 i⟩
  exact res_v25 m ρ c r j

end Cert.KernelIdeal.Gen

end
-- ==== Proof.RefValue.lean ====
/-
  The reference program's result for one branch, as a closed term of the argument arrays, is the two-layer graph
  convolution of Spec.lean, entry by entry.

  Each matrix product of the reference is the sum over the shared coordinate; the bias is a row broadcast to every row;
  the rectifier is the maximum with the constant zero array.  Reading the reference's term at an index (r, j), operation
  by operation from the innermost product outwards, gives exactly the nested sums that define `Cert.Spec.branchM`.
-/
import proofs.«166906_j60567628808244_2_alg».proof.Proof.Gen.ReferenceIdeal.Read
import proofs.«166906_j60567628808244_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-2 indices with the same two coordinates are the same index. -/
theorem idx2_ext {n0 n1 : Nat} (p q : (⟨2, ![n0, n1]⟩ : Shape).Idx) (h0 : p 0 = q 0) (h1 : p 1 = q 1) : p = q := by
  funext a; match a with | ⟨0, _⟩ => exact h0 | ⟨1, _⟩ => exact h1

/-- Two rank-1 indices with the same coordinate are the same index. -/
theorem idx1_ext {n : Nat} (p q : (⟨1, ![n]⟩ : Shape).Idx) (h0 : p 0 = q 0) : p = q := by
  funext a; match a with | ⟨0, _⟩ => exact h0

/-- x · W0, the first layer's support. -/
theorem v0_eq (X : FVec Ideal S8192x512 .f32) (W0 : FVec Ideal S512x512 .f32) :
    val_main_v0 (F := Ideal) X W0 = Cert.Spec.mmM X W0 := by
  funext i
  rw [val_main_v0_apply]
  show _ = ∑ c : Fin 512, X (ix2 (i 0) c) * W0 (ix2 c (i 1))
  refine Finset.sum_congr rfl fun k _ => ?_
  rw [idx2_ext (lidx_main_v0 i k) (ix2 (i 0) k) rfl rfl, idx2_ext (ridx_main_v0 i k) (ix2 k (i 1)) rfl rfl]

/-- adj · (x · W0). -/
theorem v1_eq (X : FVec Ideal S8192x512 .f32) (ADJ : FVec Ideal S8192x8192 .f32) (W0 : FVec Ideal S512x512 .f32) :
    val_main_v1 (F := Ideal) X ADJ W0 = Cert.Spec.mmM ADJ (Cert.Spec.mmM X W0) := by
  funext i
  rw [val_main_v1_apply, v0_eq]
  show _ = ∑ c : Fin 8192, ADJ (ix2 (i 0) c) * Cert.Spec.mmM X W0 (ix2 c (i 1))
  refine Finset.sum_congr rfl fun k _ => ?_
  rw [idx2_ext (lidx_main_v1 i k) (ix2 (i 0) k) rfl rfl, idx2_ext (ridx_main_v1 i k) (ix2 k (i 1)) rfl rfl]

/-- The bias row of the first layer, broadcast to every row. -/
theorem v3_apply (B0 : FVec Ideal S512 .f32) (i : S8192x512.Idx) :
    val_main_v3 (F := Ideal) B0 i = B0 (ix1 (i 1)) := by
  rw [val_main_v3_apply, val_main_v2_apply]
  exact congrArg B0 (idx1_ext _ _ rfl)

/-- The zero array. -/
theorem zero_apply (i : S8192x512.Idx) : val_main_call0_v0 (F := Ideal) i = 0 := by
  rw [val_main_call0_v0_apply, val_main_call0_cst_apply]
  exact Ideal.ofBits_zero_f32

/-- The rectified first layer. -/
theorem v5_eq (X : FVec Ideal S8192x512 .f32) (ADJ : FVec Ideal S8192x8192 .f32) (W0 : FVec Ideal S512x512 .f32)
    (B0 : FVec Ideal S512 .f32) :
    val_main_v5 (F := Ideal) X ADJ W0 B0 = Cert.Spec.hidden X ADJ W0 B0 := by
  funext i
  rw [val_main_v5_apply, val_main_v4_apply, v1_eq, v3_apply, zero_apply]
  rfl

/-- hidden · W1, the second layer's support. -/
theorem v6_eq (X : FVec Ideal S8192x512 .f32) (ADJ : FVec Ideal S8192x8192 .f32) (W0 : FVec Ideal S512x512 .f32)
    (B0 : FVec Ideal S512 .f32) (W1 : FVec Ideal S512x256 .f32) :
    val_main_v6 (F := Ideal) X ADJ W0 B0 W1 = Cert.Spec.mmM (Cert.Spec.hidden X ADJ W0 B0) W1 := by
  funext i
  rw [val_main_v6_apply, v5_eq]
  show _ = ∑ c : Fin 512, Cert.Spec.hidden X ADJ W0 B0 (ix2 (i 0) c) * W1 (ix2 c (i 1))
  refine Finset.sum_congr rfl fun k _ => ?_
  rw [idx2_ext (lidx_main_v6 i k) (ix2 (i 0) k) rfl rfl, idx2_ext (ridx_main_v6 i k) (ix2 k (i 1)) rfl rfl]

/-- adj · (hidden · W1). -/
theorem v7_eq (X : FVec Ideal S8192x512 .f32) (ADJ : FVec Ideal S8192x8192 .f32) (W0 : FVec Ideal S512x512 .f32)
    (B0 : FVec Ideal S512 .f32) (W1 : FVec Ideal S512x256 .f32) :
    val_main_v7 (F := Ideal) X ADJ W0 B0 W1
      = Cert.Spec.mmM ADJ (Cert.Spec.mmM (Cert.Spec.hidden X ADJ W0 B0) W1) := by
  funext i
  rw [val_main_v7_apply, v6_eq]
  show _ = ∑ c : Fin 8192, ADJ (ix2 (i 0) c) * Cert.Spec.mmM (Cert.Spec.hidden X ADJ W0 B0) W1 (ix2 c (i 1))
  refine Finset.sum_congr rfl fun k _ => ?_
  rw [idx2_ext (lidx_main_v7 i k) (ix2 (i 0) k) rfl rfl, idx2_ext (ridx_main_v7 i k) (ix2 k (i 1)) rfl rfl]

/-- The bias row of the second layer, broadcast to every row. -/
theorem v9_apply (B1 : FVec Ideal S256 .f32) (i : S8192x256.Idx) :
    val_main_v9 (F := Ideal) B1 i = B1 (ix1 (i 1)) := by
  rw [val_main_v9_apply, val_main_v8_apply]
  exact congrArg B1 (idx1_ext _ _ rfl)

/-- One branch of the reference is one branch of the specification. -/
theorem v10_eq (X : FVec Ideal S8192x512 .f32) (ADJ : FVec Ideal S8192x8192 .f32) (W0 : FVec Ideal S512x512 .f32)
    (B0 : FVec Ideal S512 .f32) (W1 : FVec Ideal S512x256 .f32) (B1 : FVec Ideal S256 .f32) :
    val_main_v10 (F := Ideal) X ADJ W0 B0 W1 B1 = Cert.Spec.branchM X ADJ W0 B0 W1 B1 := by
  funext i
  rw [val_main_v10_apply, v7_eq, v9_apply]
  rfl

/-- The reference's closed term for one branch (the same shape for all four results) is the specification's branch. -/
theorem ref_branch (X : FVec Ideal S8192x512 .f32) (ADJ : FVec Ideal S8192x8192 .f32) (W0 : FVec Ideal S512x512 .f32)
    (B0 : FVec Ideal S512 .f32) (W1 : FVec Ideal S512x256 .f32) (B1 : FVec Ideal S256 .f32) :
    addf (Host.dotGeneral (F := Ideal) dot_S8192x8192_S8192x256_S8192x256_1_0_0_1_n_n none ADJ (Host.dotGeneral (F := Ideal) dot_S8192x512_S512x256_S8192x256_1_0_0_1_n_n none (maximumf (addf (Host.dotGeneral (F := Ideal) dot_S8192x8192_S8192x512_S8192x512_1_0_0_1_n_n none ADJ (Host.dotGeneral (F := Ideal) dot_S8192x512_S512x512_S8192x512_1_0_0_1_n_n none X W0)) (broadcastInDim S8192x512 ![0, 1] bcast_S1x512_S8192x512_0_1 (broadcastInDim S1x512 ![1] bcast_S512_S1x512_1 B0))) (broadcastInDim S8192x512 ![] bcast_S_S8192x512 (constant (F := Ideal) S_ .f32 0x00000000#32))) W1)) (broadcastInDim S8192x256 ![0, 1] bcast_S1x256_S8192x256_0_1 (broadcastInDim S1x256 ![1] bcast_S256_S1x256_1 B1))
      = Cert.Spec.branchM X ADJ W0 B0 W1 B1 :=
  (val_main_v10_eq (F := Ideal) X ADJ W0 B0 W1 B1).trans (v10_eq X ADJ W0 B0 W1 B1)

end Cert.ReferenceIdeal.RefValue

end
-- ==== Proof.lean ====
/-
  The certificate of a two-layer graph-convolution network computed four times (four branches sharing their weights).

  The kernel program runs twelve kernel regions: six dense products x · W (rows in blocks of 1024, the result kept in
  bf16) and six graph-convolution products adj · support + bias, whose contraction over 8192 columns is taken block by
  block into an accumulator that is zeroed at the first block, added to at every block and, after the last, given the
  bias (and, in the first layer, the rectifier) and written out.  Two branches share their adjacency matrix and are
  computed side by side over a pair of supports laid column-wise; the other two are computed on their own.  The
  reference computes each branch by whole matrix products.

  On the extended reals a change of float format is the identity and a sum taken block by block from zero is the
  whole sum, so both programs compute, entry by entry, `Cert.Spec.branch`: only the commutativity and associativity of
  finite sums are used, and the precondition (finite inputs) is never opened.

  The three frames: each kernel region's frame is proved by running its body symbolically at every grid point (the
  accumulating regions carry their accumulator's contents in the region's invariant), and the regions and the host
  stretches between them are composed in order; the reference is straight-line host code.  The ideal pass rewrote
  nothing, so the kernel's idealization is its own text read on the extended reals.
-/
import proofs.«166906_j60567628808244_2_alg».proof.Defs
import proofs.«166906_j60567628808244_2_alg».proof.Proof.Gen.Kernel
import proofs.«166906_j60567628808244_2_alg».proof.Proof.Gen.KernelIdeal
import proofs.«166906_j60567628808244_2_alg».proof.Proof.Gen.ReferenceIdeal
import proofs.«166906_j60567628808244_2_alg».proof.Proof.Gen.ReferenceIdeal.Read
import proofs.«166906_j60567628808244_2_alg».proof.Proof.Gen.Pre_finite_inputs
import proofs.«166906_j60567628808244_2_alg».proof.Proof.KRun
import proofs.«166906_j60567628808244_2_alg».proof.Proof.KernelValue
import proofs.«166906_j60567628808244_2_alg».proof.Proof.RefValue
import Idealize.ShloMosaic.Adequacy
import Idealize.ShloMosaic.Init

noncomputable section

namespace Cert.Proof

open Idealize.ShloMosaic Idealize.ShloMosaic.TcCoe Idealize.SL.Sem

variable [hKernel : Cert.Kernel.Facts] [hKernelIdeal : Cert.KernelIdeal.Facts] [hReferenceIdeal : Cert.ReferenceIdeal.Facts]
  [hPre : Cert.Pre_finite_inputs.Facts]

/-- The kernel program, read at the bit level, runs to the end and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is straight-line host code: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- On the extended reals both programs end with each result at the specification's branch of the arguments. -/
theorem algebraic : Cert.algebraic_KernelIdeal_ReferenceIdeal := by
  intro m ρ m' ρ' _ hagree
  refine ⟨fun c => Cert.Spec.branchM (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.branchM (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.branchM (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.branchM (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Gen.mem_uc Cert.KernelIdeal.main_v18 (by decide))).trans (Cert.KernelIdeal.Gen.out_v18 m ρ c),
       (h c _ (Cert.KernelIdeal.Gen.mem_uc Cert.KernelIdeal.main_v19 (by decide))).trans (Cert.KernelIdeal.Gen.out_v19 m ρ c),
       (h c _ (Cert.KernelIdeal.Gen.mem_uc Cert.KernelIdeal.main_v22 (by decide))).trans (Cert.KernelIdeal.Gen.out_v22 m ρ c),
       (h c _ (Cert.KernelIdeal.Gen.mem_uc Cert.KernelIdeal.main_v25 (by decide))).trans (Cert.KernelIdeal.Gen.out_v25 m ρ c),
       (h c _ (Cert.KernelIdeal.Gen.mem_uc Cert.KernelIdeal.main_arg0 (by decide))).trans (Cert.KernelIdeal.Gen.W19_main_arg0 m ρ c),
       (h c _ (Cert.KernelIdeal.Gen.mem_uc Cert.KernelIdeal.main_arg1 (by decide))).trans (Cert.KernelIdeal.Gen.W19_main_arg1 m ρ c),
       (h c _ (Cert.KernelIdeal.Gen.mem_uc Cert.KernelIdeal.main_arg2 (by decide))).trans (Cert.KernelIdeal.Gen.W19_main_arg2 m ρ c),
       (h c _ (Cert.KernelIdeal.Gen.mem_uc Cert.KernelIdeal.main_arg3 (by decide))).trans (Cert.KernelIdeal.Gen.W19_main_arg3 m ρ c),
       (h c _ (Cert.KernelIdeal.Gen.mem_uc Cert.KernelIdeal.main_arg4 (by decide))).trans (Cert.KernelIdeal.Gen.W19_main_arg4 m ρ c),
       (h c _ (Cert.KernelIdeal.Gen.mem_uc Cert.KernelIdeal.main_arg5 (by decide))).trans (Cert.KernelIdeal.Gen.W19_main_arg5 m ρ c),
       (h c _ (Cert.KernelIdeal.Gen.mem_uc Cert.KernelIdeal.main_arg6 (by decide))).trans (Cert.KernelIdeal.Gen.W19_main_arg6 m ρ c),
       (h c _ (Cert.KernelIdeal.Gen.mem_uc Cert.KernelIdeal.main_arg7 (by decide))).trans (Cert.KernelIdeal.Gen.W19_main_arg7 m ρ c),
       (h c _ (Cert.KernelIdeal.Gen.mem_uc Cert.KernelIdeal.main_arg8 (by decide))).trans (Cert.KernelIdeal.Gen.W19_main_arg8 m ρ c)⟩)
      (Cert.KernelIdeal.Gen.run_all (F := Ideal) m ρ)
  · refine (θ_run Cert.ReferenceIdeal.defs _ _).mono (fun _ h c => ⟨(h c).1.trans ?_, (h c).2.1.trans ?_, (h c).2.2.1.trans ?_,
      (h c).2.2.2.1.trans ?_, (h c).2.2.2.2⟩) (Cert.ReferenceIdeal.Value.run (F := Ideal) m' ρ')
    all_goals
      obtain ⟨h0, h1, h2, h3, h4, h5, h6, h7, h8⟩ := hagree c
      simp only [h0, h1, h2, h3, h4, h5, h6, h7, h8]
      exact Cert.ReferenceIdeal.RefValue.ref_branch _ _ _ _ _ _

end Cert.Proof

namespace Cert.Proof

/-- Everything the certificate claims. The ideal pass rewrote no operation, so `preserves` asks nothing. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
